-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64 .f32) (main_arg8 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S64 .f32) (main_arg5 : FVec F S64x64 .f32) (main_arg6 : FVec F S64 .f32) (main_arg7 : FVec F S64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S100000x128 .f32) (main_arg1 : FVec F S128x64 .f32) (main_arg2 : FVec F S64 .f32) (main_arg3 : FVec F S64 .f32) (main_arg4 : FVec F S64 .f32) (main_arg5 : FVec F S64x64 .f32) (main_arg6 : FVec F S64 .f32) (main_arg7 : FVec F S64 .f32) (main_arg8 : FVec F S64 .f32) (main_arg9 : IVec S1600000 32) (main_arg10 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_v13 main_v16
-- ==== Kernel.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1x128 : Shape := ⟨2, ![1, 128]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1600000x64 : Shape := ⟨2, ![1600000, 64]⟩
abbrev S1x64 : Shape := ⟨2, ![1, 64]⟩

abbrev nBuf : Space → Nat
  | .hbm => 106
  | .vmem => 48
  | .smem => 0
  | _ => 0

abbrev bufTy : (tb : Table) → Fin (tcTables nBuf tb) → BufTy
  | .hbm, ⟨0, _⟩ => ⟨S100000x128, .f32⟩
  | .hbm, ⟨1, _⟩ => ⟨S128x64, .f32⟩
  | .hbm, ⟨2, _⟩ => ⟨S64, .f32⟩
  | .hbm, ⟨3, _⟩ => ⟨S64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S1600000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S100000x1, .f32⟩
  | .hbm, ⟨31, _⟩ => ⟨S_, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S100000x64, .f32⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x64, .f32⟩
  | .hbm, ⟨45, _⟩ => ⟨S_, .f32⟩
  | .hbm, ⟨46, _⟩ => ⟨S100000x64, .f32⟩
  | .hbm, ⟨47, _⟩ => ⟨S1600000x1, .i32⟩
  | .hbm, ⟨48, _⟩ => ⟨S100000x64, .f32⟩
  | .hbm, ⟨49, _⟩ => ⟨S1x64, .f32⟩
  | .hbm, ⟨50, _⟩ => ⟨S100000x64, .f32⟩
  | .hbm, ⟨51, _⟩ => ⟨S1x64, .f32⟩
  | .hbm, ⟨52, _⟩ => ⟨S1x64, .f32⟩
  | .hbm, ⟨53, _⟩ => ⟨S_, .f32⟩
  | .hbm, ⟨54, _⟩ => ⟨S1x64, .f32⟩
  | .hbm, ⟨55, _⟩ => ⟨S1x64, .f32⟩
  | .hbm, ⟨56, _⟩ => ⟨S_, .f32⟩
  | .hbm, ⟨57, _⟩ => ⟨S1x64, .f32⟩
  | .hbm, ⟨58, _⟩ => ⟨S1x64, .f32⟩
  | .hbm, ⟨59, _⟩ => ⟨S1x64, .f32⟩
  | .hbm, ⟨60, _⟩ => ⟨S1x64, .f32⟩
  | .hbm, ⟨61, _⟩ => ⟨S_, .f32⟩
  | .hbm, ⟨62, _⟩ => ⟨S1x64, .f32⟩
  | .hbm, ⟨63, _⟩ => ⟨S1x64, .f32⟩
  | .hbm, ⟨64, _⟩ => ⟨S_, .f32⟩
  | .hbm, ⟨65, _⟩ => ⟨S1x64, .f32⟩
  | .hbm, ⟨66, _⟩ => ⟨S1x64, .f32⟩
  | .hbm, ⟨67, _⟩ => ⟨S1x64, .f32⟩
  | .hbm, ⟨68, _⟩ => ⟨S1x64, .f32⟩
  | .hbm, ⟨69, _⟩ => ⟨S1x64, .f32⟩
  | .hbm, ⟨70, _⟩ => ⟨S100000x64, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S1x64, .f32⟩
  | .hbm, ⟨87, _⟩ => ⟨S1x64, .f32⟩
  | .hbm, ⟨88, _⟩ => ⟨S_, .f32⟩
  | .hbm, ⟨89, _⟩ => ⟨S1x64, .f32⟩
  | .hbm, ⟨90, _⟩ => ⟨S1x64, .f32⟩
  | .hbm, ⟨91, _⟩ => ⟨S_, .f32⟩
  | .hbm, ⟨92, _⟩ => ⟨S1x64, .f32⟩
  | .hbm, ⟨93, _⟩ => ⟨S1x64, .f32⟩
  | .hbm, ⟨94, _⟩ => ⟨S1x64, .f32⟩
  | .hbm, ⟨95, _⟩ => ⟨S1x64, .f32⟩
  | .hbm, ⟨96, _⟩ => ⟨S_, .f32⟩
  | .hbm, ⟨97, _⟩ => ⟨S1x64, .f32⟩
  | .hbm, ⟨98, _⟩ => ⟨S1x64, .f32⟩
  | .hbm, ⟨99, _⟩ => ⟨S_, .f32⟩
  | .hbm, ⟨100, _⟩ => ⟨S1x64, .f32⟩
  | .hbm, ⟨101, _⟩ => ⟨S1x64, .f32⟩
  | .hbm, ⟨102, _⟩ => ⟨S1x64, .f32⟩
  | .hbm, ⟨103, _⟩ => ⟨S1x64, .f32⟩
  | .hbm, ⟨104, _⟩ => ⟨S1x64, .f32⟩
  | .hbm, ⟨105, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S128x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x1, .f32⟩
  | .local _ .vmem, ⟨14, _⟩ => ⟨S5000x1, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S1x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | .local _ .vmem, ⟨22, _⟩ => ⟨S5000x1, .f32⟩
  | .local _ .vmem, ⟨23, _⟩ => ⟨S5000x1, .f32⟩
  | .local _ .vmem, ⟨24, _⟩ => ⟨S1x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S64x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x1, .f32⟩
  | .local _ .vmem, ⟨34, _⟩ => ⟨S5000x1, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S1x64, .f32⟩
  | .local _ .vmem, ⟨43, _⟩ => ⟨S1x64, .f32⟩
  | .local _ .vmem, ⟨44, _⟩ => ⟨S1x64, .f32⟩
  | .local _ .vmem, ⟨45, _⟩ => ⟨S1x64, .f32⟩
  | .local _ .vmem, ⟨46, _⟩ => ⟨S5000x64, .f32⟩
  | .local _ .vmem, ⟨47, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_7 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29_0 : Ref sig .tc := ⟨.hbm, 50, rfl⟩
abbrev main_v29_1 : Ref sig .tc := ⟨.hbm, 51, rfl⟩
abbrev main_v29_2 : Ref sig .tc := ⟨.hbm, 52, rfl⟩
abbrev main_cst_8 : Ref sig .tc := ⟨.hbm, 53, rfl⟩
abbrev main_v30 : Ref sig .tc := ⟨.hbm, 54, rfl⟩
abbrev main_v31 : Ref sig .tc := ⟨.hbm, 55, rfl⟩
abbrev main_cst_9 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_cst_10 : Ref sig .tc := ⟨.hbm, 61, rfl⟩
abbrev main_v36 : Ref sig .tc := ⟨.hbm, 62, rfl⟩
abbrev main_v37 : Ref sig .tc := ⟨.hbm, 63, rfl⟩
abbrev main_cst_11 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_c_12 : Ref sig .tc := ⟨.hbm, 71, rfl⟩
abbrev main_v44 : Ref sig .tc := ⟨.hbm, 72, rfl⟩
abbrev main_v45 : Ref sig .tc := ⟨.hbm, 73, rfl⟩
abbrev main_c_13 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_14 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55_0 : Ref sig .tc := ⟨.hbm, 85, rfl⟩
abbrev main_v55_1 : Ref sig .tc := ⟨.hbm, 86, rfl⟩
abbrev main_v55_2 : Ref sig .tc := ⟨.hbm, 87, rfl⟩
abbrev main_cst_15 : Ref sig .tc := ⟨.hbm, 88, rfl⟩
abbrev main_v56 : Ref sig .tc := ⟨.hbm, 89, rfl⟩
abbrev main_v57 : Ref sig .tc := ⟨.hbm, 90, rfl⟩
abbrev main_cst_16 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_17 : Ref sig .tc := ⟨.hbm, 96, rfl⟩
abbrev main_v62 : Ref sig .tc := ⟨.hbm, 97, rfl⟩
abbrev main_v63 : Ref sig .tc := ⟨.hbm, 98, rfl⟩
abbrev main_cst_18 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg7_0 : Ref sig .tc := ⟨.vmem, 29, rfl⟩
abbrev cc2_stg7_1 : Ref sig .tc := ⟨.vmem, 30, rfl⟩
abbrev cc3_stg0_0 : Ref sig .tc := ⟨.vmem, 31, rfl⟩
abbrev cc3_stg0_1 : Ref sig .tc := ⟨.vmem, 32, rfl⟩
abbrev cc3_stg1_0 : Ref sig .tc := ⟨.vmem, 33, rfl⟩
abbrev cc3_stg1_1 : Ref sig .tc := ⟨.vmem, 34, rfl⟩
abbrev cc3_stg2_0 : Ref sig .tc := ⟨.vmem, 35, rfl⟩
abbrev cc3_stg3_0 : Ref sig .tc := ⟨.vmem, 36, rfl⟩
abbrev cc3_stg3_1 : Ref sig .tc := ⟨.vmem, 37, rfl⟩
abbrev cc3_stg4_0 : Ref sig .tc := ⟨.vmem, 38, rfl⟩
abbrev cc3_stg5_0 : Ref sig .tc := ⟨.vmem, 39, rfl⟩
abbrev cc4_stg0_0 : Ref sig .tc := ⟨.vmem, 40, rfl⟩
abbrev cc4_stg0_1 : Ref sig .tc := ⟨.vmem, 41, rfl⟩
abbrev cc4_stg1_0 : Ref sig .tc := ⟨.vmem, 42, rfl⟩
abbrev cc4_stg2_0 : Ref sig .tc := ⟨.vmem, 43, rfl⟩
abbrev cc4_stg3_0 : Ref sig .tc := ⟨.vmem, 44, rfl⟩
abbrev cc4_stg4_0 : Ref sig .tc := ⟨.vmem, 45, rfl⟩
abbrev cc4_stg5_0 : Ref sig .tc := ⟨.vmem, 46, rfl⟩
abbrev cc4_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem7_1 : DmaSem sig := 30
abbrev cc3_sem0_0 : DmaSem sig := 31
abbrev cc3_sem0_1 : DmaSem sig := 32
abbrev cc3_sem1_0 : DmaSem sig := 33
abbrev cc3_sem1_1 : DmaSem sig := 34
abbrev cc3_sem2_0 : DmaSem sig := 35
abbrev cc3_sem3_0 : DmaSem sig := 36
abbrev cc3_sem3_1 : DmaSem sig := 37
abbrev cc3_sem4_0 : DmaSem sig := 38
abbrev cc3_sem5_0 : DmaSem sig := 39
abbrev cc4_sem0_0 : DmaSem sig := 40
abbrev cc4_sem0_1 : DmaSem sig := 41
abbrev cc4_sem1_0 : DmaSem sig := 42
abbrev cc4_sem2_0 : DmaSem sig := 43
abbrev cc4_sem3_0 : DmaSem sig := 44
abbrev cc4_sem4_0 : DmaSem sig := 45
abbrev cc4_sem5_0 : DmaSem sig := 46
abbrev cc4_sem5_1 : DmaSem sig := 47

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x64 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S1x128 : S_.BroadcastsInDim S1x128 (![] : Fin 0 → Fin S1x128.rank)
  inb_S5000x128_S5000x128_0_0 : ∀ a, (![0, 0] : Fin 2 → Nat) a + S5000x128.size a ≤ S5000x128.size a
  h_S5000x128 : 0 < S5000x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S5000x64_S5000x64 : S5000x64.ShapeCasts S5000x64
  broadcasts_S5000x1_S5000x64 : S5000x1.Broadcasts S5000x64
  shapeCasts_S1x64_S1x64 : S1x64.ShapeCasts S1x64
  broadcasts_S1x64_S5000x64 : S1x64.Broadcasts S5000x64
  reduces_S5000x64_S64 : S5000x64.Reduces [0] S64
  bcast_S_S1x64 : S_.BroadcastsInDim S1x64 (![] : Fin 0 → Fin S1x64.rank)
  inb_S64x64_S64x64_0_0 : ∀ a, (![0, 0] : Fin 2 → Nat) a + S64x64.size a ≤ S64x64.size a
  h_S64x64 : 0 < S64x64.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .f32 = 32 ∨ (Rect.block (s := S128x64) S128x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S100000x64.size a
  hwx0_7 : ∀ i : grid0.Coords, EltTy.bits .f32 = 32 ∨ (Rect.block (s := S100000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S100000x1.size a
  hwx1_1 : ∀ i : grid1.Coords, EltTy.bits .f32 = 32 ∨ (Rect.block (s := S100000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x64.size a ≤ S64x64.size a
  hwx2_6 : ∀ i : grid2.Coords, EltTy.bits .f32 = 32 ∨ (Rect.block (s := S64x64) S64x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .f32 = 32 ∨ (Rect.block (s := S100000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S100000x1.size a
  hwx3_1 : ∀ i : grid3.Coords, EltTy.bits .f32 = 32 ∨ (Rect.block (s := S100000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S100000x64.size a
  hwx3_3 : ∀ i : grid3.Coords, EltTy.bits .f32 = 32 ∨ (Rect.block (s := S100000x64) S5000x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x64.size a ≤ S100000x64.size a
  hwx4_5 : ∀ i : grid4.Coords, EltTy.bits .f32 = 32 ∨ (Rect.block (s := S100000x64) S5000x64.size (cc4_transform_5 i) (hinb4_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v16) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v27) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29_1) S1x64.size cc1_transform_4 reads1_4 true true 1 stage1_4 sem1_4
    hrank1 hreads1_4 hinb1_4 nbuf1_4 (Memref.isWhole_whole _) hwx1_4 hstage1_4

abbrev win1_5 : Pipeline.Window sig grid1 :=
  Pipeline.Window.ofSpec (Memref.whole main_v29_2) S1x64.size cc1_transform_5 reads1_5 true true 1 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v29_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v13) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v42) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg5) S64x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v43) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v53) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55_0) S5000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v55_1) S1x64.size cc3_transform_4 reads3_4 true true 1 stage3_4 sem3_4
    hrank3 hreads3_4 hinb3_4 nbuf3_4 (Memref.isWhole_whole _) hwx3_4 hstage3_4

abbrev win3_5 : Pipeline.Window sig grid3 :=
  Pipeline.Window.ofSpec (Memref.whole main_v55_2) S1x64.size cc3_transform_5 reads3_5 true true 1 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v55_0) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v57) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S1x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v67) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v68) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v69) S5000x64.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

class Facts : Prop extends Facts₀ where

variable [Facts]
-- ==== ReferenceIdeal.lean ====
abbrev S100000x128 : Shape := ⟨2, ![100000, 128]⟩
abbrev S128x64 : Shape := ⟨2, ![128, 64]⟩
abbrev S64 : Shape := ⟨1, ![64]⟩
abbrev S64x64 : Shape := ⟨2, ![64, 64]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 165
  | .vmem => 0
  | .smem => 0
  | _ => 0

abbrev hbmTy0_0 (i : Nat) : BufTy := match i % 128 with
  | 0 => ⟨S100000x128, .f32⟩
  | 1 => ⟨S128x64, .f32⟩
  | 2 => ⟨S64, .f32⟩
  | 3 => ⟨S64, .f32⟩
  | 4 => ⟨S64, .f32⟩
  | 5 => ⟨S64x64, .f32⟩
  | 6 => ⟨S64, .f32⟩
  | 7 => ⟨S64, .f32⟩
  | 8 => ⟨S64, .f32⟩
  | 9 => ⟨S1600000, .i32⟩
  | 10 => ⟨S1600000, .i32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S1600000x1, .i32⟩
  | 20 => ⟨S100000, .f32⟩
  | 21 => ⟨S_, .f32⟩
  | 22 => ⟨S100000, .f32⟩
  | 23 => ⟨S100000, .f32⟩
  | 24 => ⟨S100000, .f32⟩
  | 25 => ⟨S_, .f32⟩
  | 26 => ⟨S100000, .f32⟩
  | 27 => ⟨S100000, .f32⟩
  | 28 => ⟨S100000, .f32⟩
  | 29 => ⟨S100000x1, .f32⟩
  | 30 => ⟨S100000x128, .f32⟩
  | 31 => ⟨S100000x128, .f32⟩
  | 32 => ⟨S100000x64, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x64, .f32⟩
  | 42 => ⟨S_, .f32⟩
  | 43 => ⟨S100000x64, .f32⟩
  | 44 => ⟨S1600000x1, .i32⟩
  | 45 => ⟨S100000x64, .f32⟩
  | 46 => ⟨S100000x1, .f32⟩
  | 47 => ⟨S100000x64, .f32⟩
  | 48 => ⟨S100000x64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .i1⟩
  | 55 => ⟨S_, .f32⟩
  | 56 => ⟨S100000x64, .f32⟩
  | 57 => ⟨S100000x64, .i1⟩
  | 58 => ⟨S_, .f32⟩
  | 59 => ⟨S_, .f32⟩
  | 60 => ⟨S100000x64, .f32⟩
  | 61 => ⟨S100000x64, .f32⟩
  | 62 => ⟨S100000x64, .f32⟩
  | 63 => ⟨S_, .f32⟩
  | 64 => ⟨S100000x64, .f32⟩
  | 65 => ⟨S100000x64, .f32⟩
  | 66 => ⟨S100000x64, .f32⟩
  | 67 => ⟨S_, .f32⟩
  | 68 => ⟨S64, .f32⟩
  | 69 => ⟨S_, .f32⟩
  | 70 => ⟨S64, .f32⟩
  | 71 => ⟨S64, .f32⟩
  | 72 => ⟨S1x64, .f32⟩
  | 73 => ⟨S100000x64, .f32⟩
  | 74 => ⟨S100000x64, .f32⟩
  | 75 => ⟨S100000x64, .f32⟩
  | 76 => ⟨S_, .f32⟩
  | 77 => ⟨S64, .f32⟩
  | 78 => ⟨S_, .f32⟩
  | 79 => ⟨S64, .f32⟩
  | 80 => ⟨S64, .f32⟩
  | 81 => ⟨S1x64, .f32⟩
  | 82 => ⟨S100000x64, .f32⟩
  | 83 => ⟨S100000x64, .f32⟩
  | 84 => ⟨S_, .f32⟩
  | 85 => ⟨S64, .f32⟩
  | 86 => ⟨S64, .f32⟩
  | 87 => ⟨S64, .f32⟩
  | 88 => ⟨S1x64, .f32⟩
  | 89 => ⟨S100000x64, .f32⟩
  | 90 => ⟨S100000x64, .f32⟩
  | 91 => ⟨S1x64, .f32⟩
  | 92 => ⟨S100000x64, .f32⟩
  | 93 => ⟨S100000x64, .f32⟩
  | 94 => ⟨S1x64, .f32⟩
  | 95 => ⟨S100000x64, .f32⟩
  | 96 => ⟨S100000x64, .f32⟩
  | 97 => ⟨S100000x1, .f32⟩
  | 98 => ⟨S100000x64, .f32⟩
  | 99 => ⟨S100000x64, .f32⟩
  | 100 => ⟨S100000x64, .f32⟩
  | 101 => ⟨S_, .i32⟩
  | 102 => ⟨S1600000, .i32⟩
  | 103 => ⟨S1600000, .i1⟩
  | 104 => ⟨S_, .i32⟩
  | 105 => ⟨S1600000, .i32⟩
  | 106 => ⟨S1600000, .i32⟩
  | 107 => ⟨S1600000, .i32⟩
  | 108 => ⟨S1600000x1, .i32⟩
  | 109 => ⟨S1600000x64, .f32⟩
  | 110 => ⟨S_, .f32⟩
  | 111 => ⟨S100000x64, .f32⟩
  | 112 => ⟨S1600000x1, .i32⟩
  | 113 => ⟨S100000x64, .f32⟩
  | 114 => ⟨S100000x1, .f32⟩
  | 115 => ⟨S100000x64, .f32⟩
  | 116 => ⟨S100000x64, .f32⟩
  | 117 => ⟨S1x64, .f32⟩
  | 118 => ⟨S100000x64, .f32⟩
  | 119 => ⟨S100000x64, .f32⟩
  | 120 => ⟨S_, .f32⟩
  | 121 => ⟨S100000x64, .f32⟩
  | 122 => ⟨S100000x64, .i1⟩
  | 123 => ⟨S_, .f32⟩
  | 124 => ⟨S100000x64, .f32⟩
  | 125 => ⟨S100000x64, .i1⟩
  | 126 => ⟨S_, .f32⟩
  | 127 => ⟨S_, .f32⟩
  | _ => ⟨S100000x128, .f32⟩

abbrev hbmTy0_1 (i : Nat) : BufTy := match i % 128 with
  | 0 => ⟨S100000x64, .f32⟩
  | 1 => ⟨S100000x64, .f32⟩
  | 2 => ⟨S100000x64, .f32⟩
  | 3 => ⟨S_, .f32⟩
  | 4 => ⟨S100000x64, .f32⟩
  | 5 => ⟨S100000x64, .f32⟩
  | 6 => ⟨S100000x64, .f32⟩
  | 7 => ⟨S_, .f32⟩
  | 8 => ⟨S64, .f32⟩
  | 9 => ⟨S_, .f32⟩
  | 10 => ⟨S64, .f32⟩
  | 11 => ⟨S64, .f32⟩
  | 12 => ⟨S1x64, .f32⟩
  | 13 => ⟨S100000x64, .f32⟩
  | 14 => ⟨S100000x64, .f32⟩
  | 15 => ⟨S100000x64, .f32⟩
  | 16 => ⟨S_, .f32⟩
  | 17 => ⟨S64, .f32⟩
  | 18 => ⟨S_, .f32⟩
  | 19 => ⟨S64, .f32⟩
  | 20 => ⟨S64, .f32⟩
  | 21 => ⟨S1x64, .f32⟩
  | 22 => ⟨S100000x64, .f32⟩
  | 23 => ⟨S100000x64, .f32⟩
  | 24 => ⟨S_, .f32⟩
  | 25 => ⟨S64, .f32⟩
  | 26 => ⟨S64, .f32⟩
  | 27 => ⟨S64, .f32⟩
  | 28 => ⟨S1x64, .f32⟩
  | 29 => ⟨S100000x64, .f32⟩
  | 30 => ⟨S100000x64, .f32⟩
  | 31 => ⟨S1x64, .f32⟩
  | 32 => ⟨S100000x64, .f32⟩
  | 33 => ⟨S100000x64, .f32⟩
  | 34 => ⟨S1x64, .f32⟩
  | 35 => ⟨S100000x64, .f32⟩
  | 36 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst_1 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_4 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_5 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_cst_1 : Ref sig .tc := ⟨.hbm, 58, rfl⟩
abbrev main_call0_call0_v0 : Ref sig .tc := ⟨.hbm, 59, rfl⟩
abbrev main_call0_call0_v1 : Ref sig .tc := ⟨.hbm, 60, rfl⟩
abbrev main_call0_v4 : Ref sig .tc := ⟨.hbm, 61, rfl⟩
abbrev main_call0_v5 : Ref sig .tc := ⟨.hbm, 62, rfl⟩
abbrev main_call0_cst_2 : Ref sig .tc := ⟨.hbm, 63, rfl⟩
abbrev main_call0_v6 : Ref sig .tc := ⟨.hbm, 64, rfl⟩
abbrev main_call0_v7 : Ref sig .tc := ⟨.hbm, 65, rfl⟩
abbrev main_v33 : Ref sig .tc := ⟨.hbm, 66, rfl⟩
abbrev main_cst_6 : Ref sig .tc := ⟨.hbm, 67, rfl⟩
abbrev main_v34 : Ref sig .tc := ⟨.hbm, 68, rfl⟩
abbrev main_cst_7 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_cst_8 : Ref sig .tc := ⟨.hbm, 76, rfl⟩
abbrev main_v41 : Ref sig .tc := ⟨.hbm, 77, rfl⟩
abbrev main_cst_9 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_cst_10 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_11 : Ref sig .tc := ⟨.hbm, 101, rfl⟩
abbrev main_v63 : Ref sig .tc := ⟨.hbm, 102, rfl⟩
abbrev main_v64 : Ref sig .tc := ⟨.hbm, 103, rfl⟩
abbrev main_c_12 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_13 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call1_cst : Ref sig .tc := ⟨.hbm, 120, rfl⟩
abbrev main_call1_v0 : Ref sig .tc := ⟨.hbm, 121, rfl⟩
abbrev main_call1_v1 : Ref sig .tc := ⟨.hbm, 122, rfl⟩
abbrev main_call1_cst_0 : Ref sig .tc := ⟨.hbm, 123, rfl⟩
abbrev main_call1_v2 : Ref sig .tc := ⟨.hbm, 124, rfl⟩
abbrev main_call1_v3 : Ref sig .tc := ⟨.hbm, 125, rfl⟩
abbrev main_call1_cst_1 : Ref sig .tc := ⟨.hbm, 126, rfl⟩
abbrev main_call1_call0_v0 : Ref sig .tc := ⟨.hbm, 127, rfl⟩
abbrev main_call1_call0_v1 : Ref sig .tc := ⟨.hbm, 128, rfl⟩
abbrev main_call1_v4 : Ref sig .tc := ⟨.hbm, 129, rfl⟩
abbrev main_call1_v5 : Ref sig .tc := ⟨.hbm, 130, rfl⟩
abbrev main_call1_cst_2 : Ref sig .tc := ⟨.hbm, 131, rfl⟩
abbrev main_call1_v6 : Ref sig .tc := ⟨.hbm, 132, rfl⟩
abbrev main_call1_v7 : Ref sig .tc := ⟨.hbm, 133, rfl⟩
abbrev main_v79 : Ref sig .tc := ⟨.hbm, 134, rfl⟩
abbrev main_cst_14 : Ref sig .tc := ⟨.hbm, 135, rfl⟩
abbrev main_v80 : Ref sig .tc := ⟨.hbm, 136, rfl⟩
abbrev main_cst_15 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_cst_16 : Ref sig .tc := ⟨.hbm, 144, rfl⟩
abbrev main_v87 : Ref sig .tc := ⟨.hbm, 145, rfl⟩
abbrev main_cst_17 : Ref sig .tc := ⟨.hbm, 146, rfl⟩
abbrev main_v88 : Ref sig .tc := ⟨.hbm, 147, rfl⟩
abbrev main_v89 : Ref sig .tc := ⟨.hbm, 148, rfl⟩
abbrev main_v90 : Ref sig .tc := ⟨.hbm, 149, rfl⟩
abbrev main_v91 : Ref sig .tc := ⟨.hbm, 150, rfl⟩
abbrev main_v92 : Ref sig .tc := ⟨.hbm, 151, rfl⟩
abbrev main_cst_18 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_v101 : Ref sig .tc := ⟨.hbm, 161, rfl⟩
abbrev main_v102 : Ref sig .tc := ⟨.hbm, 162, rfl⟩
abbrev main_v103 : Ref sig .tc := ⟨.hbm, 163, rfl⟩
abbrev main_v104 : Ref sig .tc := ⟨.hbm, 164, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.RegA0.lean ====
import proofs.«157882_j13769665151543_1_alg».proof.Proof.Gen.KernelIdeal.Launch
import proofs.«157882_j13769665151543_1_alg».proof.Proof.Gen.KernelIdeal.Skeleton
import proofs.«157882_j13769665151543_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the pipeline's proof data and the body obligation

Every window of this pipeline is handed to the body whole. The body reads every input window's staging
buffer, computes one pure value from them and writes it over the whole staging buffer of the output
window. The proof data says so: after the body an input's buffer still holds its block of the array as
the region found it, and the output's buffer holds that pure value of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it
    was not fetched the block index has not moved, and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it
    was not fetched the block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it
    was not fetched the block index has not moved, and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it
    was not fetched the block index has not moved, and the body left the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it
    was not fetched the block index has not moved, and the body left the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it
    was not fetched the block index has not moved, and the body left the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it
    was not fetched the block index has not moved, and the body left the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0
abbrev r0_2 : Rect S1x128 := Rect.unit (s := S1x128) ![0, 0] S1x128.size inb_S1x128_S1x128_0_0
abbrev r0_3 : Rect S128x64 := Rect.unit (s := S128x64) ![0, 0] S128x64.size inb_S128x64_S128x64_0_0
abbrev r0_4 : Rect S5000x64 := Rect.unit (s := S5000x64) ![0, 0] S5000x64.size inb_S5000x64_S5000x64_0_0

/-! ## What the body leaves in the output window's buffer -/

/-- Window 7's staging buffer after the body, from the input windows' blocks: its one store, of the
    pure value the body computes from what it loaded. -/
def out0_7 (x0 : Vec F S5000x128 .f32) (x1 : Vec F S5000x1 .f32) (x2 : Vec F S1x128 .f32) (x3 : Vec F S1x128 .f32) (x4 : Vec F S1x128 .f32) (x5 : Vec F S1x128 .f32) (x6 : Vec F S128x64 .f32) : Vec F S5000x64 .f32 :=
  View.canon [⟨r0_4, k0_pay1 (View.ld x0 r0_0) (View.ld x2 r0_2) (View.ld x3 r0_2) (View.ld x4 r0_2) (View.ld x5 r0_2) (View.ld x1 r0_1) (View.ld x6 r0_3)⟩]

/-- The store is of the whole buffer, so it covers it. -/
theorem cover0_7 (p0 : Vec F S5000x64 .f32) (y : S5000x64.Idx) :
    ∃ pc ∈ ([⟨r0_4, p0⟩] : List (View.Piece (Elt F) S5000x64 .f32)), y ∈ pc.1.set :=
  View.cover_of_tiled [⟨r0_4, p0⟩] S5000x64.size (by rfl) y

/-! ## The body's triple -/

set_option maxHeartbeats 4000000 in
/-- The kernel body on whole staging memrefs, the inputs' at read contents and the output's at anything, runs to
    the continuation holding the inputs' as they were and the output's at `out0_7` of the inputs'. -/
theorem sound_kernel0 (c : Dev nD) (E : Set ℕ) (i : grid0.Coords) (arg0 : Memref sig .tc .vmem S5000x128 .f32) (harg0 : arg0.IsWhole) (arg1 : Memref sig .tc .vmem S5000x1 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S5000x64 .f32) (harg7 : arg7.IsWhole)
    (x0 : Vec F S5000x128 .f32) (x1 : Vec F S5000x1 .f32) (x2 : Vec F S1x128 .f32) (x3 : Vec F S1x128 .f32) (x4 : Vec F S1x128 .f32) (x5 : Vec F S1x128 .f32) (x6 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__pre_transform_kernel i arg0 harg0 arg1 harg1 arg2 harg2 arg3 harg3 arg4 harg4 arg5 harg5 arg6 harg6 arg7 harg7) K := by
  simp only [cc0__pre_transform_kernel_eq_skeleton]; unfold cc0__pre_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of this pipeline on core `c`: the arrays as the region finds them; after the body at point `t`
    each input's buffer at its block and the output's at `out0_7` of the input blocks; the scoped rest and the
    generator register untouched; nothing owed; the arrays' shares a parameter, which the body never looks at. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q := q
  owed _ := 0

/-- The proof data's arrays are the region-entry contents. -/
theorem A_eq0 (q : Fin cfg0.W → PosShare TreeShare) (c : Dev nD) (w : Fin cfg0.W) : (dat0 V q c).A w = V c (Pipeline.arrRef spec0 w) := by
  dsimp only [dat0]

/-- What the body leaves, window by window. -/
theorem after0_0 (q : Fin cfg0.W → PosShare TreeShare) (c : Dev nD) (t : Fin cfg0.N) : (dat0 V q c).after 0 t = iblk0 V c 0 t := by dsimp only [dat0]
theorem after0_1 (q : Fin cfg0.W → PosShare TreeShare) (c : Dev nD) (t : Fin cfg0.N) : (dat0 V q c).after 1 t = iblk0 V c 1 t := by dsimp only [dat0]
theorem after0_2 (q : Fin cfg0.W → PosShare TreeShare) (c : Dev nD) (t : Fin cfg0.N) : (dat0 V q c).after 2 t = iblk0 V c 2 t := by dsimp only [dat0]
theorem after0_3 (q : Fin cfg0.W → PosShare TreeShare) (c : Dev nD) (t : Fin cfg0.N) : (dat0 V q c).after 3 t = iblk0 V c 3 t := by dsimp only [dat0]
theorem after0_4 (q : Fin cfg0.W → PosShare TreeShare) (c : Dev nD) (t : Fin cfg0.N) : (dat0 V q c).after 4 t = iblk0 V c 4 t := by dsimp only [dat0]
theorem after0_5 (q : Fin cfg0.W → PosShare TreeShare) (c : Dev nD) (t : Fin cfg0.N) : (dat0 V q c).after 5 t = iblk0 V c 5 t := by dsimp only [dat0]
theorem after0_6 (q : Fin cfg0.W → PosShare TreeShare) (c : Dev nD) (t : Fin cfg0.N) : (dat0 V q c).after 6 t = iblk0 V c 6 t := by dsimp only [dat0]
theorem after0_7 (q : Fin cfg0.W → PosShare TreeShare) (c : Dev nD) (t : Fin cfg0.N) : (dat0 V q c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (q : Fin cfg0.W → PosShare TreeShare) (c : Dev nD) (t : Fin cfg0.N) (d) : (dat0 V q c).before 0 t d = iblk0 V c 0 t :=
  before0_0_of V (dat0 V q c) (A_eq0 V q c 0) (after0_0 V q c) t d
theorem before0_1 (q : Fin cfg0.W → PosShare TreeShare) (c : Dev nD) (t : Fin cfg0.N) (d) : (dat0 V q c).before 1 t d = iblk0 V c 1 t :=
  before0_1_of V (dat0 V q c) (A_eq0 V q c 1) (after0_1 V q c) t d
theorem before0_2 (q : Fin cfg0.W → PosShare TreeShare) (c : Dev nD) (t : Fin cfg0.N) (d) : (dat0 V q c).before 2 t d = iblk0 V c 2 t :=
  before0_2_of V (dat0 V q c) (A_eq0 V q c 2) (after0_2 V q c) t d
theorem before0_3 (q : Fin cfg0.W → PosShare TreeShare) (c : Dev nD) (t : Fin cfg0.N) (d) : (dat0 V q c).before 3 t d = iblk0 V c 3 t :=
  before0_3_of V (dat0 V q c) (A_eq0 V q c 3) (after0_3 V q c) t d
theorem before0_4 (q : Fin cfg0.W → PosShare TreeShare) (c : Dev nD) (t : Fin cfg0.N) (d) : (dat0 V q c).before 4 t d = iblk0 V c 4 t :=
  before0_4_of V (dat0 V q c) (A_eq0 V q c 4) (after0_4 V q c) t d
theorem before0_5 (q : Fin cfg0.W → PosShare TreeShare) (c : Dev nD) (t : Fin cfg0.N) (d) : (dat0 V q c).before 5 t d = iblk0 V c 5 t :=
  before0_5_of V (dat0 V q c) (A_eq0 V q c 5) (after0_5 V q c) t d
theorem before0_6 (q : Fin cfg0.W → PosShare TreeShare) (c : Dev nD) (t : Fin cfg0.N) (d) : (dat0 V q c).before 6 t d = iblk0 V c 6 t :=
  before0_6_of V (dat0 V q c) (A_eq0 V q c 6) (after0_6 V q c) t d

/-! ## The body obligation, at a generic point -/

/-- What the body is called with at point `t`, the windows one by one, -/
def bodyPre0 (q : Fin cfg0.W → PosShare TreeShare) (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d))
    ∗ (∃ d, owns (c : Thread nD τ) (st0_4 t) fullShare ((dat0 V q c).before 4 t d))
    ∗ (∃ d, owns (c : Thread nD τ) (st0_5 t) fullShare ((dat0 V q c).before 5 t d))
    ∗ (∃ d, owns (c : Thread nD τ) (st0_6 t) fullShare ((dat0 V q c).before 6 t d))
    ∗ (∃ d, owns (c : Thread nD τ) (st0_7 t) fullShare ((dat0 V q c).before 7 t d)))

/-- and what it returns. -/
def bodyPost0 (q : Fin cfg0.W → PosShare TreeShare) (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t)
    ∗ owns (c : Thread nD τ) (st0_4 t) fullShare ((dat0 V q c).after 4 t)
    ∗ owns (c : Thread nD τ) (st0_5 t) fullShare ((dat0 V q c).after 5 t)
    ∗ owns (c : Thread nD τ) (st0_6 t) fullShare ((dat0 V q c).after 6 t)
    ∗ owns (c : Thread nD τ) (st0_7 t) fullShare ((dat0 V q c).after 7 t))

/-- The body at any point: the inputs' memrefs hold their blocks, so the body's triple applies; the invariant and
    the core's debt pass through unread. -/
theorem sound_body0 (q : Fin cfg0.W → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3, before0_4, before0_5, before0_6]
  rw [show (dat0 V q c).Φ t.succ = (dat0 V q c).Φ t.castSucc from rfl,
    show (dat0 V q c).owesAt () t.succ = (dat0 V q c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (q : Fin cfg0.W → PosShare TreeShare) (c : Dev nD) : BodyObligation (dat0 (F := F) V q c) (defs₀ (F := F)) Variants.none () Set.univ := fun t => by
  rw [bigSep_W0, bigSep_W0]
  exact sound_body0 V q c t

end Cert.KernelIdeal.Hand

end
-- ==== Proof.RegA2.lean ====
import proofs.«157882_j13769665151543_1_alg».proof.Proof.Gen.KernelIdeal.Launch
import proofs.«157882_j13769665151543_1_alg».proof.Proof.Gen.KernelIdeal.Skeleton
import proofs.«157882_j13769665151543_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the pipeline's proof data and the body obligation

Every window of this pipeline is handed to the body whole. The body reads every input window's staging
buffer, computes one pure value from them and writes it over the whole staging buffer of the output
window. The proof data says so: after the body an input's buffer still holds its block of the array as
the region found it, and the output's buffer holds that pure value of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it
    was not fetched the block index has not moved, and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it
    was not fetched the block index has not moved, and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it
    was not fetched the block index has not moved, and the body left the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it
    was not fetched the block index has not moved, and the body left the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it
    was not fetched the block index has not moved, and the body left the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it
    was not fetched the block index has not moved, and the body left the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: where it
    was not fetched the block index has not moved, and the body left the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-! ## What the body leaves in the output window's buffer -/

/-- Window 7's staging buffer after the body, from the input windows' blocks: its one store, of the
    pure value the body computes from what it loaded. -/
def out2_7 (x0 : Vec F S5000x64 .f32) (x1 : Vec F S5000x1 .f32) (x2 : Vec F S1x64 .f32) (x3 : Vec F S1x64 .f32) (x4 : Vec F S1x64 .f32) (x5 : Vec F S1x64 .f32) (x6 : Vec F S64x64 .f32) : Vec F S5000x64 .f32 :=
  View.canon [⟨r2_0, k2_pay1 (View.ld x0 r2_0) (View.ld x2 r2_2) (View.ld x3 r2_2) (View.ld x4 r2_2) (View.ld x5 r2_2) (View.ld x1 r2_1) (View.ld x6 r2_3)⟩]

/-- The store is of the whole buffer, so it covers it. -/
theorem cover2_7 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 4000000 in
/-- The kernel body on whole staging memrefs, the inputs' at read contents and the output's at anything, runs to
    the continuation holding the inputs' as they were and the output's at `out2_7` of the inputs'. -/
theorem sound_kernel2 (c : Dev nD) (E : Set ℕ) (i : grid2.Coords) (arg0 : Memref sig .tc .vmem S5000x64 .f32) (harg0 : arg0.IsWhole) (arg1 : Memref sig .tc .vmem S5000x1 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S5000x64 .f32) (harg7 : arg7.IsWhole)
    (x0 : Vec F S5000x64 .f32) (x1 : Vec F S5000x1 .f32) (x2 : Vec F S1x64 .f32) (x3 : Vec F S1x64 .f32) (x4 : Vec F S1x64 .f32) (x5 : Vec F S1x64 .f32) (x6 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__pre_transform_kernel i arg0 harg0 arg1 harg1 arg2 harg2 arg3 harg3 arg4 harg4 arg5 harg5 arg6 harg6 arg7 harg7) K := by
  simp only [cc2__pre_transform_kernel_eq_skeleton]; unfold cc2__pre_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of this pipeline on core `c`: the arrays as the region finds them; after the body at point `t`
    each input's buffer at its block and the output's at `out2_7` of the input blocks; the scoped rest and the
    generator register untouched; nothing owed; the arrays' shares a parameter, which the body never looks at. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q := q
  owed _ := 0

/-- The proof data's arrays are the region-entry contents. -/
theorem A_eq2 (q : Fin cfg2.W → PosShare TreeShare) (c : Dev nD) (w : Fin cfg2.W) : (dat2 V q c).A w = V c (Pipeline.arrRef spec2 w) := by
  dsimp only [dat2]

/-- What the body leaves, window by window. -/
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = iblk2 V c 2 t := by dsimp only [dat2]
theorem after2_3 (q : Fin cfg2.W → PosShare TreeShare) (c : Dev nD) (t : Fin cfg2.N) : (dat2 V q c).after 3 t = iblk2 V c 3 t := by dsimp only [dat2]
theorem after2_4 (q : Fin cfg2.W → PosShare TreeShare) (c : Dev nD) (t : Fin cfg2.N) : (dat2 V q c).after 4 t = iblk2 V c 4 t := by dsimp only [dat2]
theorem after2_5 (q : Fin cfg2.W → PosShare TreeShare) (c : Dev nD) (t : Fin cfg2.N) : (dat2 V q c).after 5 t = iblk2 V c 5 t := by dsimp only [dat2]
theorem after2_6 (q : Fin cfg2.W → PosShare TreeShare) (c : Dev nD) (t : Fin cfg2.N) : (dat2 V q c).after 6 t = iblk2 V c 6 t := by dsimp only [dat2]
theorem after2_7 (q : Fin cfg2.W → PosShare TreeShare) (c : Dev nD) (t : Fin cfg2.N) : (dat2 V q c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d
theorem before2_2 (q : Fin cfg2.W → PosShare TreeShare) (c : Dev nD) (t : Fin cfg2.N) (d) : (dat2 V q c).before 2 t d = iblk2 V c 2 t :=
  before2_2_of V (dat2 V q c) (A_eq2 V q c 2) (after2_2 V q c) t d
theorem before2_3 (q : Fin cfg2.W → PosShare TreeShare) (c : Dev nD) (t : Fin cfg2.N) (d) : (dat2 V q c).before 3 t d = iblk2 V c 3 t :=
  before2_3_of V (dat2 V q c) (A_eq2 V q c 3) (after2_3 V q c) t d
theorem before2_4 (q : Fin cfg2.W → PosShare TreeShare) (c : Dev nD) (t : Fin cfg2.N) (d) : (dat2 V q c).before 4 t d = iblk2 V c 4 t :=
  before2_4_of V (dat2 V q c) (A_eq2 V q c 4) (after2_4 V q c) t d
theorem before2_5 (q : Fin cfg2.W → PosShare TreeShare) (c : Dev nD) (t : Fin cfg2.N) (d) : (dat2 V q c).before 5 t d = iblk2 V c 5 t :=
  before2_5_of V (dat2 V q c) (A_eq2 V q c 5) (after2_5 V q c) t d
theorem before2_6 (q : Fin cfg2.W → PosShare TreeShare) (c : Dev nD) (t : Fin cfg2.N) (d) : (dat2 V q c).before 6 t d = iblk2 V c 6 t :=
  before2_6_of V (dat2 V q c) (A_eq2 V q c 6) (after2_6 V q c) t d

/-! ## The body obligation, at a generic point -/

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d))
    ∗ (∃ d, owns (c : Thread nD τ) (st2_6 t) fullShare ((dat2 V q c).before 6 t d))
    ∗ (∃ d, owns (c : Thread nD τ) (st2_7 t) fullShare ((dat2 V q c).before 7 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t)
    ∗ owns (c : Thread nD τ) (st2_6 t) fullShare ((dat2 V q c).after 6 t)
    ∗ owns (c : Thread nD τ) (st2_7 t) fullShare ((dat2 V q c).after 7 t))

/-- The body at any point: the inputs' memrefs hold their blocks, so the body's triple applies; the invariant and
    the core's debt pass through unread. -/
theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4, before2_5, before2_6]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (q : Fin cfg2.W → PosShare TreeShare) (c : Dev nD) : BodyObligation (dat2 (F := F) V q c) (defs₀ (F := F)) Variants.none () Set.univ := fun t => by
  rw [bigSep_W2, bigSep_W2]
  exact sound_body2 V q c t

end Cert.KernelIdeal.Hand

end
-- ==== Proof.RegA4.lean ====
import proofs.«157882_j13769665151543_1_alg».proof.Proof.Gen.KernelIdeal.Launch
import proofs.«157882_j13769665151543_1_alg».proof.Proof.Gen.KernelIdeal.Skeleton
import proofs.«157882_j13769665151543_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: the pipeline's proof data and the body obligation

Every window of this pipeline is handed to the body whole. The body reads every input window's staging
buffer, computes one pure value from them and writes it over the whole staging buffer of the output
window. The proof data says so: after the body an input's buffer still holds its block of the array as
the region found it, and the output's buffer holds that pure value of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it
    was not fetched the block index has not moved, and the body left the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: where it
    was not fetched the block index has not moved, and the body left the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: where it
    was not fetched the block index has not moved, and the body left the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not: where it
    was not fetched the block index has not moved, and the body left the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not: where it
    was not fetched the block index has not moved, and the body left the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S5000x64 := Rect.unit (s := S5000x64) ![0, 0] S5000x64.size inb_S5000x64_S5000x64_0_0
abbrev r4_1 : Rect S1x64 := Rect.unit (s := S1x64) ![0, 0] S1x64.size inb_S1x64_S1x64_0_0

/-! ## What the body leaves in the output window's buffer -/

/-- Window 5's staging buffer after the body, from the input windows' blocks: its one store, of the
    pure value the body computes from what it loaded. -/
def out4_5 (x0 : Vec F S5000x64 .f32) (x1 : Vec F S1x64 .f32) (x2 : Vec F S1x64 .f32) (x3 : Vec F S1x64 .f32) (x4 : Vec F S1x64 .f32) : Vec F S5000x64 .f32 :=
  View.canon [⟨r4_0, k4_pay1 (View.ld x0 r4_0) (View.ld x1 r4_1) (View.ld x2 r4_1) (View.ld x3 r4_1) (View.ld x4 r4_1)⟩]

/-- The store is of the whole buffer, so it covers it. -/
theorem cover4_5 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-! ## The body's triple -/

set_option maxHeartbeats 4000000 in
/-- The kernel body on whole staging memrefs, the inputs' at read contents and the output's at anything, runs to
    the continuation holding the inputs' as they were and the output's at `out4_5` of the inputs'. -/
theorem sound_kernel4 (c : Dev nD) (E : Set ℕ) (i : grid4.Coords) (arg0 : Memref sig .tc .vmem S5000x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out4_5 x0 x1 x2 x3 x4)) -∗ K ⟨⟩))
      ⊢ wp frame (wpE (defs₀ (F := F)) Variants.none c none) E (cc4__bn_apply_kernel i arg0 harg0 arg1 harg1 arg2 harg2 arg3 harg3 arg4 harg4 arg5 harg5) K := by
  simp only [cc4__bn_apply_kernel_eq_skeleton]; unfold cc4__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of this pipeline on core `c`: the arrays as the region finds them; after the body at point `t`
    each input's buffer at its block and the output's at `out4_5` of the input blocks; the scoped rest and the
    generator register untouched; nothing owed; the arrays' shares a parameter, which the body never looks at. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q := q
  owed _ := 0

/-- The proof data's arrays are the region-entry contents. -/
theorem A_eq4 (q : Fin cfg4.W → PosShare TreeShare) (c : Dev nD) (w : Fin cfg4.W) : (dat4 V q c).A w = V c (Pipeline.arrRef spec4 w) := by
  dsimp only [dat4]

/-- What the body leaves, window by window. -/
theorem after4_0 (q : Fin cfg4.W → PosShare TreeShare) (c : Dev nD) (t : Fin cfg4.N) : (dat4 V q c).after 0 t = iblk4 V c 0 t := by dsimp only [dat4]
theorem after4_1 (q : Fin cfg4.W → PosShare TreeShare) (c : Dev nD) (t : Fin cfg4.N) : (dat4 V q c).after 1 t = iblk4 V c 1 t := by dsimp only [dat4]
theorem after4_2 (q : Fin cfg4.W → PosShare TreeShare) (c : Dev nD) (t : Fin cfg4.N) : (dat4 V q c).after 2 t = iblk4 V c 2 t := by dsimp only [dat4]
theorem after4_3 (q : Fin cfg4.W → PosShare TreeShare) (c : Dev nD) (t : Fin cfg4.N) : (dat4 V q c).after 3 t = iblk4 V c 3 t := by dsimp only [dat4]
theorem after4_4 (q : Fin cfg4.W → PosShare TreeShare) (c : Dev nD) (t : Fin cfg4.N) : (dat4 V q c).after 4 t = iblk4 V c 4 t := by dsimp only [dat4]
theorem after4_5 (q : Fin cfg4.W → PosShare TreeShare) (c : Dev nD) (t : Fin cfg4.N) : (dat4 V q c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (q : Fin cfg4.W → PosShare TreeShare) (c : Dev nD) (t : Fin cfg4.N) (d) : (dat4 V q c).before 0 t d = iblk4 V c 0 t :=
  before4_0_of V (dat4 V q c) (A_eq4 V q c 0) (after4_0 V q c) t d
theorem before4_1 (q : Fin cfg4.W → PosShare TreeShare) (c : Dev nD) (t : Fin cfg4.N) (d) : (dat4 V q c).before 1 t d = iblk4 V c 1 t :=
  before4_1_of V (dat4 V q c) (A_eq4 V q c 1) (after4_1 V q c) t d
theorem before4_2 (q : Fin cfg4.W → PosShare TreeShare) (c : Dev nD) (t : Fin cfg4.N) (d) : (dat4 V q c).before 2 t d = iblk4 V c 2 t :=
  before4_2_of V (dat4 V q c) (A_eq4 V q c 2) (after4_2 V q c) t d
theorem before4_3 (q : Fin cfg4.W → PosShare TreeShare) (c : Dev nD) (t : Fin cfg4.N) (d) : (dat4 V q c).before 3 t d = iblk4 V c 3 t :=
  before4_3_of V (dat4 V q c) (A_eq4 V q c 3) (after4_3 V q c) t d
theorem before4_4 (q : Fin cfg4.W → PosShare TreeShare) (c : Dev nD) (t : Fin cfg4.N) (d) : (dat4 V q c).before 4 t d = iblk4 V c 4 t :=
  before4_4_of V (dat4 V q c) (A_eq4 V q c 4) (after4_4 V q c) t d

/-! ## The body obligation, at a generic point -/

/-- What the body is called with at point `t`, the windows one by one, -/
def bodyPre4 (q : Fin cfg4.W → PosShare TreeShare) (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d))
    ∗ (∃ d, owns (c : Thread nD τ) (st4_3 t) fullShare ((dat4 V q c).before 3 t d))
    ∗ (∃ d, owns (c : Thread nD τ) (st4_4 t) fullShare ((dat4 V q c).before 4 t d))
    ∗ (∃ d, owns (c : Thread nD τ) (st4_5 t) fullShare ((dat4 V q c).before 5 t d)))

/-- and what it returns. -/
def bodyPost4 (q : Fin cfg4.W → PosShare TreeShare) (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t)
    ∗ owns (c : Thread nD τ) (st4_3 t) fullShare ((dat4 V q c).after 3 t)
    ∗ owns (c : Thread nD τ) (st4_4 t) fullShare ((dat4 V q c).after 4 t)
    ∗ owns (c : Thread nD τ) (st4_5 t) fullShare ((dat4 V q c).after 5 t))

/-- The body at any point: the inputs' memrefs hold their blocks, so the body's triple applies; the invariant and
    the core's debt pass through unread. -/
theorem sound_body4 (q : Fin cfg4.W → PosShare TreeShare) (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1, before4_2, before4_3, before4_4]
  rw [show (dat4 V q c).Φ t.succ = (dat4 V q c).Φ t.castSucc from rfl,
    show (dat4 V q c).owesAt () t.succ = (dat4 V q c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (q : Fin cfg4.W → PosShare TreeShare) (c : Dev nD) : BodyObligation (dat4 (F := F) V q c) (defs₀ (F := F)) Variants.none () Set.univ := fun t => by
  rw [bigSep_W4, bigSep_W4]
  exact sound_body4 V q c t

end Cert.KernelIdeal.Hand

end
-- ==== Proof.RegR1.lean ====
import proofs.«157882_j13769665151543_1_alg».proof.Proof.Gen.KernelIdeal.Launch
import proofs.«157882_j13769665151543_1_alg».proof.Proof.Gen.KernelIdeal.Skeleton
import proofs.«157882_j13769665151543_1_alg».proof.Proof.Gen.KernelIdeal.Points
import Idealize.ShloMosaic.Lib.Pipeline.FrameBody
import Idealize.ShloMosaic.Lib.Ring
import Idealize.ShloMosaic.Lib.Tactic

/-! Region 1 (the row-scale, bias and ELU kernel with its running column sums), as one pipeline's proof data:
    the blocks its windows stage, the body's run in its two control cases (the first grid point, where the two
    accumulator rows are zeroed before they are added to, and the later points, where they are read as the point
    before left them), what the three outputs' staging buffers hold after each point, and the body obligation. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's conditional (is the grid coordinate 0?), from the grid coordinates. -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 20 = 0 :=
  (by decide +kernel : ∀ t : Fin grid1.N, cond1_0 (grid1.coords t) ↔ t.val % 20 = 0)

/-! ## The staging memrefs -/

/-- One staging buffer of each output window, through which its contents are stated (the choice does not matter). -/
abbrev VO1_3 : View sig .tc .vmem S5000x64 .f32 := (Memref.whole cc1_stg3_0 : Memref sig .tc .vmem S5000x64 .f32).view
abbrev VO1_4 : View sig .tc .vmem S1x64 .f32 := (Memref.whole cc1_stg4_0 : Memref sig .tc .vmem S1x64 .f32).view
abbrev VO1_5 : View sig .tc .vmem S1x64 .f32 := (Memref.whole cc1_stg5_0 : Memref sig .tc .vmem S1x64 .f32).view
/-- Each window's current staging memref at point `t`, as the pipeline passes it to the body, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)

/-! ## The body's run, case by case -/

set_option maxHeartbeats 4000000 in
/-- What the body's stores leave in each output's staging memref, as pieces (last first), AT THE FIRST POINT (the
    conditional taken: the two accumulator rows are zeroed, then added to), with the proof that on whole staging
    memrefs — the inputs' at their contents, the outputs' at anything — the body runs to the continuation holding
    the inputs' as they were and each output's buffer with its pieces written. -/
noncomputable def kernelRun1_A (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) :
    Σ' (L3 : List (View.Piece (Elt F) S5000x64 .f32)), Σ' (L4 : List (View.Piece (Elt F) S1x64 .f32)), { L5 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc1__post_agg_kernel i arg1 harg1 arg2 harg2 arg3 harg3 arg4 harg4 arg5 harg5 arg6 harg6) K } := by
  refine ⟨?_, ?_, ?_, fun E K => ?run⟩
  case run =>
    simp only [cc1__post_agg_kernel_eq_skeleton]; unfold cc1__post_agg_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- The same AT A LATER POINT (the conditional not taken): the two accumulator rows are read at their running
    contents `xo4`, `xo5` before they are overwritten. -/
noncomputable def kernelRun1_B (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) :
    Σ' (L3 : List (View.Piece (Elt F) S5000x64 .f32)), Σ' (L4 : List (View.Piece (Elt F) S1x64 .f32)), { L5 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc1__post_agg_kernel i arg1 harg1 arg2 harg2 arg3 harg3 arg4 harg4 arg5 harg5 arg6 harg6) K } := by
  refine ⟨?_, ?_, ?_, fun E K => ?run⟩
  case run =>
    simp only [cc1__post_agg_kernel_eq_skeleton]; unfold cc1__post_agg_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-! ## What the body leaves in each output's staging buffer, per case -/

/-- Case A's pieces for output 3 tile its block, so they cover it. -/
theorem cover1_A_3 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) (y : S5000x64.Idx) :
    ∃ pc ∈ (kernelRun1_A c i arg1 harg1 arg2 harg2 arg3 harg3 arg4 harg4 arg5 harg5 arg6 harg6 hc0 x0 x1 x2).1, y ∈ pc.1.set :=
  View.cover_of_tiledL (kernelRun1_A c i arg1 harg1 arg2 harg2 arg3 harg3 arg4 harg4 arg5 harg5 arg6 harg6 hc0 x0 x1 x2).1 S5000x64.size (by sl_kernel_rfl) y

/-- What case A leaves in output 3's staging buffer: its pieces read back over junk. -/
def out1_A_3 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) : Vec F S5000x64 .f32 :=
  VO1_3.read (Elt F) (VO1_3.writes (Elt F) VO1_3.junk (kernelRun1_A c i arg1 harg1 arg2 harg2 arg3 harg3 arg4 harg4 arg5 harg5 arg6 harg6 hc0 x0 x1 x2).1)

/-- Case A's pieces for output 4 tile its block, so they cover it. -/
theorem cover1_A_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) (y : S1x64.Idx) :
    ∃ pc ∈ (kernelRun1_A c i arg1 harg1 arg2 harg2 arg3 harg3 arg4 harg4 arg5 harg5 arg6 harg6 hc0 x0 x1 x2).2.1, y ∈ pc.1.set :=
  View.cover_of_tiledL (kernelRun1_A c i arg1 harg1 arg2 harg2 arg3 harg3 arg4 harg4 arg5 harg5 arg6 harg6 hc0 x0 x1 x2).2.1 S1x64.size (by sl_kernel_rfl) y

/-- What case A leaves in output 4's staging buffer: its pieces read back over junk. -/
def out1_A_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) : Vec F S1x64 .f32 :=
  VO1_4.read (Elt F) (VO1_4.writes (Elt F) VO1_4.junk (kernelRun1_A c i arg1 harg1 arg2 harg2 arg3 harg3 arg4 harg4 arg5 harg5 arg6 harg6 hc0 x0 x1 x2).2.1)

/-- Case A's pieces for output 5 tile its block, so they cover it. -/
theorem cover1_A_5 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) (y : S1x64.Idx) :
    ∃ pc ∈ (kernelRun1_A c i arg1 harg1 arg2 harg2 arg3 harg3 arg4 harg4 arg5 harg5 arg6 harg6 hc0 x0 x1 x2).2.2.1, y ∈ pc.1.set :=
  View.cover_of_tiledL (kernelRun1_A c i arg1 harg1 arg2 harg2 arg3 harg3 arg4 harg4 arg5 harg5 arg6 harg6 hc0 x0 x1 x2).2.2.1 S1x64.size (by sl_kernel_rfl) y

/-- What case A leaves in output 5's staging buffer: its pieces read back over junk. -/
def out1_A_5 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) : Vec F S1x64 .f32 :=
  VO1_5.read (Elt F) (VO1_5.writes (Elt F) VO1_5.junk (kernelRun1_A c i arg1 harg1 arg2 harg2 arg3 harg3 arg4 harg4 arg5 harg5 arg6 harg6 hc0 x0 x1 x2).2.2.1)

/-- Case B's pieces for output 3 tile its block, so they cover it. -/
theorem cover1_B_3 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) (y : S5000x64.Idx) :
    ∃ pc ∈ (kernelRun1_B c i arg1 harg1 arg2 harg2 arg3 harg3 arg4 harg4 arg5 harg5 arg6 harg6 hc0 x0 x1 x2 xo4 xo5).1, y ∈ pc.1.set :=
  View.cover_of_tiledL (kernelRun1_B c i arg1 harg1 arg2 harg2 arg3 harg3 arg4 harg4 arg5 harg5 arg6 harg6 hc0 x0 x1 x2 xo4 xo5).1 S5000x64.size (by sl_kernel_rfl) y

/-- What case B leaves in output 3's staging buffer: its pieces read back over junk. -/
def out1_B_3 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) : Vec F S5000x64 .f32 :=
  VO1_3.read (Elt F) (VO1_3.writes (Elt F) VO1_3.junk (kernelRun1_B c i arg1 harg1 arg2 harg2 arg3 harg3 arg4 harg4 arg5 harg5 arg6 harg6 hc0 x0 x1 x2 xo4 xo5).1)

/-- Case B's pieces for output 4 tile its block, so they cover it. -/
theorem cover1_B_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) (y : S1x64.Idx) :
    ∃ pc ∈ (kernelRun1_B c i arg1 harg1 arg2 harg2 arg3 harg3 arg4 harg4 arg5 harg5 arg6 harg6 hc0 x0 x1 x2 xo4 xo5).2.1, y ∈ pc.1.set :=
  View.cover_of_tiledL (kernelRun1_B c i arg1 harg1 arg2 harg2 arg3 harg3 arg4 harg4 arg5 harg5 arg6 harg6 hc0 x0 x1 x2 xo4 xo5).2.1 S1x64.size (by sl_kernel_rfl) y

/-- What case B leaves in output 4's staging buffer: its pieces read back over junk. -/
def out1_B_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) : Vec F S1x64 .f32 :=
  VO1_4.read (Elt F) (VO1_4.writes (Elt F) VO1_4.junk (kernelRun1_B c i arg1 harg1 arg2 harg2 arg3 harg3 arg4 harg4 arg5 harg5 arg6 harg6 hc0 x0 x1 x2 xo4 xo5).2.1)

/-- Case B's pieces for output 5 tile its block, so they cover it. -/
theorem cover1_B_5 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) (y : S1x64.Idx) :
    ∃ pc ∈ (kernelRun1_B c i arg1 harg1 arg2 harg2 arg3 harg3 arg4 harg4 arg5 harg5 arg6 harg6 hc0 x0 x1 x2 xo4 xo5).2.2.1, y ∈ pc.1.set :=
  View.cover_of_tiledL (kernelRun1_B c i arg1 harg1 arg2 harg2 arg3 harg3 arg4 harg4 arg5 harg5 arg6 harg6 hc0 x0 x1 x2 xo4 xo5).2.2.1 S1x64.size (by sl_kernel_rfl) y

/-- What case B leaves in output 5's staging buffer: its pieces read back over junk. -/
def out1_B_5 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) : Vec F S1x64 .f32 :=
  VO1_5.read (Elt F) (VO1_5.writes (Elt F) VO1_5.junk (kernelRun1_B c i arg1 harg1 arg2 harg2 arg3 harg3 arg4 harg4 arg5 harg5 arg6 harg6 hc0 x0 x1 x2 xo4 xo5).2.2.1)

/-! ## What the outputs hold after each point -/

/-- THE ACCUMULATION. What the three outputs' staging buffers hold after the body at position `n`: the first
    point's case at `0`, the later points' case after it, run at the point's memrefs and input blocks, the two
    accumulator rows read at what this leaves at `n - 1` (their buffers are not written back between). -/
def outsAt1 (c : Dev nD) : (n : ℕ) → n < cfg1.N → Vec F S5000x64 .f32 × Vec F S1x64 .f32 × Vec F S1x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 20 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at the first point: case A's contents. -/
theorem outsAt1_A (c : Dev nD) (t : Fin cfg1.N) (h0 : t.val % 20 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a later point: case B's contents, over what the point before left. -/
theorem outsAt1_B (c : Dev nD) (t : Fin cfg1.N) (h0 : ¬t.val % 20 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := rfl
theorem owed_eq1 (c : Dev nD) (t : Fin (cfg1.N + 1)) : (dat1 V c).owed t = 0 := rfl
theorem Φ_eq1 (c : Dev nD) (t : Fin (cfg1.N + 1)) : (dat1 V c).Φ t = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later point output 4's staging buffer holds what the body left at the point before: the point is not the
    first, and the buffer was not written back between (it is written back after the last point only). -/
theorem before1_4_B (c : Dev nD) (t : Fin cfg1.N) (h0 : ¬t.val % 20 = 0) (d) :
    (dat1 V c).before 4 t d = (outsAt1 V c (t.val - 1) (Nat.lt_of_le_of_lt (Nat.sub_le _ _) t.isLt)).2.1 := by
  have hN : t.val < 20 := lt_of_lt_of_eq t.isLt (show cfg1.N = 20 from N_1)
  rw [Dat.before_out_kept _ 4 rfl t (by omega) (Bool.eq_false_iff.mpr fun h => by have := (flush1_4 _).mp h; dsimp only at this; omega)
    (fun _ => rfl) (fun _ _ => rfl)]
  dsimp only [dat1]
/-- At a later point output 5's staging buffer holds what the body left at the point before: the point is not the
    first, and the buffer was not written back between (it is written back after the last point only). -/
theorem before1_5_B (c : Dev nD) (t : Fin cfg1.N) (h0 : ¬t.val % 20 = 0) (d) :
    (dat1 V c).before 5 t d = (outsAt1 V c (t.val - 1) (Nat.lt_of_le_of_lt (Nat.sub_le _ _) t.isLt)).2.2 := by
  have hN : t.val < 20 := lt_of_lt_of_eq t.isLt (show cfg1.N = 20 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' memrefs hold their blocks; the point is the first or a later one; at a later
    one the accumulator rows hold what the point before left; so the case's run applies; the invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 20 := lt_of_lt_of_eq t.isLt (show cfg1.N = 20 from N_1)
  by_cases h0 : t.val % 20 = 0
  · rw [outsAt1_A V c t h0]
    dsimp only
    unfold out1_A_3 out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _ _)
    isplitl [H4]
    · unfold owns; iexists _; isplitr
      swap; · iexact H4
      ipureintro; exact View.read_writes_of_cover _ _ _ _ _ (cover1_A_4 c _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _)
  · rw [outsAt1_B V c t h0]
    dsimp only
    simp only [before1_4_B V c t h0, before1_5_B V c t h0]
    unfold out1_B_3 out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _ _ _)
    isplitl [H4]
    · unfold owns; iexists _; isplitr
      swap; · iexact H4
      ipureintro; exact View.read_writes_of_cover _ _ _ _ _ (cover1_B_4 c _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.RegR3.lean ====
import proofs.«157882_j13769665151543_1_alg».proof.Proof.Gen.KernelIdeal.Launch
import proofs.«157882_j13769665151543_1_alg».proof.Proof.Gen.KernelIdeal.Skeleton
import proofs.«157882_j13769665151543_1_alg».proof.Proof.Gen.KernelIdeal.Points
import Idealize.ShloMosaic.Lib.Pipeline.FrameBody
import Idealize.ShloMosaic.Lib.Ring
import Idealize.ShloMosaic.Lib.Tactic

/-! Region 3 (the row-scale, bias and ELU kernel with its running column sums), as one pipeline's proof data:
    the blocks its windows stage, the body's run in its two control cases (the first grid point, where the two
    accumulator rows are zeroed before they are added to, and the later points, where they are read as the point
    before left them), what the three outputs' staging buffers hold after each point, and the body obligation. -/

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's conditional (is the grid coordinate 0?), from the grid coordinates. -/
abbrev cond3_0 (i : grid3.Coords) : Prop := (Scalar.cmpi .ne (Scalar.extui (Scalar.cmpi .eq (BitVec.ofNat 32 (i 0).val) 0#32)) 0#32) = 1#1
/-- It holds at the first point only: decided over the grid. -/
theorem hcond3_0 : ∀ t : Fin cfg3.N, cond3_0 (grid3.coords t) ↔ t.val % 20 = 0 :=
  (by decide +kernel : ∀ t : Fin grid3.N, cond3_0 (grid3.coords t) ↔ t.val % 20 = 0)

/-! ## The staging memrefs -/

/-- One staging buffer of each output window, through which its contents are stated (the choice does not matter). -/
abbrev VO3_3 : View sig .tc .vmem S5000x64 .f32 := (Memref.whole cc3_stg3_0 : Memref sig .tc .vmem S5000x64 .f32).view
abbrev VO3_4 : View sig .tc .vmem S1x64 .f32 := (Memref.whole cc3_stg4_0 : Memref sig .tc .vmem S1x64 .f32).view
abbrev VO3_5 : View sig .tc .vmem S1x64 .f32 := (Memref.whole cc3_stg5_0 : Memref sig .tc .vmem S1x64 .f32).view
/-- Each window's current staging memref at point `t`, as the pipeline passes it to the body, and its wholeness. -/
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x64 .f32 := win3_5.stage (cfg3.slots t 5)
abbrev hs3_5 (t : Fin cfg3.N) : (ms3_5 t).IsWhole := hstage3_5 ((cfg3.slots t 5).cast nbuf3_5)

/-! ## The body's run, case by case -/

set_option maxHeartbeats 4000000 in
/-- What the body's stores leave in each output's staging memref, as pieces (last first), AT THE FIRST POINT (the
    conditional taken: the two accumulator rows are zeroed, then added to), with the proof that on whole staging
    memrefs — the inputs' at their contents, the outputs' at anything — the body runs to the continuation holding
    the inputs' as they were and each output's buffer with its pieces written. -/
noncomputable def kernelRun3_A (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) :
    Σ' (L3 : List (View.Piece (Elt F) S5000x64 .f32)), Σ' (L4 : List (View.Piece (Elt F) S1x64 .f32)), { L5 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc3__post_agg_kernel i arg1 harg1 arg2 harg2 arg3 harg3 arg4 harg4 arg5 harg5 arg6 harg6) K } := by
  refine ⟨?_, ?_, ?_, fun E K => ?run⟩
  case run =>
    simp only [cc3__post_agg_kernel_eq_skeleton]; unfold cc3__post_agg_kernel_skel
    simp only [k3_part1_eq_skeleton]; unfold k3_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- The same AT A LATER POINT (the conditional not taken): the two accumulator rows are read at their running
    contents `xo4`, `xo5` before they are overwritten. -/
noncomputable def kernelRun3_B (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) :
    Σ' (L3 : List (View.Piece (Elt F) S5000x64 .f32)), Σ' (L4 : List (View.Piece (Elt F) S1x64 .f32)), { L5 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc3__post_agg_kernel i arg1 harg1 arg2 harg2 arg3 harg3 arg4 harg4 arg5 harg5 arg6 harg6) K } := by
  refine ⟨?_, ?_, ?_, fun E K => ?run⟩
  case run =>
    simp only [cc3__post_agg_kernel_eq_skeleton]; unfold cc3__post_agg_kernel_skel
    simp only [k3_part1_eq_skeleton]; unfold k3_part1_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-! ## What the body leaves in each output's staging buffer, per case -/

/-- Case A's pieces for output 3 tile its block, so they cover it. -/
theorem cover3_A_3 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) (y : S5000x64.Idx) :
    ∃ pc ∈ (kernelRun3_A c i arg1 harg1 arg2 harg2 arg3 harg3 arg4 harg4 arg5 harg5 arg6 harg6 hc0 x0 x1 x2).1, y ∈ pc.1.set :=
  View.cover_of_tiledL (kernelRun3_A c i arg1 harg1 arg2 harg2 arg3 harg3 arg4 harg4 arg5 harg5 arg6 harg6 hc0 x0 x1 x2).1 S5000x64.size (by sl_kernel_rfl) y

/-- What case A leaves in output 3's staging buffer: its pieces read back over junk. -/
def out3_A_3 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) : Vec F S5000x64 .f32 :=
  VO3_3.read (Elt F) (VO3_3.writes (Elt F) VO3_3.junk (kernelRun3_A c i arg1 harg1 arg2 harg2 arg3 harg3 arg4 harg4 arg5 harg5 arg6 harg6 hc0 x0 x1 x2).1)

/-- Case A's pieces for output 4 tile its block, so they cover it. -/
theorem cover3_A_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) (y : S1x64.Idx) :
    ∃ pc ∈ (kernelRun3_A c i arg1 harg1 arg2 harg2 arg3 harg3 arg4 harg4 arg5 harg5 arg6 harg6 hc0 x0 x1 x2).2.1, y ∈ pc.1.set :=
  View.cover_of_tiledL (kernelRun3_A c i arg1 harg1 arg2 harg2 arg3 harg3 arg4 harg4 arg5 harg5 arg6 harg6 hc0 x0 x1 x2).2.1 S1x64.size (by sl_kernel_rfl) y

/-- What case A leaves in output 4's staging buffer: its pieces read back over junk. -/
def out3_A_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) : Vec F S1x64 .f32 :=
  VO3_4.read (Elt F) (VO3_4.writes (Elt F) VO3_4.junk (kernelRun3_A c i arg1 harg1 arg2 harg2 arg3 harg3 arg4 harg4 arg5 harg5 arg6 harg6 hc0 x0 x1 x2).2.1)

/-- Case A's pieces for output 5 tile its block, so they cover it. -/
theorem cover3_A_5 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) (y : S1x64.Idx) :
    ∃ pc ∈ (kernelRun3_A c i arg1 harg1 arg2 harg2 arg3 harg3 arg4 harg4 arg5 harg5 arg6 harg6 hc0 x0 x1 x2).2.2.1, y ∈ pc.1.set :=
  View.cover_of_tiledL (kernelRun3_A c i arg1 harg1 arg2 harg2 arg3 harg3 arg4 harg4 arg5 harg5 arg6 harg6 hc0 x0 x1 x2).2.2.1 S1x64.size (by sl_kernel_rfl) y

/-- What case A leaves in output 5's staging buffer: its pieces read back over junk. -/
def out3_A_5 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) : Vec F S1x64 .f32 :=
  VO3_5.read (Elt F) (VO3_5.writes (Elt F) VO3_5.junk (kernelRun3_A c i arg1 harg1 arg2 harg2 arg3 harg3 arg4 harg4 arg5 harg5 arg6 harg6 hc0 x0 x1 x2).2.2.1)

/-- Case B's pieces for output 3 tile its block, so they cover it. -/
theorem cover3_B_3 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) (y : S5000x64.Idx) :
    ∃ pc ∈ (kernelRun3_B c i arg1 harg1 arg2 harg2 arg3 harg3 arg4 harg4 arg5 harg5 arg6 harg6 hc0 x0 x1 x2 xo4 xo5).1, y ∈ pc.1.set :=
  View.cover_of_tiledL (kernelRun3_B c i arg1 harg1 arg2 harg2 arg3 harg3 arg4 harg4 arg5 harg5 arg6 harg6 hc0 x0 x1 x2 xo4 xo5).1 S5000x64.size (by sl_kernel_rfl) y

/-- What case B leaves in output 3's staging buffer: its pieces read back over junk. -/
def out3_B_3 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) : Vec F S5000x64 .f32 :=
  VO3_3.read (Elt F) (VO3_3.writes (Elt F) VO3_3.junk (kernelRun3_B c i arg1 harg1 arg2 harg2 arg3 harg3 arg4 harg4 arg5 harg5 arg6 harg6 hc0 x0 x1 x2 xo4 xo5).1)

/-- Case B's pieces for output 4 tile its block, so they cover it. -/
theorem cover3_B_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) (y : S1x64.Idx) :
    ∃ pc ∈ (kernelRun3_B c i arg1 harg1 arg2 harg2 arg3 harg3 arg4 harg4 arg5 harg5 arg6 harg6 hc0 x0 x1 x2 xo4 xo5).2.1, y ∈ pc.1.set :=
  View.cover_of_tiledL (kernelRun3_B c i arg1 harg1 arg2 harg2 arg3 harg3 arg4 harg4 arg5 harg5 arg6 harg6 hc0 x0 x1 x2 xo4 xo5).2.1 S1x64.size (by sl_kernel_rfl) y

/-- What case B leaves in output 4's staging buffer: its pieces read back over junk. -/
def out3_B_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) : Vec F S1x64 .f32 :=
  VO3_4.read (Elt F) (VO3_4.writes (Elt F) VO3_4.junk (kernelRun3_B c i arg1 harg1 arg2 harg2 arg3 harg3 arg4 harg4 arg5 harg5 arg6 harg6 hc0 x0 x1 x2 xo4 xo5).2.1)

/-- Case B's pieces for output 5 tile its block, so they cover it. -/
theorem cover3_B_5 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) (y : S1x64.Idx) :
    ∃ pc ∈ (kernelRun3_B c i arg1 harg1 arg2 harg2 arg3 harg3 arg4 harg4 arg5 harg5 arg6 harg6 hc0 x0 x1 x2 xo4 xo5).2.2.1, y ∈ pc.1.set :=
  View.cover_of_tiledL (kernelRun3_B c i arg1 harg1 arg2 harg2 arg3 harg3 arg4 harg4 arg5 harg5 arg6 harg6 hc0 x0 x1 x2 xo4 xo5).2.2.1 S1x64.size (by sl_kernel_rfl) y

/-- What case B leaves in output 5's staging buffer: its pieces read back over junk. -/
def out3_B_5 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) : Vec F S1x64 .f32 :=
  VO3_5.read (Elt F) (VO3_5.writes (Elt F) VO3_5.junk (kernelRun3_B c i arg1 harg1 arg2 harg2 arg3 harg3 arg4 harg4 arg5 harg5 arg6 harg6 hc0 x0 x1 x2 xo4 xo5).2.2.1)

/-! ## What the outputs hold after each point -/

/-- THE ACCUMULATION. What the three outputs' staging buffers hold after the body at position `n`: the first
    point's case at `0`, the later points' case after it, run at the point's memrefs and input blocks, the two
    accumulator rows read at what this leaves at `n - 1` (their buffers are not written back between). -/
def outsAt3 (c : Dev nD) : (n : ℕ) → n < cfg3.N → Vec F S5000x64 .f32 × Vec F S1x64 .f32 × Vec F S1x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) ((hcond3_0 ⟨0, hn⟩).mpr (Nat.zero_mod _)) (iblk3 V c 0 ⟨0, hn⟩) (iblk3 V c 1 ⟨0, hn⟩) (iblk3 V c 2 ⟨0, hn⟩), out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) ((hcond3_0 ⟨0, hn⟩).mpr (Nat.zero_mod _)) (iblk3 V c 0 ⟨0, hn⟩) (iblk3 V c 1 ⟨0, hn⟩) (iblk3 V c 2 ⟨0, hn⟩), out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) ((hcond3_0 ⟨0, hn⟩).mpr (Nat.zero_mod _)) (iblk3 V c 0 ⟨0, hn⟩) (iblk3 V c 1 ⟨0, hn⟩) (iblk3 V c 2 ⟨0, hn⟩))
  | n + 1, hn =>
    if h0 : (n + 1) % 20 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) ((hcond3_0 ⟨n + 1, hn⟩).mpr h0) (iblk3 V c 0 ⟨n + 1, hn⟩) (iblk3 V c 1 ⟨n + 1, hn⟩) (iblk3 V c 2 ⟨n + 1, hn⟩), out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) ((hcond3_0 ⟨n + 1, hn⟩).mpr h0) (iblk3 V c 0 ⟨n + 1, hn⟩) (iblk3 V c 1 ⟨n + 1, hn⟩) (iblk3 V c 2 ⟨n + 1, hn⟩), out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) ((hcond3_0 ⟨n + 1, hn⟩).mpr h0) (iblk3 V c 0 ⟨n + 1, hn⟩) (iblk3 V c 1 ⟨n + 1, hn⟩) (iblk3 V c 2 ⟨n + 1, hn⟩))
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2)

/-- `outsAt3` at the first point: case A's contents. -/
theorem outsAt3_A (c : Dev nD) (t : Fin cfg3.N) (h0 : t.val % 20 = 0) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t), out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t), out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t)) := by
  obtain ⟨n, hn⟩ := t
  cases n with
  | zero => exact rfl
  | succ n => exact (dif_pos h0).trans rfl

/-- `outsAt3` at a later point: case B's contents, over what the point before left. -/
theorem outsAt3_B (c : Dev nD) (t : Fin cfg3.N) (h0 : ¬t.val % 20 = 0) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 3 on core `c`: the arrays as the region finds them (`V`); after the body at
    point `t` each input's buffer at its block and the outputs' at `outsAt3`; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
    | ⟨5, _⟩ => (outsAt3 V c t.val t.isLt).2.2
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := rfl
theorem owed_eq3 (c : Dev nD) (t : Fin (cfg3.N + 1)) : (dat3 V c).owed t = 0 := rfl
theorem Φ_eq3 (c : Dev nD) (t : Fin (cfg3.N + 1)) : (dat3 V c).Φ t = Pipeline.ΦA spec3 c := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]
theorem after3_5 (c : Dev nD) (t : Fin cfg3.N) : (dat3 V c).after 5 t = (outsAt3 V c t.val t.isLt).2.2 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a later point output 4's staging buffer holds what the body left at the point before: the point is not the
    first, and the buffer was not written back between (it is written back after the last point only). -/
theorem before3_4_B (c : Dev nD) (t : Fin cfg3.N) (h0 : ¬t.val % 20 = 0) (d) :
    (dat3 V c).before 4 t d = (outsAt3 V c (t.val - 1) (Nat.lt_of_le_of_lt (Nat.sub_le _ _) t.isLt)).2.1 := by
  have hN : t.val < 20 := lt_of_lt_of_eq t.isLt (show cfg3.N = 20 from N_3)
  rw [Dat.before_out_kept _ 4 rfl t (by omega) (Bool.eq_false_iff.mpr fun h => by have := (flush3_4 _).mp h; dsimp only at this; omega)
    (fun _ => rfl) (fun _ _ => rfl)]
  dsimp only [dat3]
/-- At a later point output 5's staging buffer holds what the body left at the point before: the point is not the
    first, and the buffer was not written back between (it is written back after the last point only). -/
theorem before3_5_B (c : Dev nD) (t : Fin cfg3.N) (h0 : ¬t.val % 20 = 0) (d) :
    (dat3 V c).before 5 t d = (outsAt3 V c (t.val - 1) (Nat.lt_of_le_of_lt (Nat.sub_le _ _) t.isLt)).2.2 := by
  have hN : t.val < 20 := lt_of_lt_of_eq t.isLt (show cfg3.N = 20 from N_3)
  rw [Dat.before_out_kept _ 5 rfl t (by omega) (Bool.eq_false_iff.mpr fun h => by have := (flush3_5 _).mp h; dsimp only at this; omega)
    (fun _ => rfl) (fun _ _ => rfl)]
  dsimp only [dat3]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 1600000 in
/-- The body at any point: the inputs' memrefs hold their blocks; the point is the first or a later one; at a later
    one the accumulator rows hold what the point before left; so the case's run applies; the invariant passes
    through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4, after3_5]
  have hN : t.val < 20 := lt_of_lt_of_eq t.isLt (show cfg3.N = 20 from N_3)
  by_cases h0 : t.val % 20 = 0
  · rw [outsAt3_A V c t h0]
    dsimp only
    unfold out3_A_3 out3_A_4 out3_A_5
    iintro ⟨HΦ, Ho, ⟨%d0, H0⟩, ⟨%d1, H1⟩, ⟨%d2, H2⟩, ⟨%d3, H3⟩, ⟨%d4, H4⟩, ⟨%d5, H5⟩⟩
    iapply ((kernelRun3_A c (grid3.coords t) _ _ _ _ _ _ _ _ _ _ _ _ ((hcond3_0 t).mpr h0) (iblk3 V c 0 t) (iblk3 V c 1 t) (iblk3 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_A_3 c _ _ _ _ _ _ _ _ _ _ _ _ _ _ _ _ _)
    isplitl [H4]
    · unfold owns; iexists _; isplitr
      swap; · iexact H4
      ipureintro; exact View.read_writes_of_cover _ _ _ _ _ (cover3_A_4 c _ _ _ _ _ _ _ _ _ _ _ _ _ _ _ _ _)
    unfold owns; iexists _; isplitr
    swap; · iexact H5
    ipureintro; exact View.read_writes_of_cover _ _ _ _ _ (cover3_A_5 c _ _ _ _ _ _ _ _ _ _ _ _ _ _ _ _ _)
  · rw [outsAt3_B V c t h0]
    dsimp only
    simp only [before3_4_B V c t h0, before3_5_B V c t h0]
    unfold out3_B_3 out3_B_4 out3_B_5
    iintro ⟨HΦ, Ho, ⟨%d0, H0⟩, ⟨%d1, H1⟩, ⟨%d2, H2⟩, ⟨%d3, H3⟩, ⟨%d4, H4⟩, ⟨%d5, H5⟩⟩
    iapply ((kernelRun3_B c (grid3.coords t) _ _ _ _ _ _ _ _ _ _ _ _ (fun h => h0 ((hcond3_0 t).mp h)) (iblk3 V c 0 t) (iblk3 V c 1 t) (iblk3 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_B_3 c _ _ _ _ _ _ _ _ _ _ _ _ _ _ _ _ _ _ _)
    isplitl [H4]
    · unfold owns; iexists _; isplitr
      swap; · iexact H4
      ipureintro; exact View.read_writes_of_cover _ _ _ _ _ (cover3_B_4 c _ _ _ _ _ _ _ _ _ _ _ _ _ _ _ _ _ _ _)
    unfold owns; iexists _; isplitr
    swap; · iexact H5
    ipureintro; exact View.read_writes_of_cover _ _ _ _ _ (cover3_B_5 c _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KChain.lean ====
/-
  The buffer contents of the kernel program between its items, and the proof data of its five kernel regions.

  @main is five stretches of host operations alternating with five kernel regions. `U1` is what the unscoped buffers
  hold after the first stretch, `U2` after region 0 (the entry contents with the region's output array replaced by what
  its write-backs leave), `U3` after the second stretch, and so on to `U10`. Each region's proof data is taken at the
  contents the region is entered at.
-/
import proofs.«157882_j13769665151543_1_alg».proof.Proof.Gen.KernelIdeal.Regions
import proofs.«157882_j13769665151543_1_alg».proof.Proof.Gen.KernelIdeal.Points
import proofs.«157882_j13769665151543_1_alg».proof.Proof.RegA0
import proofs.«157882_j13769665151543_1_alg».proof.Proof.RegA2
import proofs.«157882_j13769665151543_1_alg».proof.Proof.RegA4
import proofs.«157882_j13769665151543_1_alg».proof.Proof.RegR1
import proofs.«157882_j13769665151543_1_alg».proof.Proof.RegR3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev VR (W : Dev nD → Valuation τ sig (Elt F)) : (c : Dev nD) → (b : Ref sig .tc) → Buf (Elt F) ((c : Thread nD τ).loc b) :=
  fun c b => W c b

/-- The shares region 0 holds its input arrays at: the two constant rows it is handed twice are dealt as two halves. -/
def q0 : Fin cfg0.W → PosShare TreeShare
  | ⟨2, _⟩ => fullShare.left
  | ⟨5, _⟩ => fullShare.right
  | ⟨3, _⟩ => fullShare.left
  | ⟨4, _⟩ => fullShare.right
  | _ => fullShare
abbrev qF (n : ℕ) : Fin n → PosShare TreeShare := fun _ => fullShare

def U1 : Dev nD → Valuation τ sig (Elt F) := fun c => V1 m c
def U2 (c : Dev nD) : Valuation τ sig (Elt F) :=
  Function.update (U1 m c) main_v17 ((dat0 (VR (U1 m)) q0 c).arrAt 7 cfg0.N)
def U3 : Dev nD → Valuation τ sig (Elt F) := fun c => StableHlo.after hostOps1 (U2 m c)
def U4 (c : Dev nD) : Valuation τ sig (Elt F) :=
  Function.update (Function.update (Function.update (U3 m c) main_v29_0 ((dat1 (VR (U3 m)) c).arrAt 3 cfg1.N))
    main_v29_1 ((dat1 (VR (U3 m)) c).arrAt 4 cfg1.N)) main_v29_2 ((dat1 (VR (U3 m)) c).arrAt 5 cfg1.N)
def U5 : Dev nD → Valuation τ sig (Elt F) := fun c => StableHlo.after hostOps2 (U4 m c)
def U6 (c : Dev nD) : Valuation τ sig (Elt F) :=
  Function.update (U5 m c) main_v43 ((dat2 (VR (U5 m)) (qF _) c).arrAt 7 cfg2.N)
def U7 : Dev nD → Valuation τ sig (Elt F) := fun c => StableHlo.after hostOps3 (U6 m c)
def U8 (c : Dev nD) : Valuation τ sig (Elt F) :=
  Function.update (Function.update (Function.update (U7 m c) main_v55_0 ((dat3 (VR (U7 m)) c).arrAt 3 cfg3.N))
    main_v55_1 ((dat3 (VR (U7 m)) c).arrAt 4 cfg3.N)) main_v55_2 ((dat3 (VR (U7 m)) c).arrAt 5 cfg3.N)
def U9 : Dev nD → Valuation τ sig (Elt F) := fun c => StableHlo.after hostOps4 (U8 m c)
def U10 (c : Dev nD) : Valuation τ sig (Elt F) :=
  Function.update (U9 m c) main_v69 ((dat4 (VR (U9 m)) (qF _) c).arrAt 5 cfg4.N)

/-- What the regions leave, as the unknowns of the conditional frame. -/
def outsK : Outs (F := F) := fun J r c => match J with
  | 2 => U2 m c r | 4 => U4 m c r | 6 => U6 m c r | 8 => U8 m c r | 10 => U10 m c r | _ => V0 m c r

theorem ne_dev {r r' : Ref sig .tc} (h : r ≠ r') : (Proc.devRef .tc r : DevRef τ sig) ≠ Proc.devRef .tc r' := StableHlo.devRef_ne_of_ne h

theorem U2_v17 (c : Dev nD) : U2 m c main_v17 = (dat0 (VR (U1 m)) q0 c).arrAt 7 cfg0.N := by
  unfold U2; rw [Function.update_self]
theorem U4_v29_0 (c : Dev nD) : U4 m c main_v29_0 = (dat1 (VR (U3 m)) c).arrAt 3 cfg1.N := by
  unfold U4; rw [Function.update_of_ne (ne_dev (by decide)), Function.update_of_ne (ne_dev (by decide)), Function.update_self]
theorem U4_v29_1 (c : Dev nD) : U4 m c main_v29_1 = (dat1 (VR (U3 m)) c).arrAt 4 cfg1.N := by
  unfold U4; rw [Function.update_of_ne (ne_dev (by decide)), Function.update_self]
theorem U4_v29_2 (c : Dev nD) : U4 m c main_v29_2 = (dat1 (VR (U3 m)) c).arrAt 5 cfg1.N := by
  unfold U4; rw [Function.update_self]
theorem U6_v43 (c : Dev nD) : U6 m c main_v43 = (dat2 (VR (U5 m)) (qF _) c).arrAt 7 cfg2.N := by
  unfold U6; rw [Function.update_self]
theorem U8_v55_0 (c : Dev nD) : U8 m c main_v55_0 = (dat3 (VR (U7 m)) c).arrAt 3 cfg3.N := by
  unfold U8; rw [Function.update_of_ne (ne_dev (by decide)), Function.update_of_ne (ne_dev (by decide)), Function.update_self]
theorem U8_v55_1 (c : Dev nD) : U8 m c main_v55_1 = (dat3 (VR (U7 m)) c).arrAt 4 cfg3.N := by
  unfold U8; rw [Function.update_of_ne (ne_dev (by decide)), Function.update_self]
theorem U8_v55_2 (c : Dev nD) : U8 m c main_v55_2 = (dat3 (VR (U7 m)) c).arrAt 5 cfg3.N := by
  unfold U8; rw [Function.update_self]
theorem U10_v69 (c : Dev nD) : U10 m c main_v69 = (dat4 (VR (U9 m)) (qF _) c).arrAt 5 cfg4.N := by
  unfold U10; rw [Function.update_self]

theorem V2_eq (c : Dev nD) : V2 m (outsK m) c = U2 m c := by
  show Function.update (V1 m c) main_v17 (U2 m c main_v17) = U2 m c
  rw [U2_v17]; unfold U2 U1; rfl
theorem V3_eq (c : Dev nD) : V3 m (outsK m) c = U3 m c := by
  show StableHlo.after hostOps1 (V2 m (outsK m) c) = _; rw [V2_eq]; unfold U3; rfl
theorem V4_eq (c : Dev nD) : V4 m (outsK m) c = U4 m c := by
  show Function.update (Function.update (Function.update (V3 m (outsK m) c) main_v29_0 (U4 m c main_v29_0)) main_v29_1 (U4 m c main_v29_1)) main_v29_2 (U4 m c main_v29_2) = U4 m c
  rw [V3_eq, U4_v29_0, U4_v29_1, U4_v29_2]; unfold U4; rfl
theorem V5_eq (c : Dev nD) : V5 m (outsK m) c = U5 m c := by
  show StableHlo.after hostOps2 (V4 m (outsK m) c) = _; rw [V4_eq]; unfold U5; rfl
theorem V6_eq (c : Dev nD) : V6 m (outsK m) c = U6 m c := by
  show Function.update (V5 m (outsK m) c) main_v43 (U6 m c main_v43) = U6 m c
  rw [V5_eq, U6_v43]; unfold U6; rfl
theorem V7_eq (c : Dev nD) : V7 m (outsK m) c = U7 m c := by
  show StableHlo.after hostOps3 (V6 m (outsK m) c) = _; rw [V6_eq]; unfold U7; rfl
theorem V8_eq (c : Dev nD) : V8 m (outsK m) c = U8 m c := by
  show Function.update (Function.update (Function.update (V7 m (outsK m) c) main_v55_0 (U8 m c main_v55_0)) main_v55_1 (U8 m c main_v55_1)) main_v55_2 (U8 m c main_v55_2) = U8 m c
  rw [V7_eq, U8_v55_0, U8_v55_1, U8_v55_2]; unfold U8; rfl
theorem V9_eq (c : Dev nD) : V9 m (outsK m) c = U9 m c := by
  show StableHlo.after hostOps4 (V8 m (outsK m) c) = _; rw [V8_eq]; unfold U9; rfl
theorem V10_eq (c : Dev nD) : V10 m (outsK m) c = U10 m c := by
  show Function.update (V9 m (outsK m) c) main_v69 (U10 m c main_v69) = U10 m c
  rw [V9_eq, U10_v69]; unfold U10; rfl

theorem V1_eq (c : Dev nD) : V1 m c = U1 m c := rfl
theorem U2_of_ne (c : Dev nD) (b : Ref sig .tc) (h : b ≠ main_v17) : U2 m c b = U1 m c b := by
  unfold U2; rw [Function.update_of_ne (ne_dev h)]
theorem U4_of_ne (c : Dev nD) (b : Ref sig .tc) (h0 : b ≠ main_v29_0) (h1 : b ≠ main_v29_1) (h2 : b ≠ main_v29_2) : U4 m c b = U3 m c b := by
  unfold U4; rw [Function.update_of_ne (ne_dev h2), Function.update_of_ne (ne_dev h1), Function.update_of_ne (ne_dev h0)]
theorem U6_of_ne (c : Dev nD) (b : Ref sig .tc) (h : b ≠ main_v43) : U6 m c b = U5 m c b := by
  unfold U6; rw [Function.update_of_ne (ne_dev h)]
theorem U8_of_ne (c : Dev nD) (b : Ref sig .tc) (h0 : b ≠ main_v55_0) (h1 : b ≠ main_v55_1) (h2 : b ≠ main_v55_2) : U8 m c b = U7 m c b := by
  unfold U8; rw [Function.update_of_ne (ne_dev h2), Function.update_of_ne (ne_dev h1), Function.update_of_ne (ne_dev h0)]
theorem U10_of_ne (c : Dev nD) (b : Ref sig .tc) (h : b ≠ main_v69) : U10 m c b = U9 m c b := by
  unfold U10; rw [Function.update_of_ne (ne_dev h)]
theorem U3_eq (c : Dev nD) : U3 m c = StableHlo.after hostOps1 (U2 m c) := rfl
theorem U5_eq (c : Dev nD) : U5 m c = StableHlo.after hostOps2 (U4 m c) := rfl
theorem U7_eq (c : Dev nD) : U7 m c = StableHlo.after hostOps3 (U6 m c) := rfl
theorem U9_eq (c : Dev nD) : U9 m c = StableHlo.after hostOps4 (U8 m c) := rfl
theorem U1_eq (c : Dev nD) : U1 m c = StableHlo.after hostOps0 (V0 m c) := rfl

attribute [irreducible] U1 U2 U3 U4 U5 U6 U7 U8 U9 U10

/-- Every pipeline's proof data, each at its region's entry contents. -/
def pdats : (p : Fin 5) → (c : Dev nD) → Dat τ (Elt F) Unit ℕ (UR sig nD τ) ℕ (cfgs p) c
  | ⟨0, _⟩ => fun c => dat0 (VR (U1 m)) q0 c
  | ⟨1, _⟩ => fun c => dat1 (VR (U3 m)) c
  | ⟨2, _⟩ => fun c => dat2 (VR (U5 m)) (qF _) c
  | ⟨3, _⟩ => fun c => dat3 (VR (U7 m)) c
  | ⟨4, _⟩ => fun c => dat4 (VR (U9 m)) (qF _) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

end Cert.KernelIdeal.Hand
end
-- ==== Proof.KRun.lean ====
/-
  The kernel program's run: its five kernel regions as segments between the host stretches, and the launch.

  Each region is entered with every unscoped buffer of the core held at the contents before it, takes its windows' arrays
  out of them, runs its pipeline, and puts the arrays back at what the write-backs leave. Regions 1 to 4 read distinct
  arrays. Region 0 is handed two constant rows twice each (as mean and shift, and as scale and gain): the buffers behind
  its eight windows are six, and each of the two shared ones is dealt to its two windows as the two halves of its share
  and joined again at the exit. The run then reads every unscoped buffer of the final memory at the last valuation, which
  gives the frame (no argument is ever written) and the result buffer's contents.
-/
import proofs.«157882_j13769665151543_1_alg».proof.Proof.KChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 1's exit each of its arrays holds what the pipeline leaves: an input array is never written, an output
    array is the updated entry. -/
theorem hF1 (c : Dev nD) (w : Fin cfg1.W) : (pdats m 1 c).arrAt w cfg1.N = VR (U4 m) c (Pipeline.arrRef spec1 w) := by
  show (dat1 (VR (U3 m)) c).arrAt w cfg1.N = _
  have h : ∀ w : Fin cfg1.W, w = 0 ∨ w = 1 ∨ w = 2 ∨ w = 3 ∨ w = 4 ∨ w = 5 := by decide
  rcases h w with rfl | rfl | rfl | rfl | rfl | rfl
  · exact ((dat1 (VR (U3 m)) c).arrAt_in 0 rfl _).trans ((A_eq1 (VR (U3 m)) c 0).trans (U4_of_ne m c _ (by decide) (by decide) (by decide)).symm)
  · exact ((dat1 (VR (U3 m)) c).arrAt_in 1 rfl _).trans ((A_eq1 (VR (U3 m)) c 1).trans (U4_of_ne m c _ (by decide) (by decide) (by decide)).symm)
  · exact ((dat1 (VR (U3 m)) c).arrAt_in 2 rfl _).trans ((A_eq1 (VR (U3 m)) c 2).trans (U4_of_ne m c _ (by decide) (by decide) (by decide)).symm)
  · exact (U4_v29_0 m c).symm
  · exact (U4_v29_1 m c).symm
  · exact (U4_v29_2 m c).symm
theorem hrest1 (c : Dev nD) : ∀ b, b ∉ Finset.univ.image (Pipeline.arrRef spec1) → VR (U4 m) c b = VR (U3 m) c b := fun b hb =>
  U4_of_ne m c b (fun e => hb (Finset.mem_image.mpr ⟨3, Finset.mem_univ _, e.symm⟩))
    (fun e => hb (Finset.mem_image.mpr ⟨4, Finset.mem_univ _, e.symm⟩)) (fun e => hb (Finset.mem_image.mpr ⟨5, Finset.mem_univ _, e.symm⟩))

set_option backward.isDefEq.respectTransparency.types false in
/-- Region 1 over the thread state: entered from every unscoped buffer at the contents before it, left at the contents
    after it; its arrays split out of the unscoped buffers and put back at the exit contents; the generator register into
    the class invariant and out; nothing owed; no semaphore of the kernel's own. -/
def reg1 : Pipeline.RegionSeg (pcfgs (F := F)) Cert.KernelIdeal.Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR (U3 m)) c).loose
  hwaits := Pipeline.hwaits_of_owed_zero _ _ _ _ L lv 1 fun _ _ => rfl
  pre c := iprop(StableHlo.held (c : Thread nD τ) (Pipeline.ucRefs τ sig) (V3 m (outsK m) c) ∗ R c)
  post c := iprop(StableHlo.held (c : Thread nD τ) (Pipeline.ucRefs τ sig) (V4 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (VR (U3 m) c)
  hentry c := by
    rw [Pipeline.ownSems0_none, V3_eq]
    have hsplit := Pipeline.arrays_of_unscopedBufs (p := 1) (pcfgs (F := F)) Cert.KernelIdeal.Gen.adm (pdats m) launch1.win launch1.arr_whole c
      ((pdats m 1 c).share_full fun _ => rfl) (VR (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V4_eq]
    have hjoin := Pipeline.unscopedBufs_of_arrays (p := 1) (pcfgs (F := F)) Cert.KernelIdeal.Gen.adm (Ix := Unit) (Name := ℕ) (U := UR sig nD τ) (Lvl := ℕ)
      launch1.win launch1.arr_whole c (pdats m) ((pdats m 1 c).share_full fun _ => rfl)
      (VR (U3 m) c) (VR (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input array is never written, the output
    array is the updated entry. -/
theorem hF2 (c : Dev nD) (w : Fin cfg2.W) : (pdats m 2 c).arrAt w cfg2.N = VR (U6 m) c (Pipeline.arrRef spec2 w) := by
  show (dat2 (VR (U5 m)) (qF _) c).arrAt w cfg2.N = _
  have h : ∀ w : Fin cfg2.W, w = 0 ∨ w = 1 ∨ w = 2 ∨ w = 3 ∨ w = 4 ∨ w = 5 ∨ w = 6 ∨ w = 7 := by decide
  rcases h w with rfl | rfl | rfl | rfl | rfl | rfl | rfl | rfl
  · exact ((dat2 (VR (U5 m)) (qF _) c).arrAt_in 0 rfl _).trans ((A_eq2 (VR (U5 m)) (qF _) c 0).trans (U6_of_ne m c _ (by decide)).symm)
  · exact ((dat2 (VR (U5 m)) (qF _) c).arrAt_in 1 rfl _).trans ((A_eq2 (VR (U5 m)) (qF _) c 1).trans (U6_of_ne m c _ (by decide)).symm)
  · exact ((dat2 (VR (U5 m)) (qF _) c).arrAt_in 2 rfl _).trans ((A_eq2 (VR (U5 m)) (qF _) c 2).trans (U6_of_ne m c _ (by decide)).symm)
  · exact ((dat2 (VR (U5 m)) (qF _) c).arrAt_in 3 rfl _).trans ((A_eq2 (VR (U5 m)) (qF _) c 3).trans (U6_of_ne m c _ (by decide)).symm)
  · exact ((dat2 (VR (U5 m)) (qF _) c).arrAt_in 4 rfl _).trans ((A_eq2 (VR (U5 m)) (qF _) c 4).trans (U6_of_ne m c _ (by decide)).symm)
  · exact ((dat2 (VR (U5 m)) (qF _) c).arrAt_in 5 rfl _).trans ((A_eq2 (VR (U5 m)) (qF _) c 5).trans (U6_of_ne m c _ (by decide)).symm)
  · exact ((dat2 (VR (U5 m)) (qF _) c).arrAt_in 6 rfl _).trans ((A_eq2 (VR (U5 m)) (qF _) c 6).trans (U6_of_ne m c _ (by decide)).symm)
  · exact (U6_v43 m c).symm
theorem hrest2 (c : Dev nD) : ∀ b, b ∉ Finset.univ.image (Pipeline.arrRef spec2) → VR (U6 m) c b = VR (U5 m) c b := fun b hb =>
  U6_of_ne m c b (fun e => hb (Finset.mem_image.mpr ⟨7, Finset.mem_univ _, e.symm⟩))

set_option backward.isDefEq.respectTransparency.types false in
/-- Region 2 over the thread state: entered from every unscoped buffer at the contents before it, left at the contents
    after it; its arrays split out of the unscoped buffers and put back at the exit contents; the generator register into
    the class invariant and out; nothing owed; no semaphore of the kernel's own. -/
def reg2 : Pipeline.RegionSeg (pcfgs (F := F)) Cert.KernelIdeal.Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VR (U5 m)) (qF _) c).loose
  hwaits := Pipeline.hwaits_of_owed_zero _ _ _ _ L lv 2 fun _ _ => rfl
  pre c := iprop(StableHlo.held (c : Thread nD τ) (Pipeline.ucRefs τ sig) (V5 m (outsK m) c) ∗ R c)
  post c := iprop(StableHlo.held (c : Thread nD τ) (Pipeline.ucRefs τ sig) (V6 m (outsK m) c) ∗ R c)
  X c := iprop(∃ r, prngReg c r)
  Y c := iprop(∃ r, prngReg c r)
  Z c := Pipeline.unscopedRest (Ix := Unit) (Name := ℕ) (U := UR sig nD τ) (Lvl := ℕ) spec2 c (VR (U5 m) c)
  hentry c := by
    rw [Pipeline.ownSems0_none, V5_eq]
    have hsplit := Pipeline.arrays_of_unscopedBufs (p := 2) (pcfgs (F := F)) Cert.KernelIdeal.Gen.adm (pdats m) launch2.win launch2.arr_whole c
      ((pdats m 2 c).share_full fun _ => rfl) (VR (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := F)) Cert.KernelIdeal.Gen.adm (Ix := Unit) (Name := ℕ) (U := UR sig nD τ) (Lvl := ℕ)
      launch2.win launch2.arr_whole c (pdats m) ((pdats m 2 c).share_full fun _ => rfl)
      (VR (U5 m) c) (VR (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: an input array is never written, an output
    array is the updated entry. -/
theorem hF3 (c : Dev nD) (w : Fin cfg3.W) : (pdats m 3 c).arrAt w cfg3.N = VR (U8 m) c (Pipeline.arrRef spec3 w) := by
  show (dat3 (VR (U7 m)) c).arrAt w cfg3.N = _
  have h : ∀ w : Fin cfg3.W, w = 0 ∨ w = 1 ∨ w = 2 ∨ w = 3 ∨ w = 4 ∨ w = 5 := by decide
  rcases h w with rfl | rfl | rfl | rfl | rfl | rfl
  · exact ((dat3 (VR (U7 m)) c).arrAt_in 0 rfl _).trans ((A_eq3 (VR (U7 m)) c 0).trans (U8_of_ne m c _ (by decide) (by decide) (by decide)).symm)
  · exact ((dat3 (VR (U7 m)) c).arrAt_in 1 rfl _).trans ((A_eq3 (VR (U7 m)) c 1).trans (U8_of_ne m c _ (by decide) (by decide) (by decide)).symm)
  · exact ((dat3 (VR (U7 m)) c).arrAt_in 2 rfl _).trans ((A_eq3 (VR (U7 m)) c 2).trans (U8_of_ne m c _ (by decide) (by decide) (by decide)).symm)
  · exact (U8_v55_0 m c).symm
  · exact (U8_v55_1 m c).symm
  · exact (U8_v55_2 m c).symm
theorem hrest3 (c : Dev nD) : ∀ b, b ∉ Finset.univ.image (Pipeline.arrRef spec3) → VR (U8 m) c b = VR (U7 m) c b := fun b hb =>
  U8_of_ne m c b (fun e => hb (Finset.mem_image.mpr ⟨3, Finset.mem_univ _, e.symm⟩))
    (fun e => hb (Finset.mem_image.mpr ⟨4, Finset.mem_univ _, e.symm⟩)) (fun e => hb (Finset.mem_image.mpr ⟨5, Finset.mem_univ _, e.symm⟩))

set_option backward.isDefEq.respectTransparency.types false in
/-- Region 3 over the thread state: entered from every unscoped buffer at the contents before it, left at the contents
    after it; its arrays split out of the unscoped buffers and put back at the exit contents; the generator register into
    the class invariant and out; nothing owed; no semaphore of the kernel's own. -/
def reg3 : Pipeline.RegionSeg (pcfgs (F := F)) Cert.KernelIdeal.Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VR (U7 m)) c).loose
  hwaits := Pipeline.hwaits_of_owed_zero _ _ _ _ L lv 3 fun _ _ => rfl
  pre c := iprop(StableHlo.held (c : Thread nD τ) (Pipeline.ucRefs τ sig) (V7 m (outsK m) c) ∗ R c)
  post c := iprop(StableHlo.held (c : Thread nD τ) (Pipeline.ucRefs τ sig) (V8 m (outsK m) c) ∗ R c)
  X c := iprop(∃ r, prngReg c r)
  Y c := iprop(∃ r, prngReg c r)
  Z c := Pipeline.unscopedRest (Ix := Unit) (Name := ℕ) (U := UR sig nD τ) (Lvl := ℕ) spec3 c (VR (U7 m) c)
  hentry c := by
    rw [Pipeline.ownSems0_none, V7_eq]
    have hsplit := Pipeline.arrays_of_unscopedBufs (p := 3) (pcfgs (F := F)) Cert.KernelIdeal.Gen.adm (pdats m) launch3.win launch3.arr_whole c
      ((pdats m 3 c).share_full fun _ => rfl) (VR (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    rw [V8_eq]
    have hjoin := Pipeline.unscopedBufs_of_arrays (p := 3) (pcfgs (F := F)) Cert.KernelIdeal.Gen.adm (Ix := Unit) (Name := ℕ) (U := UR sig nD τ) (Lvl := ℕ)
      launch3.win launch3.arr_whole c (pdats m) ((pdats m 3 c).share_full fun _ => rfl)
      (VR (U7 m) c) (VR (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 4's exit each of its arrays holds what the pipeline leaves: an input array is never written, the output
    array is the updated entry. -/
theorem hF4 (c : Dev nD) (w : Fin cfg4.W) : (pdats m 4 c).arrAt w cfg4.N = VR (U10 m) c (Pipeline.arrRef spec4 w) := by
  show (dat4 (VR (U9 m)) (qF _) c).arrAt w cfg4.N = _
  have h : ∀ w : Fin cfg4.W, w = 0 ∨ w = 1 ∨ w = 2 ∨ w = 3 ∨ w = 4 ∨ w = 5 := by decide
  rcases h w with rfl | rfl | rfl | rfl | rfl | rfl
  · exact ((dat4 (VR (U9 m)) (qF _) c).arrAt_in 0 rfl _).trans ((A_eq4 (VR (U9 m)) (qF _) c 0).trans (U10_of_ne m c _ (by decide)).symm)
  · exact ((dat4 (VR (U9 m)) (qF _) c).arrAt_in 1 rfl _).trans ((A_eq4 (VR (U9 m)) (qF _) c 1).trans (U10_of_ne m c _ (by decide)).symm)
  · exact ((dat4 (VR (U9 m)) (qF _) c).arrAt_in 2 rfl _).trans ((A_eq4 (VR (U9 m)) (qF _) c 2).trans (U10_of_ne m c _ (by decide)).symm)
  · exact ((dat4 (VR (U9 m)) (qF _) c).arrAt_in 3 rfl _).trans ((A_eq4 (VR (U9 m)) (qF _) c 3).trans (U10_of_ne m c _ (by decide)).symm)
  · exact ((dat4 (VR (U9 m)) (qF _) c).arrAt_in 4 rfl _).trans ((A_eq4 (VR (U9 m)) (qF _) c 4).trans (U10_of_ne m c _ (by decide)).symm)
  · exact (U10_v69 m c).symm
theorem hrest4 (c : Dev nD) : ∀ b, b ∉ Finset.univ.image (Pipeline.arrRef spec4) → VR (U10 m) c b = VR (U9 m) c b := fun b hb =>
  U10_of_ne m c b (fun e => hb (Finset.mem_image.mpr ⟨5, Finset.mem_univ _, e.symm⟩))

set_option backward.isDefEq.respectTransparency.types false in
/-- Region 4 over the thread state: entered from every unscoped buffer at the contents before it, left at the contents
    after it; its arrays split out of the unscoped buffers and put back at the exit contents; the generator register into
    the class invariant and out; nothing owed; no semaphore of the kernel's own. -/
def reg4 : Pipeline.RegionSeg (pcfgs (F := F)) Cert.KernelIdeal.Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VR (U9 m)) (qF _) c).loose
  hwaits := Pipeline.hwaits_of_owed_zero _ _ _ _ L lv 4 fun _ _ => rfl
  pre c := iprop(StableHlo.held (c : Thread nD τ) (Pipeline.ucRefs τ sig) (V9 m (outsK m) c) ∗ R c)
  post c := iprop(StableHlo.held (c : Thread nD τ) (Pipeline.ucRefs τ sig) (V10 m (outsK m) c) ∗ R c)
  X c := iprop(∃ r, prngReg c r)
  Y c := iprop(∃ r, prngReg c r)
  Z c := Pipeline.unscopedRest (Ix := Unit) (Name := ℕ) (U := UR sig nD τ) (Lvl := ℕ) spec4 c (VR (U9 m) c)
  hentry c := by
    rw [Pipeline.ownSems0_none, V9_eq]
    have hsplit := Pipeline.arrays_of_unscopedBufs (p := 4) (pcfgs (F := F)) Cert.KernelIdeal.Gen.adm (pdats m) launch4.win launch4.arr_whole c
      ((pdats m 4 c).share_full fun _ => rfl) (VR (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    rw [V10_eq]
    have hjoin := Pipeline.unscopedBufs_of_arrays (p := 4) (pcfgs (F := F)) Cert.KernelIdeal.Gen.adm (Ix := Unit) (Name := ℕ) (U := UR sig nD τ) (Lvl := ℕ)
      launch4.win launch4.arr_whole c (pdats m) ((pdats m 4 c).share_full fun _ => rfl)
      (VR (U9 m) c) (VR (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 0: two of its input arrays are each read through two windows -/

theorem U2_in (c : Dev nD) (w : Fin cfg0.W) (hw : Pipeline.arrRef spec0 w ≠ main_v17) :
    VR (U2 m) c (Pipeline.arrRef spec0 w) = VR (U1 m) c (Pipeline.arrRef spec0 w) := U2_of_ne m c _ hw

/-- At region 0's exit each of its arrays holds what the pipeline leaves. -/
theorem hF0 (c : Dev nD) (w : Fin cfg0.W) : (pdats m 0 c).arrAt w cfg0.N = VR (U2 m) c (Pipeline.arrRef spec0 w) := by
  show (dat0 (VR (U1 m)) q0 c).arrAt w cfg0.N = _
  have h : ∀ w : Fin cfg0.W, w = 0 ∨ w = 1 ∨ w = 2 ∨ w = 3 ∨ w = 4 ∨ w = 5 ∨ w = 6 ∨ w = 7 := by decide
  rcases h w with rfl | rfl | rfl | rfl | rfl | rfl | rfl | rfl
  · exact ((dat0 (VR (U1 m)) q0 c).arrAt_in 0 rfl _).trans ((A_eq0 (VR (U1 m)) q0 c 0).trans (U2_of_ne m c _ (by decide)).symm)
  · exact ((dat0 (VR (U1 m)) q0 c).arrAt_in 1 rfl _).trans ((A_eq0 (VR (U1 m)) q0 c 1).trans (U2_of_ne m c _ (by decide)).symm)
  · exact ((dat0 (VR (U1 m)) q0 c).arrAt_in 2 rfl _).trans ((A_eq0 (VR (U1 m)) q0 c 2).trans (U2_of_ne m c _ (by decide)).symm)
  · exact ((dat0 (VR (U1 m)) q0 c).arrAt_in 3 rfl _).trans ((A_eq0 (VR (U1 m)) q0 c 3).trans (U2_of_ne m c _ (by decide)).symm)
  · exact ((dat0 (VR (U1 m)) q0 c).arrAt_in 4 rfl _).trans ((A_eq0 (VR (U1 m)) q0 c 4).trans (U2_of_ne m c _ (by decide)).symm)
  · exact ((dat0 (VR (U1 m)) q0 c).arrAt_in 5 rfl _).trans ((A_eq0 (VR (U1 m)) q0 c 5).trans (U2_of_ne m c _ (by decide)).symm)
  · exact ((dat0 (VR (U1 m)) q0 c).arrAt_in 6 rfl _).trans ((A_eq0 (VR (U1 m)) q0 c 6).trans (U2_of_ne m c _ (by decide)).symm)
  · exact (U2_v17 m c).symm
theorem hrest0 (c : Dev nD) : ∀ b, b ∉ Finset.univ.image (Pipeline.arrRef spec0) → VR (U2 m) c b = VR (U1 m) c b := fun b hb =>
  U2_of_ne m c b (fun e => hb (Finset.mem_image.mpr ⟨7, Finset.mem_univ _, e.symm⟩))

/-- The shares region 0's proof data holds its arrays at. -/
theorem share0 (V : (c : Dev nD) → (b : Ref sig .tc) → Buf (Elt F) ((c : Thread nD τ).loc b)) (c : Dev nD) (w : Fin cfg0.W) :
    (dat0 V q0 c).share w = q0 w := by
  have h : ∀ w : Fin cfg0.W, w = 0 ∨ w = 1 ∨ w = 2 ∨ w = 3 ∨ w = 4 ∨ w = 5 ∨ w = 6 ∨ w = 7 := by decide
  rcases h w with rfl | rfl | rfl | rfl | rfl | rfl | rfl | rfl <;> rfl

/-- The six distinct buffers behind region 0's eight windows, each whole at the full share, are the region's arrays at
    the same contents: the two constant rows, read through two windows each, are dealt as two halves of their share. -/
theorem arrays0_iff (V : (c : Dev nD) → (b : Ref sig .tc) → Buf (Elt F) ((c : Thread nD τ).loc b)) (c : Dev nD)
    (W : (b : Ref sig .tc) → Buf (Elt F) ((c : Thread nD τ).loc b))
    (Fw : (w : Fin cfg0.W) → Buf (Elt F) ((cfg0.win w).arr.view.loc (c : Thread nD τ))) (hF : ∀ w, Fw w = W (Pipeline.arrRef spec0 w)) :
    (Pipeline.arrBufs (Ix := Unit) (Name := ℕ) (U := UR sig nD τ) (Lvl := ℕ) spec0 c W : sProp 𝕄) ⊣⊢ (dat0 V q0 c).arrays Fw := by
  have key : (dat0 V q0 c).arrays Fw
      = bigSep Finset.univ fun w : Fin cfg0.W => (((c : Thread nD τ).loc (Pipeline.arrRef spec0 w)) ↦{q0 w} W (Pipeline.arrRef spec0 w) : sProp 𝕄) := by
    unfold Dat.arrays
    exact bigSep_congr fun w _ => by rw [(arr_whole0 w).set_eq_univ, hF w, share0]
  rw [key, bigSep_W0]
  unfold Pipeline.arrBufs
  rw [show Finset.univ.image (Pipeline.arrRef spec0) = ({main_arg0, main_v13, main_v15, main_v16, main_arg1, main_v17} : Finset (Ref sig .tc)) from by decide]
  rw [bigSep_insert (by decide), bigSep_insert (by decide), bigSep_insert (by decide), bigSep_insert (by decide), bigSep_insert (by decide), bigSep_singleton]
  show iprop((((c : Thread nD τ).loc main_arg0) ↦{fullShare} W main_arg0) ∗ (((c : Thread nD τ).loc main_v13) ↦{fullShare} W main_v13)
      ∗ (((c : Thread nD τ).loc main_v15) ↦{fullShare} W main_v15) ∗ (((c : Thread nD τ).loc main_v16) ↦{fullShare} W main_v16)
      ∗ (((c : Thread nD τ).loc main_arg1) ↦{fullShare} W main_arg1) ∗ (((c : Thread nD τ).loc main_v17) ↦{fullShare} W main_v17))
    ⊣⊢ iprop((((c : Thread nD τ).loc main_arg0) ↦{fullShare} W main_arg0) ∗ (((c : Thread nD τ).loc main_v13) ↦{fullShare} W main_v13)
      ∗ (((c : Thread nD τ).loc main_v15) ↦{fullShare.left} W main_v15) ∗ (((c : Thread nD τ).loc main_v16) ↦{fullShare.left} W main_v16)
      ∗ (((c : Thread nD τ).loc main_v16) ↦{fullShare.right} W main_v16) ∗ (((c : Thread nD τ).loc main_v15) ↦{fullShare.right} W main_v15)
      ∗ (((c : Thread nD τ).loc main_arg1) ↦{fullShare} W main_arg1) ∗ (((c : Thread nD τ).loc main_v17) ↦{fullShare} W main_v17))
  have s15 : ((((c : Thread nD τ).loc main_v15) ↦{fullShare} W main_v15) : sProp 𝕄) ⊣⊢ iprop((((c : Thread nD τ).loc main_v15) ↦{fullShare.left} W main_v15) ∗ (((c : Thread nD τ).loc main_v15) ↦{fullShare.right} W main_v15)) :=
    pointsTo_share (PosShare.mem_left_op_right fullShare)
  have s16 : ((((c : Thread nD τ).loc main_v16) ↦{fullShare} W main_v16) : sProp 𝕄) ⊣⊢ iprop((((c : Thread nD τ).loc main_v16) ↦{fullShare.left} W main_v16) ∗ (((c : Thread nD τ).loc main_v16) ↦{fullShare.right} W main_v16)) :=
    pointsTo_share (PosShare.mem_left_op_right fullShare)
  constructor
  · iintro ⟨H0, H13, H15, H16, H1, H17⟩
    ihave H15' := s15.1 $$ H15
    ihave H16' := s16.1 $$ H16
    icases H15' with ⟨H15a, H15b⟩
    icases H16' with ⟨H16a, H16b⟩
    isplitl [H0]; · iexact H0
    isplitl [H13]; · iexact H13
    isplitl [H15a]; · iexact H15a
    isplitl [H16a]; · iexact H16a
    isplitl [H16b]; · iexact H16b
    isplitl [H15b]; · iexact H15b
    isplitl [H1]; · iexact H1
    iexact H17
  · iintro ⟨H0, H13, H15a, H16a, H16b, H15b, H1, H17⟩
    isplitl [H0]; · iexact H0
    isplitl [H13]; · iexact H13
    isplitl [H15a H15b]
    · iapply s15.2; isplitl [H15a] <;> iassumption
    isplitl [H16a H16b]
    · iapply s16.2; isplitl [H16a] <;> iassumption
    isplitl [H1]; · iexact H1
    iexact H17

theorem arr_unscoped0 : ∀ w : Fin 8, (Pipeline.arrRef spec0 w).isScoped = false := by decide

set_option backward.isDefEq.respectTransparency.types false in
/-- Region 0 over the thread state. Its windows' arrays are six buffers, two of them read through two windows each:
    at entry the buffers are split out of the unscoped buffers and dealt to the windows (`arrays0_iff`), at the exit
    they are joined again and put back. -/
def reg0 : Pipeline.RegionSeg (pcfgs (F := F)) Cert.KernelIdeal.Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (VR (U1 m)) q0 c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (VR (U1 m) c)
  hentry c := by
    rw [Pipeline.ownSems0_none, V1_eq]
    have hsplit : (unscopedBufs c (VR (U1 m) c) : sProp 𝕄)
        ⊢ iprop((pdats m 0 c).arrays ((pdats m 0 c).arrAt · 0) ∗ Pipeline.unscopedRest spec0 c (VR (U1 m) c)) := by
      rw [Pipeline.unscopedBufs_split₀ (Pipeline.pin (pcfgs (F := F)) Cert.KernelIdeal.Gen.adm) 0 arr_unscoped0 c (VR (U1 m) c)]
      exact sep_mono (arrays0_iff (VR (U1 m)) c (VR (U1 m) c) _ (fun w => A_eq0 (VR (U1 m)) q0 c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin : iprop((pdats m 0 c).arrays ((pdats m 0 c).arrAt · cfg0.N) ∗ Pipeline.unscopedRest spec0 c (VR (U1 m) c))
        ⊢ (unscopedBufs c (VR (U2 m) c) : sProp 𝕄) := by
      rw [Pipeline.unscopedBufs_split₀ (Pipeline.pin (pcfgs (F := F)) Cert.KernelIdeal.Gen.adm) 0 arr_unscoped0 c (VR (U2 m) c)]
      refine sep_mono (arrays0_iff (VR (U1 m)) c (VR (U2 m) c) _ (hF0 m c)).2 (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- Every weakly fair execution of @main from memory `m` with zero counters terminates, and every final memory holds
    each unscoped buffer of each core at the last valuation: the arguments as launched, the result at what the last
    region leaves. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = U10 m c b) := by
  refine Pipeline.θ_run_regions_kit_dev (pcfgs (F := F)) Cert.KernelIdeal.Gen.adm (pdats m) () cellOf_inj emb₁ defs₀ 𝒱₀ L lv m ρ main
    (segs m (outsK m) 𝒱₀ L lv (fun _ c => R c) () (pdats m) (reg0 m) (reg1 m) (reg2 m) (reg3 m) (reg4 m))
    (fun c Q => by
      rewrite [main_chain c, Pipeline.Seg.run_eq_chain,
        show (segs m (outsK m) 𝒱₀ L lv (fun _ c => R c) () (pdats m) (reg0 m) (reg1 m) (reg2 m) (reg3 m) (reg4 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V10 m (outsK m) c) ∗ ∃ r, prngReg c r))
    (hch := fun c => ⟨.rfl, .rfl, .rfl, .rfl, .rfl, .rfl, .rfl, .rfl, .rfl, .rfl,
      (show (iprop(StableHlo.held (c : Thread nD τ) (Pipeline.ucRefs τ sig) (V10 m (outsK m) c) ∗ R c) : sProp 𝕄)
          ⊢ iprop((StableHlo.held (c : Thread nD τ) (Pipeline.ucRefs τ sig) (V10 m (outsK m) c) ∗ ∃ r, prngReg c r)
            ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U10 m c b)
    (hfin := fun c s' => by
      rw [V10_eq]
      iintro ⟨⟨Hh, -⟩, HSI⟩
      unfold StableHlo.held
      imodintro
      iapply (pointsTo_read_all (Pipeline.ucRefs τ sig) (fun b => (((c : Thread nD τ)).1, b)) (U10 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    have e := fun b hb => (h c (Proc.devRef .tc b) (mem_uc b hb)).trans (congrFun (V10_eq m c).symm _)
    exact ⟨(e main_arg0 (by decide)).trans (V10_main_arg0 m (outsK m) c), (e main_arg1 (by decide)).trans (V10_main_arg1 m (outsK m) c),
      (e main_arg2 (by decide)).trans (V10_main_arg2 m (outsK m) c), (e main_arg3 (by decide)).trans (V10_main_arg3 m (outsK m) c),
      (e main_arg4 (by decide)).trans (V10_main_arg4 m (outsK m) c), (e main_arg5 (by decide)).trans (V10_main_arg5 m (outsK m) c),
      (e main_arg6 (by decide)).trans (V10_main_arg6 m (outsK m) c), (e main_arg7 (by decide)).trans (V10_main_arg7 m (outsK m) c),
      (e main_arg8 (by decide)).trans (V10_main_arg8 m (outsK m) c), (e main_arg9 (by decide)).trans (V10_main_arg9 m (outsK m) c),
      (e main_arg10 (by decide)).trans (V10_main_arg10 m (outsK m) c)⟩) (run_all m ρ)

/-- The run with the result named: the result buffer ends at the last valuation's contents, every argument as launched. -/
theorem run_val (ρ : Dev nD → PrngReg) :
    θ_run defs (onTc (τ := τ) (main (F := F))) ⟨m, fun _ => 0, ρ⟩ (fun r => ∀ c : Dev nD,
      r.2.mem ((c.tc : Thread nD τ).loc main_v69) = U10 m c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    have e := fun b hb => (h c (Proc.devRef .tc b) (mem_uc b hb)).trans (congrFun (V10_eq m c).symm _)
    exact ⟨h c (Proc.devRef .tc main_v69) (mem_uc main_v69 (by decide)),
      (e main_arg0 (by decide)).trans (V10_main_arg0 m (outsK m) c), (e main_arg1 (by decide)).trans (V10_main_arg1 m (outsK m) c),
      (e main_arg2 (by decide)).trans (V10_main_arg2 m (outsK m) c), (e main_arg3 (by decide)).trans (V10_main_arg3 m (outsK m) c),
      (e main_arg4 (by decide)).trans (V10_main_arg4 m (outsK m) c), (e main_arg5 (by decide)).trans (V10_main_arg5 m (outsK m) c),
      (e main_arg6 (by decide)).trans (V10_main_arg6 m (outsK m) c), (e main_arg7 (by decide)).trans (V10_main_arg7 m (outsK m) c),
      (e main_arg8 (by decide)).trans (V10_main_arg8 m (outsK m) c), (e main_arg9 (by decide)).trans (V10_main_arg9 m (outsK m) c),
      (e main_arg10 (by decide)).trans (V10_main_arg10 m (outsK m) c)⟩) (run_all m ρ)

end Cert.KernelIdeal.Hand

end
-- ==== Proof.WRegA0.lean ====
import proofs.«157882_j13769665151543_1_alg».proof.Proof.Gen.Kernel.Launch
import proofs.«157882_j13769665151543_1_alg».proof.Proof.Gen.Kernel.Skeleton
import proofs.«157882_j13769665151543_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the pipeline's proof data and the body obligation

Every window of this pipeline is handed to the body whole. The body reads every input window's staging
buffer, computes one pure value from them and writes it over the whole staging buffer of the output
window. The proof data says so: after the body an input's buffer still holds its block of the array as
the region found it, and the output's buffer holds that pure value of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not: where it
    was not fetched the block index has not moved, and the body left the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not: where it
    was not fetched the block index has not moved, and the body left the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not: where it
    was not fetched the block index has not moved, and the body left the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not: where it
    was not fetched the block index has not moved, and the body left the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not: where it
    was not fetched the block index has not moved, and the body left the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, fetched there or not: where it
    was not fetched the block index has not moved, and the body left the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's current staging buffer holds its block at every point, fetched there or not: where it
    was not fetched the block index has not moved, and the body left the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each is the whole of its buffer -/

abbrev r0_0 : Rect S5000x128 := Rect.unit (s := S5000x128) ![0, 0] S5000x128.size inb_S5000x128_S5000x128_0_0
abbrev r0_1 : Rect S5000x1 := Rect.unit (s := S5000x1) ![0, 0] S5000x1.size inb_S5000x1_S5000x1_0_0
abbrev r0_2 : Rect S1x128 := Rect.unit (s := S1x128) ![0, 0] S1x128.size inb_S1x128_S1x128_0_0
abbrev r0_3 : Rect S128x64 := Rect.unit (s := S128x64) ![0, 0] S128x64.size inb_S128x64_S128x64_0_0
abbrev r0_4 : Rect S5000x64 := Rect.unit (s := S5000x64) ![0, 0] S5000x64.size inb_S5000x64_S5000x64_0_0

/-! ## What the body leaves in the output window's buffer -/

/-- Window 7's staging buffer after the body, from the input windows' blocks: its one store, of the
    pure value the body computes from what it loaded. -/
def out0_7 (x0 : Vec F S5000x128 .f32) (x1 : Vec F S5000x1 .f32) (x2 : Vec F S1x128 .f32) (x3 : Vec F S1x128 .f32) (x4 : Vec F S1x128 .f32) (x5 : Vec F S1x128 .f32) (x6 : Vec F S128x64 .f32) : Vec F S5000x64 .f32 :=
  View.canon [⟨r0_4, k0_pay1 (View.ld x0 r0_0) (View.ld x2 r0_2) (View.ld x3 r0_2) (View.ld x4 r0_2) (View.ld x5 r0_2) (View.ld x1 r0_1) (View.ld x6 r0_3)⟩]

/-- The store is of the whole buffer, so it covers it. -/
theorem cover0_7 (p0 : Vec F S5000x64 .f32) (y : S5000x64.Idx) :
    ∃ pc ∈ ([⟨r0_4, p0⟩] : List (View.Piece (Elt F) S5000x64 .f32)), y ∈ pc.1.set :=
  View.cover_of_tiled [⟨r0_4, p0⟩] S5000x64.size (by rfl) y

/-! ## The body's triple -/

set_option maxHeartbeats 4000000 in
/-- The kernel body on whole staging memrefs, the inputs' at read contents and the output's at anything, runs to
    the continuation holding the inputs' as they were and the output's at `out0_7` of the inputs'. -/
theorem sound_kernel0 (c : Dev nD) (E : Set ℕ) (i : grid0.Coords) (arg0 : Memref sig .tc .vmem S5000x128 .f32) (harg0 : arg0.IsWhole) (arg1 : Memref sig .tc .vmem S5000x1 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x64 .f32) (harg6 : arg6.IsWhole) (arg7 : Memref sig .tc .vmem S5000x64 .f32) (harg7 : arg7.IsWhole)
    (x0 : Vec F S5000x128 .f32) (x1 : Vec F S5000x1 .f32) (x2 : Vec F S1x128 .f32) (x3 : Vec F S1x128 .f32) (x4 : Vec F S1x128 .f32) (x5 : Vec F S1x128 .f32) (x6 : Vec F S128x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out0_7 x0 x1 x2 x3 x4 x5 x6)) -∗ K ⟨⟩))
      ⊢ wp frame (wpE (defs₀ (F := F)) Variants.none c none) E (cc0__pre_transform_kernel i arg0 harg0 arg1 harg1 arg2 harg2 arg3 harg3 arg4 harg4 arg5 harg5 arg6 harg6 arg7 harg7) K := by
  simp only [cc0__pre_transform_kernel_eq_skeleton]; unfold cc0__pre_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover0_7 _)

/-! ## The pipeline's proof data -/

/-- The proof data of this pipeline on core `c`: the arrays as the region finds them; after the body at point `t`
    each input's buffer at its block and the output's at `out0_7` of the input blocks; the scoped rest and the
    generator register untouched; nothing owed; the arrays' shares a parameter, which the body never looks at. -/
def dat0 (q : Fin cfg0.W → PosShare TreeShare) (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t) (iblk0 V c 3 t) (iblk0 V c 4 t) (iblk0 V c 5 t) (iblk0 V c 6 t)
  Φ _ := Pipeline.ΦA spec0 c
  q := q
  owed _ := 0

/-- The proof data's arrays are the region-entry contents. -/
theorem A_eq0 (q : Fin cfg0.W → PosShare TreeShare) (c : Dev nD) (w : Fin cfg0.W) : (dat0 V q c).A w = V c (Pipeline.arrRef spec0 w) := by
  dsimp only [dat0]

/-- What the body leaves, window by window. -/
theorem after0_0 (q : Fin cfg0.W → PosShare TreeShare) (c : Dev nD) (t : Fin cfg0.N) : (dat0 V q c).after 0 t = iblk0 V c 0 t := by dsimp only [dat0]
theorem after0_1 (q : Fin cfg0.W → PosShare TreeShare) (c : Dev nD) (t : Fin cfg0.N) : (dat0 V q c).after 1 t = iblk0 V c 1 t := by dsimp only [dat0]
theorem after0_2 (q : Fin cfg0.W → PosShare TreeShare) (c : Dev nD) (t : Fin cfg0.N) : (dat0 V q c).after 2 t = iblk0 V c 2 t := by dsimp only [dat0]
theorem after0_3 (q : Fin cfg0.W → PosShare TreeShare) (c : Dev nD) (t : Fin cfg0.N) : (dat0 V q c).after 3 t = iblk0 V c 3 t := by dsimp only [dat0]
theorem after0_4 (q : Fin cfg0.W → PosShare TreeShare) (c : Dev nD) (t : Fin cfg0.N) : (dat0 V q c).after 4 t = iblk0 V c 4 t := by dsimp only [dat0]
theorem after0_5 (q : Fin cfg0.W → PosShare TreeShare) (c : Dev nD) (t : Fin cfg0.N) : (dat0 V q c).after 5 t = iblk0 V c 5 t := by dsimp only [dat0]
theorem after0_6 (q : Fin cfg0.W → PosShare TreeShare) (c : Dev nD) (t : Fin cfg0.N) : (dat0 V q c).after 6 t = iblk0 V c 6 t := by dsimp only [dat0]
theorem after0_7 (q : Fin cfg0.W → PosShare TreeShare) (c : Dev nD) (t : Fin cfg0.N) : (dat0 V q c).after 7 t = out0_7 (iblk0 V c 0 t) (iblk0 V c 1 t) (iblk0 V c 2 t) (iblk0 V c 3 t) (iblk0 V c 4 t) (iblk0 V c 5 t) (iblk0 V c 6 t) := by dsimp only [dat0]

/-- Each input's current staging buffer holds its block at every point, fetched there or not. -/
theorem before0_0 (q : Fin cfg0.W → PosShare TreeShare) (c : Dev nD) (t : Fin cfg0.N) (d) : (dat0 V q c).before 0 t d = iblk0 V c 0 t :=
  before0_0_of V (dat0 V q c) (A_eq0 V q c 0) (after0_0 V q c) t d
theorem before0_1 (q : Fin cfg0.W → PosShare TreeShare) (c : Dev nD) (t : Fin cfg0.N) (d) : (dat0 V q c).before 1 t d = iblk0 V c 1 t :=
  before0_1_of V (dat0 V q c) (A_eq0 V q c 1) (after0_1 V q c) t d
theorem before0_2 (q : Fin cfg0.W → PosShare TreeShare) (c : Dev nD) (t : Fin cfg0.N) (d) : (dat0 V q c).before 2 t d = iblk0 V c 2 t :=
  before0_2_of V (dat0 V q c) (A_eq0 V q c 2) (after0_2 V q c) t d
theorem before0_3 (q : Fin cfg0.W → PosShare TreeShare) (c : Dev nD) (t : Fin cfg0.N) (d) : (dat0 V q c).before 3 t d = iblk0 V c 3 t :=
  before0_3_of V (dat0 V q c) (A_eq0 V q c 3) (after0_3 V q c) t d
theorem before0_4 (q : Fin cfg0.W → PosShare TreeShare) (c : Dev nD) (t : Fin cfg0.N) (d) : (dat0 V q c).before 4 t d = iblk0 V c 4 t :=
  before0_4_of V (dat0 V q c) (A_eq0 V q c 4) (after0_4 V q c) t d
theorem before0_5 (q : Fin cfg0.W → PosShare TreeShare) (c : Dev nD) (t : Fin cfg0.N) (d) : (dat0 V q c).before 5 t d = iblk0 V c 5 t :=
  before0_5_of V (dat0 V q c) (A_eq0 V q c 5) (after0_5 V q c) t d
theorem before0_6 (q : Fin cfg0.W → PosShare TreeShare) (c : Dev nD) (t : Fin cfg0.N) (d) : (dat0 V q c).before 6 t d = iblk0 V c 6 t :=
  before0_6_of V (dat0 V q c) (A_eq0 V q c 6) (after0_6 V q c) t d

/-! ## The body obligation, at a generic point -/

/-- What the body is called with at point `t`, the windows one by one, -/
def bodyPre0 (q : Fin cfg0.W → PosShare TreeShare) (c : Dev nD) (t : Fin cfg0.N) : sProp 𝕄 :=
  iprop((dat0 V q c).Φ t.castSucc ∗ (dat0 V q c).owesAt () t.castSucc
    ∗ (∃ d, owns (c : Thread nD τ) (st0_0 t) fullShare ((dat0 V q c).before 0 t d))
    ∗ (∃ d, owns (c : Thread nD τ) (st0_1 t) fullShare ((dat0 V q c).before 1 t d))
    ∗ (∃ d, owns (c : Thread nD τ) (st0_2 t) fullShare ((dat0 V q c).before 2 t d))
    ∗ (∃ d, owns (c : Thread nD τ) (st0_3 t) fullShare ((dat0 V q c).before 3 t d))
    ∗ (∃ d, owns (c : Thread nD τ) (st0_4 t) fullShare ((dat0 V q c).before 4 t d))
    ∗ (∃ d, owns (c : Thread nD τ) (st0_5 t) fullShare ((dat0 V q c).before 5 t d))
    ∗ (∃ d, owns (c : Thread nD τ) (st0_6 t) fullShare ((dat0 V q c).before 6 t d))
    ∗ (∃ d, owns (c : Thread nD τ) (st0_7 t) fullShare ((dat0 V q c).before 7 t d)))

/-- and what it returns. -/
def bodyPost0 (q : Fin cfg0.W → PosShare TreeShare) (c : Dev nD) (t : Fin cfg0.N) : sProp 𝕄 :=
  iprop((dat0 V q c).Φ t.succ ∗ (dat0 V q c).owesAt () t.succ
    ∗ owns (c : Thread nD τ) (st0_0 t) fullShare ((dat0 V q c).after 0 t)
    ∗ owns (c : Thread nD τ) (st0_1 t) fullShare ((dat0 V q c).after 1 t)
    ∗ owns (c : Thread nD τ) (st0_2 t) fullShare ((dat0 V q c).after 2 t)
    ∗ owns (c : Thread nD τ) (st0_3 t) fullShare ((dat0 V q c).after 3 t)
    ∗ owns (c : Thread nD τ) (st0_4 t) fullShare ((dat0 V q c).after 4 t)
    ∗ owns (c : Thread nD τ) (st0_5 t) fullShare ((dat0 V q c).after 5 t)
    ∗ owns (c : Thread nD τ) (st0_6 t) fullShare ((dat0 V q c).after 6 t)
    ∗ owns (c : Thread nD τ) (st0_7 t) fullShare ((dat0 V q c).after 7 t))

/-- The body at any point: the inputs' memrefs hold their blocks, so the body's triple applies; the invariant and
    the core's debt pass through unread. -/
theorem sound_body0 (q : Fin cfg0.W → PosShare TreeShare) (c : Dev nD) (t : Fin cfg0.N) :
    bodyPre0 V q c t ⊢ wp frame (wpE (defs₀ (F := F)) Variants.none c none) Set.univ (bodyAt0 t) (fun _ => bodyPost0 V q c t) := by
  unfold bodyPre0 bodyPost0 bodyAt0
  simp only [before0_0, before0_1, before0_2, before0_3, before0_4, before0_5, before0_6]
  rw [show (dat0 V q c).Φ t.succ = (dat0 V q c).Φ t.castSucc from rfl,
    show (dat0 V q c).owesAt () t.succ = (dat0 V q c).owesAt () t.castSucc from rfl,
    after0_0, after0_1, after0_2, after0_3, after0_4, after0_5, after0_6, after0_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel0 c Set.univ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation0 (q : Fin cfg0.W → PosShare TreeShare) (c : Dev nD) : BodyObligation (dat0 (F := F) V q c) (defs₀ (F := F)) Variants.none () Set.univ := fun t => by
  rw [bigSep_W0, bigSep_W0]
  exact sound_body0 V q c t

end Cert.Kernel.Hand

end
-- ==== Proof.WRegA2.lean ====
import proofs.«157882_j13769665151543_1_alg».proof.Proof.Gen.Kernel.Launch
import proofs.«157882_j13769665151543_1_alg».proof.Proof.Gen.Kernel.Skeleton
import proofs.«157882_j13769665151543_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the pipeline's proof data and the body obligation

Every window of this pipeline is handed to the body whole. The body reads every input window's staging
buffer, computes one pure value from them and writes it over the whole staging buffer of the output
window. The proof data says so: after the body an input's buffer still holds its block of the array as
the region found it, and the output's buffer holds that pure value of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not: where it
    was not fetched the block index has not moved, and the body left the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not: where it
    was not fetched the block index has not moved, and the body left the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not: where it
    was not fetched the block index has not moved, and the body left the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not: where it
    was not fetched the block index has not moved, and the body left the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not: where it
    was not fetched the block index has not moved, and the body left the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-- Input window 5's current staging buffer holds its block at every point, fetched there or not: where it
    was not fetched the block index has not moved, and the body left the block in place. -/
theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)

/-- Input window 6's current staging buffer holds its block at every point, fetched there or not: where it
    was not fetched the block index has not moved, and the body left the block in place. -/
theorem before2_6_of {c : Dev nD} (dat : Dat τ (Elt F) Unit ℕ (UR sig nD τ) ℕ cfg2 c) (hA : dat.A 6 = V c (Pipeline.arrRef spec2 6))
    (hafter : ∀ t, dat.after 6 t = iblk2 V c 6 t) (t : Fin cfg2.N) (d) : dat.before 6 t d = iblk2 V c 6 t :=
  (dat.before_in_eq_fetched 6 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each is the whole of its buffer -/

abbrev r2_0 : Rect S5000x64 := Rect.unit (s := S5000x64) ![0, 0] S5000x64.size inb_S5000x64_S5000x64_0_0
abbrev r2_1 : Rect S5000x1 := Rect.unit (s := S5000x1) ![0, 0] S5000x1.size inb_S5000x1_S5000x1_0_0
abbrev r2_2 : Rect S1x64 := Rect.unit (s := S1x64) ![0, 0] S1x64.size inb_S1x64_S1x64_0_0
abbrev r2_3 : Rect S64x64 := Rect.unit (s := S64x64) ![0, 0] S64x64.size inb_S64x64_S64x64_0_0

/-! ## What the body leaves in the output window's buffer -/

/-- Window 7's staging buffer after the body, from the input windows' blocks: its one store, of the
    pure value the body computes from what it loaded. -/
def out2_7 (x0 : Vec F S5000x64 .f32) (x1 : Vec F S5000x1 .f32) (x2 : Vec F S1x64 .f32) (x3 : Vec F S1x64 .f32) (x4 : Vec F S1x64 .f32) (x5 : Vec F S1x64 .f32) (x6 : Vec F S64x64 .f32) : Vec F S5000x64 .f32 :=
  View.canon [⟨r2_0, k2_pay1 (View.ld x0 r2_0) (View.ld x2 r2_2) (View.ld x3 r2_2) (View.ld x4 r2_2) (View.ld x5 r2_2) (View.ld x1 r2_1) (View.ld x6 r2_3)⟩]

/-- The store is of the whole buffer, so it covers it. -/
theorem cover2_7 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 4000000 in
/-- The kernel body on whole staging memrefs, the inputs' at read contents and the output's at anything, runs to
    the continuation holding the inputs' as they were and the output's at `out2_7` of the inputs'. -/
theorem sound_kernel2 (c : Dev nD) (E : Set ℕ) (i : grid2.Coords) (arg0 : Memref sig .tc .vmem S5000x64 .f32) (harg0 : arg0.IsWhole) (arg1 : Memref sig .tc .vmem S5000x1 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S64x64 .f32) (harg6 : arg6.IsWhole) (arg7 : Memref sig .tc .vmem S5000x64 .f32) (harg7 : arg7.IsWhole)
    (x0 : Vec F S5000x64 .f32) (x1 : Vec F S5000x1 .f32) (x2 : Vec F S1x64 .f32) (x3 : Vec F S1x64 .f32) (x4 : Vec F S1x64 .f32) (x5 : Vec F S1x64 .f32) (x6 : Vec F S64x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out2_7 x0 x1 x2 x3 x4 x5 x6)) -∗ K ⟨⟩))
      ⊢ wp frame (wpE (defs₀ (F := F)) Variants.none c none) E (cc2__pre_transform_kernel i arg0 harg0 arg1 harg1 arg2 harg2 arg3 harg3 arg4 harg4 arg5 harg5 arg6 harg6 arg7 harg7) K := by
  simp only [cc2__pre_transform_kernel_eq_skeleton]; unfold cc2__pre_transform_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0
  subst hf1
  subst hf2
  subst hf3
  subst hf4
  subst hf5
  subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover2_7 _)

/-! ## The pipeline's proof data -/

/-- The proof data of this pipeline on core `c`: the arrays as the region finds them; after the body at point `t`
    each input's buffer at its block and the output's at `out2_7` of the input blocks; the scoped rest and the
    generator register untouched; nothing owed; the arrays' shares a parameter, which the body never looks at. -/
def dat2 (q : Fin cfg2.W → PosShare TreeShare) (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 (iblk2 V c 0 t) (iblk2 V c 1 t) (iblk2 V c 2 t) (iblk2 V c 3 t) (iblk2 V c 4 t) (iblk2 V c 5 t) (iblk2 V c 6 t)
  Φ _ := Pipeline.ΦA spec2 c
  q := q
  owed _ := 0

/-- The proof data's arrays are the region-entry contents. -/
theorem A_eq2 (q : Fin cfg2.W → PosShare TreeShare) (c : Dev nD) (w : Fin cfg2.W) : (dat2 V q c).A w = V c (Pipeline.arrRef spec2 w) := by
  dsimp only [dat2]

/-- What the body leaves, window by window. -/
theorem after2_0 (q : Fin cfg2.W → PosShare TreeShare) (c : Dev nD) (t : Fin cfg2.N) : (dat2 V q c).after 0 t = iblk2 V c 0 t := by dsimp only [dat2]
theorem after2_1 (q : Fin cfg2.W → PosShare TreeShare) (c : Dev nD) (t : Fin cfg2.N) : (dat2 V q c).after 1 t = iblk2 V c 1 t := by dsimp only [dat2]
theorem after2_2 (q : Fin cfg2.W → PosShare TreeShare) (c : Dev nD) (t : Fin cfg2.N) : (dat2 V q c).after 2 t = iblk2 V c 2 t := by dsimp only [dat2]
theorem after2_3 (q : Fin cfg2.W → PosShare TreeShare) (c : Dev nD) (t : Fin cfg2.N) : (dat2 V q c).after 3 t = iblk2 V c 3 t := by dsimp only [dat2]
theorem after2_4 (q : Fin cfg2.W → PosShare TreeShare) (c : Dev nD) (t : Fin cfg2.N) : (dat2 V q c).after 4 t = iblk2 V c 4 t := by dsimp only [dat2]
theorem after2_5 (q : Fin cfg2.W → PosShare TreeShare) (c : Dev nD) (t : Fin cfg2.N) : (dat2 V q c).after 5 t = iblk2 V c 5 t := by dsimp only [dat2]
theorem after2_6 (q : Fin cfg2.W → PosShare TreeShare) (c : Dev nD) (t : Fin cfg2.N) : (dat2 V q c).after 6 t = iblk2 V c 6 t := by dsimp only [dat2]
theorem after2_7 (q : Fin cfg2.W → PosShare TreeShare) (c : Dev nD) (t : Fin cfg2.N) : (dat2 V q c).after 7 t = out2_7 (iblk2 V c 0 t) (iblk2 V c 1 t) (iblk2 V c 2 t) (iblk2 V c 3 t) (iblk2 V c 4 t) (iblk2 V c 5 t) (iblk2 V c 6 t) := by dsimp only [dat2]

/-- Each input's current staging buffer holds its block at every point, fetched there or not. -/
theorem before2_0 (q : Fin cfg2.W → PosShare TreeShare) (c : Dev nD) (t : Fin cfg2.N) (d) : (dat2 V q c).before 0 t d = iblk2 V c 0 t :=
  before2_0_of V (dat2 V q c) (A_eq2 V q c 0) (after2_0 V q c) t d
theorem before2_1 (q : Fin cfg2.W → PosShare TreeShare) (c : Dev nD) (t : Fin cfg2.N) (d) : (dat2 V q c).before 1 t d = iblk2 V c 1 t :=
  before2_1_of V (dat2 V q c) (A_eq2 V q c 1) (after2_1 V q c) t d
theorem before2_2 (q : Fin cfg2.W → PosShare TreeShare) (c : Dev nD) (t : Fin cfg2.N) (d) : (dat2 V q c).before 2 t d = iblk2 V c 2 t :=
  before2_2_of V (dat2 V q c) (A_eq2 V q c 2) (after2_2 V q c) t d
theorem before2_3 (q : Fin cfg2.W → PosShare TreeShare) (c : Dev nD) (t : Fin cfg2.N) (d) : (dat2 V q c).before 3 t d = iblk2 V c 3 t :=
  before2_3_of V (dat2 V q c) (A_eq2 V q c 3) (after2_3 V q c) t d
theorem before2_4 (q : Fin cfg2.W → PosShare TreeShare) (c : Dev nD) (t : Fin cfg2.N) (d) : (dat2 V q c).before 4 t d = iblk2 V c 4 t :=
  before2_4_of V (dat2 V q c) (A_eq2 V q c 4) (after2_4 V q c) t d
theorem before2_5 (q : Fin cfg2.W → PosShare TreeShare) (c : Dev nD) (t : Fin cfg2.N) (d) : (dat2 V q c).before 5 t d = iblk2 V c 5 t :=
  before2_5_of V (dat2 V q c) (A_eq2 V q c 5) (after2_5 V q c) t d
theorem before2_6 (q : Fin cfg2.W → PosShare TreeShare) (c : Dev nD) (t : Fin cfg2.N) (d) : (dat2 V q c).before 6 t d = iblk2 V c 6 t :=
  before2_6_of V (dat2 V q c) (A_eq2 V q c 6) (after2_6 V q c) t d

/-! ## The body obligation, at a generic point -/

/-- What the body is called with at point `t`, the windows one by one, -/
def bodyPre2 (q : Fin cfg2.W → PosShare TreeShare) (c : Dev nD) (t : Fin cfg2.N) : sProp 𝕄 :=
  iprop((dat2 V q c).Φ t.castSucc ∗ (dat2 V q c).owesAt () t.castSucc
    ∗ (∃ d, owns (c : Thread nD τ) (st2_0 t) fullShare ((dat2 V q c).before 0 t d))
    ∗ (∃ d, owns (c : Thread nD τ) (st2_1 t) fullShare ((dat2 V q c).before 1 t d))
    ∗ (∃ d, owns (c : Thread nD τ) (st2_2 t) fullShare ((dat2 V q c).before 2 t d))
    ∗ (∃ d, owns (c : Thread nD τ) (st2_3 t) fullShare ((dat2 V q c).before 3 t d))
    ∗ (∃ d, owns (c : Thread nD τ) (st2_4 t) fullShare ((dat2 V q c).before 4 t d))
    ∗ (∃ d, owns (c : Thread nD τ) (st2_5 t) fullShare ((dat2 V q c).before 5 t d))
    ∗ (∃ d, owns (c : Thread nD τ) (st2_6 t) fullShare ((dat2 V q c).before 6 t d))
    ∗ (∃ d, owns (c : Thread nD τ) (st2_7 t) fullShare ((dat2 V q c).before 7 t d)))

/-- and what it returns. -/
def bodyPost2 (q : Fin cfg2.W → PosShare TreeShare) (c : Dev nD) (t : Fin cfg2.N) : sProp 𝕄 :=
  iprop((dat2 V q c).Φ t.succ ∗ (dat2 V q c).owesAt () t.succ
    ∗ owns (c : Thread nD τ) (st2_0 t) fullShare ((dat2 V q c).after 0 t)
    ∗ owns (c : Thread nD τ) (st2_1 t) fullShare ((dat2 V q c).after 1 t)
    ∗ owns (c : Thread nD τ) (st2_2 t) fullShare ((dat2 V q c).after 2 t)
    ∗ owns (c : Thread nD τ) (st2_3 t) fullShare ((dat2 V q c).after 3 t)
    ∗ owns (c : Thread nD τ) (st2_4 t) fullShare ((dat2 V q c).after 4 t)
    ∗ owns (c : Thread nD τ) (st2_5 t) fullShare ((dat2 V q c).after 5 t)
    ∗ owns (c : Thread nD τ) (st2_6 t) fullShare ((dat2 V q c).after 6 t)
    ∗ owns (c : Thread nD τ) (st2_7 t) fullShare ((dat2 V q c).after 7 t))

/-- The body at any point: the inputs' memrefs hold their blocks, so the body's triple applies; the invariant and
    the core's debt pass through unread. -/
theorem sound_body2 (q : Fin cfg2.W → PosShare TreeShare) (c : Dev nD) (t : Fin cfg2.N) :
    bodyPre2 V q c t ⊢ wp frame (wpE (defs₀ (F := F)) Variants.none c none) Set.univ (bodyAt2 t) (fun _ => bodyPost2 V q c t) := by
  unfold bodyPre2 bodyPost2 bodyAt2
  simp only [before2_0, before2_1, before2_2, before2_3, before2_4, before2_5, before2_6]
  rw [show (dat2 V q c).Φ t.succ = (dat2 V q c).Φ t.castSucc from rfl,
    show (dat2 V q c).owesAt () t.succ = (dat2 V q c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ _ _ _ _ _ _ _ _ _ _ _ _ _ _ _ _ _ (iblk2 V c 0 t) (iblk2 V c 1 t) (iblk2 V c 2 t) (iblk2 V c 3 t) (iblk2 V c 4 t) (iblk2 V c 5 t) (iblk2 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation2 (q : Fin cfg2.W → PosShare TreeShare) (c : Dev nD) : BodyObligation (dat2 (F := F) V q c) (defs₀ (F := F)) Variants.none () Set.univ := fun t => by
  rw [bigSep_W2, bigSep_W2]
  exact sound_body2 V q c t

end Cert.Kernel.Hand

end
-- ==== Proof.WRegA4.lean ====
import proofs.«157882_j13769665151543_1_alg».proof.Proof.Gen.Kernel.Launch
import proofs.«157882_j13769665151543_1_alg».proof.Proof.Gen.Kernel.Skeleton
import proofs.«157882_j13769665151543_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: the pipeline's proof data and the body obligation

Every window of this pipeline is handed to the body whole. The body reads every input window's staging
buffer, computes one pure value from them and writes it over the whole staging buffer of the output
window. The proof data says so: after the body an input's buffer still holds its block of the array as
the region found it, and the output's buffer holds that pure value of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not: where it
    was not fetched the block index has not moved, and the body left the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not: where it
    was not fetched the block index has not moved, and the body left the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not: where it
    was not fetched the block index has not moved, and the body left the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not: where it
    was not fetched the block index has not moved, and the body left the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not: where it
    was not fetched the block index has not moved, and the body left the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each is the whole of its buffer -/

abbrev r4_0 : Rect S5000x64 := Rect.unit (s := S5000x64) ![0, 0] S5000x64.size inb_S5000x64_S5000x64_0_0
abbrev r4_1 : Rect S1x64 := Rect.unit (s := S1x64) ![0, 0] S1x64.size inb_S1x64_S1x64_0_0

/-! ## What the body leaves in the output window's buffer -/

/-- Window 5's staging buffer after the body, from the input windows' blocks: its one store, of the
    pure value the body computes from what it loaded. -/
def out4_5 (x0 : Vec F S5000x64 .f32) (x1 : Vec F S1x64 .f32) (x2 : Vec F S1x64 .f32) (x3 : Vec F S1x64 .f32) (x4 : Vec F S1x64 .f32) : Vec F S5000x64 .f32 :=
  View.canon [⟨r4_0, k4_pay1 (View.ld x0 r4_0) (View.ld x1 r4_1) (View.ld x2 r4_1) (View.ld x3 r4_1) (View.ld x4 r4_1)⟩]

/-- The store is of the whole buffer, so it covers it. -/
theorem cover4_5 (p0 : Vec F S5000x64 .f32) (y : S5000x64.Idx) :
    ∃ pc ∈ ([⟨r4_0, p0⟩] : List (View.Piece (Elt F) S5000x64 .f32)), y ∈ pc.1.set :=
  View.cover_of_tiled [⟨r4_0, p0⟩] S5000x64.size (by rfl) y

/-! ## The body's triple -/

set_option maxHeartbeats 4000000 in
/-- The kernel body on whole staging memrefs, the inputs' at read contents and the output's at anything, runs to
    the continuation holding the inputs' as they were and the output's at `out4_5` of the inputs'. -/
theorem sound_kernel4 (c : Dev nD) (E : Set ℕ) (i : grid4.Coords) (arg0 : Memref sig .tc .vmem S5000x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S5000x64 .f32) (harg5 : arg5.IsWhole)
    (x0 : Vec F S5000x64 .f32) (x1 : Vec F S1x64 .f32) (x2 : Vec F S1x64 .f32) (x3 : Vec F S1x64 .f32) (x4 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare (out4_5 x0 x1 x2 x3 x4)) -∗ K ⟨⟩))
      ⊢ wp frame (wpE (defs₀ (F := F)) Variants.none c none) E (cc4__bn_apply_kernel i arg0 harg0 arg1 harg1 arg2 harg2 arg3 harg3 arg4 harg4 arg5 harg5) K := by
  simp only [cc4__bn_apply_kernel_eq_skeleton]; unfold cc4__bn_apply_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0
  subst hf1
  subst hf2
  subst hf3
  subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of this pipeline on core `c`: the arrays as the region finds them; after the body at point `t`
    each input's buffer at its block and the output's at `out4_5` of the input blocks; the scoped rest and the
    generator register untouched; nothing owed; the arrays' shares a parameter, which the body never looks at. -/
def dat4 (q : Fin cfg4.W → PosShare TreeShare) (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q := q
  owed _ := 0

/-- The proof data's arrays are the region-entry contents. -/
theorem A_eq4 (q : Fin cfg4.W → PosShare TreeShare) (c : Dev nD) (w : Fin cfg4.W) : (dat4 V q c).A w = V c (Pipeline.arrRef spec4 w) := by
  dsimp only [dat4]

/-- What the body leaves, window by window. -/
theorem after4_0 (q : Fin cfg4.W → PosShare TreeShare) (c : Dev nD) (t : Fin cfg4.N) : (dat4 V q c).after 0 t = iblk4 V c 0 t := by dsimp only [dat4]
theorem after4_1 (q : Fin cfg4.W → PosShare TreeShare) (c : Dev nD) (t : Fin cfg4.N) : (dat4 V q c).after 1 t = iblk4 V c 1 t := by dsimp only [dat4]
theorem after4_2 (q : Fin cfg4.W → PosShare TreeShare) (c : Dev nD) (t : Fin cfg4.N) : (dat4 V q c).after 2 t = iblk4 V c 2 t := by dsimp only [dat4]
theorem after4_3 (q : Fin cfg4.W → PosShare TreeShare) (c : Dev nD) (t : Fin cfg4.N) : (dat4 V q c).after 3 t = iblk4 V c 3 t := by dsimp only [dat4]
theorem after4_4 (q : Fin cfg4.W → PosShare TreeShare) (c : Dev nD) (t : Fin cfg4.N) : (dat4 V q c).after 4 t = iblk4 V c 4 t := by dsimp only [dat4]
theorem after4_5 (q : Fin cfg4.W → PosShare TreeShare) (c : Dev nD) (t : Fin cfg4.N) : (dat4 V q c).after 5 t = out4_5 (iblk4 V c 0 t) (iblk4 V c 1 t) (iblk4 V c 2 t) (iblk4 V c 3 t) (iblk4 V c 4 t) := by dsimp only [dat4]

/-- Each input's current staging buffer holds its block at every point, fetched there or not. -/
theorem before4_0 (q : Fin cfg4.W → PosShare TreeShare) (c : Dev nD) (t : Fin cfg4.N) (d) : (dat4 V q c).before 0 t d = iblk4 V c 0 t :=
  before4_0_of V (dat4 V q c) (A_eq4 V q c 0) (after4_0 V q c) t d
theorem before4_1 (q : Fin cfg4.W → PosShare TreeShare) (c : Dev nD) (t : Fin cfg4.N) (d) : (dat4 V q c).before 1 t d = iblk4 V c 1 t :=
  before4_1_of V (dat4 V q c) (A_eq4 V q c 1) (after4_1 V q c) t d
theorem before4_2 (q : Fin cfg4.W → PosShare TreeShare) (c : Dev nD) (t : Fin cfg4.N) (d) : (dat4 V q c).before 2 t d = iblk4 V c 2 t :=
  before4_2_of V (dat4 V q c) (A_eq4 V q c 2) (after4_2 V q c) t d
theorem before4_3 (q : Fin cfg4.W → PosShare TreeShare) (c : Dev nD) (t : Fin cfg4.N) (d) : (dat4 V q c).before 3 t d = iblk4 V c 3 t :=
  before4_3_of V (dat4 V q c) (A_eq4 V q c 3) (after4_3 V q c) t d
theorem before4_4 (q : Fin cfg4.W → PosShare TreeShare) (c : Dev nD) (t : Fin cfg4.N) (d) : (dat4 V q c).before 4 t d = iblk4 V c 4 t :=
  before4_4_of V (dat4 V q c) (A_eq4 V q c 4) (after4_4 V q c) t d

/-! ## The body obligation, at a generic point -/

/-- What the body is called with at point `t`, the windows one by one, -/
def bodyPre4 (q : Fin cfg4.W → PosShare TreeShare) (c : Dev nD) (t : Fin cfg4.N) : sProp 𝕄 :=
  iprop((dat4 V q c).Φ t.castSucc ∗ (dat4 V q c).owesAt () t.castSucc
    ∗ (∃ d, owns (c : Thread nD τ) (st4_0 t) fullShare ((dat4 V q c).before 0 t d))
    ∗ (∃ d, owns (c : Thread nD τ) (st4_1 t) fullShare ((dat4 V q c).before 1 t d))
    ∗ (∃ d, owns (c : Thread nD τ) (st4_2 t) fullShare ((dat4 V q c).before 2 t d))
    ∗ (∃ d, owns (c : Thread nD τ) (st4_3 t) fullShare ((dat4 V q c).before 3 t d))
    ∗ (∃ d, owns (c : Thread nD τ) (st4_4 t) fullShare ((dat4 V q c).before 4 t d))
    ∗ (∃ d, owns (c : Thread nD τ) (st4_5 t) fullShare ((dat4 V q c).before 5 t d)))

/-- and what it returns. -/
def bodyPost4 (q : Fin cfg4.W → PosShare TreeShare) (c : Dev nD) (t : Fin cfg4.N) : sProp 𝕄 :=
  iprop((dat4 V q c).Φ t.succ ∗ (dat4 V q c).owesAt () t.succ
    ∗ owns (c : Thread nD τ) (st4_0 t) fullShare ((dat4 V q c).after 0 t)
    ∗ owns (c : Thread nD τ) (st4_1 t) fullShare ((dat4 V q c).after 1 t)
    ∗ owns (c : Thread nD τ) (st4_2 t) fullShare ((dat4 V q c).after 2 t)
    ∗ owns (c : Thread nD τ) (st4_3 t) fullShare ((dat4 V q c).after 3 t)
    ∗ owns (c : Thread nD τ) (st4_4 t) fullShare ((dat4 V q c).after 4 t)
    ∗ owns (c : Thread nD τ) (st4_5 t) fullShare ((dat4 V q c).after 5 t))

/-- The body at any point: the inputs' memrefs hold their blocks, so the body's triple applies; the invariant and
    the core's debt pass through unread. -/
theorem sound_body4 (q : Fin cfg4.W → PosShare TreeShare) (c : Dev nD) (t : Fin cfg4.N) :
    bodyPre4 V q c t ⊢ wp frame (wpE (defs₀ (F := F)) Variants.none c none) Set.univ (bodyAt4 t) (fun _ => bodyPost4 V q c t) := by
  unfold bodyPre4 bodyPost4 bodyAt4
  simp only [before4_0, before4_1, before4_2, before4_3, before4_4]
  rw [show (dat4 V q c).Φ t.succ = (dat4 V q c).Φ t.castSucc from rfl,
    show (dat4 V q c).owesAt () t.succ = (dat4 V q c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ _ _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation4 (q : Fin cfg4.W → PosShare TreeShare) (c : Dev nD) : BodyObligation (dat4 (F := F) V q c) (defs₀ (F := F)) Variants.none () Set.univ := fun t => by
  rw [bigSep_W4, bigSep_W4]
  exact sound_body4 V q c t

end Cert.Kernel.Hand

end
-- ==== Proof.WRegR1.lean ====
import proofs.«157882_j13769665151543_1_alg».proof.Proof.Gen.Kernel.Launch
import proofs.«157882_j13769665151543_1_alg».proof.Proof.Gen.Kernel.Skeleton
import proofs.«157882_j13769665151543_1_alg».proof.Proof.Gen.Kernel.Points
import Idealize.ShloMosaic.Lib.Pipeline.FrameBody
import Idealize.ShloMosaic.Lib.Ring
import Idealize.ShloMosaic.Lib.Tactic

/-! Region 1 (the row-scale, bias and ELU kernel with its running column sums), as one pipeline's proof data:
    the blocks its windows stage, the body's run in its two control cases (the first grid point, where the two
    accumulator rows are zeroed before they are added to, and the later points, where they are read as the point
    before left them), what the three outputs' staging buffers hold after each point, and the body obligation. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not (unfetched, the
    block index has not moved), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not (unfetched, the
    block index has not moved), for any proof data whose array is `V`'s and whose body leaves the block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not (unfetched, the
    block index has not moved), for any proof data whose array is `V`'s and whose body leaves the block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch condition -/

/-- The condition of the body's conditional (is the grid coordinate 0?), from the grid coordinates. -/
abbrev cond1_0 (i : grid1.Coords) : Prop := (Scalar.cmpi .ne (Scalar.extui (Scalar.cmpi .eq (BitVec.ofNat 32 (i 0).val) 0#32)) 0#32) = 1#1
/-- It holds at the first point only: decided over the grid. -/
theorem hcond1_0 : ∀ t : Fin cfg1.N, cond1_0 (grid1.coords t) ↔ t.val % 20 = 0 :=
  (by decide +kernel : ∀ t : Fin grid1.N, cond1_0 (grid1.coords t) ↔ t.val % 20 = 0)

/-! ## The staging memrefs -/

/-- One staging buffer of each output window, through which its contents are stated (the choice does not matter). -/
abbrev VO1_3 : View sig .tc .vmem S5000x64 .f32 := (Memref.whole cc1_stg3_0 : Memref sig .tc .vmem S5000x64 .f32).view
abbrev VO1_4 : View sig .tc .vmem S1x64 .f32 := (Memref.whole cc1_stg4_0 : Memref sig .tc .vmem S1x64 .f32).view
abbrev VO1_5 : View sig .tc .vmem S1x64 .f32 := (Memref.whole cc1_stg5_0 : Memref sig .tc .vmem S1x64 .f32).view
/-- Each window's current staging memref at point `t`, as the pipeline passes it to the body, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S5000x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S5000x64 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x64 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x64 .f32 := win1_5.stage (cfg1.slots t 5)
abbrev hs1_5 (t : Fin cfg1.N) : (ms1_5 t).IsWhole := hstage1_5 ((cfg1.slots t 5).cast nbuf1_5)

/-! ## The body's run, case by case -/

set_option maxHeartbeats 4000000 in
/-- What the body's stores leave in each output's staging memref, as pieces (last first), AT THE FIRST POINT (the
    conditional taken: the two accumulator rows are zeroed, then added to), with the proof that on whole staging
    memrefs — the inputs' at their contents, the outputs' at anything — the body runs to the continuation holding
    the inputs' as they were and each output's buffer with its pieces written. -/
noncomputable def kernelRun1_A (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) :
    Σ' (L3 : List (View.Piece (Elt F) S5000x64 .f32)), Σ' (L4 : List (View.Piece (Elt F) S1x64 .f32)), { L5 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc1__post_agg_kernel i arg1 harg1 arg2 harg2 arg3 harg3 arg4 harg4 arg5 harg5 arg6 harg6) K } := by
  refine ⟨?_, ?_, ?_, fun E K => ?run⟩
  case run =>
    simp only [cc1__post_agg_kernel_eq_skeleton]; unfold cc1__post_agg_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- The same AT A LATER POINT (the conditional not taken): the two accumulator rows are read at their running
    contents `xo4`, `xo5` before they are overwritten. -/
noncomputable def kernelRun1_B (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) :
    Σ' (L3 : List (View.Piece (Elt F) S5000x64 .f32)), Σ' (L4 : List (View.Piece (Elt F) S1x64 .f32)), { L5 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc1__post_agg_kernel i arg1 harg1 arg2 harg2 arg3 harg3 arg4 harg4 arg5 harg5 arg6 harg6) K } := by
  refine ⟨?_, ?_, ?_, fun E K => ?run⟩
  case run =>
    simp only [cc1__post_agg_kernel_eq_skeleton]; unfold cc1__post_agg_kernel_skel
    simp only [k1_part1_eq_skeleton]; unfold k1_part1_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-! ## What the body leaves in each output's staging buffer, per case -/

/-- Case A's pieces for output 3 tile its block, so they cover it. -/
theorem cover1_A_3 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) (y : S5000x64.Idx) :
    ∃ pc ∈ (kernelRun1_A c i arg1 harg1 arg2 harg2 arg3 harg3 arg4 harg4 arg5 harg5 arg6 harg6 hc0 x0 x1 x2).1, y ∈ pc.1.set :=
  View.cover_of_tiledL (kernelRun1_A c i arg1 harg1 arg2 harg2 arg3 harg3 arg4 harg4 arg5 harg5 arg6 harg6 hc0 x0 x1 x2).1 S5000x64.size (by sl_kernel_rfl) y

/-- What case A leaves in output 3's staging buffer: its pieces read back over junk. -/
def out1_A_3 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) : Vec F S5000x64 .f32 :=
  VO1_3.read (Elt F) (VO1_3.writes (Elt F) VO1_3.junk (kernelRun1_A c i arg1 harg1 arg2 harg2 arg3 harg3 arg4 harg4 arg5 harg5 arg6 harg6 hc0 x0 x1 x2).1)

/-- Case A's pieces for output 4 tile its block, so they cover it. -/
theorem cover1_A_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) (y : S1x64.Idx) :
    ∃ pc ∈ (kernelRun1_A c i arg1 harg1 arg2 harg2 arg3 harg3 arg4 harg4 arg5 harg5 arg6 harg6 hc0 x0 x1 x2).2.1, y ∈ pc.1.set :=
  View.cover_of_tiledL (kernelRun1_A c i arg1 harg1 arg2 harg2 arg3 harg3 arg4 harg4 arg5 harg5 arg6 harg6 hc0 x0 x1 x2).2.1 S1x64.size (by sl_kernel_rfl) y

/-- What case A leaves in output 4's staging buffer: its pieces read back over junk. -/
def out1_A_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) : Vec F S1x64 .f32 :=
  VO1_4.read (Elt F) (VO1_4.writes (Elt F) VO1_4.junk (kernelRun1_A c i arg1 harg1 arg2 harg2 arg3 harg3 arg4 harg4 arg5 harg5 arg6 harg6 hc0 x0 x1 x2).2.1)

/-- Case A's pieces for output 5 tile its block, so they cover it. -/
theorem cover1_A_5 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) (y : S1x64.Idx) :
    ∃ pc ∈ (kernelRun1_A c i arg1 harg1 arg2 harg2 arg3 harg3 arg4 harg4 arg5 harg5 arg6 harg6 hc0 x0 x1 x2).2.2.1, y ∈ pc.1.set :=
  View.cover_of_tiledL (kernelRun1_A c i arg1 harg1 arg2 harg2 arg3 harg3 arg4 harg4 arg5 harg5 arg6 harg6 hc0 x0 x1 x2).2.2.1 S1x64.size (by sl_kernel_rfl) y

/-- What case A leaves in output 5's staging buffer: its pieces read back over junk. -/
def out1_A_5 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) : Vec F S1x64 .f32 :=
  VO1_5.read (Elt F) (VO1_5.writes (Elt F) VO1_5.junk (kernelRun1_A c i arg1 harg1 arg2 harg2 arg3 harg3 arg4 harg4 arg5 harg5 arg6 harg6 hc0 x0 x1 x2).2.2.1)

/-- Case B's pieces for output 3 tile its block, so they cover it. -/
theorem cover1_B_3 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) (y : S5000x64.Idx) :
    ∃ pc ∈ (kernelRun1_B c i arg1 harg1 arg2 harg2 arg3 harg3 arg4 harg4 arg5 harg5 arg6 harg6 hc0 x0 x1 x2 xo4 xo5).1, y ∈ pc.1.set :=
  View.cover_of_tiledL (kernelRun1_B c i arg1 harg1 arg2 harg2 arg3 harg3 arg4 harg4 arg5 harg5 arg6 harg6 hc0 x0 x1 x2 xo4 xo5).1 S5000x64.size (by sl_kernel_rfl) y

/-- What case B leaves in output 3's staging buffer: its pieces read back over junk. -/
def out1_B_3 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) : Vec F S5000x64 .f32 :=
  VO1_3.read (Elt F) (VO1_3.writes (Elt F) VO1_3.junk (kernelRun1_B c i arg1 harg1 arg2 harg2 arg3 harg3 arg4 harg4 arg5 harg5 arg6 harg6 hc0 x0 x1 x2 xo4 xo5).1)

/-- Case B's pieces for output 4 tile its block, so they cover it. -/
theorem cover1_B_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) (y : S1x64.Idx) :
    ∃ pc ∈ (kernelRun1_B c i arg1 harg1 arg2 harg2 arg3 harg3 arg4 harg4 arg5 harg5 arg6 harg6 hc0 x0 x1 x2 xo4 xo5).2.1, y ∈ pc.1.set :=
  View.cover_of_tiledL (kernelRun1_B c i arg1 harg1 arg2 harg2 arg3 harg3 arg4 harg4 arg5 harg5 arg6 harg6 hc0 x0 x1 x2 xo4 xo5).2.1 S1x64.size (by sl_kernel_rfl) y

/-- What case B leaves in output 4's staging buffer: its pieces read back over junk. -/
def out1_B_4 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) : Vec F S1x64 .f32 :=
  VO1_4.read (Elt F) (VO1_4.writes (Elt F) VO1_4.junk (kernelRun1_B c i arg1 harg1 arg2 harg2 arg3 harg3 arg4 harg4 arg5 harg5 arg6 harg6 hc0 x0 x1 x2 xo4 xo5).2.1)

/-- Case B's pieces for output 5 tile its block, so they cover it. -/
theorem cover1_B_5 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) (y : S1x64.Idx) :
    ∃ pc ∈ (kernelRun1_B c i arg1 harg1 arg2 harg2 arg3 harg3 arg4 harg4 arg5 harg5 arg6 harg6 hc0 x0 x1 x2 xo4 xo5).2.2.1, y ∈ pc.1.set :=
  View.cover_of_tiledL (kernelRun1_B c i arg1 harg1 arg2 harg2 arg3 harg3 arg4 harg4 arg5 harg5 arg6 harg6 hc0 x0 x1 x2 xo4 xo5).2.2.1 S1x64.size (by sl_kernel_rfl) y

/-- What case B leaves in output 5's staging buffer: its pieces read back over junk. -/
def out1_B_5 (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) : Vec F S1x64 .f32 :=
  VO1_5.read (Elt F) (VO1_5.writes (Elt F) VO1_5.junk (kernelRun1_B c i arg1 harg1 arg2 harg2 arg3 harg3 arg4 harg4 arg5 harg5 arg6 harg6 hc0 x0 x1 x2 xo4 xo5).2.2.1)

/-! ## What the outputs hold after each point -/

/-- THE ACCUMULATION. What the three outputs' staging buffers hold after the body at position `n`: the first
    point's case at `0`, the later points' case after it, run at the point's memrefs and input blocks, the two
    accumulator rows read at what this leaves at `n - 1` (their buffers are not written back between). -/
def outsAt1 (c : Dev nD) : (n : ℕ) → n < cfg1.N → Vec F S5000x64 .f32 × Vec F S1x64 .f32 × Vec F S1x64 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩), out1_A_4 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩), out1_A_5 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) ((hcond1_0 ⟨0, hn⟩).mpr (Nat.zero_mod _)) (iblk1 V c 0 ⟨0, hn⟩) (iblk1 V c 1 ⟨0, hn⟩) (iblk1 V c 2 ⟨0, hn⟩))
  | n + 1, hn =>
    if h0 : (n + 1) % 20 = 0 then
      (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩), out1_A_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩), out1_A_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) ((hcond1_0 ⟨n + 1, hn⟩).mpr h0) (iblk1 V c 0 ⟨n + 1, hn⟩) (iblk1 V c 1 ⟨n + 1, hn⟩) (iblk1 V c 2 ⟨n + 1, hn⟩))
    else
      (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, out1_B_4 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2, out1_B_5 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2.1 (outsAt1 c n (Nat.lt_of_succ_lt hn)).2.2)

/-- `outsAt1` at the first point: case A's contents. -/
theorem outsAt1_A (c : Dev nD) (t : Fin cfg1.N) (h0 : t.val % 20 = 0) :
    outsAt1 V c t.val t.isLt = (out1_A_3 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t), out1_A_4 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t), out1_A_5 c (grid1.coords t) (ms1_0 t) (hs1_0 t) (ms1_1 t) (hs1_1 t) (ms1_2 t) (hs1_2 t) (ms1_3 t) (hs1_3 t) (ms1_4 t) (hs1_4 t) (ms1_5 t) (hs1_5 t) ((hcond1_0 t).mpr h0) (iblk1 V c 0 t) (iblk1 V c 1 t) (iblk1 V c 2 t)) := by
  obtain ⟨n, hn⟩ := t
  cases n with
  | zero => exact rfl
  | succ n => exact (dif_pos h0).trans rfl

/-- `outsAt1` at a later point: case B's contents, over what the point before left. -/
theorem outsAt1_B (c : Dev nD) (t : Fin cfg1.N) (h0 : ¬t.val % 20 = 0) :
    outsAt1 V c t.val t.isLt = (out1_B_3 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, out1_B_4 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2, out1_B_5 c (grid1.coords t) (ms1_0 t) (hs1_0 t) (ms1_1 t) (hs1_1 t) (ms1_2 t) (hs1_2 t) (ms1_3 t) (hs1_3 t) (ms1_4 t) (hs1_4 t) (ms1_5 t) (hs1_5 t) (fun h => h0 ((hcond1_0 t).mp h)) (iblk1 V c 0 t) (iblk1 V c 1 t) (iblk1 V c 2 t) (outsAt1 V c (t.val - 1) (Nat.lt_of_le_of_lt (Nat.sub_le _ _) t.isLt)).2.1 (outsAt1 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 1 on core `c`: the arrays as the region finds them (`V`); after the body at
    point `t` each input's buffer at its block and the outputs' at `outsAt1`; the invariant the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
    | ⟨4, _⟩ => (outsAt1 V c t.val t.isLt).2.1
    | ⟨5, _⟩ => (outsAt1 V c t.val t.isLt).2.2
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := rfl
theorem owed_eq1 (c : Dev nD) (t : Fin (cfg1.N + 1)) : (dat1 V c).owed t = 0 := rfl
theorem Φ_eq1 (c : Dev nD) (t : Fin (cfg1.N + 1)) : (dat1 V c).Φ t = Pipeline.ΦA spec1 c := rfl

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem after1_4 (c : Dev nD) (t : Fin cfg1.N) : (dat1 V c).after 4 t = (outsAt1 V c t.val t.isLt).2.1 := by dsimp only [dat1]
theorem after1_5 (c : Dev nD) (t : Fin cfg1.N) : (dat1 V c).after 5 t = (outsAt1 V c t.val t.isLt).2.2 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
/-- At a later point output 4's staging buffer holds what the body left at the point before: the point is not the
    first, and the buffer was not written back between (it is written back after the last point only). -/
theorem before1_4_B (c : Dev nD) (t : Fin cfg1.N) (h0 : ¬t.val % 20 = 0) (d) :
    (dat1 V c).before 4 t d = (outsAt1 V c (t.val - 1) (Nat.lt_of_le_of_lt (Nat.sub_le _ _) t.isLt)).2.1 := by
  have hN : t.val < 20 := lt_of_lt_of_eq t.isLt (show cfg1.N = 20 from N_1)
  rw [Dat.before_out_kept _ 4 rfl t (by omega) (Bool.eq_false_iff.mpr fun h => by have := (flush1_4 _).mp h; dsimp only at this; omega)
    (fun _ => rfl) (fun _ _ => rfl)]
  dsimp only [dat1]
/-- At a later point output 5's staging buffer holds what the body left at the point before: the point is not the
    first, and the buffer was not written back between (it is written back after the last point only). -/
theorem before1_5_B (c : Dev nD) (t : Fin cfg1.N) (h0 : ¬t.val % 20 = 0) (d) :
    (dat1 V c).before 5 t d = (outsAt1 V c (t.val - 1) (Nat.lt_of_le_of_lt (Nat.sub_le _ _) t.isLt)).2.2 := by
  have hN : t.val < 20 := lt_of_lt_of_eq t.isLt (show cfg1.N = 20 from N_1)
  rw [Dat.before_out_kept _ 5 rfl t (by omega) (Bool.eq_false_iff.mpr fun h => by have := (flush1_5 _).mp h; dsimp only at this; omega)
    (fun _ => rfl) (fun _ _ => rfl)]
  dsimp only [dat1]

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t))

set_option maxHeartbeats 1600000 in
/-- The body at any point: the inputs' memrefs hold their blocks; the point is the first or a later one; at a later
    one the accumulator rows hold what the point before left; so the case's run applies; the invariant passes
    through unread; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3, after1_4, after1_5]
  have hN : t.val < 20 := lt_of_lt_of_eq t.isLt (show cfg1.N = 20 from N_1)
  by_cases h0 : t.val % 20 = 0
  · rw [outsAt1_A V c t h0]
    dsimp only
    unfold out1_A_3 out1_A_4 out1_A_5
    iintro ⟨HΦ, Ho, ⟨%d0, H0⟩, ⟨%d1, H1⟩, ⟨%d2, H2⟩, ⟨%d3, H3⟩, ⟨%d4, H4⟩, ⟨%d5, H5⟩⟩
    iapply ((kernelRun1_A c (grid1.coords t) _ _ _ _ _ _ _ _ _ _ _ _ ((hcond1_0 t).mpr h0) (iblk1 V c 0 t) (iblk1 V c 1 t) (iblk1 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_A_3 c _ _ _ _ _ _ _ _ _ _ _ _ _ _ _ _ _)
    isplitl [H4]
    · unfold owns; iexists _; isplitr
      swap; · iexact H4
      ipureintro; exact View.read_writes_of_cover _ _ _ _ _ (cover1_A_4 c _ _ _ _ _ _ _ _ _ _ _ _ _ _ _ _ _)
    unfold owns; iexists _; isplitr
    swap; · iexact H5
    ipureintro; exact View.read_writes_of_cover _ _ _ _ _ (cover1_A_5 c _ _ _ _ _ _ _ _ _ _ _ _ _ _ _ _ _)
  · rw [outsAt1_B V c t h0]
    dsimp only
    simp only [before1_4_B V c t h0, before1_5_B V c t h0]
    unfold out1_B_3 out1_B_4 out1_B_5
    iintro ⟨HΦ, Ho, ⟨%d0, H0⟩, ⟨%d1, H1⟩, ⟨%d2, H2⟩, ⟨%d3, H3⟩, ⟨%d4, H4⟩, ⟨%d5, H5⟩⟩
    iapply ((kernelRun1_B c (grid1.coords t) _ _ _ _ _ _ _ _ _ _ _ _ (fun h => h0 ((hcond1_0 t).mp h)) (iblk1 V c 0 t) (iblk1 V c 1 t) (iblk1 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover1_B_3 c _ _ _ _ _ _ _ _ _ _ _ _ _ _ _ _ _ _ _)
    isplitl [H4]
    · unfold owns; iexists _; isplitr
      swap; · iexact H4
      ipureintro; exact View.read_writes_of_cover _ _ _ _ _ (cover1_B_4 c _ _ _ _ _ _ _ _ _ _ _ _ _ _ _ _ _ _ _)
    unfold owns; iexists _; isplitr
    swap; · iexact H5
    ipureintro; exact View.read_writes_of_cover _ _ _ _ _ (cover1_B_5 c _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.WRegR3.lean ====
import proofs.«157882_j13769665151543_1_alg».proof.Proof.Gen.Kernel.Launch
import proofs.«157882_j13769665151543_1_alg».proof.Proof.Gen.Kernel.Skeleton
import proofs.«157882_j13769665151543_1_alg».proof.Proof.Gen.Kernel.Points
import Idealize.ShloMosaic.Lib.Pipeline.FrameBody
import Idealize.ShloMosaic.Lib.Ring
import Idealize.ShloMosaic.Lib.Tactic

/-! Region 3 (the row-scale, bias and ELU kernel with its running column sums), as one pipeline's proof data:
    the blocks its windows stage, the body's run in its two control cases (the first grid point, where the two
    accumulator rows are zeroed before they are added to, and the later points, where they are read as the point
    before left them), what the three outputs' staging buffers hold after each point, and the body obligation. -/

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not (unfetched, the
    block index has not moved), for any proof data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not (unfetched, the
    block index has not moved), for any proof data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not (unfetched, the
    block index has not moved), for any proof data whose array is `V`'s and whose body leaves the block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch condition -/

/-- The condition of the body's conditional (is the grid coordinate 0?), from the grid coordinates. -/
abbrev cond3_0 (i : grid3.Coords) : Prop := (Scalar.cmpi .ne (Scalar.extui (Scalar.cmpi .eq (BitVec.ofNat 32 (i 0).val) 0#32)) 0#32) = 1#1
/-- It holds at the first point only: decided over the grid. -/
theorem hcond3_0 : ∀ t : Fin cfg3.N, cond3_0 (grid3.coords t) ↔ t.val % 20 = 0 :=
  (by decide +kernel : ∀ t : Fin grid3.N, cond3_0 (grid3.coords t) ↔ t.val % 20 = 0)

/-! ## The staging memrefs -/

/-- One staging buffer of each output window, through which its contents are stated (the choice does not matter). -/
abbrev VO3_3 : View sig .tc .vmem S5000x64 .f32 := (Memref.whole cc3_stg3_0 : Memref sig .tc .vmem S5000x64 .f32).view
abbrev VO3_4 : View sig .tc .vmem S1x64 .f32 := (Memref.whole cc3_stg4_0 : Memref sig .tc .vmem S1x64 .f32).view
abbrev VO3_5 : View sig .tc .vmem S1x64 .f32 := (Memref.whole cc3_stg5_0 : Memref sig .tc .vmem S1x64 .f32).view
/-- Each window's current staging memref at point `t`, as the pipeline passes it to the body, and its wholeness. -/
abbrev ms3_0 (t : Fin cfg3.N) : Memref sig .tc .vmem S5000x64 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S5000x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x64 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S5000x64 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1x64 .f32 := win3_4.stage (cfg3.slots t 4)
abbrev hs3_4 (t : Fin cfg3.N) : (ms3_4 t).IsWhole := hstage3_4 ((cfg3.slots t 4).cast nbuf3_4)
abbrev ms3_5 (t : Fin cfg3.N) : Memref sig .tc .vmem S1x64 .f32 := win3_5.stage (cfg3.slots t 5)
abbrev hs3_5 (t : Fin cfg3.N) : (ms3_5 t).IsWhole := hstage3_5 ((cfg3.slots t 5).cast nbuf3_5)

/-! ## The body's run, case by case -/

set_option maxHeartbeats 4000000 in
/-- What the body's stores leave in each output's staging memref, as pieces (last first), AT THE FIRST POINT (the
    conditional taken: the two accumulator rows are zeroed, then added to), with the proof that on whole staging
    memrefs — the inputs' at their contents, the outputs' at anything — the body runs to the continuation holding
    the inputs' as they were and each output's buffer with its pieces written. -/
noncomputable def kernelRun3_A (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) :
    Σ' (L3 : List (View.Piece (Elt F) S5000x64 .f32)), Σ' (L4 : List (View.Piece (Elt F) S1x64 .f32)), { L5 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc3__post_agg_kernel i arg1 harg1 arg2 harg2 arg3 harg3 arg4 harg4 arg5 harg5 arg6 harg6) K } := by
  refine ⟨?_, ?_, ?_, fun E K => ?run⟩
  case run =>
    simp only [cc3__post_agg_kernel_eq_skeleton]; unfold cc3__post_agg_kernel_skel
    simp only [k3_part1_eq_skeleton]; unfold k3_part1_skel
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, Hk⟩
    obtain rfl := harg1.eq_unread hf0; obtain rfl := harg2.eq_unread hf1; obtain rfl := harg3.eq_unread hf2
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

set_option maxHeartbeats 4000000 in
/-- The same AT A LATER POINT (the conditional not taken): the two accumulator rows are read at their running
    contents `xo4`, `xo5` before they are overwritten. -/
noncomputable def kernelRun3_B (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) :
    Σ' (L3 : List (View.Piece (Elt F) S5000x64 .f32)), Σ' (L4 : List (View.Piece (Elt F) S1x64 .f32)), { L5 : List (View.Piece (Elt F) S1x64 .f32) //
      ∀ (E : Set ℕ) (K : PUnit → sProp 𝕄),
        iprop(owns (c : Thread nD τ) arg1 fullShare x0 ∗ owns (c : Thread nD τ) arg2 fullShare x1 ∗ owns (c : Thread nD τ) arg3 fullShare x2
            ∗ (∃ d, owns (c : Thread nD τ) arg4 fullShare d) ∗ owns (c : Thread nD τ) arg5 fullShare xo4 ∗ owns (c : Thread nD τ) arg6 fullShare xo5
            ∗ (iprop(owns (c : Thread nD τ) arg1 fullShare x0 ∗ owns (c : Thread nD τ) arg2 fullShare x1 ∗ owns (c : Thread nD τ) arg3 fullShare x2
                ∗ (∃ f, arg4.view.loc (c : Thread nD τ) ↦[arg4.view.set]{fullShare} arg4.view.writes (Elt F) f L3)
                ∗ (∃ f, arg5.view.loc (c : Thread nD τ) ↦[arg5.view.set]{fullShare} arg5.view.writes (Elt F) f L4)
                ∗ (∃ f, arg6.view.loc (c : Thread nD τ) ↦[arg6.view.set]{fullShare} arg6.view.writes (Elt F) f L5)) -∗ K ⟨⟩))
          ⊢ wp frame (wpE (defs₀ (F := F)) Variants.none c none) E (cc3__post_agg_kernel i arg1 harg1 arg2 harg2 arg3 harg3 arg4 harg4 arg5 harg5 arg6 harg6) K } := by
  refine ⟨?_, ?_, ?_, fun E K => ?run⟩
  case run =>
    simp only [cc3__post_agg_kernel_eq_skeleton]; unfold cc3__post_agg_kernel_skel
    simp only [k3_part1_eq_skeleton]; unfold k3_part1_skel
    unfold owns
    iintro ⟨⟨%f0, %hf0, H0⟩, ⟨%f1, %hf1, H1⟩, ⟨%f2, %hf2, H2⟩, ⟨%d3, %f3, -, H3⟩, ⟨%f4, %hf4, H4⟩, ⟨%f5, %hf5, H5⟩, Hk⟩
    obtain rfl := harg1.eq_unread hf0; obtain rfl := harg2.eq_unread hf1; obtain rfl := harg3.eq_unread hf2; obtain rfl := harg5.eq_unread hf4; obtain rfl := harg6.eq_unread hf5
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    isplitl [H4]; · iexists _; iexact H4
    iexists _; iexact H5

/-! ## What the body leaves in each output's staging buffer, per case -/

/-- Case A's pieces for output 3 tile its block, so they cover it. -/
theorem cover3_A_3 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) (y : S5000x64.Idx) :
    ∃ pc ∈ (kernelRun3_A c i arg1 harg1 arg2 harg2 arg3 harg3 arg4 harg4 arg5 harg5 arg6 harg6 hc0 x0 x1 x2).1, y ∈ pc.1.set :=
  View.cover_of_tiledL (kernelRun3_A c i arg1 harg1 arg2 harg2 arg3 harg3 arg4 harg4 arg5 harg5 arg6 harg6 hc0 x0 x1 x2).1 S5000x64.size (by sl_kernel_rfl) y

/-- What case A leaves in output 3's staging buffer: its pieces read back over junk. -/
def out3_A_3 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) : Vec F S5000x64 .f32 :=
  VO3_3.read (Elt F) (VO3_3.writes (Elt F) VO3_3.junk (kernelRun3_A c i arg1 harg1 arg2 harg2 arg3 harg3 arg4 harg4 arg5 harg5 arg6 harg6 hc0 x0 x1 x2).1)

/-- Case A's pieces for output 4 tile its block, so they cover it. -/
theorem cover3_A_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) (y : S1x64.Idx) :
    ∃ pc ∈ (kernelRun3_A c i arg1 harg1 arg2 harg2 arg3 harg3 arg4 harg4 arg5 harg5 arg6 harg6 hc0 x0 x1 x2).2.1, y ∈ pc.1.set :=
  View.cover_of_tiledL (kernelRun3_A c i arg1 harg1 arg2 harg2 arg3 harg3 arg4 harg4 arg5 harg5 arg6 harg6 hc0 x0 x1 x2).2.1 S1x64.size (by sl_kernel_rfl) y

/-- What case A leaves in output 4's staging buffer: its pieces read back over junk. -/
def out3_A_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) : Vec F S1x64 .f32 :=
  VO3_4.read (Elt F) (VO3_4.writes (Elt F) VO3_4.junk (kernelRun3_A c i arg1 harg1 arg2 harg2 arg3 harg3 arg4 harg4 arg5 harg5 arg6 harg6 hc0 x0 x1 x2).2.1)

/-- Case A's pieces for output 5 tile its block, so they cover it. -/
theorem cover3_A_5 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) (y : S1x64.Idx) :
    ∃ pc ∈ (kernelRun3_A c i arg1 harg1 arg2 harg2 arg3 harg3 arg4 harg4 arg5 harg5 arg6 harg6 hc0 x0 x1 x2).2.2.1, y ∈ pc.1.set :=
  View.cover_of_tiledL (kernelRun3_A c i arg1 harg1 arg2 harg2 arg3 harg3 arg4 harg4 arg5 harg5 arg6 harg6 hc0 x0 x1 x2).2.2.1 S1x64.size (by sl_kernel_rfl) y

/-- What case A leaves in output 5's staging buffer: its pieces read back over junk. -/
def out3_A_5 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) : Vec F S1x64 .f32 :=
  VO3_5.read (Elt F) (VO3_5.writes (Elt F) VO3_5.junk (kernelRun3_A c i arg1 harg1 arg2 harg2 arg3 harg3 arg4 harg4 arg5 harg5 arg6 harg6 hc0 x0 x1 x2).2.2.1)

/-- Case B's pieces for output 3 tile its block, so they cover it. -/
theorem cover3_B_3 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) (y : S5000x64.Idx) :
    ∃ pc ∈ (kernelRun3_B c i arg1 harg1 arg2 harg2 arg3 harg3 arg4 harg4 arg5 harg5 arg6 harg6 hc0 x0 x1 x2 xo4 xo5).1, y ∈ pc.1.set :=
  View.cover_of_tiledL (kernelRun3_B c i arg1 harg1 arg2 harg2 arg3 harg3 arg4 harg4 arg5 harg5 arg6 harg6 hc0 x0 x1 x2 xo4 xo5).1 S5000x64.size (by sl_kernel_rfl) y

/-- What case B leaves in output 3's staging buffer: its pieces read back over junk. -/
def out3_B_3 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) : Vec F S5000x64 .f32 :=
  VO3_3.read (Elt F) (VO3_3.writes (Elt F) VO3_3.junk (kernelRun3_B c i arg1 harg1 arg2 harg2 arg3 harg3 arg4 harg4 arg5 harg5 arg6 harg6 hc0 x0 x1 x2 xo4 xo5).1)

/-- Case B's pieces for output 4 tile its block, so they cover it. -/
theorem cover3_B_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) (y : S1x64.Idx) :
    ∃ pc ∈ (kernelRun3_B c i arg1 harg1 arg2 harg2 arg3 harg3 arg4 harg4 arg5 harg5 arg6 harg6 hc0 x0 x1 x2 xo4 xo5).2.1, y ∈ pc.1.set :=
  View.cover_of_tiledL (kernelRun3_B c i arg1 harg1 arg2 harg2 arg3 harg3 arg4 harg4 arg5 harg5 arg6 harg6 hc0 x0 x1 x2 xo4 xo5).2.1 S1x64.size (by sl_kernel_rfl) y

/-- What case B leaves in output 4's staging buffer: its pieces read back over junk. -/
def out3_B_4 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) : Vec F S1x64 .f32 :=
  VO3_4.read (Elt F) (VO3_4.writes (Elt F) VO3_4.junk (kernelRun3_B c i arg1 harg1 arg2 harg2 arg3 harg3 arg4 harg4 arg5 harg5 arg6 harg6 hc0 x0 x1 x2 xo4 xo5).2.1)

/-- Case B's pieces for output 5 tile its block, so they cover it. -/
theorem cover3_B_5 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) (y : S1x64.Idx) :
    ∃ pc ∈ (kernelRun3_B c i arg1 harg1 arg2 harg2 arg3 harg3 arg4 harg4 arg5 harg5 arg6 harg6 hc0 x0 x1 x2 xo4 xo5).2.2.1, y ∈ pc.1.set :=
  View.cover_of_tiledL (kernelRun3_B c i arg1 harg1 arg2 harg2 arg3 harg3 arg4 harg4 arg5 harg5 arg6 harg6 hc0 x0 x1 x2 xo4 xo5).2.2.1 S1x64.size (by sl_kernel_rfl) y

/-- What case B leaves in output 5's staging buffer: its pieces read back over junk. -/
def out3_B_5 (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) : Vec F S1x64 .f32 :=
  VO3_5.read (Elt F) (VO3_5.writes (Elt F) VO3_5.junk (kernelRun3_B c i arg1 harg1 arg2 harg2 arg3 harg3 arg4 harg4 arg5 harg5 arg6 harg6 hc0 x0 x1 x2 xo4 xo5).2.2.1)

/-! ## What the outputs hold after each point -/

/-- THE ACCUMULATION. What the three outputs' staging buffers hold after the body at position `n`: the first
    point's case at `0`, the later points' case after it, run at the point's memrefs and input blocks, the two
    accumulator rows read at what this leaves at `n - 1` (their buffers are not written back between). -/
def outsAt3 (c : Dev nD) : (n : ℕ) → n < cfg3.N → Vec F S5000x64 .f32 × Vec F S1x64 .f32 × Vec F S1x64 .f32
  | 0, hn => (out3_A_3 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) ((hcond3_0 ⟨0, hn⟩).mpr (Nat.zero_mod _)) (iblk3 V c 0 ⟨0, hn⟩) (iblk3 V c 1 ⟨0, hn⟩) (iblk3 V c 2 ⟨0, hn⟩), out3_A_4 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) ((hcond3_0 ⟨0, hn⟩).mpr (Nat.zero_mod _)) (iblk3 V c 0 ⟨0, hn⟩) (iblk3 V c 1 ⟨0, hn⟩) (iblk3 V c 2 ⟨0, hn⟩), out3_A_5 c (grid3.coords ⟨0, hn⟩) (ms3_0 ⟨0, hn⟩) (hs3_0 ⟨0, hn⟩) (ms3_1 ⟨0, hn⟩) (hs3_1 ⟨0, hn⟩) (ms3_2 ⟨0, hn⟩) (hs3_2 ⟨0, hn⟩) (ms3_3 ⟨0, hn⟩) (hs3_3 ⟨0, hn⟩) (ms3_4 ⟨0, hn⟩) (hs3_4 ⟨0, hn⟩) (ms3_5 ⟨0, hn⟩) (hs3_5 ⟨0, hn⟩) ((hcond3_0 ⟨0, hn⟩).mpr (Nat.zero_mod _)) (iblk3 V c 0 ⟨0, hn⟩) (iblk3 V c 1 ⟨0, hn⟩) (iblk3 V c 2 ⟨0, hn⟩))
  | n + 1, hn =>
    if h0 : (n + 1) % 20 = 0 then
      (out3_A_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) ((hcond3_0 ⟨n + 1, hn⟩).mpr h0) (iblk3 V c 0 ⟨n + 1, hn⟩) (iblk3 V c 1 ⟨n + 1, hn⟩) (iblk3 V c 2 ⟨n + 1, hn⟩), out3_A_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) ((hcond3_0 ⟨n + 1, hn⟩).mpr h0) (iblk3 V c 0 ⟨n + 1, hn⟩) (iblk3 V c 1 ⟨n + 1, hn⟩) (iblk3 V c 2 ⟨n + 1, hn⟩), out3_A_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) ((hcond3_0 ⟨n + 1, hn⟩).mpr h0) (iblk3 V c 0 ⟨n + 1, hn⟩) (iblk3 V c 1 ⟨n + 1, hn⟩) (iblk3 V c 2 ⟨n + 1, hn⟩))
    else
      (out3_B_3 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, out3_B_4 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2, out3_B_5 c (grid3.coords ⟨n + 1, hn⟩) (ms3_0 ⟨n + 1, hn⟩) (hs3_0 ⟨n + 1, hn⟩) (ms3_1 ⟨n + 1, hn⟩) (hs3_1 ⟨n + 1, hn⟩) (ms3_2 ⟨n + 1, hn⟩) (hs3_2 ⟨n + 1, hn⟩) (ms3_3 ⟨n + 1, hn⟩) (hs3_3 ⟨n + 1, hn⟩) (ms3_4 ⟨n + 1, hn⟩) (hs3_4 ⟨n + 1, hn⟩) (ms3_5 ⟨n + 1, hn⟩) (hs3_5 ⟨n + 1, hn⟩) (fun h => h0 ((hcond3_0 ⟨n + 1, hn⟩).mp h)) (iblk3 V c 0 ⟨n + 1, hn⟩) (iblk3 V c 1 ⟨n + 1, hn⟩) (iblk3 V c 2 ⟨n + 1, hn⟩) (outsAt3 c n (Nat.lt_of_succ_lt hn)).2.1 (outsAt3 c n (Nat.lt_of_succ_lt hn)).2.2)

/-- `outsAt3` at the first point: case A's contents. -/
theorem outsAt3_A (c : Dev nD) (t : Fin cfg3.N) (h0 : t.val % 20 = 0) :
    outsAt3 V c t.val t.isLt = (out3_A_3 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t), out3_A_4 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t), out3_A_5 c (grid3.coords t) (ms3_0 t) (hs3_0 t) (ms3_1 t) (hs3_1 t) (ms3_2 t) (hs3_2 t) (ms3_3 t) (hs3_3 t) (ms3_4 t) (hs3_4 t) (ms3_5 t) (hs3_5 t) ((hcond3_0 t).mpr h0) (iblk3 V c 0 t) (iblk3 V c 1 t) (iblk3 V c 2 t)) := by
  obtain ⟨n, hn⟩ := t
  cases n with
  | zero => exact rfl
  | succ n => exact (dif_pos h0).trans rfl

/-- `outsAt3` at a later point: case B's contents, over what the point before left. -/
theorem outsAt3_B (c : Dev nD) (t : Fin cfg3.N) (h0 : ¬t.val % 20 = 0) :
    outsAt3 V c t.val t.isLt = (out3_B_3 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, out3_B_4 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2, out3_B_5 c (grid3.coords t) (ms3_0 t) (hs3_0 t) (ms3_1 t) (hs3_1 t) (ms3_2 t) (hs3_2 t) (ms3_3 t) (hs3_3 t) (ms3_4 t) (hs3_4 t) (ms3_5 t) (hs3_5 t) (fun h => h0 ((hcond3_0 t).mp h)) (iblk3 V c 0 t) (iblk3 V c 1 t) (iblk3 V c 2 t) (outsAt3 V c (t.val - 1) (Nat.lt_of_le_of_lt (Nat.sub_le _ _) t.isLt)).2.1 (outsAt3 V c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans rfl

/-! ## The pipeline's proof data -/

/-- The proof data of pipeline 3 on core `c`: the arrays as the region finds them (`V`); after the body at
    point `t` each input's buffer at its block and the outputs' at `outsAt3`; the invariant the scoped rest
    and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
    | ⟨4, _⟩ => (outsAt3 V c t.val t.isLt).2.1
    | ⟨5, _⟩ => (outsAt3 V c t.val t.isLt).2.2
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

theorem q_eq3 (c : Dev nD) (w : Fin cfg3.W) : (dat3 V c).q w = fullShare := rfl
theorem owed_eq3 (c : Dev nD) (t : Fin (cfg3.N + 1)) : (dat3 V c).owed t = 0 := rfl
theorem Φ_eq3 (c : Dev nD) (t : Fin (cfg3.N + 1)) : (dat3 V c).Φ t = Pipeline.ΦA spec3 c := rfl

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]
theorem after3_4 (c : Dev nD) (t : Fin cfg3.N) : (dat3 V c).after 4 t = (outsAt3 V c t.val t.isLt).2.1 := by dsimp only [dat3]
theorem after3_5 (c : Dev nD) (t : Fin cfg3.N) : (dat3 V c).after 5 t = (outsAt3 V c t.val t.isLt).2.2 := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
/-- At a later point output 4's staging buffer holds what the body left at the point before: the point is not the
    first, and the buffer was not written back between (it is written back after the last point only). -/
theorem before3_4_B (c : Dev nD) (t : Fin cfg3.N) (h0 : ¬t.val % 20 = 0) (d) :
    (dat3 V c).before 4 t d = (outsAt3 V c (t.val - 1) (Nat.lt_of_le_of_lt (Nat.sub_le _ _) t.isLt)).2.1 := by
  have hN : t.val < 20 := lt_of_lt_of_eq t.isLt (show cfg3.N = 20 from N_3)
  rw [Dat.before_out_kept _ 4 rfl t (by omega) (Bool.eq_false_iff.mpr fun h => by have := (flush3_4 _).mp h; dsimp only at this; omega)
    (fun _ => rfl) (fun _ _ => rfl)]
  dsimp only [dat3]
/-- At a later point output 5's staging buffer holds what the body left at the point before: the point is not the
    first, and the buffer was not written back between (it is written back after the last point only). -/
theorem before3_5_B (c : Dev nD) (t : Fin cfg3.N) (h0 : ¬t.val % 20 = 0) (d) :
    (dat3 V c).before 5 t d = (outsAt3 V c (t.val - 1) (Nat.lt_of_le_of_lt (Nat.sub_le _ _) t.isLt)).2.2 := by
  have hN : t.val < 20 := lt_of_lt_of_eq t.isLt (show cfg3.N = 20 from N_3)
  rw [Dat.before_out_kept _ 5 rfl t (by omega) (Bool.eq_false_iff.mpr fun h => by have := (flush3_5 _).mp h; dsimp only at this; omega)
    (fun _ => rfl) (fun _ _ => rfl)]
  dsimp only [dat3]

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d))
    ∗ (∃ d, owns (c : Thread nD τ) (ms3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t)
    ∗ owns (c : Thread nD τ) (ms3_5 t) fullShare ((dat3 V c).after 5 t))

set_option maxHeartbeats 1600000 in
/-- The body at any point: the inputs' memrefs hold their blocks; the point is the first or a later one; at a later
    one the accumulator rows hold what the point before left; so the case's run applies; the invariant passes
    through unread; the core owes nothing throughout. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3, after3_4, after3_5]
  have hN : t.val < 20 := lt_of_lt_of_eq t.isLt (show cfg3.N = 20 from N_3)
  by_cases h0 : t.val % 20 = 0
  · rw [outsAt3_A V c t h0]
    dsimp only
    unfold out3_A_3 out3_A_4 out3_A_5
    iintro ⟨HΦ, Ho, ⟨%d0, H0⟩, ⟨%d1, H1⟩, ⟨%d2, H2⟩, ⟨%d3, H3⟩, ⟨%d4, H4⟩, ⟨%d5, H5⟩⟩
    iapply ((kernelRun3_A c (grid3.coords t) _ _ _ _ _ _ _ _ _ _ _ _ ((hcond3_0 t).mpr h0) (iblk3 V c 0 t) (iblk3 V c 1 t) (iblk3 V c 2 t)).2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_A_3 c _ _ _ _ _ _ _ _ _ _ _ _ _ _ _ _ _)
    isplitl [H4]
    · unfold owns; iexists _; isplitr
      swap; · iexact H4
      ipureintro; exact View.read_writes_of_cover _ _ _ _ _ (cover3_A_4 c _ _ _ _ _ _ _ _ _ _ _ _ _ _ _ _ _)
    unfold owns; iexists _; isplitr
    swap; · iexact H5
    ipureintro; exact View.read_writes_of_cover _ _ _ _ _ (cover3_A_5 c _ _ _ _ _ _ _ _ _ _ _ _ _ _ _ _ _)
  · rw [outsAt3_B V c t h0]
    dsimp only
    simp only [before3_4_B V c t h0, before3_5_B V c t h0]
    unfold out3_B_3 out3_B_4 out3_B_5
    iintro ⟨HΦ, Ho, ⟨%d0, H0⟩, ⟨%d1, H1⟩, ⟨%d2, H2⟩, ⟨%d3, H3⟩, ⟨%d4, H4⟩, ⟨%d5, H5⟩⟩
    iapply ((kernelRun3_B c (grid3.coords t) _ _ _ _ _ _ _ _ _ _ _ _ (fun h => h0 ((hcond3_0 t).mp h)) (iblk3 V c 0 t) (iblk3 V c 1 t) (iblk3 V c 2 t) _ _).2.2.2 Set.univ _)
    isplitl [H0]; · iexact H0
    isplitl [H1]; · iexact H1
    isplitl [H2]; · iexact H2
    isplitl [H3]; · iexists _; iexact H3
    isplitl [H4]; · iexact H4
    isplitl [H5]; · iexact H5
    iintro ⟨H0, H1, H2, ⟨%e3, H3⟩, ⟨%e4, H4⟩, ⟨%e5, H5⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover3_B_3 c _ _ _ _ _ _ _ _ _ _ _ _ _ _ _ _ _ _ _)
    isplitl [H4]
    · unfold owns; iexists _; isplitr
      swap; · iexact H4
      ipureintro; exact View.read_writes_of_cover _ _ _ _ _ (cover3_B_4 c _ _ _ _ _ _ _ _ _ _ _ _ _ _ _ _ _ _ _)
    unfold owns; iexists _; isplitr
    swap; · iexact H5
    ipureintro; exact View.read_writes_of_cover _ _ _ _ _ (cover3_B_5 c _ _ _ _ _ _ _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.WKChain.lean ====
/-
  The buffer contents of the kernel program between its items, and the proof data of its five kernel regions.

  @main is five stretches of host operations alternating with five kernel regions. `U1` is what the unscoped buffers
  hold after the first stretch, `U2` after region 0 (the entry contents with the region's output array replaced by what
  its write-backs leave), `U3` after the second stretch, and so on to `U10`. Each region's proof data is taken at the
  contents the region is entered at.
-/
import proofs.«157882_j13769665151543_1_alg».proof.Proof.Gen.Kernel.Regions
import proofs.«157882_j13769665151543_1_alg».proof.Proof.Gen.Kernel.Points
import proofs.«157882_j13769665151543_1_alg».proof.Proof.WRegA0
import proofs.«157882_j13769665151543_1_alg».proof.Proof.WRegA2
import proofs.«157882_j13769665151543_1_alg».proof.Proof.WRegA4
import proofs.«157882_j13769665151543_1_alg».proof.Proof.WRegR1
import proofs.«157882_j13769665151543_1_alg».proof.Proof.WRegR3
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev VR (W : Dev nD → Valuation τ sig (Elt F)) : (c : Dev nD) → (b : Ref sig .tc) → Buf (Elt F) ((c : Thread nD τ).loc b) :=
  fun c b => W c b

/-- The shares region 0 holds its input arrays at: the two constant rows it is handed twice are dealt as two halves. -/
def q0 : Fin cfg0.W → PosShare TreeShare
  | ⟨2, _⟩ => fullShare.left
  | ⟨5, _⟩ => fullShare.right
  | ⟨3, _⟩ => fullShare.left
  | ⟨4, _⟩ => fullShare.right
  | _ => fullShare
abbrev qF (n : ℕ) : Fin n → PosShare TreeShare := fun _ => fullShare

def U1 : Dev nD → Valuation τ sig (Elt F) := fun c => V1 m c
def U2 (c : Dev nD) : Valuation τ sig (Elt F) :=
  Function.update (U1 m c) main_v17 ((dat0 (VR (U1 m)) q0 c).arrAt 7 cfg0.N)
def U3 : Dev nD → Valuation τ sig (Elt F) := fun c => StableHlo.after hostOps1 (U2 m c)
def U4 (c : Dev nD) : Valuation τ sig (Elt F) :=
  Function.update (Function.update (Function.update (U3 m c) main_v29_0 ((dat1 (VR (U3 m)) c).arrAt 3 cfg1.N))
    main_v29_1 ((dat1 (VR (U3 m)) c).arrAt 4 cfg1.N)) main_v29_2 ((dat1 (VR (U3 m)) c).arrAt 5 cfg1.N)
def U5 : Dev nD → Valuation τ sig (Elt F) := fun c => StableHlo.after hostOps2 (U4 m c)
def U6 (c : Dev nD) : Valuation τ sig (Elt F) :=
  Function.update (U5 m c) main_v43 ((dat2 (VR (U5 m)) (qF _) c).arrAt 7 cfg2.N)
def U7 : Dev nD → Valuation τ sig (Elt F) := fun c => StableHlo.after hostOps3 (U6 m c)
def U8 (c : Dev nD) : Valuation τ sig (Elt F) :=
  Function.update (Function.update (Function.update (U7 m c) main_v55_0 ((dat3 (VR (U7 m)) c).arrAt 3 cfg3.N))
    main_v55_1 ((dat3 (VR (U7 m)) c).arrAt 4 cfg3.N)) main_v55_2 ((dat3 (VR (U7 m)) c).arrAt 5 cfg3.N)
def U9 : Dev nD → Valuation τ sig (Elt F) := fun c => StableHlo.after hostOps4 (U8 m c)
def U10 (c : Dev nD) : Valuation τ sig (Elt F) :=
  Function.update (U9 m c) main_v69 ((dat4 (VR (U9 m)) (qF _) c).arrAt 5 cfg4.N)

/-- What the regions leave, as the unknowns of the conditional frame. -/
def outsK : Outs (F := F) := fun J r c => match J with
  | 2 => U2 m c r | 4 => U4 m c r | 6 => U6 m c r | 8 => U8 m c r | 10 => U10 m c r | _ => V0 m c r

theorem ne_dev {r r' : Ref sig .tc} (h : r ≠ r') : (Proc.devRef .tc r : DevRef τ sig) ≠ Proc.devRef .tc r' := StableHlo.devRef_ne_of_ne h

theorem U2_v17 (c : Dev nD) : U2 m c main_v17 = (dat0 (VR (U1 m)) q0 c).arrAt 7 cfg0.N := by
  unfold U2; rw [Function.update_self]
theorem U4_v29_0 (c : Dev nD) : U4 m c main_v29_0 = (dat1 (VR (U3 m)) c).arrAt 3 cfg1.N := by
  unfold U4; rw [Function.update_of_ne (ne_dev (by decide)), Function.update_of_ne (ne_dev (by decide)), Function.update_self]
theorem U4_v29_1 (c : Dev nD) : U4 m c main_v29_1 = (dat1 (VR (U3 m)) c).arrAt 4 cfg1.N := by
  unfold U4; rw [Function.update_of_ne (ne_dev (by decide)), Function.update_self]
theorem U4_v29_2 (c : Dev nD) : U4 m c main_v29_2 = (dat1 (VR (U3 m)) c).arrAt 5 cfg1.N := by
  unfold U4; rw [Function.update_self]
theorem U6_v43 (c : Dev nD) : U6 m c main_v43 = (dat2 (VR (U5 m)) (qF _) c).arrAt 7 cfg2.N := by
  unfold U6; rw [Function.update_self]
theorem U8_v55_0 (c : Dev nD) : U8 m c main_v55_0 = (dat3 (VR (U7 m)) c).arrAt 3 cfg3.N := by
  unfold U8; rw [Function.update_of_ne (ne_dev (by decide)), Function.update_of_ne (ne_dev (by decide)), Function.update_self]
theorem U8_v55_1 (c : Dev nD) : U8 m c main_v55_1 = (dat3 (VR (U7 m)) c).arrAt 4 cfg3.N := by
  unfold U8; rw [Function.update_of_ne (ne_dev (by decide)), Function.update_self]
theorem U8_v55_2 (c : Dev nD) : U8 m c main_v55_2 = (dat3 (VR (U7 m)) c).arrAt 5 cfg3.N := by
  unfold U8; rw [Function.update_self]
theorem U10_v69 (c : Dev nD) : U10 m c main_v69 = (dat4 (VR (U9 m)) (qF _) c).arrAt 5 cfg4.N := by
  unfold U10; rw [Function.update_self]

theorem V2_eq (c : Dev nD) : V2 m (outsK m) c = U2 m c := by
  show Function.update (V1 m c) main_v17 (U2 m c main_v17) = U2 m c
  rw [U2_v17]; unfold U2 U1; rfl
theorem V3_eq (c : Dev nD) : V3 m (outsK m) c = U3 m c := by
  show StableHlo.after hostOps1 (V2 m (outsK m) c) = _; rw [V2_eq]; unfold U3; rfl
theorem V4_eq (c : Dev nD) : V4 m (outsK m) c = U4 m c := by
  show Function.update (Function.update (Function.update (V3 m (outsK m) c) main_v29_0 (U4 m c main_v29_0)) main_v29_1 (U4 m c main_v29_1)) main_v29_2 (U4 m c main_v29_2) = U4 m c
  rw [V3_eq, U4_v29_0, U4_v29_1, U4_v29_2]; unfold U4; rfl
theorem V5_eq (c : Dev nD) : V5 m (outsK m) c = U5 m c := by
  show StableHlo.after hostOps2 (V4 m (outsK m) c) = _; rw [V4_eq]; unfold U5; rfl
theorem V6_eq (c : Dev nD) : V6 m (outsK m) c = U6 m c := by
  show Function.update (V5 m (outsK m) c) main_v43 (U6 m c main_v43) = U6 m c
  rw [V5_eq, U6_v43]; unfold U6; rfl
theorem V7_eq (c : Dev nD) : V7 m (outsK m) c = U7 m c := by
  show StableHlo.after hostOps3 (V6 m (outsK m) c) = _; rw [V6_eq]; unfold U7; rfl
theorem V8_eq (c : Dev nD) : V8 m (outsK m) c = U8 m c := by
  show Function.update (Function.update (Function.update (V7 m (outsK m) c) main_v55_0 (U8 m c main_v55_0)) main_v55_1 (U8 m c main_v55_1)) main_v55_2 (U8 m c main_v55_2) = U8 m c
  rw [V7_eq, U8_v55_0, U8_v55_1, U8_v55_2]; unfold U8; rfl
theorem V9_eq (c : Dev nD) : V9 m (outsK m) c = U9 m c := by
  show StableHlo.after hostOps4 (V8 m (outsK m) c) = _; rw [V8_eq]; unfold U9; rfl
theorem V10_eq (c : Dev nD) : V10 m (outsK m) c = U10 m c := by
  show Function.update (V9 m (outsK m) c) main_v69 (U10 m c main_v69) = U10 m c
  rw [V9_eq, U10_v69]; unfold U10; rfl

theorem V1_eq (c : Dev nD) : V1 m c = U1 m c := rfl
theorem U2_of_ne (c : Dev nD) (b : Ref sig .tc) (h : b ≠ main_v17) : U2 m c b = U1 m c b := by
  unfold U2; rw [Function.update_of_ne (ne_dev h)]
theorem U4_of_ne (c : Dev nD) (b : Ref sig .tc) (h0 : b ≠ main_v29_0) (h1 : b ≠ main_v29_1) (h2 : b ≠ main_v29_2) : U4 m c b = U3 m c b := by
  unfold U4; rw [Function.update_of_ne (ne_dev h2), Function.update_of_ne (ne_dev h1), Function.update_of_ne (ne_dev h0)]
theorem U6_of_ne (c : Dev nD) (b : Ref sig .tc) (h : b ≠ main_v43) : U6 m c b = U5 m c b := by
  unfold U6; rw [Function.update_of_ne (ne_dev h)]
theorem U8_of_ne (c : Dev nD) (b : Ref sig .tc) (h0 : b ≠ main_v55_0) (h1 : b ≠ main_v55_1) (h2 : b ≠ main_v55_2) : U8 m c b = U7 m c b := by
  unfold U8; rw [Function.update_of_ne (ne_dev h2), Function.update_of_ne (ne_dev h1), Function.update_of_ne (ne_dev h0)]
theorem U10_of_ne (c : Dev nD) (b : Ref sig .tc) (h : b ≠ main_v69) : U10 m c b = U9 m c b := by
  unfold U10; rw [Function.update_of_ne (ne_dev h)]
theorem U3_eq (c : Dev nD) : U3 m c = StableHlo.after hostOps1 (U2 m c) := rfl
theorem U5_eq (c : Dev nD) : U5 m c = StableHlo.after hostOps2 (U4 m c) := rfl
theorem U7_eq (c : Dev nD) : U7 m c = StableHlo.after hostOps3 (U6 m c) := rfl
theorem U9_eq (c : Dev nD) : U9 m c = StableHlo.after hostOps4 (U8 m c) := rfl
theorem U1_eq (c : Dev nD) : U1 m c = StableHlo.after hostOps0 (V0 m c) := rfl

attribute [irreducible] U1 U2 U3 U4 U5 U6 U7 U8 U9 U10

/-- Every pipeline's proof data, each at its region's entry contents. -/
def pdats : (p : Fin 5) → (c : Dev nD) → Dat τ (Elt F) Unit ℕ (UR sig nD τ) ℕ (cfgs p) c
  | ⟨0, _⟩ => fun c => dat0 (VR (U1 m)) q0 c
  | ⟨1, _⟩ => fun c => dat1 (VR (U3 m)) c
  | ⟨2, _⟩ => fun c => dat2 (VR (U5 m)) (qF _) c
  | ⟨3, _⟩ => fun c => dat3 (VR (U7 m)) c
  | ⟨4, _⟩ => fun c => dat4 (VR (U9 m)) (qF _) c

abbrev 𝒱₀ : Variants := Variants.none
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)

end Cert.Kernel.Hand
end
-- ==== Proof.WKRun.lean ====
/-
  The kernel program's run: its five kernel regions as segments between the host stretches, and the launch.

  Each region is entered with every unscoped buffer of the core held at the contents before it, takes its windows' arrays
  out of them, runs its pipeline, and puts the arrays back at what the write-backs leave. Regions 1 to 4 read distinct
  arrays. Region 0 is handed two constant rows twice each (as mean and shift, and as scale and gain): the buffers behind
  its eight windows are six, and each of the two shared ones is dealt to its two windows as the two halves of its share
  and joined again at the exit. The run then reads every unscoped buffer of the final memory at the last valuation, which
  gives the frame (no argument is ever written) and the result buffer's contents.
-/
import proofs.«157882_j13769665151543_1_alg».proof.Proof.WKChain
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- At region 1's exit each of its arrays holds what the pipeline leaves: an input array is never written, an output
    array is the updated entry. -/
theorem hF1 (c : Dev nD) (w : Fin cfg1.W) : (pdats m 1 c).arrAt w cfg1.N = VR (U4 m) c (Pipeline.arrRef spec1 w) := by
  show (dat1 (VR (U3 m)) c).arrAt w cfg1.N = _
  have h : ∀ w : Fin cfg1.W, w = 0 ∨ w = 1 ∨ w = 2 ∨ w = 3 ∨ w = 4 ∨ w = 5 := by decide
  rcases h w with rfl | rfl | rfl | rfl | rfl | rfl
  · exact ((dat1 (VR (U3 m)) c).arrAt_in 0 rfl _).trans ((A_eq1 (VR (U3 m)) c 0).trans (U4_of_ne m c _ (by decide) (by decide) (by decide)).symm)
  · exact ((dat1 (VR (U3 m)) c).arrAt_in 1 rfl _).trans ((A_eq1 (VR (U3 m)) c 1).trans (U4_of_ne m c _ (by decide) (by decide) (by decide)).symm)
  · exact ((dat1 (VR (U3 m)) c).arrAt_in 2 rfl _).trans ((A_eq1 (VR (U3 m)) c 2).trans (U4_of_ne m c _ (by decide) (by decide) (by decide)).symm)
  · exact (U4_v29_0 m c).symm
  · exact (U4_v29_1 m c).symm
  · exact (U4_v29_2 m c).symm
theorem hrest1 (c : Dev nD) : ∀ b, b ∉ Finset.univ.image (Pipeline.arrRef spec1) → VR (U4 m) c b = VR (U3 m) c b := fun b hb =>
  U4_of_ne m c b (fun e => hb (Finset.mem_image.mpr ⟨3, Finset.mem_univ _, e.symm⟩))
    (fun e => hb (Finset.mem_image.mpr ⟨4, Finset.mem_univ _, e.symm⟩)) (fun e => hb (Finset.mem_image.mpr ⟨5, Finset.mem_univ _, e.symm⟩))

set_option backward.isDefEq.respectTransparency.types false in
/-- Region 1 over the thread state: entered from every unscoped buffer at the contents before it, left at the contents
    after it; its arrays split out of the unscoped buffers and put back at the exit contents; the generator register into
    the class invariant and out; nothing owed; no semaphore of the kernel's own. -/
def reg1 : Pipeline.RegionSeg (pcfgs (F := F)) Cert.Kernel.Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (VR (U3 m)) c).loose
  hwaits := Pipeline.hwaits_of_owed_zero _ _ _ _ L lv 1 fun _ _ => rfl
  pre c := iprop(StableHlo.held (c : Thread nD τ) (Pipeline.ucRefs τ sig) (V3 m (outsK m) c) ∗ R c)
  post c := iprop(StableHlo.held (c : Thread nD τ) (Pipeline.ucRefs τ sig) (V4 m (outsK m) c) ∗ R c)
  X c := iprop(∃ r, prngReg c r)
  Y c := iprop(∃ r, prngReg c r)
  Z c := Pipeline.unscopedRest (Ix := Unit) (Name := ℕ) (U := UR sig nD τ) (Lvl := ℕ) spec1 c (VR (U3 m) c)
  hentry c := by
    rw [Pipeline.ownSems0_none, V3_eq]
    have hsplit := Pipeline.arrays_of_unscopedBufs (p := 1) (pcfgs (F := F)) Cert.Kernel.Gen.adm (pdats m) launch1.win launch1.arr_whole c
      ((pdats m 1 c).share_full fun _ => rfl) (VR (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    rw [V4_eq]
    have hjoin := Pipeline.unscopedBufs_of_arrays (p := 1) (pcfgs (F := F)) Cert.Kernel.Gen.adm (Ix := Unit) (Name := ℕ) (U := UR sig nD τ) (Lvl := ℕ)
      launch1.win launch1.arr_whole c (pdats m) ((pdats m 1 c).share_full fun _ => rfl)
      (VR (U3 m) c) (VR (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 2's exit each of its arrays holds what the pipeline leaves: an input array is never written, the output
    array is the updated entry. -/
theorem hF2 (c : Dev nD) (w : Fin cfg2.W) : (pdats m 2 c).arrAt w cfg2.N = VR (U6 m) c (Pipeline.arrRef spec2 w) := by
  show (dat2 (VR (U5 m)) (qF _) c).arrAt w cfg2.N = _
  have h : ∀ w : Fin cfg2.W, w = 0 ∨ w = 1 ∨ w = 2 ∨ w = 3 ∨ w = 4 ∨ w = 5 ∨ w = 6 ∨ w = 7 := by decide
  rcases h w with rfl | rfl | rfl | rfl | rfl | rfl | rfl | rfl
  · exact ((dat2 (VR (U5 m)) (qF _) c).arrAt_in 0 rfl _).trans ((A_eq2 (VR (U5 m)) (qF _) c 0).trans (U6_of_ne m c _ (by decide)).symm)
  · exact ((dat2 (VR (U5 m)) (qF _) c).arrAt_in 1 rfl _).trans ((A_eq2 (VR (U5 m)) (qF _) c 1).trans (U6_of_ne m c _ (by decide)).symm)
  · exact ((dat2 (VR (U5 m)) (qF _) c).arrAt_in 2 rfl _).trans ((A_eq2 (VR (U5 m)) (qF _) c 2).trans (U6_of_ne m c _ (by decide)).symm)
  · exact ((dat2 (VR (U5 m)) (qF _) c).arrAt_in 3 rfl _).trans ((A_eq2 (VR (U5 m)) (qF _) c 3).trans (U6_of_ne m c _ (by decide)).symm)
  · exact ((dat2 (VR (U5 m)) (qF _) c).arrAt_in 4 rfl _).trans ((A_eq2 (VR (U5 m)) (qF _) c 4).trans (U6_of_ne m c _ (by decide)).symm)
  · exact ((dat2 (VR (U5 m)) (qF _) c).arrAt_in 5 rfl _).trans ((A_eq2 (VR (U5 m)) (qF _) c 5).trans (U6_of_ne m c _ (by decide)).symm)
  · exact ((dat2 (VR (U5 m)) (qF _) c).arrAt_in 6 rfl _).trans ((A_eq2 (VR (U5 m)) (qF _) c 6).trans (U6_of_ne m c _ (by decide)).symm)
  · exact (U6_v43 m c).symm
theorem hrest2 (c : Dev nD) : ∀ b, b ∉ Finset.univ.image (Pipeline.arrRef spec2) → VR (U6 m) c b = VR (U5 m) c b := fun b hb =>
  U6_of_ne m c b (fun e => hb (Finset.mem_image.mpr ⟨7, Finset.mem_univ _, e.symm⟩))

set_option backward.isDefEq.respectTransparency.types false in
/-- Region 2 over the thread state: entered from every unscoped buffer at the contents before it, left at the contents
    after it; its arrays split out of the unscoped buffers and put back at the exit contents; the generator register into
    the class invariant and out; nothing owed; no semaphore of the kernel's own. -/
def reg2 : Pipeline.RegionSeg (pcfgs (F := F)) Cert.Kernel.Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (VR (U5 m)) (qF _) c).loose
  hwaits := Pipeline.hwaits_of_owed_zero _ _ _ _ L lv 2 fun _ _ => rfl
  pre c := iprop(StableHlo.held (c : Thread nD τ) (Pipeline.ucRefs τ sig) (V5 m (outsK m) c) ∗ R c)
  post c := iprop(StableHlo.held (c : Thread nD τ) (Pipeline.ucRefs τ sig) (V6 m (outsK m) c) ∗ R c)
  X c := iprop(∃ r, prngReg c r)
  Y c := iprop(∃ r, prngReg c r)
  Z c := Pipeline.unscopedRest (Ix := Unit) (Name := ℕ) (U := UR sig nD τ) (Lvl := ℕ) spec2 c (VR (U5 m) c)
  hentry c := by
    rw [Pipeline.ownSems0_none, V5_eq]
    have hsplit := Pipeline.arrays_of_unscopedBufs (p := 2) (pcfgs (F := F)) Cert.Kernel.Gen.adm (pdats m) launch2.win launch2.arr_whole c
      ((pdats m 2 c).share_full fun _ => rfl) (VR (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    rw [V6_eq]
    have hjoin := Pipeline.unscopedBufs_of_arrays (p := 2) (pcfgs (F := F)) Cert.Kernel.Gen.adm (Ix := Unit) (Name := ℕ) (U := UR sig nD τ) (Lvl := ℕ)
      launch2.win launch2.arr_whole c (pdats m) ((pdats m 2 c).share_full fun _ => rfl)
      (VR (U5 m) c) (VR (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 3's exit each of its arrays holds what the pipeline leaves: an input array is never written, an output
    array is the updated entry. -/
theorem hF3 (c : Dev nD) (w : Fin cfg3.W) : (pdats m 3 c).arrAt w cfg3.N = VR (U8 m) c (Pipeline.arrRef spec3 w) := by
  show (dat3 (VR (U7 m)) c).arrAt w cfg3.N = _
  have h : ∀ w : Fin cfg3.W, w = 0 ∨ w = 1 ∨ w = 2 ∨ w = 3 ∨ w = 4 ∨ w = 5 := by decide
  rcases h w with rfl | rfl | rfl | rfl | rfl | rfl
  · exact ((dat3 (VR (U7 m)) c).arrAt_in 0 rfl _).trans ((A_eq3 (VR (U7 m)) c 0).trans (U8_of_ne m c _ (by decide) (by decide) (by decide)).symm)
  · exact ((dat3 (VR (U7 m)) c).arrAt_in 1 rfl _).trans ((A_eq3 (VR (U7 m)) c 1).trans (U8_of_ne m c _ (by decide) (by decide) (by decide)).symm)
  · exact ((dat3 (VR (U7 m)) c).arrAt_in 2 rfl _).trans ((A_eq3 (VR (U7 m)) c 2).trans (U8_of_ne m c _ (by decide) (by decide) (by decide)).symm)
  · exact (U8_v55_0 m c).symm
  · exact (U8_v55_1 m c).symm
  · exact (U8_v55_2 m c).symm
theorem hrest3 (c : Dev nD) : ∀ b, b ∉ Finset.univ.image (Pipeline.arrRef spec3) → VR (U8 m) c b = VR (U7 m) c b := fun b hb =>
  U8_of_ne m c b (fun e => hb (Finset.mem_image.mpr ⟨3, Finset.mem_univ _, e.symm⟩))
    (fun e => hb (Finset.mem_image.mpr ⟨4, Finset.mem_univ _, e.symm⟩)) (fun e => hb (Finset.mem_image.mpr ⟨5, Finset.mem_univ _, e.symm⟩))

set_option backward.isDefEq.respectTransparency.types false in
/-- Region 3 over the thread state: entered from every unscoped buffer at the contents before it, left at the contents
    after it; its arrays split out of the unscoped buffers and put back at the exit contents; the generator register into
    the class invariant and out; nothing owed; no semaphore of the kernel's own. -/
def reg3 : Pipeline.RegionSeg (pcfgs (F := F)) Cert.Kernel.Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (VR (U7 m)) c).loose
  hwaits := Pipeline.hwaits_of_owed_zero _ _ _ _ L lv 3 fun _ _ => rfl
  pre c := iprop(StableHlo.held (c : Thread nD τ) (Pipeline.ucRefs τ sig) (V7 m (outsK m) c) ∗ R c)
  post c := iprop(StableHlo.held (c : Thread nD τ) (Pipeline.ucRefs τ sig) (V8 m (outsK m) c) ∗ R c)
  X c := iprop(∃ r, prngReg c r)
  Y c := iprop(∃ r, prngReg c r)
  Z c := Pipeline.unscopedRest (Ix := Unit) (Name := ℕ) (U := UR sig nD τ) (Lvl := ℕ) spec3 c (VR (U7 m) c)
  hentry c := by
    rw [Pipeline.ownSems0_none, V7_eq]
    have hsplit := Pipeline.arrays_of_unscopedBufs (p := 3) (pcfgs (F := F)) Cert.Kernel.Gen.adm (pdats m) launch3.win launch3.arr_whole c
      ((pdats m 3 c).share_full fun _ => rfl) (VR (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    rw [V8_eq]
    have hjoin := Pipeline.unscopedBufs_of_arrays (p := 3) (pcfgs (F := F)) Cert.Kernel.Gen.adm (Ix := Unit) (Name := ℕ) (U := UR sig nD τ) (Lvl := ℕ)
      launch3.win launch3.arr_whole c (pdats m) ((pdats m 3 c).share_full fun _ => rfl)
      (VR (U7 m) c) (VR (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- At region 4's exit each of its arrays holds what the pipeline leaves: an input array is never written, the output
    array is the updated entry. -/
theorem hF4 (c : Dev nD) (w : Fin cfg4.W) : (pdats m 4 c).arrAt w cfg4.N = VR (U10 m) c (Pipeline.arrRef spec4 w) := by
  show (dat4 (VR (U9 m)) (qF _) c).arrAt w cfg4.N = _
  have h : ∀ w : Fin cfg4.W, w = 0 ∨ w = 1 ∨ w = 2 ∨ w = 3 ∨ w = 4 ∨ w = 5 := by decide
  rcases h w with rfl | rfl | rfl | rfl | rfl | rfl
  · exact ((dat4 (VR (U9 m)) (qF _) c).arrAt_in 0 rfl _).trans ((A_eq4 (VR (U9 m)) (qF _) c 0).trans (U10_of_ne m c _ (by decide)).symm)
  · exact ((dat4 (VR (U9 m)) (qF _) c).arrAt_in 1 rfl _).trans ((A_eq4 (VR (U9 m)) (qF _) c 1).trans (U10_of_ne m c _ (by decide)).symm)
  · exact ((dat4 (VR (U9 m)) (qF _) c).arrAt_in 2 rfl _).trans ((A_eq4 (VR (U9 m)) (qF _) c 2).trans (U10_of_ne m c _ (by decide)).symm)
  · exact ((dat4 (VR (U9 m)) (qF _) c).arrAt_in 3 rfl _).trans ((A_eq4 (VR (U9 m)) (qF _) c 3).trans (U10_of_ne m c _ (by decide)).symm)
  · exact ((dat4 (VR (U9 m)) (qF _) c).arrAt_in 4 rfl _).trans ((A_eq4 (VR (U9 m)) (qF _) c 4).trans (U10_of_ne m c _ (by decide)).symm)
  · exact (U10_v69 m c).symm
theorem hrest4 (c : Dev nD) : ∀ b, b ∉ Finset.univ.image (Pipeline.arrRef spec4) → VR (U10 m) c b = VR (U9 m) c b := fun b hb =>
  U10_of_ne m c b (fun e => hb (Finset.mem_image.mpr ⟨5, Finset.mem_univ _, e.symm⟩))

set_option backward.isDefEq.respectTransparency.types false in
/-- Region 4 over the thread state: entered from every unscoped buffer at the contents before it, left at the contents
    after it; its arrays split out of the unscoped buffers and put back at the exit contents; the generator register into
    the class invariant and out; nothing owed; no semaphore of the kernel's own. -/
def reg4 : Pipeline.RegionSeg (pcfgs (F := F)) Cert.Kernel.Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (VR (U9 m)) (qF _) c).loose
  hwaits := Pipeline.hwaits_of_owed_zero _ _ _ _ L lv 4 fun _ _ => rfl
  pre c := iprop(StableHlo.held (c : Thread nD τ) (Pipeline.ucRefs τ sig) (V9 m (outsK m) c) ∗ R c)
  post c := iprop(StableHlo.held (c : Thread nD τ) (Pipeline.ucRefs τ sig) (V10 m (outsK m) c) ∗ R c)
  X c := iprop(∃ r, prngReg c r)
  Y c := iprop(∃ r, prngReg c r)
  Z c := Pipeline.unscopedRest (Ix := Unit) (Name := ℕ) (U := UR sig nD τ) (Lvl := ℕ) spec4 c (VR (U9 m) c)
  hentry c := by
    rw [Pipeline.ownSems0_none, V9_eq]
    have hsplit := Pipeline.arrays_of_unscopedBufs (p := 4) (pcfgs (F := F)) Cert.Kernel.Gen.adm (pdats m) launch4.win launch4.arr_whole c
      ((pdats m 4 c).share_full fun _ => rfl) (VR (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    rw [V10_eq]
    have hjoin := Pipeline.unscopedBufs_of_arrays (p := 4) (pcfgs (F := F)) Cert.Kernel.Gen.adm (Ix := Unit) (Name := ℕ) (U := UR sig nD τ) (Lvl := ℕ)
      launch4.win launch4.arr_whole c (pdats m) ((pdats m 4 c).share_full fun _ => rfl)
      (VR (U9 m) c) (VR (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## Region 0: two of its input arrays are each read through two windows -/

theorem U2_in (c : Dev nD) (w : Fin cfg0.W) (hw : Pipeline.arrRef spec0 w ≠ main_v17) :
    VR (U2 m) c (Pipeline.arrRef spec0 w) = VR (U1 m) c (Pipeline.arrRef spec0 w) := U2_of_ne m c _ hw

/-- At region 0's exit each of its arrays holds what the pipeline leaves. -/
theorem hF0 (c : Dev nD) (w : Fin cfg0.W) : (pdats m 0 c).arrAt w cfg0.N = VR (U2 m) c (Pipeline.arrRef spec0 w) := by
  show (dat0 (VR (U1 m)) q0 c).arrAt w cfg0.N = _
  have h : ∀ w : Fin cfg0.W, w = 0 ∨ w = 1 ∨ w = 2 ∨ w = 3 ∨ w = 4 ∨ w = 5 ∨ w = 6 ∨ w = 7 := by decide
  rcases h w with rfl | rfl | rfl | rfl | rfl | rfl | rfl | rfl
  · exact ((dat0 (VR (U1 m)) q0 c).arrAt_in 0 rfl _).trans ((A_eq0 (VR (U1 m)) q0 c 0).trans (U2_of_ne m c _ (by decide)).symm)
  · exact ((dat0 (VR (U1 m)) q0 c).arrAt_in 1 rfl _).trans ((A_eq0 (VR (U1 m)) q0 c 1).trans (U2_of_ne m c _ (by decide)).symm)
  · exact ((dat0 (VR (U1 m)) q0 c).arrAt_in 2 rfl _).trans ((A_eq0 (VR (U1 m)) q0 c 2).trans (U2_of_ne m c _ (by decide)).symm)
  · exact ((dat0 (VR (U1 m)) q0 c).arrAt_in 3 rfl _).trans ((A_eq0 (VR (U1 m)) q0 c 3).trans (U2_of_ne m c _ (by decide)).symm)
  · exact ((dat0 (VR (U1 m)) q0 c).arrAt_in 4 rfl _).trans ((A_eq0 (VR (U1 m)) q0 c 4).trans (U2_of_ne m c _ (by decide)).symm)
  · exact ((dat0 (VR (U1 m)) q0 c).arrAt_in 5 rfl _).trans ((A_eq0 (VR (U1 m)) q0 c 5).trans (U2_of_ne m c _ (by decide)).symm)
  · exact ((dat0 (VR (U1 m)) q0 c).arrAt_in 6 rfl _).trans ((A_eq0 (VR (U1 m)) q0 c 6).trans (U2_of_ne m c _ (by decide)).symm)
  · exact (U2_v17 m c).symm
theorem hrest0 (c : Dev nD) : ∀ b, b ∉ Finset.univ.image (Pipeline.arrRef spec0) → VR (U2 m) c b = VR (U1 m) c b := fun b hb =>
  U2_of_ne m c b (fun e => hb (Finset.mem_image.mpr ⟨7, Finset.mem_univ _, e.symm⟩))

/-- The shares region 0's proof data holds its arrays at. -/
theorem share0 (V : (c : Dev nD) → (b : Ref sig .tc) → Buf (Elt F) ((c : Thread nD τ).loc b)) (c : Dev nD) (w : Fin cfg0.W) :
    (dat0 V q0 c).share w = q0 w := by
  have h : ∀ w : Fin cfg0.W, w = 0 ∨ w = 1 ∨ w = 2 ∨ w = 3 ∨ w = 4 ∨ w = 5 ∨ w = 6 ∨ w = 7 := by decide
  rcases h w with rfl | rfl | rfl | rfl | rfl | rfl | rfl | rfl <;> rfl

/-- The six distinct buffers behind region 0's eight windows, each whole at the full share, are the region's arrays at
    the same contents: the two constant rows, read through two windows each, are dealt as two halves of their share. -/
theorem arrays0_iff (V : (c : Dev nD) → (b : Ref sig .tc) → Buf (Elt F) ((c : Thread nD τ).loc b)) (c : Dev nD)
    (W : (b : Ref sig .tc) → Buf (Elt F) ((c : Thread nD τ).loc b))
    (Fw : (w : Fin cfg0.W) → Buf (Elt F) ((cfg0.win w).arr.view.loc (c : Thread nD τ))) (hF : ∀ w, Fw w = W (Pipeline.arrRef spec0 w)) :
    (Pipeline.arrBufs (Ix := Unit) (Name := ℕ) (U := UR sig nD τ) (Lvl := ℕ) spec0 c W : sProp 𝕄) ⊣⊢ (dat0 V q0 c).arrays Fw := by
  have key : (dat0 V q0 c).arrays Fw
      = bigSep Finset.univ fun w : Fin cfg0.W => (((c : Thread nD τ).loc (Pipeline.arrRef spec0 w)) ↦{q0 w} W (Pipeline.arrRef spec0 w) : sProp 𝕄) := by
    unfold Dat.arrays
    exact bigSep_congr fun w _ => by rw [(arr_whole0 w).set_eq_univ, hF w, share0]
  rw [key, bigSep_W0]
  unfold Pipeline.arrBufs
  rw [show Finset.univ.image (Pipeline.arrRef spec0) = ({main_arg0, main_v13, main_v15, main_v16, main_arg1, main_v17} : Finset (Ref sig .tc)) from by decide]
  rw [bigSep_insert (by decide), bigSep_insert (by decide), bigSep_insert (by decide), bigSep_insert (by decide), bigSep_insert (by decide), bigSep_singleton]
  show iprop((((c : Thread nD τ).loc main_arg0) ↦{fullShare} W main_arg0) ∗ (((c : Thread nD τ).loc main_v13) ↦{fullShare} W main_v13)
      ∗ (((c : Thread nD τ).loc main_v15) ↦{fullShare} W main_v15) ∗ (((c : Thread nD τ).loc main_v16) ↦{fullShare} W main_v16)
      ∗ (((c : Thread nD τ).loc main_arg1) ↦{fullShare} W main_arg1) ∗ (((c : Thread nD τ).loc main_v17) ↦{fullShare} W main_v17))
    ⊣⊢ iprop((((c : Thread nD τ).loc main_arg0) ↦{fullShare} W main_arg0) ∗ (((c : Thread nD τ).loc main_v13) ↦{fullShare} W main_v13)
      ∗ (((c : Thread nD τ).loc main_v15) ↦{fullShare.left} W main_v15) ∗ (((c : Thread nD τ).loc main_v16) ↦{fullShare.left} W main_v16)
      ∗ (((c : Thread nD τ).loc main_v16) ↦{fullShare.right} W main_v16) ∗ (((c : Thread nD τ).loc main_v15) ↦{fullShare.right} W main_v15)
      ∗ (((c : Thread nD τ).loc main_arg1) ↦{fullShare} W main_arg1) ∗ (((c : Thread nD τ).loc main_v17) ↦{fullShare} W main_v17))
  have s15 : ((((c : Thread nD τ).loc main_v15) ↦{fullShare} W main_v15) : sProp 𝕄) ⊣⊢ iprop((((c : Thread nD τ).loc main_v15) ↦{fullShare.left} W main_v15) ∗ (((c : Thread nD τ).loc main_v15) ↦{fullShare.right} W main_v15)) :=
    pointsTo_share (PosShare.mem_left_op_right fullShare)
  have s16 : ((((c : Thread nD τ).loc main_v16) ↦{fullShare} W main_v16) : sProp 𝕄) ⊣⊢ iprop((((c : Thread nD τ).loc main_v16) ↦{fullShare.left} W main_v16) ∗ (((c : Thread nD τ).loc main_v16) ↦{fullShare.right} W main_v16)) :=
    pointsTo_share (PosShare.mem_left_op_right fullShare)
  constructor
  · iintro ⟨H0, H13, H15, H16, H1, H17⟩
    ihave H15' := s15.1 $$ H15
    ihave H16' := s16.1 $$ H16
    icases H15' with ⟨H15a, H15b⟩
    icases H16' with ⟨H16a, H16b⟩
    isplitl [H0]; · iexact H0
    isplitl [H13]; · iexact H13
    isplitl [H15a]; · iexact H15a
    isplitl [H16a]; · iexact H16a
    isplitl [H16b]; · iexact H16b
    isplitl [H15b]; · iexact H15b
    isplitl [H1]; · iexact H1
    iexact H17
  · iintro ⟨H0, H13, H15a, H16a, H16b, H15b, H1, H17⟩
    isplitl [H0]; · iexact H0
    isplitl [H13]; · iexact H13
    isplitl [H15a H15b]
    · iapply s15.2; isplitl [H15a] <;> iassumption
    isplitl [H16a H16b]
    · iapply s16.2; isplitl [H16a] <;> iassumption
    isplitl [H1]; · iexact H1
    iexact H17

theorem arr_unscoped0 : ∀ w : Fin 8, (Pipeline.arrRef spec0 w).isScoped = false := by decide

set_option backward.isDefEq.respectTransparency.types false in
/-- Region 0 over the thread state. Its windows' arrays are six buffers, two of them read through two windows each:
    at entry the buffers are split out of the unscoped buffers and dealt to the windows (`arrays0_iff`), at the exit
    they are joined again and put back. -/
def reg0 : Pipeline.RegionSeg (pcfgs (F := F)) Cert.Kernel.Gen.adm (pdats m) () defs₀ 𝒱₀ L lv 0 where
  win := winFacts₀0
  block_pos := block_pos0
  stage_whole := stage_whole0
  K := PEmpty
  osem k := k.elim
  ho := Pipeline.OwnSemFacts.none _
  hbody c := (body_obligation0 (VR (U1 m)) q0 c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outsK m) c) ∗ R c)
  X c := iprop(∃ r, prngReg c r)
  Y c := iprop(∃ r, prngReg c r)
  Z c := Pipeline.unscopedRest (Ix := Unit) (Name := ℕ) (U := UR sig nD τ) (Lvl := ℕ) spec0 c (VR (U1 m) c)
  hentry c := by
    rw [Pipeline.ownSems0_none, V1_eq]
    have hsplit : (unscopedBufs c (VR (U1 m) c) : sProp 𝕄)
        ⊢ iprop((pdats m 0 c).arrays ((pdats m 0 c).arrAt · 0) ∗ Pipeline.unscopedRest spec0 c (VR (U1 m) c)) := by
      rw [Pipeline.unscopedBufs_split₀ (Pipeline.pin (pcfgs (F := F)) Cert.Kernel.Gen.adm) 0 arr_unscoped0 c (VR (U1 m) c)]
      exact sep_mono (arrays0_iff (VR (U1 m)) c (VR (U1 m) c) _ (fun w => A_eq0 (VR (U1 m)) q0 c w)).1 .rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    rw [V2_eq]
    have hjoin : iprop((pdats m 0 c).arrays ((pdats m 0 c).arrAt · cfg0.N) ∗ Pipeline.unscopedRest spec0 c (VR (U1 m) c))
        ⊢ (unscopedBufs c (VR (U2 m) c) : sProp 𝕄) := by
      rw [Pipeline.unscopedBufs_split₀ (Pipeline.pin (pcfgs (F := F)) Cert.Kernel.Gen.adm) 0 arr_unscoped0 c (VR (U2 m) c)]
      refine sep_mono (arrays0_iff (VR (U1 m)) c (VR (U2 m) c) _ (hF0 m c)).2 (Entails.of_eq ?_)
      unfold Pipeline.unscopedRest
      exact bigSep_congr fun b hb => by rw [hrest0 m c b (Finset.mem_sdiff.mp hb).2]
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

-- the launch theorem's implicit arguments are found by unifying its conclusion with this one, which takes unfolding
-- plain definitions in a metavariable's type
set_option backward.isDefEq.respectTransparency.types false in
/-- Every weakly fair execution of @main from memory `m` with zero counters terminates, and every final memory holds
    each unscoped buffer of each core at the last valuation: the arguments as launched, the result at what the last
    region leaves. -/
theorem run_all (ρ : Dev nD → PrngReg) :
    θ_run defs (onTc (τ := τ) (main (F := F))) ⟨m, fun _ => 0, ρ⟩ (fun r => ∀ c : Dev nD,
      ∀ b ∈ Pipeline.ucRefs τ sig, r.2.mem (((c : Thread nD τ)).1, b) = U10 m c b) := by
  refine Pipeline.θ_run_regions_kit_dev (pcfgs (F := F)) Cert.Kernel.Gen.adm (pdats m) () cellOf_inj emb₁ defs₀ 𝒱₀ L lv m ρ main
    (segs m (outsK m) 𝒱₀ L lv (fun _ c => R c) () (pdats m) (reg0 m) (reg1 m) (reg2 m) (reg3 m) (reg4 m))
    (fun c Q => by
      rewrite [main_chain c, Pipeline.Seg.run_eq_chain,
        show (segs m (outsK m) 𝒱₀ L lv (fun _ c => R c) () (pdats m) (reg0 m) (reg1 m) (reg2 m) (reg3 m) (reg4 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()) ] from rfl]
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c))
    (Tₙ := fun c => iprop(StableHlo.held (c : Thread nD τ) (Pipeline.ucRefs τ sig) (V10 m (outsK m) c) ∗ ∃ r, prngReg c r))
    (hch := fun c => ⟨.rfl, .rfl, .rfl, .rfl, .rfl, .rfl, .rfl, .rfl, .rfl, .rfl,
      (show (iprop(StableHlo.held (c : Thread nD τ) (Pipeline.ucRefs τ sig) (V10 m (outsK m) c) ∗ R c) : sProp 𝕄)
          ⊢ iprop((StableHlo.held (c : Thread nD τ) (Pipeline.ucRefs τ sig) (V10 m (outsK m) c) ∗ ∃ r, prngReg c r)
            ∗ ∃ W, owes (c : Thread nD τ) (0 : CellTallies nD τ sig Unit) W) from by
        iintro ⟨Hh, Hp, HO⟩
        isplitl [Hh Hp]
        · isplitl [Hh] <;> iassumption
        iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U10 m c b)
    (hfin := fun c s' => by
      rw [V10_eq]
      iintro ⟨⟨Hh, -⟩, HSI⟩
      unfold StableHlo.held
      imodintro
      iapply (pointsTo_read_all (Pipeline.ucRefs τ sig) (fun b => (((c : Thread nD τ)).1, b)) (U10 m c) s')
      isplitl [Hh] <;> iassumption)
    (hQ := fun s h c => h c)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The frame: every argument array ends as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    have e := fun b hb => (h c (Proc.devRef .tc b) (mem_uc b hb)).trans (congrFun (V10_eq m c).symm _)
    exact ⟨(e main_arg0 (by decide)).trans (V10_main_arg0 m (outsK m) c), (e main_arg1 (by decide)).trans (V10_main_arg1 m (outsK m) c),
      (e main_arg2 (by decide)).trans (V10_main_arg2 m (outsK m) c), (e main_arg3 (by decide)).trans (V10_main_arg3 m (outsK m) c),
      (e main_arg4 (by decide)).trans (V10_main_arg4 m (outsK m) c), (e main_arg5 (by decide)).trans (V10_main_arg5 m (outsK m) c),
      (e main_arg6 (by decide)).trans (V10_main_arg6 m (outsK m) c), (e main_arg7 (by decide)).trans (V10_main_arg7 m (outsK m) c),
      (e main_arg8 (by decide)).trans (V10_main_arg8 m (outsK m) c), (e main_arg9 (by decide)).trans (V10_main_arg9 m (outsK m) c),
      (e main_arg10 (by decide)).trans (V10_main_arg10 m (outsK m) c)⟩) (run_all m ρ)

/-- The run with the result named: the result buffer ends at the last valuation's contents, every argument as launched. -/
theorem run_val (ρ : Dev nD → PrngReg) :
    θ_run defs (onTc (τ := τ) (main (F := F))) ⟨m, fun _ => 0, ρ⟩ (fun r => ∀ c : Dev nD,
      r.2.mem ((c.tc : Thread nD τ).loc main_v69) = U10 m c main_v69
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => by
    have e := fun b hb => (h c (Proc.devRef .tc b) (mem_uc b hb)).trans (congrFun (V10_eq m c).symm _)
    exact ⟨h c (Proc.devRef .tc main_v69) (mem_uc main_v69 (by decide)),
      (e main_arg0 (by decide)).trans (V10_main_arg0 m (outsK m) c), (e main_arg1 (by decide)).trans (V10_main_arg1 m (outsK m) c),
      (e main_arg2 (by decide)).trans (V10_main_arg2 m (outsK m) c), (e main_arg3 (by decide)).trans (V10_main_arg3 m (outsK m) c),
      (e main_arg4 (by decide)).trans (V10_main_arg4 m (outsK m) c), (e main_arg5 (by decide)).trans (V10_main_arg5 m (outsK m) c),
      (e main_arg6 (by decide)).trans (V10_main_arg6 m (outsK m) c), (e main_arg7 (by decide)).trans (V10_main_arg7 m (outsK m) c),
      (e main_arg8 (by decide)).trans (V10_main_arg8 m (outsK m) c), (e main_arg9 (by decide)).trans (V10_main_arg9 m (outsK m) c),
      (e main_arg10 (by decide)).trans (V10_main_arg10 m (outsK m) c)⟩) (run_all m ρ)

end Cert.Kernel.Hand

end
-- ==== Proof.RefOps.lean ====
import proofs.«157882_j13769665151543_1_alg».proof.Proof.Gen.ReferenceIdeal
import Idealize.ShloMosaic.Lib.StableHlo.Run

/-! # The reference program as a straight line

The reference is a host program: no kernel, one sequence of tensor operations on one device. This module lists those
operations in program order as ONE list, each with the buffers it reads and the buffer it writes. The program calls its
ELU twice; a call runs the callee's body on the operands, so each call appears here as the fifteen operations of that body,
written into that call's own buffers. Three facts follow. The program is, by unfolding, the list run in order. Every
buffer the list names is a device buffer of the signature, and the signature scopes no buffer and no semaphore. Hence, from
any memory with all counters at zero, every weakly fair run of the program terminates, and in its final state each buffer
holds the fold of the list over the contents the run started from: every operation replaces the contents of the buffer it
writes by its function of its operands' contents and leaves every other buffer as it was. -/

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's operations in order, the two calls of the ELU unfolded: each is fifteen operations into that call's own
    buffers — the zero, its broadcast and the comparison (twice), the zero the inner selection converts and
    broadcasts, that selection, the exponential minus one, the one, its broadcast, the product, the outer selection. -/
abbrev ops : List (HloOp τ sig (Elt F)) :=
  [ nullary main_cst (constant S_ .f32 0x3F800000#32),
    unary main_cst main_v0 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v1 (broadcastInDim S100000 ![] bcast_S_S100000 : (⟨S_, .f32⟩ : BufTy).Contents (Elt F) → (⟨S100000, .f32⟩ : BufTy).Contents (Elt F)),
    unary main_arg9 main_v2 (broadcastInDim S1600000x1 ![0] bcast_S1600000_S1600000x1_0 : (⟨S1600000, .i32⟩ : BufTy).Contents (Elt F) → (⟨S1600000x1, .i32⟩ : BufTy).Contents (Elt F)),
    ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x00000000#32),
    unary main_cst_1 main_v4 (broadcastInDim S100000 ![] bcast_S_S100000 : (⟨S_, .f32⟩ : BufTy).Contents (Elt F) → (⟨S100000, .f32⟩ : BufTy).Contents (Elt F)),
    unary main_arg10 main_v5 (broadcastInDim S1600000x1 ![0] bcast_S1600000_S1600000x1_0 : (⟨S1600000, .i32⟩ : BufTy).Contents (Elt F) → (⟨S1600000x1, .i32⟩ : BufTy).Contents (Elt F)),
    ternary main_v4 main_v5 main_v0 main_v6 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_2 (constant S_ .f32 0x3F800000#32),
    unary main_cst_2 main_v7 (broadcastInDim S100000 ![] bcast_S_S100000 : (⟨S_, .f32⟩ : BufTy).Contents (Elt F) → (⟨S100000, .f32⟩ : BufTy).Contents (Elt F)),
    binary main_v3 main_v7 main_v8 (maximumf : (⟨S100000, .f32⟩ : BufTy).Contents (Elt F) → (⟨S100000, .f32⟩ : BufTy).Contents (Elt F) → (⟨S100000, .f32⟩ : BufTy).Contents (Elt F)),
    unary main_v8 main_v9 (Host.rsqrt : (⟨S100000, .f32⟩ : BufTy).Contents (Elt F) → (⟨S100000, .f32⟩ : BufTy).Contents (Elt F)),
    nullary main_cst_3 (constant S_ .f32 0x3F800000#32),
    unary main_cst_3 main_v10 (broadcastInDim S100000 ![] bcast_S_S100000 : (⟨S_, .f32⟩ : BufTy).Contents (Elt F) → (⟨S100000, .f32⟩ : BufTy).Contents (Elt F)),
    binary main_v6 main_v10 main_v11 (maximumf : (⟨S100000, .f32⟩ : BufTy).Contents (Elt F) → (⟨S100000, .f32⟩ : BufTy).Contents (Elt F) → (⟨S100000, .f32⟩ : BufTy).Contents (Elt F)),
    unary main_v11 main_v12 (Host.rsqrt : (⟨S100000, .f32⟩ : BufTy).Contents (Elt F) → (⟨S100000, .f32⟩ : BufTy).Contents (Elt F)),
    unary main_v9 main_v13 (broadcastInDim S100000x1 ![0] bcast_S100000_S100000x1_0 : (⟨S100000, .f32⟩ : BufTy).Contents (Elt F) → (⟨S100000x1, .f32⟩ : BufTy).Contents (Elt F)),
    unary main_v13 main_v14 (broadcastInDim S100000x128 ![0, 1] bcast_S100000x1_S100000x128_0_1 : (⟨S100000x1, .f32⟩ : BufTy).Contents (Elt F) → (⟨S100000x128, .f32⟩ : BufTy).Contents (Elt F)),
    binary main_arg0 main_v14 main_v15 (mulf : (⟨S100000x128, .f32⟩ : BufTy).Contents (Elt F) → (⟨S100000x128, .f32⟩ : BufTy).Contents (Elt F) → (⟨S100000x128, .f32⟩ : BufTy).Contents (Elt F)),
    binary main_v15 main_arg1 main_v16 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c (constantI S_ 32 0#32),
    unary main_c main_v17 (broadcastInDim S1600000 ![] bcast_S_S1600000 : (⟨S_, .i32⟩ : BufTy).Contents (Elt F) → (⟨S1600000, .i32⟩ : BufTy).Contents (Elt F)),
    binary main_arg9 main_v17 main_v18 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v19 (broadcastInDim S1600000 ![] bcast_S_S1600000 : (⟨S_, .i32⟩ : BufTy).Contents (Elt F) → (⟨S1600000, .i32⟩ : BufTy).Contents (Elt F)),
    binary main_arg9 main_v19 main_v20 (addi : (⟨S1600000, .i32⟩ : BufTy).Contents (Elt F) → (⟨S1600000, .i32⟩ : BufTy).Contents (Elt F) → (⟨S1600000, .i32⟩ : BufTy).Contents (Elt F)),
    ternary main_v18 main_v20 main_arg9 main_v21 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v21 main_v22 (broadcastInDim S1600000x1 ![0] bcast_S1600000_S1600000x1_0 : (⟨S1600000, .i32⟩ : BufTy).Contents (Elt F) → (⟨S1600000x1, .i32⟩ : BufTy).Contents (Elt F)),
    binary main_v16 main_v22 main_v23 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_5 (constant S_ .f32 0x00000000#32),
    unary main_cst_5 main_v24 (broadcastInDim S100000x64 ![] bcast_S_S100000x64 : (⟨S_, .f32⟩ : BufTy).Contents (Elt F) → (⟨S100000x64, .f32⟩ : BufTy).Contents (Elt F)),
    unary main_arg10 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v23 main_v26 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v12 main_v27 (broadcastInDim S100000x1 ![0] bcast_S100000_S100000x1_0 : (⟨S100000, .f32⟩ : BufTy).Contents (Elt F) → (⟨S100000x1, .f32⟩ : BufTy).Contents (Elt F)),
    unary main_v27 main_v28 (broadcastInDim S100000x64 ![0, 1] bcast_S100000x1_S100000x64_0_1 : (⟨S100000x1, .f32⟩ : BufTy).Contents (Elt F) → (⟨S100000x64, .f32⟩ : BufTy).Contents (Elt F)),
    binary main_v26 main_v28 main_v29 (mulf : (⟨S100000x64, .f32⟩ : BufTy).Contents (Elt F) → (⟨S100000x64, .f32⟩ : BufTy).Contents (Elt F) → (⟨S100000x64, .f32⟩ : BufTy).Contents (Elt F)),
    unary main_arg2 main_v30 (broadcastInDim S1x64 ![1] bcast_S64_S1x64_1 : (⟨S64, .f32⟩ : BufTy).Contents (Elt F) → (⟨S1x64, .f32⟩ : BufTy).Contents (Elt F)),
    unary main_v30 main_v31 (broadcastInDim S100000x64 ![0, 1] bcast_S1x64_S100000x64_0_1 : (⟨S1x64, .f32⟩ : BufTy).Contents (Elt F) → (⟨S100000x64, .f32⟩ : BufTy).Contents (Elt F)),
    binary main_v29 main_v31 main_v32 (addf : (⟨S100000x64, .f32⟩ : BufTy).Contents (Elt F) → (⟨S100000x64, .f32⟩ : BufTy).Contents (Elt F) → (⟨S100000x64, .f32⟩ : BufTy).Contents (Elt F)),
    TRef.nullary main_call0.cst (constant S_ .f32 0x00000000#32),
    TRef.unary main_call0.cst main_call0.v0 (broadcastInDim S100000x64 ![] bcast_S_S100000x64),
    TRef.binary (.of main_v32) main_call0.v0 main_call0.v1 (cmpf .ogt),
    TRef.nullary main_call0.cst_0 (constant S_ .f32 0x00000000#32),
    TRef.unary main_call0.cst_0 main_call0.v2 (broadcastInDim S100000x64 ![] bcast_S_S100000x64),
    TRef.binary (.of main_v32) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x64 ![] bcast_S_S100000x64),
    TRef.ternary main_call0.v3 main_call0.call0.v1 (.of main_v32) main_call0.call0.v2 select,
    TRef.unary main_call0.call0.v2 main_call0.v5 Host.expm1,
    TRef.nullary main_call0.cst_2 (constant S_ .f32 0x3F800000#32),
    TRef.unary main_call0.cst_2 main_call0.v6 (broadcastInDim S100000x64 ![] bcast_S_S100000x64),
    TRef.binary main_call0.v6 main_call0.v5 main_call0.v7 mulf,
    TRef.ternary main_call0.v1 (.of main_v32) main_call0.v7 main_call0.call1.v0 select,
    nullary main_cst_6 (constant S_ .f32 0x00000000#32),
    binary main_v33 main_cst_6 main_v34 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_7 (constant S_ .f32 0x47C35000#32),
    unary main_cst_7 main_v35 (broadcastInDim S64 ![] bcast_S_S64 : (⟨S_, .f32⟩ : BufTy).Contents (Elt F) → (⟨S64, .f32⟩ : BufTy).Contents (Elt F)),
    binary main_v34 main_v35 main_v36 (Host.divf : (⟨S64, .f32⟩ : BufTy).Contents (Elt F) → (⟨S64, .f32⟩ : BufTy).Contents (Elt F) → (⟨S64, .f32⟩ : BufTy).Contents (Elt F)),
    unary main_v36 main_v37 (broadcastInDim S1x64 ![1] bcast_S64_S1x64_1 : (⟨S64, .f32⟩ : BufTy).Contents (Elt F) → (⟨S1x64, .f32⟩ : BufTy).Contents (Elt F)),
    unary main_v37 main_v38 (broadcastInDim S100000x64 ![0, 1] bcast_S1x64_S100000x64_0_1 : (⟨S1x64, .f32⟩ : BufTy).Contents (Elt F) → (⟨S100000x64, .f32⟩ : BufTy).Contents (Elt F)),
    binary main_v33 main_v38 main_v39 (subf : (⟨S100000x64, .f32⟩ : BufTy).Contents (Elt F) → (⟨S100000x64, .f32⟩ : BufTy).Contents (Elt F) → (⟨S100000x64, .f32⟩ : BufTy).Contents (Elt F)),
    binary main_v39 main_v39 main_v40 (mulf : (⟨S100000x64, .f32⟩ : BufTy).Contents (Elt F) → (⟨S100000x64, .f32⟩ : BufTy).Contents (Elt F) → (⟨S100000x64, .f32⟩ : BufTy).Contents (Elt F)),
    nullary main_cst_8 (constant S_ .f32 0x00000000#32),
    binary main_v40 main_cst_8 main_v41 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_9 (constant S_ .f32 0x47C35000#32),
    unary main_cst_9 main_v42 (broadcastInDim S64 ![] bcast_S_S64 : (⟨S_, .f32⟩ : BufTy).Contents (Elt F) → (⟨S64, .f32⟩ : BufTy).Contents (Elt F)),
    binary main_v41 main_v42 main_v43 (Host.divf : (⟨S64, .f32⟩ : BufTy).Contents (Elt F) → (⟨S64, .f32⟩ : BufTy).Contents (Elt F) → (⟨S64, .f32⟩ : BufTy).Contents (Elt F)),
    unary main_v36 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v33 main_v45 main_v46 (subf : (⟨S100000x64, .f32⟩ : BufTy).Contents (Elt F) → (⟨S100000x64, .f32⟩ : BufTy).Contents (Elt F) → (⟨S100000x64, .f32⟩ : BufTy).Contents (Elt F)),
    nullary main_cst_10 (constant S_ .f32 0x3727C5AC#32),
    unary main_cst_10 main_v47 (broadcastInDim S64 ![] bcast_S_S64 : (⟨S_, .f32⟩ : BufTy).Contents (Elt F) → (⟨S64, .f32⟩ : BufTy).Contents (Elt F)),
    binary main_v43 main_v47 main_v48 (addf : (⟨S64, .f32⟩ : BufTy).Contents (Elt F) → (⟨S64, .f32⟩ : BufTy).Contents (Elt F) → (⟨S64, .f32⟩ : BufTy).Contents (Elt F)),
    unary main_v48 main_v49 (Host.rsqrt : (⟨S64, .f32⟩ : BufTy).Contents (Elt F) → (⟨S64, .f32⟩ : BufTy).Contents (Elt F)),
    unary main_v49 main_v50 (broadcastInDim S1x64 ![1] bcast_S64_S1x64_1 : (⟨S64, .f32⟩ : BufTy).Contents (Elt F) → (⟨S1x64, .f32⟩ : BufTy).Contents (Elt F)),
    unary main_v50 main_v51 (broadcastInDim S100000x64 ![0, 1] bcast_S1x64_S100000x64_0_1 : (⟨S1x64, .f32⟩ : BufTy).Contents (Elt F) → (⟨S100000x64, .f32⟩ : BufTy).Contents (Elt F)),
    binary main_v46 main_v51 main_v52 (mulf : (⟨S100000x64, .f32⟩ : BufTy).Contents (Elt F) → (⟨S100000x64, .f32⟩ : BufTy).Contents (Elt F) → (⟨S100000x64, .f32⟩ : BufTy).Contents (Elt F)),
    unary main_arg3 main_v53 (broadcastInDim S1x64 ![1] bcast_S64_S1x64_1 : (⟨S64, .f32⟩ : BufTy).Contents (Elt F) → (⟨S1x64, .f32⟩ : BufTy).Contents (Elt F)),
    unary main_v53 main_v54 (broadcastInDim S100000x64 ![0, 1] bcast_S1x64_S100000x64_0_1 : (⟨S1x64, .f32⟩ : BufTy).Contents (Elt F) → (⟨S100000x64, .f32⟩ : BufTy).Contents (Elt F)),
    binary main_v52 main_v54 main_v55 (mulf : (⟨S100000x64, .f32⟩ : BufTy).Contents (Elt F) → (⟨S100000x64, .f32⟩ : BufTy).Contents (Elt F) → (⟨S100000x64, .f32⟩ : BufTy).Contents (Elt F)),
    unary main_arg4 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v55 main_v57 main_v58 (addf : (⟨S100000x64, .f32⟩ : BufTy).Contents (Elt F) → (⟨S100000x64, .f32⟩ : BufTy).Contents (Elt F) → (⟨S100000x64, .f32⟩ : BufTy).Contents (Elt F)),
    unary main_v9 main_v59 (broadcastInDim S100000x1 ![0] bcast_S100000_S100000x1_0 : (⟨S100000, .f32⟩ : BufTy).Contents (Elt F) → (⟨S100000x1, .f32⟩ : BufTy).Contents (Elt F)),
    unary main_v59 main_v60 (broadcastInDim S100000x64 ![0, 1] bcast_S100000x1_S100000x64_0_1 : (⟨S100000x1, .f32⟩ : BufTy).Contents (Elt F) → (⟨S100000x64, .f32⟩ : BufTy).Contents (Elt F)),
    binary main_v58 main_v60 main_v61 (mulf : (⟨S100000x64, .f32⟩ : BufTy).Contents (Elt F) → (⟨S100000x64, .f32⟩ : BufTy).Contents (Elt F) → (⟨S100000x64, .f32⟩ : BufTy).Contents (Elt F)),
    binary main_v61 main_arg5 main_v62 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    nullary main_c_11 (constantI S_ 32 0#32),
    unary main_c_11 main_v63 (broadcastInDim S1600000 ![] bcast_S_S1600000 : (⟨S_, .i32⟩ : BufTy).Contents (Elt F) → (⟨S1600000, .i32⟩ : BufTy).Contents (Elt F)),
    binary main_arg9 main_v63 main_v64 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v65 (broadcastInDim S1600000 ![] bcast_S_S1600000 : (⟨S_, .i32⟩ : BufTy).Contents (Elt F) → (⟨S1600000, .i32⟩ : BufTy).Contents (Elt F)),
    binary main_arg9 main_v65 main_v66 (addi : (⟨S1600000, .i32⟩ : BufTy).Contents (Elt F) → (⟨S1600000, .i32⟩ : BufTy).Contents (Elt F) → (⟨S1600000, .i32⟩ : BufTy).Contents (Elt F)),
    ternary main_v64 main_v66 main_arg9 main_v67 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v67 main_v68 (broadcastInDim S1600000x1 ![0] bcast_S1600000_S1600000x1_0 : (⟨S1600000, .i32⟩ : BufTy).Contents (Elt F) → (⟨S1600000x1, .i32⟩ : BufTy).Contents (Elt F)),
    binary main_v62 main_v68 main_v69 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    nullary main_cst_13 (constant S_ .f32 0x00000000#32),
    unary main_cst_13 main_v70 (broadcastInDim S100000x64 ![] bcast_S_S100000x64 : (⟨S_, .f32⟩ : BufTy).Contents (Elt F) → (⟨S100000x64, .f32⟩ : BufTy).Contents (Elt F)),
    unary main_arg10 main_v71 (broadcastInDim S1600000x1 ![0] bcast_S1600000_S1600000x1_0 : (⟨S1600000, .i32⟩ : BufTy).Contents (Elt F) → (⟨S1600000x1, .i32⟩ : BufTy).Contents (Elt F)),
    ternary main_v70 main_v71 main_v69 main_v72 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)),
    unary main_v12 main_v73 (broadcastInDim S100000x1 ![0] bcast_S100000_S100000x1_0 : (⟨S100000, .f32⟩ : BufTy).Contents (Elt F) → (⟨S100000x1, .f32⟩ : BufTy).Contents (Elt F)),
    unary main_v73 main_v74 (broadcastInDim S100000x64 ![0, 1] bcast_S100000x1_S100000x64_0_1 : (⟨S100000x1, .f32⟩ : BufTy).Contents (Elt F) → (⟨S100000x64, .f32⟩ : BufTy).Contents (Elt F)),
    binary main_v72 main_v74 main_v75 (mulf : (⟨S100000x64, .f32⟩ : BufTy).Contents (Elt F) → (⟨S100000x64, .f32⟩ : BufTy).Contents (Elt F) → (⟨S100000x64, .f32⟩ : BufTy).Contents (Elt F)),
    unary main_arg6 main_v76 (broadcastInDim S1x64 ![1] bcast_S64_S1x64_1 : (⟨S64, .f32⟩ : BufTy).Contents (Elt F) → (⟨S1x64, .f32⟩ : BufTy).Contents (Elt F)),
    unary main_v76 main_v77 (broadcastInDim S100000x64 ![0, 1] bcast_S1x64_S100000x64_0_1 : (⟨S1x64, .f32⟩ : BufTy).Contents (Elt F) → (⟨S100000x64, .f32⟩ : BufTy).Contents (Elt F)),
    binary main_v75 main_v77 main_v78 (addf : (⟨S100000x64, .f32⟩ : BufTy).Contents (Elt F) → (⟨S100000x64, .f32⟩ : BufTy).Contents (Elt F) → (⟨S100000x64, .f32⟩ : BufTy).Contents (Elt F)),
    TRef.nullary main_call1.cst (constant S_ .f32 0x00000000#32),
    TRef.unary main_call1.cst main_call1.v0 (broadcastInDim S100000x64 ![] bcast_S_S100000x64),
    TRef.binary (.of main_v78) main_call1.v0 main_call1.v1 (cmpf .ogt),
    TRef.nullary main_call1.cst_0 (constant S_ .f32 0x00000000#32),
    TRef.unary main_call1.cst_0 main_call1.v2 (broadcastInDim S100000x64 ![] bcast_S_S100000x64),
    TRef.binary (.of main_v78) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x64 ![] bcast_S_S100000x64),
    TRef.ternary main_call1.v3 main_call1.call0.v1 (.of main_v78) main_call1.call0.v2 select,
    TRef.unary main_call1.call0.v2 main_call1.v5 Host.expm1,
    TRef.nullary main_call1.cst_2 (constant S_ .f32 0x3F800000#32),
    TRef.unary main_call1.cst_2 main_call1.v6 (broadcastInDim S100000x64 ![] bcast_S_S100000x64),
    TRef.binary main_call1.v6 main_call1.v5 main_call1.v7 mulf,
    TRef.ternary main_call1.v1 (.of main_v78) main_call1.v7 main_call1.call1.v0 select,
    nullary main_cst_14 (constant S_ .f32 0x00000000#32),
    binary main_v79 main_cst_14 main_v80 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_15 (constant S_ .f32 0x47C35000#32),
    unary main_cst_15 main_v81 (broadcastInDim S64 ![] bcast_S_S64 : (⟨S_, .f32⟩ : BufTy).Contents (Elt F) → (⟨S64, .f32⟩ : BufTy).Contents (Elt F)),
    binary main_v80 main_v81 main_v82 (Host.divf : (⟨S64, .f32⟩ : BufTy).Contents (Elt F) → (⟨S64, .f32⟩ : BufTy).Contents (Elt F) → (⟨S64, .f32⟩ : BufTy).Contents (Elt F)),
    unary main_v82 main_v83 (broadcastInDim S1x64 ![1] bcast_S64_S1x64_1 : (⟨S64, .f32⟩ : BufTy).Contents (Elt F) → (⟨S1x64, .f32⟩ : BufTy).Contents (Elt F)),
    unary main_v83 main_v84 (broadcastInDim S100000x64 ![0, 1] bcast_S1x64_S100000x64_0_1 : (⟨S1x64, .f32⟩ : BufTy).Contents (Elt F) → (⟨S100000x64, .f32⟩ : BufTy).Contents (Elt F)),
    binary main_v79 main_v84 main_v85 (subf : (⟨S100000x64, .f32⟩ : BufTy).Contents (Elt F) → (⟨S100000x64, .f32⟩ : BufTy).Contents (Elt F) → (⟨S100000x64, .f32⟩ : BufTy).Contents (Elt F)),
    binary main_v85 main_v85 main_v86 (mulf : (⟨S100000x64, .f32⟩ : BufTy).Contents (Elt F) → (⟨S100000x64, .f32⟩ : BufTy).Contents (Elt F) → (⟨S100000x64, .f32⟩ : BufTy).Contents (Elt F)),
    nullary main_cst_16 (constant S_ .f32 0x00000000#32),
    binary main_v86 main_cst_16 main_v87 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_17 (constant S_ .f32 0x47C35000#32),
    unary main_cst_17 main_v88 (broadcastInDim S64 ![] bcast_S_S64 : (⟨S_, .f32⟩ : BufTy).Contents (Elt F) → (⟨S64, .f32⟩ : BufTy).Contents (Elt F)),
    binary main_v87 main_v88 main_v89 (Host.divf : (⟨S64, .f32⟩ : BufTy).Contents (Elt F) → (⟨S64, .f32⟩ : BufTy).Contents (Elt F) → (⟨S64, .f32⟩ : BufTy).Contents (Elt F)),
    unary main_v82 main_v90 (broadcastInDim S1x64 ![1] bcast_S64_S1x64_1 : (⟨S64, .f32⟩ : BufTy).Contents (Elt F) → (⟨S1x64, .f32⟩ : BufTy).Contents (Elt F)),
    unary main_v90 main_v91 (broadcastInDim S100000x64 ![0, 1] bcast_S1x64_S100000x64_0_1 : (⟨S1x64, .f32⟩ : BufTy).Contents (Elt F) → (⟨S100000x64, .f32⟩ : BufTy).Contents (Elt F)),
    binary main_v79 main_v91 main_v92 (subf : (⟨S100000x64, .f32⟩ : BufTy).Contents (Elt F) → (⟨S100000x64, .f32⟩ : BufTy).Contents (Elt F) → (⟨S100000x64, .f32⟩ : BufTy).Contents (Elt F)),
    nullary main_cst_18 (constant S_ .f32 0x3727C5AC#32),
    unary main_cst_18 main_v93 (broadcastInDim S64 ![] bcast_S_S64 : (⟨S_, .f32⟩ : BufTy).Contents (Elt F) → (⟨S64, .f32⟩ : BufTy).Contents (Elt F)),
    binary main_v89 main_v93 main_v94 (addf : (⟨S64, .f32⟩ : BufTy).Contents (Elt F) → (⟨S64, .f32⟩ : BufTy).Contents (Elt F) → (⟨S64, .f32⟩ : BufTy).Contents (Elt F)),
    unary main_v94 main_v95 (Host.rsqrt : (⟨S64, .f32⟩ : BufTy).Contents (Elt F) → (⟨S64, .f32⟩ : BufTy).Contents (Elt F)),
    unary main_v95 main_v96 (broadcastInDim S1x64 ![1] bcast_S64_S1x64_1 : (⟨S64, .f32⟩ : BufTy).Contents (Elt F) → (⟨S1x64, .f32⟩ : BufTy).Contents (Elt F)),
    unary main_v96 main_v97 (broadcastInDim S100000x64 ![0, 1] bcast_S1x64_S100000x64_0_1 : (⟨S1x64, .f32⟩ : BufTy).Contents (Elt F) → (⟨S100000x64, .f32⟩ : BufTy).Contents (Elt F)),
    binary main_v92 main_v97 main_v98 (mulf : (⟨S100000x64, .f32⟩ : BufTy).Contents (Elt F) → (⟨S100000x64, .f32⟩ : BufTy).Contents (Elt F) → (⟨S100000x64, .f32⟩ : BufTy).Contents (Elt F)),
    unary main_arg7 main_v99 (broadcastInDim S1x64 ![1] bcast_S64_S1x64_1 : (⟨S64, .f32⟩ : BufTy).Contents (Elt F) → (⟨S1x64, .f32⟩ : BufTy).Contents (Elt F)),
    unary main_v99 main_v100 (broadcastInDim S100000x64 ![0, 1] bcast_S1x64_S100000x64_0_1 : (⟨S1x64, .f32⟩ : BufTy).Contents (Elt F) → (⟨S100000x64, .f32⟩ : BufTy).Contents (Elt F)),
    binary main_v98 main_v100 main_v101 (mulf : (⟨S100000x64, .f32⟩ : BufTy).Contents (Elt F) → (⟨S100000x64, .f32⟩ : BufTy).Contents (Elt F) → (⟨S100000x64, .f32⟩ : BufTy).Contents (Elt F)),
    unary main_arg8 main_v102 (broadcastInDim S1x64 ![1] bcast_S64_S1x64_1 : (⟨S64, .f32⟩ : BufTy).Contents (Elt F) → (⟨S1x64, .f32⟩ : BufTy).Contents (Elt F)),
    unary main_v102 main_v103 (broadcastInDim S100000x64 ![0, 1] bcast_S1x64_S100000x64_0_1 : (⟨S1x64, .f32⟩ : BufTy).Contents (Elt F) → (⟨S100000x64, .f32⟩ : BufTy).Contents (Elt F)),
    binary main_v101 main_v103 main_v104 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
/-- @main is that straight line: its three windows in order, the functions' bodies at their calls. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., ternary_bufs_sub .., nullary_bufs_sub .., unary_bufs_sub ..,
    binary_bufs_sub .., unary_bufs_sub .., nullary_bufs_sub .., unary_bufs_sub .., binary_bufs_sub .., unary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., unary_bufs_sub ..,
    unary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., nullary_bufs_sub .., binary_bufs_sub .., nullary_bufs_sub .., unary_bufs_sub ..,
    binary_bufs_sub .., unary_bufs_sub .., unary_bufs_sub .., binary_bufs_sub .., binary_bufs_sub .., nullary_bufs_sub ..,
    binary_bufs_sub .., nullary_bufs_sub .., unary_bufs_sub .., binary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., unary_bufs_sub .., unary_bufs_sub .., binary_bufs_sub .., unary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., unary_bufs_sub .., ternary_bufs_sub .., unary_bufs_sub ..,
    nullary_bufs_sub .., unary_bufs_sub .., binary_bufs_sub .., ternary_bufs_sub .., nullary_bufs_sub .., binary_bufs_sub ..,
    nullary_bufs_sub .., unary_bufs_sub .., binary_bufs_sub .., unary_bufs_sub .., unary_bufs_sub .., binary_bufs_sub ..,
    binary_bufs_sub .., nullary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub ..⟩

set_option maxRecDepth 8192 in
set_option maxHeartbeats 4000000 in
/-- From any memory with zero counters, for any float values: every weakly fair execution of @main terminates, and every
    final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
import proofs.«157882_j13769665151543_1_alg».proof.ReferenceIdeal

noncomputable section

namespace Cert.ReferenceIdeal.RefRun

open Cert.ReferenceIdeal Idealize.ShloMosaic Idealize.SL.Sem

variable {F : FTy → Type} [FloatOps F] [Facts]
open Facts₀ Facts

/-! The reference's result as one pure function of its eleven argument arrays: a two-layer graph
convolution (symmetric degree normalisation, sum aggregation over the edges), each layer followed by an
ELU and a batch normalisation over the node axis. The stages below are the program's own operations
composed in program order, over the same shape records and side conditions. -/

/-- A float array of shape `s`. -/
abbrev FT (F : FTy → Type) (s : Shape) : Type := (⟨s, .f32⟩ : BufTy).Contents (Elt F)
/-- A 32-bit integer array of shape `s`. -/
abbrev IT (F : FTy → Type) (s : Shape) : Type := (⟨s, .i32⟩ : BufTy).Contents (Elt F)

/-- `deg^(-1/2)` per node, the degree being the number of edges whose endpoint `idx` is that node,
    clamped below by one. -/
def normOf (idx : IT F S1600000) : FT F S100000 :=
  Host.rsqrt (maximumf
    (Host.scatterAdd scatter_S100000_S1600000x1_S1600000_n_0_0_1
      (broadcastInDim S100000 ![] bcast_S_S100000 (constant S_ .f32 0x00000000#32))
      (broadcastInDim S1600000x1 ![0] bcast_S1600000_S1600000x1_0 idx)
      (broadcastInDim S1600000 ![] bcast_S_S1600000 (constant S_ .f32 0x3F800000#32)))
    (broadcastInDim S100000 ![] bcast_S_S100000 (constant S_ .f32 0x3F800000#32)))

/-- The gather's index table: a negative source index wraps by the node count; one column. -/
def srcIdx (src : IT F S1600000) : IT F S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- A per-node scalar repeated along 128 features. -/
def colB128 (n : FT F S100000) : FT F S100000x128 :=
  broadcastInDim S100000x128 ![0, 1] bcast_S100000x1_S100000x128_0_1
    (broadcastInDim S100000x1 ![0] bcast_S100000_S100000x1_0 n)

/-- A per-node scalar repeated along 64 features. -/
def colB64 (n : FT F S100000) : FT F S100000x64 :=
  broadcastInDim S100000x64 ![0, 1] bcast_S100000x1_S100000x64_0_1
    (broadcastInDim S100000x1 ![0] bcast_S100000_S100000x1_0 n)

/-- A per-feature vector repeated along the nodes. -/
def rowB (v : FT F S64) : FT F S100000x64 :=
  broadcastInDim S100000x64 ![0, 1] bcast_S1x64_S100000x64_0_1
    (broadcastInDim S1x64 ![1] bcast_S64_S1x64_1 v)

/-- Sum aggregation: each edge carries its source node's row to its destination node. -/
def aggT (h : FT F S100000x64) (src dst : IT F S1600000) : FT F S100000x64 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 dst)
    (Host.gather gather_S100000x64_S1600000x1_S1600000x64_1_0_n_n_0_1_164 h (srcIdx src))

/-- The first graph convolution, before its activation: scale by the source norm, transform (128 → 64),
    aggregate, scale by the destination norm, add the bias. -/
def conv128 (x : FT F S100000x128) (W : FT F S128x64) (b : FT F S64) (nsrc ndst : FT F S100000)
    (src dst : IT F S1600000) : FT F S100000x64 :=
  addf (mulf (aggT (Host.dotGeneral dot_S100000x128_S128x64_S100000x64_1_0_0_1_n_n none (mulf x (colB128 nsrc)) W) src dst)
    (colB64 ndst)) (rowB b)

/-- The second graph convolution, before its activation (64 → 64). -/
def conv64 (x : FT F S100000x64) (W : FT F S64x64) (b : FT F S64) (nsrc ndst : FT F S100000)
    (src dst : IT F S1600000) : FT F S100000x64 :=
  addf (mulf (aggT (Host.dotGeneral dot_S100000x64_S64x64_S100000x64_1_0_0_1_n_n none (mulf x (colB64 nsrc)) W) src dst)
    (colB64 ndst)) (rowB b)

/-- ELU: `v` where `v > 0`, else `1 · expm1 v` (the exponential taken of zero where `v > 0`). -/
def eluT (v : FT F S100000x64) : FT F S100000x64 :=
  select (cmpf .ogt v (broadcastInDim S100000x64 ![] bcast_S_S100000x64 (constant S_ .f32 0x00000000#32))) v
    (mulf (broadcastInDim S100000x64 ![] bcast_S_S100000x64 (constant S_ .f32 0x3F800000#32))
      (Host.expm1
        (select (cmpf .ogt v (broadcastInDim S100000x64 ![] bcast_S_S100000x64 (constant S_ .f32 0x00000000#32)))
          (broadcastInDim S100000x64 ![] bcast_S_S100000x64 (constant S_ .f32 0x00000000#32)) v)))

/-- The mean over the node axis: the column sums divided by the node count. -/
def meanT (x : FT F S100000x64) : FT F S64 :=
  Host.divf (Host.reduceAdd x (constant S_ .f32 0x00000000#32) reducesTo_S100000x64_S64_d0 h_S_)
    (broadcastInDim S64 ![] bcast_S_S64 (constant S_ .f32 0x47C35000#32))

/-- `x` with its column means subtracted. -/
def centT (x : FT F S100000x64) : FT F S100000x64 := subf x (rowB (meanT x))

/-- The (biased) column variances. -/
def varT (x : FT F S100000x64) : FT F S64 := meanT (mulf (centT x) (centT x))

/-- Batch normalisation over the node axis: `(x - mean) · rsqrt (var + ε) · γ + β`. -/
def bnT (x : FT F S100000x64) (gamma beta : FT F S64) : FT F S100000x64 :=
  addf (mulf (mulf (centT x)
      (rowB (Host.rsqrt (addf (varT x) (broadcastInDim S64 ![] bcast_S_S64 (constant S_ .f32 0x3727C5AC#32))))))
    (rowB gamma)) (rowB beta)

/-- The first layer's output: convolution, ELU, batch normalisation. -/
def layer1 (a0 : FT F S100000x128) (a1 : FT F S128x64) (a2 a3 a4 : FT F S64) (a9 a10 : IT F S1600000) :
    FT F S100000x64 :=
  bnT (eluT (conv128 a0 a1 a2 (normOf a9) (normOf a10) a9 a10)) a3 a4

/-- The reference's result, of its eleven arguments in order (features, W₁, b₁, γ₁, β₁, W₂, b₂, γ₂, β₂, src, dst). -/
def refOut (a0 : FT F S100000x128) (a1 : FT F S128x64) (a2 a3 a4 : FT F S64) (a5 : FT F S64x64)
    (a6 a7 a8 : FT F S64) (a9 a10 : IT F S1600000) : FT F S100000x64 :=
  bnT (eluT (conv64 (layer1 a0 a1 a2 a3 a4 a9 a10) a5 a6 (normOf a9) (normOf a10) a9 a10)) a7 a8

end Cert.ReferenceIdeal.RefRun

end
-- ==== Proof.RefRun.lean ====
import proofs.«157882_j13769665151543_1_alg».proof.Proof.RefOps
import proofs.«157882_j13769665151543_1_alg».proof.Proof.RefTerm

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! The run of the reference read back: the fold of its operations at the result buffer is the staged term `refOut` of the
arguments' launch contents, and the arguments are written by no operation. -/

attribute [local irreducible] Host.gather in
set_option maxRecDepth 65536 in
set_option maxHeartbeats 8000000 in
/-- The fold at the result buffer is `refOut` of the arguments: each operation's result at its own buffer is its function of
    its operands' contents, at any other buffer what was there; what remains is the staged term, by unfolding the stages. The
    gather is kept folded meanwhile: the equation never looks inside it. -/
theorem out_eq (V : Valuation τ sig (Elt F)) :
    after ops V (main_v104 : DevRef τ sig)
      = refOut (V (main_arg0 : DevRef τ sig))
          (V (main_arg1 : DevRef τ sig))
          (V (main_arg2 : DevRef τ sig))
          (V (main_arg3 : DevRef τ sig))
          (V (main_arg4 : DevRef τ sig))
          (V (main_arg5 : DevRef τ sig))
          (V (main_arg6 : DevRef τ sig))
          (V (main_arg7 : DevRef τ sig))
          (V (main_arg8 : DevRef τ sig))
          (V (main_arg9 : DevRef τ sig))
          (V (main_arg10 : DevRef τ sig)) := by
  after_results_simp
  rfl

/-- No operation writes argument 0. -/
theorem arg0_eq (V : Valuation τ sig (Elt F)) :
    after ops V (main_arg0 : DevRef τ sig) = V (main_arg0 : DevRef τ sig) := by
  after_results_simp

/-- No operation writes argument 1. -/
theorem arg1_eq (V : Valuation τ sig (Elt F)) :
    after ops V (main_arg1 : DevRef τ sig) = V (main_arg1 : DevRef τ sig) := by
  after_results_simp

/-- No operation writes argument 2. -/
theorem arg2_eq (V : Valuation τ sig (Elt F)) :
    after ops V (main_arg2 : DevRef τ sig) = V (main_arg2 : DevRef τ sig) := by
  after_results_simp

/-- No operation writes argument 3. -/
theorem arg3_eq (V : Valuation τ sig (Elt F)) :
    after ops V (main_arg3 : DevRef τ sig) = V (main_arg3 : DevRef τ sig) := by
  after_results_simp

/-- No operation writes argument 4. -/
theorem arg4_eq (V : Valuation τ sig (Elt F)) :
    after ops V (main_arg4 : DevRef τ sig) = V (main_arg4 : DevRef τ sig) := by
  after_results_simp

/-- No operation writes argument 5. -/
theorem arg5_eq (V : Valuation τ sig (Elt F)) :
    after ops V (main_arg5 : DevRef τ sig) = V (main_arg5 : DevRef τ sig) := by
  after_results_simp

/-- No operation writes argument 6. -/
theorem arg6_eq (V : Valuation τ sig (Elt F)) :
    after ops V (main_arg6 : DevRef τ sig) = V (main_arg6 : DevRef τ sig) := by
  after_results_simp

/-- No operation writes argument 7. -/
theorem arg7_eq (V : Valuation τ sig (Elt F)) :
    after ops V (main_arg7 : DevRef τ sig) = V (main_arg7 : DevRef τ sig) := by
  after_results_simp

/-- No operation writes argument 8. -/
theorem arg8_eq (V : Valuation τ sig (Elt F)) :
    after ops V (main_arg8 : DevRef τ sig) = V (main_arg8 : DevRef τ sig) := by
  after_results_simp

/-- No operation writes argument 9. -/
theorem arg9_eq (V : Valuation τ sig (Elt F)) :
    after ops V (main_arg9 : DevRef τ sig) = V (main_arg9 : DevRef τ sig) := by
  after_results_simp

/-- No operation writes argument 10. -/
theorem arg10_eq (V : Valuation τ sig (Elt F)) :
    after ops V (main_arg10 : DevRef τ sig) = V (main_arg10 : DevRef τ sig) := by
  after_results_simp

/-- From any memory with zero counters, for any float values: every weakly fair execution of @main terminates with the
    result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v104)
          = refOut (m ((c.tc : Thread nD τ).loc main_arg0))
              (m ((c.tc : Thread nD τ).loc main_arg1))
              (m ((c.tc : Thread nD τ).loc main_arg2))
              (m ((c.tc : Thread nD τ).loc main_arg3))
              (m ((c.tc : Thread nD τ).loc main_arg4))
              (m ((c.tc : Thread nD τ).loc main_arg5))
              (m ((c.tc : Thread nD τ).loc main_arg6))
              (m ((c.tc : Thread nD τ).loc main_arg7))
              (m ((c.tc : Thread nD τ).loc main_arg8))
              (m ((c.tc : Thread nD τ).loc main_arg9))
              (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c main_v104).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _)⟩)
    (run_main m ρ)

/-- The run's frame: @main terminates and its arguments end unchanged. -/
theorem frame (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => (h c).2) (run m ρ)

end Cert.ReferenceIdeal.RefRun

end
-- ==== Proof.ColBroadcast.lean ====
import Idealize.ShloMosaic.Lib.Pipeline.Value
import Idealize.ShloMosaic.Lib.ValueIdx
import Idealize.ShloMosaic.Lib.ValueLayout

/-! # A column broadcast over many columns, read at an index -/

namespace Cert.KernelIdeal.Hand

open Idealize.ShloMosaic Idealize.ShloMosaic.ValueIdx

/-- A `[a, 1]` column broadcast to `[a, b]` reads, at `(p, c)`, the column's entry of row `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KernelIdeal.Hand
-- ==== Proof.ValA0a.lean ====
import proofs.«157882_j13769665151543_1_alg».proof.Proof.RegA0
import Idealize.ShloMosaic.Lib.Pipeline.Value
import Idealize.ShloMosaic.Lib.ValueIdx
import Idealize.ShloMosaic.Lib.ValueLayout
import Idealize.ShloMosaic.PureOps.Ideal.Laws
import proofs.«157882_j13769665151543_1_alg».proof.Proof.ColBroadcast

/-! # Region 0: what the pipeline leaves in its output array

Over the extended reals. Every point of the grid writes back one block of rows of the output array, and
that block is the same rows of ONE function of the input arrays, index by index; the blocks tile the
array, so the array ends holding that function. -/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The output array as one function of the input arrays: row `i` of `X`, shifted by the row `MEAN`, scaled by the rows
    `INV` and `GAM`, shifted by the row `BET`, scaled by the column `NRM`'s entry of row `i`, then multiplied into the
    matrix `W`: the sum over the 128 columns. -/
def G0 (X : S100000x128.Idx → EReal) (NRM : S100000x1.Idx → EReal) (MEAN INV GAM BET : S1x128.Idx → EReal) (W : S128x64.Idx → EReal) :
    S100000x64.Idx → EReal :=
  fun i => ∑ k : Fin 128, ((((X (ix2 (i 0) k) - MEAN (ix2 0 k)) * INV (ix2 0 k)) * GAM (ix2 0 k) + BET (ix2 0 k)) * NRM (ix2 (i 0) 0)) * W (ix2 k (i 1))

/-! The matrix product's operand indices: the left operand is read at the output's row and the contraction
position, the right one at the contraction position and the output's column. -/

theorem lhs0_0 (i : S5000x64.Idx) (q : dot_S5000x128_S128x64_S5000x64_1_0_0_1_n_n.contr.Idx) : (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide), dif_pos (show (0 : Fin S5000x128.rank) ∈ dot_S5000x128_S128x64_S5000x64_1_0_0_1_n_n.lhsNonContracting by decide)]
  rfl
theorem lhs0_1 (i : S5000x64.Idx) (q : dot_S5000x128_S128x64_S5000x64_1_0_0_1_n_n.contr.Idx) : (dot_S5000x128_S128x64_S5000x64_1_0_0_1_n_n.lhsIdx i q 1).val = (q ⟨0, by decide⟩).val :=
  dot_S5000x128_S128x64_S5000x64_1_0_0_1_n_n.lhsIdx_val_of_single rfl i q
theorem rhs0_0 (i : S5000x64.Idx) (q : dot_S5000x128_S128x64_S5000x64_1_0_0_1_n_n.contr.Idx) : (dot_S5000x128_S128x64_S5000x64_1_0_0_1_n_n.rhsIdx i q 0).val = (q ⟨0, by decide⟩).val :=
  dot_S5000x128_S128x64_S5000x64_1_0_0_1_n_n.rhsIdx_val_of_single rfl i q
theorem rhs0_1 (i : S5000x64.Idx) (q : dot_S5000x128_S128x64_S5000x64_1_0_0_1_n_n.contr.Idx) : (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide), dif_pos (show (1 : Fin S128x64.rank) ∈ dot_S5000x128_S128x64_S5000x64_1_0_0_1_n_n.rhsNonContracting by decide)]
  rfl

/-- The body's value at an index of the block: the product's sum over the 128 columns of the loaded blocks. Over the
    extended reals the narrowing of the two operands is the identity and the product into the zero accumulator is the sum. -/
theorem pay0_apply (x0 : FVec Ideal S5000x128 .f32) (x1 x2 x3 x4 : FVec Ideal S1x128 .f32) (x5 : FVec Ideal S5000x1 .f32) (x6 : FVec Ideal S128x64 .f32)
    (p : Fin 5000) (r : Fin 64) :
    k0_pay1 x0 x1 x2 x3 x4 x5 x6 (ix2 p r)
      = ∑ k : Fin 128, ((((x0 (ix2 p k) - x1 (ix2 0 k)) * x2 (ix2 0 k)) * x3 (ix2 0 k) + x4 (ix2 0 k)) * x5 (ix2 p 0)) * x6 (ix2 k r) := by
  unfold k0_pay1
  simp only [Ideal.matmul_constant_zero_apply]
  rw [← Equiv.sum_comp (contrEquiv1 dot_S5000x128_S128x64_S5000x64_1_0_0_1_n_n 128 rfl rfl).symm]
  refine Finset.sum_congr rfl fun k _ => ?_
  have hk := contrEquiv1_symm_val dot_S5000x128_S128x64_S5000x64_1_0_0_1_n_n 128 rfl rfl k
  have el : dot_S5000x128_S128x64_S5000x64_1_0_0_1_n_n.lhsIdx (ix2 p r) ((contrEquiv1 dot_S5000x128_S128x64_S5000x64_1_0_0_1_n_n 128 rfl rfl).symm k) = ix2 p k := funext fun a => Fin.ext (by
    match a with
    | ⟨0, _⟩ => exact lhs0_0 _ _
    | ⟨1, _⟩ => exact (lhs0_1 _ _).trans hk)
  have er : dot_S5000x128_S128x64_S5000x64_1_0_0_1_n_n.rhsIdx (ix2 p r) ((contrEquiv1 dot_S5000x128_S128x64_S5000x64_1_0_0_1_n_n 128 rfl rfl).symm k) = ix2 k r := funext fun a => Fin.ext (by
    match a with
    | ⟨0, _⟩ => exact (rhs0_0 _ _).trans hk
    | ⟨1, _⟩ => exact rhs0_1 _ _)
  rw [el, er]
  simp only [truncf_apply, mulf_apply, addf_apply, subf_apply, shapeCast_self, broadcastTo_1b_ab_apply, broadcastTo_a1_ab_apply]

/-- The printed index maps, decided over the grid: the two row-blocked inputs and the output are at block `t` of their
    arrays at point `t`; the one-row inputs and the matrix stay at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Window 0's block at point `t` is rows `5000 t … 5000 t + 4999` of its array. -/
theorem iblk0_0_apply (c : Dev nD) (t : Fin cfg0.N) (p : Fin 5000) (k : Fin 128) (i : Fin 100000) (hi : i.val = 5000 * t.val + p.val) :
    (iblk0 V c 0 t : Vec Ideal S5000x128 .f32) (ix2 p k) = (V c (Pipeline.arrRef spec0 0) : S100000x128.Idx → EReal) (ix2 i k) := by
  have e0 : win0_0.index t (0 : Fin 2) = t.val := (idx_facts0 t).1
  have e1 : win0_0.index t (1 : Fin 2) = 0 := (idx_facts0 t).2.1
  unfold iblk0
  rw [View.read_apply]
  show (V c (Pipeline.arrRef spec0 0) : S100000x128.Idx → EReal) _ = _
  refine congrArg _ (funext fun a => Fin.ext ?_)
  match a with
  | ⟨0, _⟩ => show win0_0.index t (0 : Fin 2) * 5000 + 1 * p.val = i.val; rw [e0, hi]; omega
  | ⟨1, _⟩ => show win0_0.index t (1 : Fin 2) * 128 + 1 * k.val = k.val; rw [e1]; omega

/-- Window 1's block at point `t` is the same rows of the one-column array. -/
theorem iblk0_1_apply (c : Dev nD) (t : Fin cfg0.N) (p : Fin 5000) (i : Fin 100000) (hi : i.val = 5000 * t.val + p.val) :
    (iblk0 V c 1 t : Vec Ideal S5000x1 .f32) (ix2 p 0) = (V c (Pipeline.arrRef spec0 1) : S100000x1.Idx → EReal) (ix2 i 0) := by
  have e0 : win0_1.index t (0 : Fin 2) = t.val := (idx_facts0 t).2.2.1
  have e1 : win0_1.index t (1 : Fin 2) = 0 := (idx_facts0 t).2.2.2.1
  unfold iblk0
  rw [View.read_apply]
  show (V c (Pipeline.arrRef spec0 1) : S100000x1.Idx → EReal) _ = _
  refine congrArg _ (funext fun a => Fin.ext ?_)
  match a with
  | ⟨0, _⟩ => show win0_1.index t (0 : Fin 2) * 5000 + 1 * p.val = i.val; rw [e0, hi]; omega
  | ⟨1, _⟩ => show win0_1.index t (1 : Fin 2) * 1 + 1 * (0 : Fin 1).val = (0 : Fin 1).val; rw [e1]; rfl

/-- Window 2's block, at any point, is the whole one-row array. -/
theorem iblk0_2_apply (c : Dev nD) (t : Fin cfg0.N) (k : Fin 128) :
    (iblk0 V c 2 t : Vec Ideal S1x128 .f32) (ix2 0 k) = (V c (Pipeline.arrRef spec0 2) : S1x128.Idx → EReal) (ix2 0 k) := by
  have e0 : win0_2.index t (0 : Fin 2) = 0 := (idx_facts0 t).2.2.2.2.1
  have e1 : win0_2.index t (1 : Fin 2) = 0 := (idx_facts0 t).2.2.2.2.2.1
  unfold iblk0
  rw [View.read_apply]
  show (V c (Pipeline.arrRef spec0 2) : S1x128.Idx → EReal) _ = _
  refine congrArg _ (funext fun a => Fin.ext ?_)
  match a with
  | ⟨0, _⟩ => show win0_2.index t (0 : Fin 2) * 1 + 1 * (0 : Fin 1).val = (0 : Fin 1).val; rw [e0]; rfl
  | ⟨1, _⟩ => show win0_2.index t (1 : Fin 2) * 128 + 1 * k.val = k.val; rw [e1]; omega

/-- Window 3's block, at any point, is the whole one-row array. -/
theorem iblk0_3_apply (c : Dev nD) (t : Fin cfg0.N) (k : Fin 128) :
    (iblk0 V c 3 t : Vec Ideal S1x128 .f32) (ix2 0 k) = (V c (Pipeline.arrRef spec0 3) : S1x128.Idx → EReal) (ix2 0 k) := by
  have e0 : win0_3.index t (0 : Fin 2) = 0 := (idx_facts0 t).2.2.2.2.2.2.1
  have e1 : win0_3.index t (1 : Fin 2) = 0 := (idx_facts0 t).2.2.2.2.2.2.2.1
  unfold iblk0
  rw [View.read_apply]
  show (V c (Pipeline.arrRef spec0 3) : S1x128.Idx → EReal) _ = _
  refine congrArg _ (funext fun a => Fin.ext ?_)
  match a with
  | ⟨0, _⟩ => show win0_3.index t (0 : Fin 2) * 1 + 1 * (0 : Fin 1).val = (0 : Fin 1).val; rw [e0]; rfl
  | ⟨1, _⟩ => show win0_3.index t (1 : Fin 2) * 128 + 1 * k.val = k.val; rw [e1]; omega

/-- Window 4's block, at any point, is the whole one-row array. -/
theorem iblk0_4_apply (c : Dev nD) (t : Fin cfg0.N) (k : Fin 128) :
    (iblk0 V c 4 t : Vec Ideal S1x128 .f32) (ix2 0 k) = (V c (Pipeline.arrRef spec0 4) : S1x128.Idx → EReal) (ix2 0 k) := by
  have e0 : win0_4.index t (0 : Fin 2) = 0 := (idx_facts0 t).2.2.2.2.2.2.2.2.1
  have e1 : win0_4.index t (1 : Fin 2) = 0 := (idx_facts0 t).2.2.2.2.2.2.2.2.2.1
  unfold iblk0
  rw [View.read_apply]
  show (V c (Pipeline.arrRef spec0 4) : S1x128.Idx → EReal) _ = _
  refine congrArg _ (funext fun a => Fin.ext ?_)
  match a with
  | ⟨0, _⟩ => show win0_4.index t (0 : Fin 2) * 1 + 1 * (0 : Fin 1).val = (0 : Fin 1).val; rw [e0]; rfl
  | ⟨1, _⟩ => show win0_4.index t (1 : Fin 2) * 128 + 1 * k.val = k.val; rw [e1]; omega

/-- Window 5's block, at any point, is the whole one-row array. -/
theorem iblk0_5_apply (c : Dev nD) (t : Fin cfg0.N) (k : Fin 128) :
    (iblk0 V c 5 t : Vec Ideal S1x128 .f32) (ix2 0 k) = (V c (Pipeline.arrRef spec0 5) : S1x128.Idx → EReal) (ix2 0 k) := by
  have e0 : win0_5.index t (0 : Fin 2) = 0 := (idx_facts0 t).2.2.2.2.2.2.2.2.2.2.1
  have e1 : win0_5.index t (1 : Fin 2) = 0 := (idx_facts0 t).2.2.2.2.2.2.2.2.2.2.2.1
  unfold iblk0
  rw [View.read_apply]
  show (V c (Pipeline.arrRef spec0 5) : S1x128.Idx → EReal) _ = _
  refine congrArg _ (funext fun a => Fin.ext ?_)
  match a with
  | ⟨0, _⟩ => show win0_5.index t (0 : Fin 2) * 1 + 1 * (0 : Fin 1).val = (0 : Fin 1).val; rw [e0]; rfl
  | ⟨1, _⟩ => show win0_5.index t (1 : Fin 2) * 128 + 1 * k.val = k.val; rw [e1]; omega

/-- Window 6's block, at any point, is the whole matrix. -/
theorem iblk0_6_apply (c : Dev nD) (t : Fin cfg0.N) (k : Fin 128) (r : Fin 64) :
    (iblk0 V c 6 t : Vec Ideal S128x64 .f32) (ix2 k r) = (V c (Pipeline.arrRef spec0 6) : S128x64.Idx → EReal) (ix2 k r) := by
  have e0 : win0_6.index t (0 : Fin 2) = 0 := (idx_facts0 t).2.2.2.2.2.2.2.2.2.2.2.2.1
  have e1 : win0_6.index t (1 : Fin 2) = 0 := (idx_facts0 t).2.2.2.2.2.2.2.2.2.2.2.2.2.1
  unfold iblk0
  rw [View.read_apply]
  show (V c (Pipeline.arrRef spec0 6) : S128x64.Idx → EReal) _ = _
  refine congrArg _ (funext fun a => Fin.ext ?_)
  match a with
  | ⟨0, _⟩ => show win0_6.index t (0 : Fin 2) * 128 + 1 * k.val = k.val; rw [e0]; omega
  | ⟨1, _⟩ => show win0_6.index t (1 : Fin 2) * 64 + 1 * r.val = r.val; rw [e1]; omega

/-- The body's value on blocks that are rows of the arrays is `G0` of the arrays at the row's index. -/
theorem block0_apply (B0 : FVec Ideal S5000x128 .f32) (B1 : FVec Ideal S5000x1 .f32) (B2 B3 B4 B5 : FVec Ideal S1x128 .f32) (B6 : FVec Ideal S128x64 .f32)
    (A0 : S100000x128.Idx → EReal) (A1 : S100000x1.Idx → EReal) (A2 A3 A4 A5 : S1x128.Idx → EReal) (A6 : S128x64.Idx → EReal)
    (p : Fin 5000) (r : Fin 64) (i : Fin 100000)
    (h0 : ∀ k, B0 (ix2 p k) = A0 (ix2 i k)) (h1 : B1 (ix2 p 0) = A1 (ix2 i 0))
    (h2 : ∀ k, B2 (ix2 0 k) = A2 (ix2 0 k)) (h3 : ∀ k, B3 (ix2 0 k) = A3 (ix2 0 k))
    (h4 : ∀ k, B4 (ix2 0 k) = A4 (ix2 0 k)) (h5 : ∀ k, B5 (ix2 0 k) = A5 (ix2 0 k))
    (h6 : ∀ k, B6 (ix2 k r) = A6 (ix2 k r)) :
    k0_pay1 (F := Ideal) B0 B2 B3 B4 B5 B1 B6 (ix2 p r) = G0 A0 A1 A2 A3 A4 A5 A6 (ix2 i r) := by
  rw [pay0_apply]
  unfold G0
  refine Finset.sum_congr rfl fun k _ => ?_
  rw [h0 k, h1, h2 k, h3 k, h4 k, h5 k, h6 k]
  try rfl

/-- `G0` at an index, written out. -/
theorem G0_apply (X : S100000x128.Idx → EReal) (NRM : S100000x1.Idx → EReal) (MEAN INV GAM BET : S1x128.Idx → EReal) (W : S128x64.Idx → EReal)
    (i : Fin 100000) (j : Fin 64) :
    G0 X NRM MEAN INV GAM BET W (ix2 i j)
      = ∑ k : Fin 128, ((((X (ix2 i k) - MEAN (ix2 0 k)) * INV (ix2 0 k)) * GAM (ix2 0 k) + BET (ix2 0 k)) * NRM (ix2 i 0)) * W (ix2 k j) := rfl

end Cert.KernelIdeal.Hand

end
-- ==== Proof.ValA0.lean ====
import proofs.«157882_j13769665151543_1_alg».proof.Proof.ValA0a

/-! # Region 0: the output array after the pipeline's run, as one function of the input arrays -/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.ValueIdx
open Idealize.ShloMosaic.Pipeline (Dat)

variable (V : (c : Dev nD) → (b : Ref sig .tc) → Buf (Elt Ideal) ((c : Thread nD τ).loc b))

set_option maxHeartbeats 3200000 in
/-- What point `t` writes back is block `t` of `G0` of the arrays as the region finds them. -/
theorem flushed0_eq (q : Fin cfg0.W → PosShare TreeShare) (c : Dev nD) (t : Fin cfg0.N) :
    (dat0 V q c).flushed 7 t = ((cfg0.win 7).blk t).view.read (Elt Ideal)
      (G0 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (V c (Pipeline.arrRef spec0 6))) := by
  show (cfg0.win 7).cut (grid0.coords t) ((dat0 V q c).after 7 t) = _
  rw [after0_7]
  unfold out0_7
  rw [View.canon_unit_zero hz0]
  simp only [View.ld_unit_zero (S := S5000x128) hz0, View.ld_unit_zero (S := S5000x1) hz0, View.ld_unit_zero (S := S1x128) hz0, View.ld_unit_zero (S := S128x64) hz0]
  funext j
  obtain ⟨p, r, rfl⟩ : ∃ (p : Fin 5000) (r : Fin 64), j = ix2 p r := ⟨j 0, j 1, eq_ix2 j⟩
  have e7 : win0_7.index t (0 : Fin 2) = t.val := (idx_facts0 t).2.2.2.2.2.2.2.2.2.2.2.2.2.2.1
  have e8 : win0_7.index t (1 : Fin 2) = 0 := (idx_facts0 t).2.2.2.2.2.2.2.2.2.2.2.2.2.2.2
  have hN : t.val < 20 := Nat.lt_of_lt_of_eq t.isLt N_0
  have hi : 5000 * t.val + p.val < 100000 := by have := p.isLt; omega
  show k0_pay1 (iblk0 V c 0 t) (iblk0 V c 2 t) (iblk0 V c 3 t) (iblk0 V c 4 t) (iblk0 V c 5 t) (iblk0 V c 1 t) (iblk0 V c 6 t) (ix2 p r)
    = G0 _ _ _ _ _ _ _ (((View.whole main_v17).slice ((win0 7).rect t)).emb (ix2 p r))
  have hemb : ((View.whole main_v17).slice ((win0 7).rect t)).emb (ix2 p r) = (ix2 (⟨5000 * t.val + p.val, hi⟩ : Fin 100000) r : S100000x64.Idx) := by
    funext a; apply Fin.ext
    match a with
    | ⟨0, _⟩ => show win0_7.index t (0 : Fin 2) * 5000 + 1 * p.val = 5000 * t.val + p.val; rw [e7]; omega
    | ⟨1, _⟩ => show win0_7.index t (1 : Fin 2) * 64 + 1 * r.val = r.val; rw [e8]; omega
  rw [hemb]
  exact block0_apply _ _ _ _ _ _ _ _ _ _ _ _ _ _ p r ⟨_, hi⟩
    (fun k => iblk0_0_apply V c t p k ⟨_, hi⟩ rfl) (iblk0_1_apply V c t p ⟨_, hi⟩ rfl)
    (fun k => iblk0_2_apply V c t k) (fun k => iblk0_3_apply V c t k) (fun k => iblk0_4_apply V c t k) (fun k => iblk0_5_apply V c t k)
    (fun k => iblk0_6_apply V c t k r)

/-- An index of the array is in point `t`'s block iff each coordinate is in the block's range on its axis. -/
theorem mem_blk0 (t : Fin cfg0.N) (i : S100000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v17).slice (win0_7.rect t)).set ↔ _
  rw [View.set_slice_whole, Rect.mem_set_unit]
  exact Iff.rfl

/-- Every index of the array is in the block of the point its row falls to: row `r` is in block `r / 5000`. -/
theorem cover0 (i : S100000x64.Idx) : ∃ t : Fin cfg0.N, (cfg0.win 7).flush t = true ∧ i ∈ ((cfg0.win 7).blk t).view.set := by
  have hi0 : (i 0).val < 100000 := (i 0).isLt
  have hi1 : (i 1).val < 64 := (i 1).isLt
  have ht : (i 0).val / 5000 < cfg0.N := by rw [show cfg0.N = 20 from N_0]; omega
  have e7 : win0_7.index ⟨(i 0).val / 5000, ht⟩ (0 : Fin 2) = (i 0).val / 5000 := (idx_facts0 ⟨(i 0).val / 5000, ht⟩).2.2.2.2.2.2.2.2.2.2.2.2.2.2.1
  have e8 : win0_7.index ⟨(i 0).val / 5000, ht⟩ (1 : Fin 2) = 0 := (idx_facts0 ⟨(i 0).val / 5000, ht⟩).2.2.2.2.2.2.2.2.2.2.2.2.2.2.2
  refine ⟨⟨(i 0).val / 5000, ht⟩, flush0_7 _, ?_⟩
  rw [mem_blk0]
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    rw [e7]; omega
  | ⟨1, _⟩ =>
    show win0_7.index ⟨(i 0).val / 5000, ht⟩ (1 : Fin 2) * 64 ≤ (i 1).val ∧ (i 1).val < win0_7.index ⟨(i 0).val / 5000, ht⟩ (1 : Fin 2) * 64 + 64
    rw [e8]; omega

/-- The output array after the pipeline's run is `G0` of the input arrays as the region found them. -/
theorem final0_arr (q : Fin cfg0.W → PosShare TreeShare) (c : Dev nD) :
    (dat0 V q c).arrAt 7 cfg0.N = G0 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (V c (Pipeline.arrRef spec0 6)) :=
  (dat0 V q c).arrAt_eq_of_cover 7 _ (fun t _ => flushed0_eq V q c t) cover0

/-- The same, entry by entry (`G0_apply` writes the right side out). -/
theorem final0 (q : Fin cfg0.W → PosShare TreeShare) (c : Dev nD) (i : Fin 100000) (j : Fin 64) :
    (dat0 V q c).arrAt 7 cfg0.N (ix2 i j)
      = G0 (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5)) (V c (Pipeline.arrRef spec0 6)) (ix2 i j) := by
  rw [final0_arr]

end Cert.KernelIdeal.Hand

end
-- ==== Proof.ValA2a.lean ====
import proofs.«157882_j13769665151543_1_alg».proof.Proof.RegA2
import Idealize.ShloMosaic.Lib.Pipeline.Value
import Idealize.ShloMosaic.Lib.ValueIdx
import Idealize.ShloMosaic.Lib.ValueLayout
import Idealize.ShloMosaic.PureOps.Ideal.Laws
import proofs.«157882_j13769665151543_1_alg».proof.Proof.ColBroadcast

/-! # Region 2: what the pipeline leaves in its output array

Over the extended reals. Every point of the grid writes back one block of rows of the output array, and
that block is the same rows of ONE function of the input arrays, index by index; the blocks tile the
array, so the array ends holding that function. -/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The output array as one function of the input arrays: row `i` of `X`, shifted by the row `MEAN`, scaled by the rows
    `INV` and `GAM`, shifted by the row `BET`, scaled by the column `NRM`'s entry of row `i`, then multiplied into the
    matrix `W`: the sum over the 64 columns. -/
def G2 (X : S100000x64.Idx → EReal) (NRM : S100000x1.Idx → EReal) (MEAN INV GAM BET : S1x64.Idx → EReal) (W : S64x64.Idx → EReal) :
    S100000x64.Idx → EReal :=
  fun i => ∑ k : Fin 64, ((((X (ix2 (i 0) k) - MEAN (ix2 0 k)) * INV (ix2 0 k)) * GAM (ix2 0 k) + BET (ix2 0 k)) * NRM (ix2 (i 0) 0)) * W (ix2 k (i 1))

/-! The matrix product's operand indices: the left operand is read at the output's row and the contraction
position, the right one at the contraction position and the output's column. -/

theorem lhs2_0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs2_1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
theorem rhs2_0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem rhs2_1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's value at an index of the block: the product's sum over the 64 columns of the loaded blocks. Over the
    extended reals the narrowing of the two operands is the identity and the product into the zero accumulator is the sum. -/
theorem pay2_apply (x0 : FVec Ideal S5000x64 .f32) (x1 x2 x3 x4 : FVec Ideal S1x64 .f32) (x5 : FVec Ideal S5000x1 .f32) (x6 : FVec Ideal S64x64 .f32)
    (p : Fin 5000) (r : Fin 64) :
    k2_pay1 x0 x1 x2 x3 x4 x5 x6 (ix2 p r)
      = ∑ k : Fin 64, ((((x0 (ix2 p k) - x1 (ix2 0 k)) * x2 (ix2 0 k)) * x3 (ix2 0 k) + x4 (ix2 0 k)) * x5 (ix2 p 0)) * x6 (ix2 k r) := by
  unfold k2_pay1
  simp only [Ideal.matmul_constant_zero_apply]
  rw [← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p r) ((contrEquiv1 dot_S5000x64_S64x64_S5000x64_1_0_0_1_n_n 64 rfl rfl).symm k) = ix2 p k := funext fun a => Fin.ext (by
    match a with
    | ⟨0, _⟩ => exact lhs2_0 _ _
    | ⟨1, _⟩ => exact (lhs2_1 _ _).trans hk)
  have er : dot_S5000x64_S64x64_S5000x64_1_0_0_1_n_n.rhsIdx (ix2 p r) ((contrEquiv1 dot_S5000x64_S64x64_S5000x64_1_0_0_1_n_n 64 rfl rfl).symm k) = ix2 k r := funext fun a => Fin.ext (by
    match a with
    | ⟨0, _⟩ => exact (rhs2_0 _ _).trans hk
    | ⟨1, _⟩ => exact rhs2_1 _ _)
  rw [el, er]
  simp only [truncf_apply, mulf_apply, addf_apply, subf_apply, shapeCast_self, broadcastTo_1b_ab_apply, broadcastTo_a1_ab_apply]

/-- The printed index maps, decided over the grid: the two row-blocked inputs and the output are at block `t` of their
    arrays at point `t`; the one-row inputs and the matrix stay at block 0. -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Window 0's block at point `t` is rows `5000 t … 5000 t + 4999` of its array. -/
theorem iblk2_0_apply (c : Dev nD) (t : Fin cfg2.N) (p : Fin 5000) (k : Fin 64) (i : Fin 100000) (hi : i.val = 5000 * t.val + p.val) :
    (iblk2 V c 0 t : Vec Ideal S5000x64 .f32) (ix2 p k) = (V c (Pipeline.arrRef spec2 0) : S100000x64.Idx → EReal) (ix2 i k) := by
  have e0 : win2_0.index t (0 : Fin 2) = t.val := (idx_facts2 t).1
  have e1 : win2_0.index t (1 : Fin 2) = 0 := (idx_facts2 t).2.1
  unfold iblk2
  rw [View.read_apply]
  show (V c (Pipeline.arrRef spec2 0) : S100000x64.Idx → EReal) _ = _
  refine congrArg _ (funext fun a => Fin.ext ?_)
  match a with
  | ⟨0, _⟩ => show win2_0.index t (0 : Fin 2) * 5000 + 1 * p.val = i.val; rw [e0, hi]; omega
  | ⟨1, _⟩ => show win2_0.index t (1 : Fin 2) * 64 + 1 * k.val = k.val; rw [e1]; omega

/-- Window 1's block at point `t` is the same rows of the one-column array. -/
theorem iblk2_1_apply (c : Dev nD) (t : Fin cfg2.N) (p : Fin 5000) (i : Fin 100000) (hi : i.val = 5000 * t.val + p.val) :
    (iblk2 V c 1 t : Vec Ideal S5000x1 .f32) (ix2 p 0) = (V c (Pipeline.arrRef spec2 1) : S100000x1.Idx → EReal) (ix2 i 0) := by
  have e0 : win2_1.index t (0 : Fin 2) = t.val := (idx_facts2 t).2.2.1
  have e1 : win2_1.index t (1 : Fin 2) = 0 := (idx_facts2 t).2.2.2.1
  unfold iblk2
  rw [View.read_apply]
  show (V c (Pipeline.arrRef spec2 1) : S100000x1.Idx → EReal) _ = _
  refine congrArg _ (funext fun a => Fin.ext ?_)
  match a with
  | ⟨0, _⟩ => show win2_1.index t (0 : Fin 2) * 5000 + 1 * p.val = i.val; rw [e0, hi]; omega
  | ⟨1, _⟩ => show win2_1.index t (1 : Fin 2) * 1 + 1 * (0 : Fin 1).val = (0 : Fin 1).val; rw [e1]; rfl

/-- Window 2's block, at any point, is the whole one-row array. -/
theorem iblk2_2_apply (c : Dev nD) (t : Fin cfg2.N) (k : Fin 64) :
    (iblk2 V c 2 t : Vec Ideal S1x64 .f32) (ix2 0 k) = (V c (Pipeline.arrRef spec2 2) : S1x64.Idx → EReal) (ix2 0 k) := by
  have e0 : win2_2.index t (0 : Fin 2) = 0 := (idx_facts2 t).2.2.2.2.1
  have e1 : win2_2.index t (1 : Fin 2) = 0 := (idx_facts2 t).2.2.2.2.2.1
  unfold iblk2
  rw [View.read_apply]
  show (V c (Pipeline.arrRef spec2 2) : S1x64.Idx → EReal) _ = _
  refine congrArg _ (funext fun a => Fin.ext ?_)
  match a with
  | ⟨0, _⟩ => show win2_2.index t (0 : Fin 2) * 1 + 1 * (0 : Fin 1).val = (0 : Fin 1).val; rw [e0]; rfl
  | ⟨1, _⟩ => show win2_2.index t (1 : Fin 2) * 64 + 1 * k.val = k.val; rw [e1]; omega

/-- Window 3's block, at any point, is the whole one-row array. -/
theorem iblk2_3_apply (c : Dev nD) (t : Fin cfg2.N) (k : Fin 64) :
    (iblk2 V c 3 t : Vec Ideal S1x64 .f32) (ix2 0 k) = (V c (Pipeline.arrRef spec2 3) : S1x64.Idx → EReal) (ix2 0 k) := by
  have e0 : win2_3.index t (0 : Fin 2) = 0 := (idx_facts2 t).2.2.2.2.2.2.1
  have e1 : win2_3.index t (1 : Fin 2) = 0 := (idx_facts2 t).2.2.2.2.2.2.2.1
  unfold iblk2
  rw [View.read_apply]
  show (V c (Pipeline.arrRef spec2 3) : S1x64.Idx → EReal) _ = _
  refine congrArg _ (funext fun a => Fin.ext ?_)
  match a with
  | ⟨0, _⟩ => show win2_3.index t (0 : Fin 2) * 1 + 1 * (0 : Fin 1).val = (0 : Fin 1).val; rw [e0]; rfl
  | ⟨1, _⟩ => show win2_3.index t (1 : Fin 2) * 64 + 1 * k.val = k.val; rw [e1]; omega

/-- Window 4's block, at any point, is the whole one-row array. -/
theorem iblk2_4_apply (c : Dev nD) (t : Fin cfg2.N) (k : Fin 64) :
    (iblk2 V c 4 t : Vec Ideal S1x64 .f32) (ix2 0 k) = (V c (Pipeline.arrRef spec2 4) : S1x64.Idx → EReal) (ix2 0 k) := by
  have e0 : win2_4.index t (0 : Fin 2) = 0 := (idx_facts2 t).2.2.2.2.2.2.2.2.1
  have e1 : win2_4.index t (1 : Fin 2) = 0 := (idx_facts2 t).2.2.2.2.2.2.2.2.2.1
  unfold iblk2
  rw [View.read_apply]
  show (V c (Pipeline.arrRef spec2 4) : S1x64.Idx → EReal) _ = _
  refine congrArg _ (funext fun a => Fin.ext ?_)
  match a with
  | ⟨0, _⟩ => show win2_4.index t (0 : Fin 2) * 1 + 1 * (0 : Fin 1).val = (0 : Fin 1).val; rw [e0]; rfl
  | ⟨1, _⟩ => show win2_4.index t (1 : Fin 2) * 64 + 1 * k.val = k.val; rw [e1]; omega

/-- Window 5's block, at any point, is the whole one-row array. -/
theorem iblk2_5_apply (c : Dev nD) (t : Fin cfg2.N) (k : Fin 64) :
    (iblk2 V c 5 t : Vec Ideal S1x64 .f32) (ix2 0 k) = (V c (Pipeline.arrRef spec2 5) : S1x64.Idx → EReal) (ix2 0 k) := by
  have e0 : win2_5.index t (0 : Fin 2) = 0 := (idx_facts2 t).2.2.2.2.2.2.2.2.2.2.1
  have e1 : win2_5.index t (1 : Fin 2) = 0 := (idx_facts2 t).2.2.2.2.2.2.2.2.2.2.2.1
  unfold iblk2
  rw [View.read_apply]
  show (V c (Pipeline.arrRef spec2 5) : S1x64.Idx → EReal) _ = _
  refine congrArg _ (funext fun a => Fin.ext ?_)
  match a with
  | ⟨0, _⟩ => show win2_5.index t (0 : Fin 2) * 1 + 1 * (0 : Fin 1).val = (0 : Fin 1).val; rw [e0]; rfl
  | ⟨1, _⟩ => show win2_5.index t (1 : Fin 2) * 64 + 1 * k.val = k.val; rw [e1]; omega

/-- Window 6's block, at any point, is the whole matrix. -/
theorem iblk2_6_apply (c : Dev nD) (t : Fin cfg2.N) (k : Fin 64) (r : Fin 64) :
    (iblk2 V c 6 t : Vec Ideal S64x64 .f32) (ix2 k r) = (V c (Pipeline.arrRef spec2 6) : S64x64.Idx → EReal) (ix2 k r) := by
  have e0 : win2_6.index t (0 : Fin 2) = 0 := (idx_facts2 t).2.2.2.2.2.2.2.2.2.2.2.2.1
  have e1 : win2_6.index t (1 : Fin 2) = 0 := (idx_facts2 t).2.2.2.2.2.2.2.2.2.2.2.2.2.1
  unfold iblk2
  rw [View.read_apply]
  show (V c (Pipeline.arrRef spec2 6) : S64x64.Idx → EReal) _ = _
  refine congrArg _ (funext fun a => Fin.ext ?_)
  match a with
  | ⟨0, _⟩ => show win2_6.index t (0 : Fin 2) * 64 + 1 * k.val = k.val; rw [e0]; omega
  | ⟨1, _⟩ => show win2_6.index t (1 : Fin 2) * 64 + 1 * r.val = r.val; rw [e1]; omega

/-- The body's value on blocks that are rows of the arrays is `G2` of the arrays at the row's index. -/
theorem block2_apply (B0 : FVec Ideal S5000x64 .f32) (B1 : FVec Ideal S5000x1 .f32) (B2 B3 B4 B5 : FVec Ideal S1x64 .f32) (B6 : FVec Ideal S64x64 .f32)
    (A0 : S100000x64.Idx → EReal) (A1 : S100000x1.Idx → EReal) (A2 A3 A4 A5 : S1x64.Idx → EReal) (A6 : S64x64.Idx → EReal)
    (p : Fin 5000) (r : Fin 64) (i : Fin 100000)
    (h0 : ∀ k, B0 (ix2 p k) = A0 (ix2 i k)) (h1 : B1 (ix2 p 0) = A1 (ix2 i 0))
    (h2 : ∀ k, B2 (ix2 0 k) = A2 (ix2 0 k)) (h3 : ∀ k, B3 (ix2 0 k) = A3 (ix2 0 k))
    (h4 : ∀ k, B4 (ix2 0 k) = A4 (ix2 0 k)) (h5 : ∀ k, B5 (ix2 0 k) = A5 (ix2 0 k))
    (h6 : ∀ k, B6 (ix2 k r) = A6 (ix2 k r)) :
    k2_pay1 (F := Ideal) B0 B2 B3 B4 B5 B1 B6 (ix2 p r) = G2 A0 A1 A2 A3 A4 A5 A6 (ix2 i r) := by
  rw [pay2_apply]
  unfold G2
  refine Finset.sum_congr rfl fun k _ => ?_
  rw [h0 k, h1, h2 k, h3 k, h4 k, h5 k, h6 k]
  try rfl

/-- `G2` at an index, written out. -/
theorem G2_apply (X : S100000x64.Idx → EReal) (NRM : S100000x1.Idx → EReal) (MEAN INV GAM BET : S1x64.Idx → EReal) (W : S64x64.Idx → EReal)
    (i : Fin 100000) (j : Fin 64) :
    G2 X NRM MEAN INV GAM BET W (ix2 i j)
      = ∑ k : Fin 64, ((((X (ix2 i k) - MEAN (ix2 0 k)) * INV (ix2 0 k)) * GAM (ix2 0 k) + BET (ix2 0 k)) * NRM (ix2 i 0)) * W (ix2 k j) := rfl

end Cert.KernelIdeal.Hand

end
-- ==== Proof.ValA2.lean ====
import proofs.«157882_j13769665151543_1_alg».proof.Proof.ValA2a

/-! # Region 2: the output array after the pipeline's run, as one function of the input arrays -/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.ValueIdx
open Idealize.ShloMosaic.Pipeline (Dat)

variable (V : (c : Dev nD) → (b : Ref sig .tc) → Buf (Elt Ideal) ((c : Thread nD τ).loc b))

set_option maxHeartbeats 3200000 in
/-- What point `t` writes back is block `t` of `G2` of the arrays as the region finds them. -/
theorem flushed2_eq (q : Fin cfg2.W → PosShare TreeShare) (c : Dev nD) (t : Fin cfg2.N) :
    (dat2 V q c).flushed 7 t = ((cfg2.win 7).blk t).view.read (Elt Ideal)
      (G2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6))) := by
  show (cfg2.win 7).cut (grid2.coords t) ((dat2 V q c).after 7 t) = _
  rw [after2_7]
  unfold out2_7
  rw [View.canon_unit_zero hz2]
  simp only [View.ld_unit_zero (S := S5000x64) hz2, View.ld_unit_zero (S := S5000x1) hz2, View.ld_unit_zero (S := S1x64) hz2, View.ld_unit_zero (S := S64x64) hz2]
  funext j
  obtain ⟨p, r, rfl⟩ : ∃ (p : Fin 5000) (r : Fin 64), j = ix2 p r := ⟨j 0, j 1, eq_ix2 j⟩
  have e7 : win2_7.index t (0 : Fin 2) = t.val := (idx_facts2 t).2.2.2.2.2.2.2.2.2.2.2.2.2.2.1
  have e8 : win2_7.index t (1 : Fin 2) = 0 := (idx_facts2 t).2.2.2.2.2.2.2.2.2.2.2.2.2.2.2
  have hN : t.val < 20 := Nat.lt_of_lt_of_eq t.isLt N_2
  have hi : 5000 * t.val + p.val < 100000 := by have := p.isLt; omega
  show k2_pay1 (iblk2 V c 0 t) (iblk2 V c 2 t) (iblk2 V c 3 t) (iblk2 V c 4 t) (iblk2 V c 5 t) (iblk2 V c 1 t) (iblk2 V c 6 t) (ix2 p r)
    = G2 _ _ _ _ _ _ _ (((View.whole main_v43).slice ((win2 7).rect t)).emb (ix2 p r))
  have hemb : ((View.whole main_v43).slice ((win2 7).rect t)).emb (ix2 p r) = (ix2 (⟨5000 * t.val + p.val, hi⟩ : Fin 100000) r : S100000x64.Idx) := by
    funext a; apply Fin.ext
    match a with
    | ⟨0, _⟩ => show win2_7.index t (0 : Fin 2) * 5000 + 1 * p.val = 5000 * t.val + p.val; rw [e7]; omega
    | ⟨1, _⟩ => show win2_7.index t (1 : Fin 2) * 64 + 1 * r.val = r.val; rw [e8]; omega
  rw [hemb]
  exact block2_apply _ _ _ _ _ _ _ _ _ _ _ _ _ _ p r ⟨_, hi⟩
    (fun k => iblk2_0_apply V c t p k ⟨_, hi⟩ rfl) (iblk2_1_apply V c t p ⟨_, hi⟩ rfl)
    (fun k => iblk2_2_apply V c t k) (fun k => iblk2_3_apply V c t k) (fun k => iblk2_4_apply V c t k) (fun k => iblk2_5_apply V c t k)
    (fun k => iblk2_6_apply V c t k r)

/-- An index of the array is in point `t`'s block iff each coordinate is in the block's range on its axis. -/
theorem mem_blk2 (t : Fin cfg2.N) (i : S100000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v43).slice (win2_7.rect t)).set ↔ _
  rw [View.set_slice_whole, Rect.mem_set_unit]
  exact Iff.rfl

/-- Every index of the array is in the block of the point its row falls to: row `r` is in block `r / 5000`. -/
theorem cover2 (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  have ht : (i 0).val / 5000 < cfg2.N := by rw [show cfg2.N = 20 from N_2]; omega
  have e7 : win2_7.index ⟨(i 0).val / 5000, ht⟩ (0 : Fin 2) = (i 0).val / 5000 := (idx_facts2 ⟨(i 0).val / 5000, ht⟩).2.2.2.2.2.2.2.2.2.2.2.2.2.2.1
  have e8 : win2_7.index ⟨(i 0).val / 5000, ht⟩ (1 : Fin 2) = 0 := (idx_facts2 ⟨(i 0).val / 5000, ht⟩).2.2.2.2.2.2.2.2.2.2.2.2.2.2.2
  refine ⟨⟨(i 0).val / 5000, ht⟩, flush2_7 _, ?_⟩
  rw [mem_blk2]
  intro a
  match a with
  | ⟨0, _⟩ =>
    show win2_7.index ⟨(i 0).val / 5000, ht⟩ (0 : Fin 2) * 5000 ≤ (i 0).val ∧ (i 0).val < win2_7.index ⟨(i 0).val / 5000, ht⟩ (0 : Fin 2) * 5000 + 5000
    rw [e7]; omega
  | ⟨1, _⟩ =>
    show win2_7.index ⟨(i 0).val / 5000, ht⟩ (1 : Fin 2) * 64 ≤ (i 1).val ∧ (i 1).val < win2_7.index ⟨(i 0).val / 5000, ht⟩ (1 : Fin 2) * 64 + 64
    rw [e8]; omega

/-- The output array after the pipeline's run is `G2` of the input arrays as the region found them. -/
theorem final2_arr (q : Fin cfg2.W → PosShare TreeShare) (c : Dev nD) :
    (dat2 V q c).arrAt 7 cfg2.N = G2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6)) :=
  (dat2 V q c).arrAt_eq_of_cover 7 _ (fun t _ => flushed2_eq V q c t) cover2

/-- The same, entry by entry (`G2_apply` writes the right side out). -/
theorem final2 (q : Fin cfg2.W → PosShare TreeShare) (c : Dev nD) (i : Fin 100000) (j : Fin 64) :
    (dat2 V q c).arrAt 7 cfg2.N (ix2 i j)
      = G2 (V c (Pipeline.arrRef spec2 0)) (V c (Pipeline.arrRef spec2 1)) (V c (Pipeline.arrRef spec2 2))
        (V c (Pipeline.arrRef spec2 3)) (V c (Pipeline.arrRef spec2 4)) (V c (Pipeline.arrRef spec2 5)) (V c (Pipeline.arrRef spec2 6)) (ix2 i j) := by
  rw [final2_arr]

end Cert.KernelIdeal.Hand

end
-- ==== Proof.ValA4a.lean ====
import proofs.«157882_j13769665151543_1_alg».proof.Proof.RegA4
import Idealize.ShloMosaic.Lib.Pipeline.Value
import Idealize.ShloMosaic.Lib.ValueIdx
import Idealize.ShloMosaic.Lib.ValueLayout
import Idealize.ShloMosaic.PureOps.Ideal.Laws

/-! # Region 4: what the pipeline leaves in its output array

Over the extended reals. Every point of the grid writes back one block of rows of the output array, and
that block is the same rows of ONE function of the input arrays, index by index; the blocks tile the
array, so the array ends holding that function. -/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.ValueIdx
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The output array as one function of the input arrays: every row of `X` shifted by the one row `MEAN`,
    scaled by the rows `INV` and `GAM`, shifted by the row `BET`. -/
def G4 (X : S100000x64.Idx → EReal) (MEAN INV GAM BET : S1x64.Idx → EReal) : S100000x64.Idx → EReal :=
  fun i => ((X i - MEAN (ix2 0 (i 1))) * INV (ix2 0 (i 1))) * GAM (ix2 0 (i 1)) + BET (ix2 0 (i 1))

/-- The body's value at an index of the block: the same expression of the loaded blocks. -/
theorem pay4_apply (x0 : FVec Ideal S5000x64 .f32) (x1 x2 x3 x4 : FVec Ideal S1x64 .f32) (p : Fin 5000) (r : Fin 64) :
    k4_pay1 x0 x1 x2 x3 x4 (ix2 p r)
      = ((x0 (ix2 p r) - x1 (ix2 0 r)) * x2 (ix2 0 r)) * x3 (ix2 0 r) + x4 (ix2 0 r) := by
  unfold k4_pay1
  simp only [addf_apply, mulf_apply, subf_apply, shapeCast_self, broadcastTo_1b_ab_apply]

/-- The printed index maps, decided over the grid: the wide input moves with the output, the one-row inputs
    stay at block 0, and the output's block index is the grid point's. -/
theorem idx_facts4 : ∀ t : Fin cfg4.N, win4_0.index t (0 : Fin 2) = t.val
    ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = t.val ∧ win4_5.index t (1 : Fin 2) = 0 :=
  (by decide +kernel : ∀ t : Fin grid4.N, _)

/-- Window 0's block at point `t` is rows `5000 t … 5000 t + 4999` of its array. -/
theorem iblk4_0_apply (c : Dev nD) (t : Fin cfg4.N) (p : Fin 5000) (r : Fin 64) (i : Fin 100000) (hi : i.val = 5000 * t.val + p.val) :
    (iblk4 V c 0 t : Vec Ideal S5000x64 .f32) (ix2 p r) = (V c (Pipeline.arrRef spec4 0) : S100000x64.Idx → EReal) (ix2 i r) := by
  have e0 : win4_0.index t (0 : Fin 2) = t.val := (idx_facts4 t).1
  have e1 : win4_0.index t (1 : Fin 2) = 0 := (idx_facts4 t).2.1
  unfold iblk4
  rw [View.read_apply]
  show (V c (Pipeline.arrRef spec4 0) : S100000x64.Idx → EReal) _ = _
  refine congrArg _ (funext fun a => Fin.ext ?_)
  match a with
  | ⟨0, _⟩ => show win4_0.index t (0 : Fin 2) * 5000 + 1 * p.val = i.val; rw [e0, hi]; omega
  | ⟨1, _⟩ => show win4_0.index t (1 : Fin 2) * 64 + 1 * r.val = r.val; rw [e1]; omega

/-- Window 1's block, at any point, is the whole one-row array. -/
theorem iblk4_1_apply (c : Dev nD) (t : Fin cfg4.N) (r : Fin 64) :
    (iblk4 V c 1 t : Vec Ideal S1x64 .f32) (ix2 0 r) = (V c (Pipeline.arrRef spec4 1) : S1x64.Idx → EReal) (ix2 0 r) := by
  have e0 : win4_1.index t (0 : Fin 2) = 0 := (idx_facts4 t).2.2.1
  have e1 : win4_1.index t (1 : Fin 2) = 0 := (idx_facts4 t).2.2.2.1
  unfold iblk4
  rw [View.read_apply]
  show (V c (Pipeline.arrRef spec4 1) : S1x64.Idx → EReal) _ = _
  refine congrArg _ (funext fun a => Fin.ext ?_)
  match a with
  | ⟨0, _⟩ => show win4_1.index t (0 : Fin 2) * 1 + 1 * (0 : Fin 1).val = (0 : Fin 1).val; rw [e0]; rfl
  | ⟨1, _⟩ => show win4_1.index t (1 : Fin 2) * 64 + 1 * r.val = r.val; rw [e1]; omega

/-- Window 2's block, at any point, is the whole one-row array. -/
theorem iblk4_2_apply (c : Dev nD) (t : Fin cfg4.N) (r : Fin 64) :
    (iblk4 V c 2 t : Vec Ideal S1x64 .f32) (ix2 0 r) = (V c (Pipeline.arrRef spec4 2) : S1x64.Idx → EReal) (ix2 0 r) := by
  have e0 : win4_2.index t (0 : Fin 2) = 0 := (idx_facts4 t).2.2.2.2.1
  have e1 : win4_2.index t (1 : Fin 2) = 0 := (idx_facts4 t).2.2.2.2.2.1
  unfold iblk4
  rw [View.read_apply]
  show (V c (Pipeline.arrRef spec4 2) : S1x64.Idx → EReal) _ = _
  refine congrArg _ (funext fun a => Fin.ext ?_)
  match a with
  | ⟨0, _⟩ => show win4_2.index t (0 : Fin 2) * 1 + 1 * (0 : Fin 1).val = (0 : Fin 1).val; rw [e0]; rfl
  | ⟨1, _⟩ => show win4_2.index t (1 : Fin 2) * 64 + 1 * r.val = r.val; rw [e1]; omega

/-- Window 3's block, at any point, is the whole one-row array. -/
theorem iblk4_3_apply (c : Dev nD) (t : Fin cfg4.N) (r : Fin 64) :
    (iblk4 V c 3 t : Vec Ideal S1x64 .f32) (ix2 0 r) = (V c (Pipeline.arrRef spec4 3) : S1x64.Idx → EReal) (ix2 0 r) := by
  have e0 : win4_3.index t (0 : Fin 2) = 0 := (idx_facts4 t).2.2.2.2.2.2.1
  have e1 : win4_3.index t (1 : Fin 2) = 0 := (idx_facts4 t).2.2.2.2.2.2.2.1
  unfold iblk4
  rw [View.read_apply]
  show (V c (Pipeline.arrRef spec4 3) : S1x64.Idx → EReal) _ = _
  refine congrArg _ (funext fun a => Fin.ext ?_)
  match a with
  | ⟨0, _⟩ => show win4_3.index t (0 : Fin 2) * 1 + 1 * (0 : Fin 1).val = (0 : Fin 1).val; rw [e0]; rfl
  | ⟨1, _⟩ => show win4_3.index t (1 : Fin 2) * 64 + 1 * r.val = r.val; rw [e1]; omega

/-- Window 4's block, at any point, is the whole one-row array. -/
theorem iblk4_4_apply (c : Dev nD) (t : Fin cfg4.N) (r : Fin 64) :
    (iblk4 V c 4 t : Vec Ideal S1x64 .f32) (ix2 0 r) = (V c (Pipeline.arrRef spec4 4) : S1x64.Idx → EReal) (ix2 0 r) := by
  have e0 : win4_4.index t (0 : Fin 2) = 0 := (idx_facts4 t).2.2.2.2.2.2.2.2.1
  have e1 : win4_4.index t (1 : Fin 2) = 0 := (idx_facts4 t).2.2.2.2.2.2.2.2.2.1
  unfold iblk4
  rw [View.read_apply]
  show (V c (Pipeline.arrRef spec4 4) : S1x64.Idx → EReal) _ = _
  refine congrArg _ (funext fun a => Fin.ext ?_)
  match a with
  | ⟨0, _⟩ => show win4_4.index t (0 : Fin 2) * 1 + 1 * (0 : Fin 1).val = (0 : Fin 1).val; rw [e0]; rfl
  | ⟨1, _⟩ => show win4_4.index t (1 : Fin 2) * 64 + 1 * r.val = r.val; rw [e1]; omega

end Cert.KernelIdeal.Hand

end
-- ==== Proof.ValA4.lean ====
import proofs.«157882_j13769665151543_1_alg».proof.Proof.ValA4a

/-! # Region 4: the output array after the pipeline's run, as one function of the input arrays -/

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.ValueIdx
open Idealize.ShloMosaic.Pipeline (Dat)

variable (V : (c : Dev nD) → (b : Ref sig .tc) → Buf (Elt Ideal) ((c : Thread nD τ).loc b))

/-- `G4` at an index, written out. -/
theorem G4_apply (X : S100000x64.Idx → EReal) (MEAN INV GAM BET : S1x64.Idx → EReal) (i : Fin 100000) (j : Fin 64) :
    G4 X MEAN INV GAM BET (ix2 i j) = ((X (ix2 i j) - MEAN (ix2 0 j)) * INV (ix2 0 j)) * GAM (ix2 0 j) + BET (ix2 0 j) := rfl

set_option maxHeartbeats 1600000 in
/-- What point `t` writes back is block `t` of `G4` of the arrays as the region finds them. -/
theorem flushed4_eq (q : Fin cfg4.W → PosShare TreeShare) (c : Dev nD) (t : Fin cfg4.N) :
    (dat4 V q c).flushed 5 t = ((cfg4.win 5).blk t).view.read (Elt Ideal)
      (G4 (V c (Pipeline.arrRef spec4 0)) (V c (Pipeline.arrRef spec4 1)) (V c (Pipeline.arrRef spec4 2))
        (V c (Pipeline.arrRef spec4 3)) (V c (Pipeline.arrRef spec4 4))) := by
  show (cfg4.win 5).cut (grid4.coords t) ((dat4 V q c).after 5 t) = _
  rw [after4_5]
  unfold out4_5
  rw [View.canon_unit_zero hz4]
  simp only [View.ld_unit_zero (S := S5000x64) hz4, View.ld_unit_zero (S := S1x64) hz4]
  funext j
  obtain ⟨p, r, rfl⟩ : ∃ (p : Fin 5000) (r : Fin 64), j = ix2 p r := ⟨j 0, j 1, eq_ix2 j⟩
  have e5 : win4_5.index t (0 : Fin 2) = t.val := (idx_facts4 t).2.2.2.2.2.2.2.2.2.2.1
  have e6 : win4_5.index t (1 : Fin 2) = 0 := (idx_facts4 t).2.2.2.2.2.2.2.2.2.2.2
  have hN : t.val < 20 := Nat.lt_of_lt_of_eq t.isLt N_4
  have hi : 5000 * t.val + p.val < 100000 := by have := p.isLt; omega
  show k4_pay1 (iblk4 V c 0 t) (iblk4 V c 1 t) (iblk4 V c 2 t) (iblk4 V c 3 t) (iblk4 V c 4 t) (ix2 p r)
    = G4 _ _ _ _ _ (((View.whole main_v69).slice ((win4 5).rect t)).emb (ix2 p r))
  have hemb : ((View.whole main_v69).slice ((win4 5).rect t)).emb (ix2 p r) = (ix2 (⟨5000 * t.val + p.val, hi⟩ : Fin 100000) r : S100000x64.Idx) := by
    funext a; apply Fin.ext
    match a with
    | ⟨0, _⟩ => show win4_5.index t (0 : Fin 2) * 5000 + 1 * p.val = 5000 * t.val + p.val; rw [e5]; omega
    | ⟨1, _⟩ => show win4_5.index t (1 : Fin 2) * 64 + 1 * r.val = r.val; rw [e6]; omega
  rw [hemb]
  refine (pay4_apply _ _ _ _ _ p r).trans ?_
  rw [iblk4_0_apply V c t p r ⟨_, hi⟩ rfl, iblk4_1_apply V c t r, iblk4_2_apply V c t r, iblk4_3_apply V c t r, iblk4_4_apply V c t r]
  rfl

/-- An index of the array is in point `t`'s block iff each coordinate is in the block's range on its axis. -/
theorem mem_blk4 (t : Fin cfg4.N) (i : S100000x64.Idx) :
    i ∈ ((cfg4.win 5).blk t).view.set ↔ ∀ a : Fin 2, win4_5.index t a * S5000x64.size a ≤ (i a).val ∧ (i a).val < win4_5.index t a * S5000x64.size a + S5000x64.size a := by
  show i ∈ ((View.whole main_v69).slice (win4_5.rect t)).set ↔ _
  rw [View.set_slice_whole, Rect.mem_set_unit]
  exact Iff.rfl

/-- Every index of the array is in the block of the point its row falls to: row `r` is in block `r / 5000`. -/
theorem cover4 (i : S100000x64.Idx) : ∃ t : Fin cfg4.N, (cfg4.win 5).flush t = true ∧ i ∈ ((cfg4.win 5).blk t).view.set := by
  have hi0 : (i 0).val < 100000 := (i 0).isLt
  have hi1 : (i 1).val < 64 := (i 1).isLt
  have ht : (i 0).val / 5000 < cfg4.N := by rw [show cfg4.N = 20 from N_4]; omega
  have e5 : win4_5.index ⟨(i 0).val / 5000, ht⟩ (0 : Fin 2) = (i 0).val / 5000 := (idx_facts4 ⟨(i 0).val / 5000, ht⟩).2.2.2.2.2.2.2.2.2.2.1
  have e6 : win4_5.index ⟨(i 0).val / 5000, ht⟩ (1 : Fin 2) = 0 := (idx_facts4 ⟨(i 0).val / 5000, ht⟩).2.2.2.2.2.2.2.2.2.2.2
  refine ⟨⟨(i 0).val / 5000, ht⟩, flush4_5 _, ?_⟩
  rw [mem_blk4]
  intro a
  match a with
  | ⟨0, _⟩ =>
    show win4_5.index ⟨(i 0).val / 5000, ht⟩ (0 : Fin 2) * 5000 ≤ (i 0).val ∧ (i 0).val < win4_5.index ⟨(i 0).val / 5000, ht⟩ (0 : Fin 2) * 5000 + 5000
    rw [e5]; omega
  | ⟨1, _⟩ =>
    show win4_5.index ⟨(i 0).val / 5000, ht⟩ (1 : Fin 2) * 64 ≤ (i 1).val ∧ (i 1).val < win4_5.index ⟨(i 0).val / 5000, ht⟩ (1 : Fin 2) * 64 + 64
    rw [e6]; omega

/-- The output array after the pipeline's run is `G4` of the input arrays as the region found them. -/
theorem final4_arr (q : Fin cfg4.W → PosShare TreeShare) (c : Dev nD) :
    (dat4 V q c).arrAt 5 cfg4.N = G4 (V c (Pipeline.arrRef spec4 0)) (V c (Pipeline.arrRef spec4 1)) (V c (Pipeline.arrRef spec4 2))
        (V c (Pipeline.arrRef spec4 3)) (V c (Pipeline.arrRef spec4 4)) :=
  (dat4 V q c).arrAt_eq_of_cover 5 _ (fun t _ => flushed4_eq V q c t) cover4

/-- The same, entry by entry (`G4_apply` writes the right side out). -/
theorem final4 (q : Fin cfg4.W → PosShare TreeShare) (c : Dev nD) (i : Fin 100000) (j : Fin 64) :
    (dat4 V q c).arrAt 5 cfg4.N (ix2 i j)
      = G4 (V c (Pipeline.arrRef spec4 0)) (V c (Pipeline.arrRef spec4 1)) (V c (Pipeline.arrRef spec4 2))
          (V c (Pipeline.arrRef spec4 3)) (V c (Pipeline.arrRef spec4 4)) (ix2 i j) := by
  rw [final4_arr]

end Cert.KernelIdeal.Hand

end
-- ==== Proof.ValR1.lean ====
import proofs.«157882_j13769665151543_1_alg».proof.Proof.RegR1
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)
open scoped BigOperators

/-! Region 1 read as values, at the ideal instance: what its pipeline leaves in the three result arrays, as
    functions of the three input arrays as the region finds them — the activation of `agg · norm + bias` row by row,
    and its column sums and column sums of squares over all 100000 rows (the kernel adds them tile by tile; over the
    extended reals the regrouping to one sum is free). -/

section Generic
variable {F : FTy → Type} [FloatOps F]

theorem hz2_1 : (![0, 0] : Fin 2 → Nat) = fun _ => 0 := funext fun a => by fin_cases a <;> rfl

/-! ## What each case leaves, as the payloads of its covering stores -/

/-- At a later point the activation block is the one covering store's payload of the three input blocks. -/
theorem out1_B_3_eq (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) :
    out1_B_3 c i arg1 harg1 arg2 harg2 arg3 harg3 arg4 harg4 arg5 harg5 arg6 harg6 hc0 x0 x1 x2 xo4 xo5 = k1_pay3 x0 x1 x2 := by
  unfold out1_B_3
  rw [View.read_writes_eq_canon _ _ _ (cover1_B_3 c i arg1 harg1 arg2 harg2 arg3 harg3 arg4 harg4 arg5 harg5 arg6 harg6 hc0 x0 x1 x2 xo4 xo5)]
  unfold kernelRun1_B
  dsimp only
  rw [View.canon_unit_zero hz2_1]
  simp only [View.readAt_eq_ld, harg1.read_unread, harg2.read_unread, harg3.read_unread, harg5.read_unread, harg6.read_unread, View.ld_unit_zero (S := S5000x64) hz2_1, View.ld_unit_zero (S := S5000x1) hz2_1, View.ld_unit_zero (S := S1x64) hz2_1]

/-- At a later point the running column sum is the covering store's payload: the sum so far plus the block's. -/
theorem out1_B_4_eq (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) :
    out1_B_4 c i arg1 harg1 arg2 harg2 arg3 harg3 arg4 harg4 arg5 harg5 arg6 harg6 hc0 x0 x1 x2 xo4 xo5 = k1_pay4 x0 x1 x2 xo4 := by
  unfold out1_B_4
  rw [View.read_writes_eq_canon _ _ _ (cover1_B_4 c i arg1 harg1 arg2 harg2 arg3 harg3 arg4 harg4 arg5 harg5 arg6 harg6 hc0 x0 x1 x2 xo4 xo5)]
  unfold kernelRun1_B
  dsimp only
  rw [View.canon_unit_zero hz2_1]
  simp only [View.readAt_eq_ld, harg1.read_unread, harg2.read_unread, harg3.read_unread, harg5.read_unread, harg6.read_unread, View.ld_unit_zero (S := S5000x64) hz2_1, View.ld_unit_zero (S := S5000x1) hz2_1, View.ld_unit_zero (S := S1x64) hz2_1]

theorem out1_B_5_eq (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i)
    (x0 : Vec F S5000x64 .f32) (x1 : Vec F S5000x1 .f32) (x2 : Vec F S1x64 .f32) (xo4 : Vec F S1x64 .f32) (xo5 : Vec F S1x64 .f32) :
    out1_B_5 c i arg1 harg1 arg2 harg2 arg3 harg3 arg4 harg4 arg5 harg5 arg6 harg6 hc0 x0 x1 x2 xo4 xo5 = k1_pay5 x0 x1 x2 xo5 := by
  unfold out1_B_5
  rw [View.read_writes_eq_canon _ _ _ (cover1_B_5 c i arg1 harg1 arg2 harg2 arg3 harg3 arg4 harg4 arg5 harg5 arg6 harg6 hc0 x0 x1 x2 xo4 xo5)]
  unfold kernelRun1_B
  dsimp only
  rw [View.canon_unit_zero hz2_1]
  simp only [View.readAt_eq_ld, harg1.read_unread, harg2.read_unread, harg3.read_unread, harg5.read_unread, harg6.read_unread, View.ld_unit_zero (S := S5000x64) hz2_1, View.ld_unit_zero (S := S5000x1) hz2_1, View.ld_unit_zero (S := S1x64) hz2_1]

/-- At the first point the activation block is the same payload. -/
theorem out1_A_3_eq (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) :
    out1_A_3 c i arg1 harg1 arg2 harg2 arg3 harg3 arg4 harg4 arg5 harg5 arg6 harg6 hc0 x0 x1 x2 = k1_pay3 x0 x1 x2 := by
  unfold out1_A_3
  rw [View.read_writes_eq_canon _ _ _ (cover1_A_3 c i arg1 harg1 arg2 harg2 arg3 harg3 arg4 harg4 arg5 harg5 arg6 harg6 hc0 x0 x1 x2)]
  unfold kernelRun1_A
  dsimp only
  rw [View.canon_unit_zero hz2_1]
  simp only [View.readAt_eq_ld, harg1.read_unread, harg2.read_unread, harg3.read_unread, View.ld_unit_zero (S := S5000x64) hz2_1, View.ld_unit_zero (S := S5000x1) hz2_1, View.ld_unit_zero (S := S1x64) hz2_1]

/-- At the first point the running column sum is the zero row the reset stored, read back, plus the block's. -/
theorem out1_A_4_eq (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) :
    out1_A_4 c i arg1 harg1 arg2 harg2 arg3 harg3 arg4 harg4 arg5 harg5 arg6 harg6 hc0 x0 x1 x2 = k1_pay4 x0 x1 x2 (k1_pay1 (F := F)) := by
  unfold out1_A_4
  rw [View.read_writes_eq_canon _ _ _ (cover1_A_4 c i arg1 harg1 arg2 harg2 arg3 harg3 arg4 harg4 arg5 harg5 arg6 harg6 hc0 x0 x1 x2)]
  unfold kernelRun1_A
  dsimp only
  sl_unfold_words
  rw [View.canon_cons_unit_zero (S := S1x64) hz2_1, View.readCov_unit_zero (S := S1x64) _ hz2_1]
  simp only [View.readAt_eq_ld, harg1.read_unread, harg2.read_unread, harg3.read_unread, View.ld_unit_zero (S := S5000x64) hz2_1, View.ld_unit_zero (S := S5000x1) hz2_1, View.ld_unit_zero (S := S1x64) hz2_1]

theorem out1_A_5_eq (c : Dev nD) (i : grid1.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond1_0 i)
    (x0 : Vec F S5000x64 .f32) (x1 : Vec F S5000x1 .f32) (x2 : Vec F S1x64 .f32) :
    out1_A_5 c i arg1 harg1 arg2 harg2 arg3 harg3 arg4 harg4 arg5 harg5 arg6 harg6 hc0 x0 x1 x2 = k1_pay5 x0 x1 x2 (k1_pay2 (F := F)) := by
  unfold out1_A_5
  rw [View.read_writes_eq_canon _ _ _ (cover1_A_5 c i arg1 harg1 arg2 harg2 arg3 harg3 arg4 harg4 arg5 harg5 arg6 harg6 hc0 x0 x1 x2)]
  unfold kernelRun1_A
  dsimp only
  sl_unfold_words
  rw [View.canon_cons_unit_zero (S := S1x64) hz2_1, View.readCov_unit_zero (S := S1x64) _ hz2_1]
  simp only [View.readAt_eq_ld, harg1.read_unread, harg2.read_unread, harg3.read_unread, View.ld_unit_zero (S := S5000x64) hz2_1, View.ld_unit_zero (S := S5000x1) hz2_1, View.ld_unit_zero (S := S1x64) hz2_1]

variable (V : (c : Dev nD) → (b : Ref sig .tc) → Buf (Elt F) ((c : Thread nD τ).loc b))

/-! ## The accumulation in closed form -/

/-- The running column sum after point `n`: the zero row plus the first block's column sums, then one block's more
    per point. -/
def accS1 (c : Dev nD) : (n : ℕ) → n < cfg1.N → Vec F S1x64 .f32
  | 0, h => k1_pay4 (iblk1 V c 0 ⟨0, h⟩) (iblk1 V c 1 ⟨0, h⟩) (iblk1 V c 2 ⟨0, h⟩) (k1_pay1 (F := F))
  | n + 1, h => k1_pay4 (iblk1 V c 0 ⟨n + 1, h⟩) (iblk1 V c 1 ⟨n + 1, h⟩) (iblk1 V c 2 ⟨n + 1, h⟩) (accS1 c n (Nat.lt_of_succ_lt h))

/-- The running column sum of squares after point `n`, likewise. -/
def accQ1 (c : Dev nD) : (n : ℕ) → n < cfg1.N → Vec F S1x64 .f32
  | 0, h => k1_pay5 (iblk1 V c 0 ⟨0, h⟩) (iblk1 V c 1 ⟨0, h⟩) (iblk1 V c 2 ⟨0, h⟩) (k1_pay2 (F := F))
  | n + 1, h => k1_pay5 (iblk1 V c 0 ⟨n + 1, h⟩) (iblk1 V c 1 ⟨n + 1, h⟩) (iblk1 V c 2 ⟨n + 1, h⟩) (accQ1 c n (Nat.lt_of_succ_lt h))

/-- What the three outputs' staging buffers hold after point `n`: the point's activation block and the two running
    sums — by induction on the point. -/
theorem outsAt1_eq (c : Dev nD) : ∀ (n : ℕ) (h : n < cfg1.N),
    outsAt1 V c n h = (k1_pay3 (iblk1 V c 0 ⟨n, h⟩) (iblk1 V c 1 ⟨n, h⟩) (iblk1 V c 2 ⟨n, h⟩), accS1 V c n h, accQ1 V c n h)
  | 0, h => by
    rw [outsAt1_A V c ⟨0, h⟩ rfl, out1_A_3_eq, out1_A_4_eq, out1_A_5_eq]
    rfl
  | n + 1, h => by
    have hN : cfg1.N = 20 := N_1
    have hB : ¬(⟨n + 1, h⟩ : Fin cfg1.N).val % 20 = 0 := by dsimp only; omega
    rw [outsAt1_B V c ⟨n + 1, h⟩ hB, out1_B_3_eq, out1_B_4_eq, out1_B_5_eq]
    show (_, k1_pay4 _ _ _ (outsAt1 V c n _).2.1, k1_pay5 _ _ _ (outsAt1 V c n _).2.2) = _
    rw [outsAt1_eq c n]
    rfl

end Generic

/-! ## The payloads read at an index, at the ideal values -/

section IdealPart

/-- The activation: the identity on the positive extended reals, `exp v - 1` elsewhere. -/
def eluI1 (v : EReal) : EReal := if 0 < v then v else Ideal.exp v - 1

theorem ofBits_one_f32_1 : Ideal.ofBits .f32 0x3F800000#32 = 1 := by
  simp [Ideal.ofBits, Ideal.ieee, -EReal.coe_mul]; norm_num

/-- A select on the comparison `a > 0` of extended reals is the `if`. -/
theorem select_ogt_zero_1 (a x y : EReal) : Scalar.select (Ideal.cmp .ogt a 0) x y = if 0 < a then x else y := by
  unfold Ideal.cmp Scalar.select
  by_cases h : 0 < a
  · simp [h]
  · simp [h]

/-- The activation block's payload at row `r`, column `j`: the activation of `agg · norm + bias` there, the
    norm column and the bias row broadcast. -/
theorem pay3_apply_1 (x0 : Vec Ideal S5000x64 .f32) (x1 : Vec Ideal S5000x1 .f32) (x2 : Vec Ideal S1x64 .f32) (r : Fin 5000) (j : Fin 64) :
    k1_pay3 (F := Ideal) x0 x1 x2 (ix2 r j) = eluI1 (x0 (ix2 r j) * x1 (ix2 r (0 : Fin 1)) + x2 (ix2 (0 : Fin 1) j)) := by
  have hb1 : broadcastTo S5000x64 x1 broadcasts_S5000x1_S5000x64 (ix2 r j) = x1 (ix2 r (0 : Fin 1)) :=
    broadcastTo_apply x1 _ (ix2 r j) (ix2 r (0 : Fin 1)) (fun a => by match a with | ⟨0, _⟩ => rfl | ⟨1, _⟩ => rfl)
  have hb2 : broadcastTo S5000x64 x2 broadcasts_S1x64_S5000x64 (ix2 r j) = x2 (ix2 (0 : Fin 1) j) :=
    broadcastTo_apply x2 _ (ix2 r j) (ix2 (0 : Fin 1) j) (fun a => by match a with | ⟨0, _⟩ => rfl | ⟨1, _⟩ => rfl)
  unfold k1_pay3
  simp only [shapeCast_self]
  show Scalar.select (Ideal.cmp .ogt (x0 (ix2 r j) * broadcastTo S5000x64 x1 broadcasts_S5000x1_S5000x64 (ix2 r j) + broadcastTo S5000x64 x2 broadcasts_S1x64_S5000x64 (ix2 r j)) (Ideal.ofBits .f32 0x00000000#32))
      (x0 (ix2 r j) * broadcastTo S5000x64 x1 broadcasts_S5000x1_S5000x64 (ix2 r j) + broadcastTo S5000x64 x2 broadcasts_S1x64_S5000x64 (ix2 r j))
      (Ideal.exp (x0 (ix2 r j) * broadcastTo S5000x64 x1 broadcasts_S5000x1_S5000x64 (ix2 r j) + broadcastTo S5000x64 x2 broadcasts_S1x64_S5000x64 (ix2 r j)) - Ideal.ofBits .f32 0x3F800000#32) = _
  rw [hb1, hb2, Ideal.ofBits_zero_f32, ofBits_one_f32_1, select_ogt_zero_1]
  rfl

/-- The source index over column `j` with row `r` inserted is `(r, j)`. -/
theorem lift_eq_1 (j : Fin 64) (r : Fin 5000) : reduces_S5000x64_S64.lift (ix1 j) r = ix2 r j := by
  funext a
  apply Fin.ext
  match a with
  | ⟨0, _⟩ => rfl
  | ⟨1, _⟩ => rfl

/-- The running sum's payload at column `j`: the sum so far plus the block's column sum. -/
theorem pay4_apply_1 (x0 : Vec Ideal S5000x64 .f32) (x1 : Vec Ideal S5000x1 .f32) (x2 : Vec Ideal S1x64 .f32) (xo : Vec Ideal S1x64 .f32) (j : Fin 64) :
    k1_pay4 (F := Ideal) x0 x1 x2 xo (ix2 (0 : Fin 1) j) = xo (ix2 (0 : Fin 1) j) + ∑ r : Fin 5000, k1_pay3 (F := Ideal) x0 x1 x2 (ix2 r j) := by
  unfold k1_pay4
  simp only [shapeCast_self]
  rw [addf_apply, shapeCast_a_1a_apply]
  congr 1
  refine (Ideal.multiReduction_add_single _ _ _ _ _ _).trans ?_
  exact Finset.sum_congr rfl fun r _ => congrArg (k1_pay3 (F := Ideal) x0 x1 x2) (lift_eq_1 j r)

/-- The running sum of squares' payload at column `j`. -/
theorem pay5_apply_1 (x0 : Vec Ideal S5000x64 .f32) (x1 : Vec Ideal S5000x1 .f32) (x2 : Vec Ideal S1x64 .f32) (xo : Vec Ideal S1x64 .f32) (j : Fin 64) :
    k1_pay5 (F := Ideal) x0 x1 x2 xo (ix2 (0 : Fin 1) j) = xo (ix2 (0 : Fin 1) j) + ∑ r : Fin 5000, k1_pay3 (F := Ideal) x0 x1 x2 (ix2 r j) * k1_pay3 (F := Ideal) x0 x1 x2 (ix2 r j) := by
  unfold k1_pay5
  simp only [shapeCast_self]
  rw [addf_apply, shapeCast_a_1a_apply]
  congr 1
  refine (Ideal.multiReduction_add_single _ _ _ _ _ _).trans ?_
  exact Finset.sum_congr rfl fun r _ => congrArg (fun y => k1_pay3 (F := Ideal) x0 x1 x2 y * k1_pay3 (F := Ideal) x0 x1 x2 y) (lift_eq_1 j r)

/-- The zero rows the reset stores are zero at every column. -/
theorem pay1_apply_1 (i : S1x64.Idx) : k1_pay1 (F := Ideal) i = 0 := Ideal.ofBits_zero_f32
theorem pay2_apply_1 (i : S1x64.Idx) : k1_pay2 (F := Ideal) i = 0 := Ideal.ofBits_zero_f32

/-! ## The blocks read at an index -/

variable (V : (c : Dev nD) → (b : Ref sig .tc) → Buf (Elt Ideal) ((c : Thread nD τ).loc b))

/-- The three input arrays as the region finds them, and the row-wise value the kernel computes of them. -/
abbrev AGG1 (c : Dev nD) : S100000x64.Idx → EReal := V c (Pipeline.arrRef spec1 0)
abbrev NRM1 (c : Dev nD) : S100000x1.Idx → EReal := V c (Pipeline.arrRef spec1 1)
abbrev BIA1 (c : Dev nD) : S1x64.Idx → EReal := V c (Pipeline.arrRef spec1 2)
def val1 (c : Dev nD) (i : Fin 100000) (j : Fin 64) : EReal :=
  AGG1 V c (ix2 i j) * NRM1 V c (ix2 i (0 : Fin 1)) + BIA1 V c (ix2 (0 : Fin 1) j)
def elu1 (c : Dev nD) (i : Fin 100000) (j : Fin 64) : EReal := eluI1 (val1 V c i j)

/-- The printed index maps, decided over the grid: the row-blocked windows are at block row `t`, column block 0;
    the three rows' windows stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0 :=
  (by decide +kernel : ∀ t : Fin grid1.N, _)

/-- Row `r` of grid point `t`'s block is row `5000 t + r` of the array. -/
def rowOf1 (t : Fin cfg1.N) (r : Fin 5000) : Fin 100000 :=
  ⟨5000 * t.val + r.val, by have := lt_of_lt_of_eq t.isLt (show cfg1.N = 20 from N_1); have := r.isLt; omega⟩

theorem iblk1_0_apply (c : Dev nD) (t : Fin cfg1.N) (r : Fin 5000) (j : Fin 64) :
    iblk1 V c 0 t (ix2 r j) = AGG1 V c (ix2 (rowOf1 t r) j) := by
  obtain ⟨e0, e1, -⟩ := idx_facts1 t
  show V c (Pipeline.arrRef spec1 0) (((cfg1.win 0).blk t).view.emb (ix2 r j)) = _
  congr 1
  funext a; apply Fin.ext
  match a with
  | ⟨0, _⟩ => show win1_0.index t (0 : Fin 2) * 5000 + 1 * r.val = 5000 * t.val + r.val; omega
  | ⟨1, _⟩ => show win1_0.index t (1 : Fin 2) * 64 + 1 * j.val = j.val; omega

theorem iblk1_1_apply (c : Dev nD) (t : Fin cfg1.N) (r : Fin 5000) :
    iblk1 V c 1 t (ix2 r (0 : Fin 1)) = NRM1 V c (ix2 (rowOf1 t r) (0 : Fin 1)) := by
  obtain ⟨-, -, e0, e1, -⟩ := idx_facts1 t
  show V c (Pipeline.arrRef spec1 1) (((cfg1.win 1).blk t).view.emb (ix2 r (0 : Fin 1))) = _
  congr 1
  funext a; apply Fin.ext
  match a with
  | ⟨0, _⟩ => show win1_1.index t (0 : Fin 2) * 5000 + 1 * r.val = 5000 * t.val + r.val; omega
  | ⟨1, _⟩ => show win1_1.index t (1 : Fin 2) * 1 + 1 * 0 = 0; omega

theorem iblk1_2_apply (c : Dev nD) (t : Fin cfg1.N) (j : Fin 64) :
    iblk1 V c 2 t (ix2 (0 : Fin 1) j) = BIA1 V c (ix2 (0 : Fin 1) j) := by
  obtain ⟨-, -, -, -, e0, e1, -⟩ := idx_facts1 t
  show V c (Pipeline.arrRef spec1 2) (((cfg1.win 2).blk t).view.emb (ix2 (0 : Fin 1) j)) = _
  congr 1
  funext a; apply Fin.ext
  match a with
  | ⟨0, _⟩ => show win1_2.index t (0 : Fin 2) * 1 + 1 * 0 = 0; omega
  | ⟨1, _⟩ => show win1_2.index t (1 : Fin 2) * 64 + 1 * j.val = j.val; omega

/-- The activation block of point `t` at row `r`, column `j` is the activation at row `5000 t + r`. -/
theorem act1_apply (c : Dev nD) (t : Fin cfg1.N) (r : Fin 5000) (j : Fin 64) :
    k1_pay3 (F := Ideal) (iblk1 V c 0 t) (iblk1 V c 1 t) (iblk1 V c 2 t) (ix2 r j) = elu1 V c (rowOf1 t r) j := by
  rw [pay3_apply_1, iblk1_0_apply, iblk1_1_apply, iblk1_2_apply]
  rfl

/-! ## The running sums, at a column -/

/-- Twenty blocks of 5000 rows are the 100000 rows: a sum over the rows regroups block by block (addition of
    extended reals is commutative and associative, so no finiteness is asked). -/
theorem sum_blocks1 (f : Fin 100000 → EReal) :
    ∑ s : Fin 20, ∑ r : Fin 5000, f ⟨5000 * s.val + r.val, by have := s.isLt; have := r.isLt; omega⟩ = ∑ i : Fin 100000, f i := by
  rw [← Fintype.sum_prod_type']
  exact Fintype.sum_equiv (finProdFinEquiv (m := 20) (n := 5000)) _ _ (fun ⟨s, r⟩ => by
    congr 1; apply Fin.ext; simp [finProdFinEquiv]; omega)

/-- Point `s`'s addend to column `j` of the running sum (zero past the grid, never used). -/
def addS1 (c : Dev nD) (s : ℕ) (j : Fin 64) : EReal :=
  if hs : s < cfg1.N then ∑ r : Fin 5000, elu1 V c (rowOf1 ⟨s, hs⟩ r) j else 0
def addQ1 (c : Dev nD) (s : ℕ) (j : Fin 64) : EReal :=
  if hs : s < cfg1.N then ∑ r : Fin 5000, elu1 V c (rowOf1 ⟨s, hs⟩ r) j * elu1 V c (rowOf1 ⟨s, hs⟩ r) j else 0

/-- The running column sum after point `n` is the sum of the addends of points `0 … n`. -/
theorem accS1_apply (c : Dev nD) (j : Fin 64) : ∀ (n : ℕ) (h : n < cfg1.N),
    accS1 V c n h (ix2 (0 : Fin 1) j) = ∑ s ∈ Finset.range (n + 1), addS1 V c s j
  | 0, h => by
    show k1_pay4 (F := Ideal) _ _ _ _ _ = _
    rw [pay4_apply_1, pay1_apply_1, zero_add, Finset.sum_range_one]
    unfold addS1; rw [dif_pos h]
    exact Finset.sum_congr rfl fun r _ => act1_apply V c ⟨0, h⟩ r j
  | n + 1, h => by
    show k1_pay4 (F := Ideal) _ _ _ _ _ = _
    rw [pay4_apply_1, accS1_apply c j n (Nat.lt_of_succ_lt h), Finset.sum_range_succ _ (n + 1)]
    congr 1
    unfold addS1; rw [dif_pos h]
    exact Finset.sum_congr rfl fun r _ => act1_apply V c ⟨n + 1, h⟩ r j

theorem accQ1_apply (c : Dev nD) (j : Fin 64) : ∀ (n : ℕ) (h : n < cfg1.N),
    accQ1 V c n h (ix2 (0 : Fin 1) j) = ∑ s ∈ Finset.range (n + 1), addQ1 V c s j
  | 0, h => by
    show k1_pay5 (F := Ideal) _ _ _ _ _ = _
    rw [pay5_apply_1, pay2_apply_1, zero_add, Finset.sum_range_one]
    unfold addQ1; rw [dif_pos h]
    exact Finset.sum_congr rfl fun r _ => by rw [act1_apply V c ⟨0, h⟩ r j]
  | n + 1, h => by
    show k1_pay5 (F := Ideal) _ _ _ _ _ = _
    rw [pay5_apply_1, accQ1_apply c j n (Nat.lt_of_succ_lt h), Finset.sum_range_succ _ (n + 1)]
    congr 1
    unfold addQ1; rw [dif_pos h]
    exact Finset.sum_congr rfl fun r _ => by rw [act1_apply V c ⟨n + 1, h⟩ r j]

/-- After the last point the running sums are the sums over all 100000 rows. -/
theorem accS1_last (c : Dev nD) (j : Fin 64) (n : ℕ) (h : n < cfg1.N) (h19 : n = 19) :
    accS1 V c n h (ix2 (0 : Fin 1) j) = ∑ i : Fin 100000, elu1 V c i j := by
  subst h19
  rw [accS1_apply, ← sum_blocks1, Finset.sum_range]
  exact Finset.sum_congr rfl fun s _ => by
    unfold addS1; rw [dif_pos (lt_of_lt_of_eq s.isLt (show 20 = cfg1.N from N_1.symm))]; rfl

theorem accQ1_last (c : Dev nD) (j : Fin 64) (n : ℕ) (h : n < cfg1.N) (h19 : n = 19) :
    accQ1 V c n h (ix2 (0 : Fin 1) j) = ∑ i : Fin 100000, elu1 V c i j * elu1 V c i j := by
  subst h19
  rw [accQ1_apply, ← sum_blocks1 (fun i => elu1 V c i j * elu1 V c i j), Finset.sum_range]
  exact Finset.sum_congr rfl fun s _ => by
    unfold addQ1; rw [dif_pos (lt_of_lt_of_eq s.isLt (show 20 = cfg1.N from N_1.symm))]; rfl

/-! ## The three result arrays after the run -/

/-- The whole-array function output 3's array ends holding: the activation, row by row. -/
def G1_3 (c : Dev nD) : S100000x64.Idx → EReal := fun i => elu1 V c (i 0) (i 1)

theorem mem_blk1_3 (t : Fin cfg1.N) (i : S100000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v29_0).slice (win1_3.rect t)).set ↔ _
  rw [View.set_slice_whole, Rect.mem_set_unit]
  exact Iff.rfl

/-- What point `t` writes back to output 3's array is block `t` of the activation. -/
theorem flushed1_3_eq (c : Dev nD) (t : Fin cfg1.N) :
    (dat1 V c).flushed 3 t = ((cfg1.win 3).blk t).view.read (Elt Ideal) (G1_3 V c) := by
  show (cfg1.win 3).cut (grid1.coords t) ((dat1 V c).after 3 t) = _
  rw [after1_3, outsAt1_eq]
  funext y
  obtain ⟨r, j, rfl⟩ : ∃ (r : Fin 5000) (j : Fin 64), y = ix2 r j := ⟨y 0, y 1, eq_ix2 y⟩
  obtain ⟨-, -, -, -, -, -, e0, e1, -⟩ := idx_facts1 t
  show k1_pay3 (F := Ideal) (iblk1 V c 0 t) (iblk1 V c 1 t) (iblk1 V c 2 t) (ix2 r j) = G1_3 V c (((cfg1.win 3).blk t).view.emb (ix2 r j))
  rw [act1_apply]
  unfold G1_3
  have h0 : (((cfg1.win 3).blk t).view.emb (ix2 r j)) 0 = rowOf1 t r :=
    Fin.ext (by show win1_3.index t (0 : Fin 2) * 5000 + 1 * r.val = 5000 * t.val + r.val; omega)
  have h1 : (((cfg1.win 3).blk t).view.emb (ix2 r j)) 1 = j :=
    Fin.ext (by show win1_3.index t (1 : Fin 2) * 64 + 1 * j.val = j.val; omega)
  rw [h0, h1]

/-- The twenty row blocks cover the array. -/
theorem cover1_3w (i : S100000x64.Idx) : ∃ t : Fin cfg1.N, (cfg1.win 3).flush t = true ∧ i ∈ ((cfg1.win 3).blk t).view.set := by
  have hN : cfg1.N = 20 := N_1
  have hi0 : (i 0).val < 100000 := (i 0).isLt
  have hi1 : (i 1).val < 64 := (i 1).isLt
  have hq : (i 0).val / 5000 < cfg1.N := by omega
  obtain ⟨-, -, -, -, -, -, e0, e1, -⟩ := idx_facts1 ⟨(i 0).val / 5000, hq⟩
  have e0' : win1_3.index ⟨(i 0).val / 5000, hq⟩ (0 : Fin 2) = (i 0).val / 5000 := e0
  refine ⟨⟨(i 0).val / 5000, hq⟩, flush1_3 _, ?_⟩
  rw [mem_blk1_3]
  intro a
  match a with
  | ⟨0, _⟩ => show win1_3.index ⟨(i 0).val / 5000, hq⟩ (0 : Fin 2) * 5000 ≤ (i 0).val ∧ (i 0).val < win1_3.index ⟨(i 0).val / 5000, hq⟩ (0 : Fin 2) * 5000 + 5000; rw [e0']; omega
  | ⟨1, _⟩ => show win1_3.index _ (1 : Fin 2) * 64 ≤ (i 1).val ∧ (i 1).val < win1_3.index _ (1 : Fin 2) * 64 + 64; omega

/-- Output 3's array after the run: the activation at every row and column. -/
theorem final1_3 (c : Dev nD) (i : Fin 100000) (j : Fin 64) :
    (dat1 V c).arrAt 3 cfg1.N (ix2 i j) = elu1 V c i j :=
  congrFun ((dat1 V c).arrAt_eq_of_cover 3 (G1_3 V c) (fun t _ => flushed1_3_eq V c t) (cover1_3w)) (ix2 i j)

/-- The whole-array function output 4's array ends holding: at every column the sum over all rows. -/
def G1_4 (c : Dev nD) : S1x64.Idx → EReal := fun i => ∑ r : Fin 100000, elu1 V c r (i 1)
theorem G1_4_apply (c : Dev nD) (i : S1x64.Idx) : G1_4 V c i = ∑ r : Fin 100000, elu1 V c r (i 1) := rfl
attribute [local irreducible] G1_4

theorem mem_blk1_4 (t : Fin cfg1.N) (i : S1x64.Idx) :
    i ∈ ((cfg1.win 4).blk t).view.set ↔ ∀ a : Fin 2, win1_4.index t a * S1x64.size a ≤ (i a).val ∧ (i a).val < win1_4.index t a * S1x64.size a + S1x64.size a := by
  show i ∈ ((View.whole main_v29_1).slice (win1_4.rect t)).set ↔ _
  rw [View.set_slice_whole, Rect.mem_set_unit]
  exact Iff.rfl

/-- The one write-back, after the last point, writes the whole sum. -/
theorem flushed1_4_eq (c : Dev nD) (t : Fin cfg1.N) (hf : (cfg1.win 4).flush t = true) :
    (dat1 V c).flushed 4 t = ((cfg1.win 4).blk t).view.read (Elt Ideal) (G1_4 V c) := by
  have hN : cfg1.N = 20 := N_1
  have h19 : t.val = 19 := by have := (flush1_4 t).mp hf; have := t.isLt; omega
  show (cfg1.win 4).cut (grid1.coords t) ((dat1 V c).after 4 t) = _
  rw [after1_4, outsAt1_eq]
  funext y
  obtain ⟨u, j, rfl⟩ : ∃ (u : Fin 1) (j : Fin 64), y = ix2 u j := ⟨y 0, y 1, eq_ix2 y⟩
  obtain rfl : u = 0 := Subsingleton.elim _ _
  obtain ⟨-, -, -, -, -, -, -, -, e0, e1, -⟩ := idx_facts1 t
  show accS1 V c t.val t.isLt (ix2 (0 : Fin 1) j) = G1_4 V c (((cfg1.win 4).blk t).view.emb (ix2 (0 : Fin 1) j))
  rw [accS1_last V c j t.val t.isLt h19]
  rw [G1_4_apply]
  have hj : (((cfg1.win 4).blk t).view.emb (ix2 (0 : Fin 1) j)) 1 = j :=
    Fin.ext (by show win1_4.index t (1 : Fin 2) * 64 + 1 * j.val = j.val; omega)
  rw [hj]

/-- That point's block is the whole row. -/
theorem cover1_4w (i : S1x64.Idx) : ∃ t : Fin cfg1.N, (cfg1.win 4).flush t = true ∧ i ∈ ((cfg1.win 4).blk t).view.set := by
  have hN : cfg1.N = 20 := N_1
  have hi0 : (i 0).val < 1 := (i 0).isLt
  have hi1 : (i 1).val < 64 := (i 1).isLt
  have hn : 19 < cfg1.N := by omega
  obtain ⟨-, -, -, -, -, -, -, -, e0, e1, -⟩ := idx_facts1 ⟨19, hn⟩
  refine ⟨⟨19, hn⟩, (flush1_4 _).mpr rfl, ?_⟩
  rw [mem_blk1_4]
  intro a
  match a with
  | ⟨0, _⟩ => show win1_4.index _ (0 : Fin 2) * 1 ≤ (i 0).val ∧ (i 0).val < win1_4.index _ (0 : Fin 2) * 1 + 1; omega
  | ⟨1, _⟩ => show win1_4.index _ (1 : Fin 2) * 64 ≤ (i 1).val ∧ (i 1).val < win1_4.index _ (1 : Fin 2) * 64 + 64; omega

/-- Output 4's array after the run, at column `j`. -/
theorem final1_4 (c : Dev nD) (j : Fin 64) :
    (dat1 V c).arrAt 4 cfg1.N (ix2 (0 : Fin 1) j) = ∑ i : Fin 100000, elu1 V c i j :=
  (congrFun ((dat1 V c).arrAt_eq_of_cover 4 (G1_4 V c) (flushed1_4_eq V c) (cover1_4w)) (ix2 (0 : Fin 1) j)).trans
    (G1_4_apply V c (ix2 (0 : Fin 1) j))

/-- The whole-array function output 5's array ends holding: at every column the sum over all rows. -/
def G1_5 (c : Dev nD) : S1x64.Idx → EReal := fun i => ∑ r : Fin 100000, elu1 V c r (i 1) * elu1 V c r (i 1)
theorem G1_5_apply (c : Dev nD) (i : S1x64.Idx) : G1_5 V c i = ∑ r : Fin 100000, elu1 V c r (i 1) * elu1 V c r (i 1) := rfl
attribute [local irreducible] G1_5

theorem mem_blk1_5 (t : Fin cfg1.N) (i : S1x64.Idx) :
    i ∈ ((cfg1.win 5).blk t).view.set ↔ ∀ a : Fin 2, win1_5.index t a * S1x64.size a ≤ (i a).val ∧ (i a).val < win1_5.index t a * S1x64.size a + S1x64.size a := by
  show i ∈ ((View.whole main_v29_2).slice (win1_5.rect t)).set ↔ _
  rw [View.set_slice_whole, Rect.mem_set_unit]
  exact Iff.rfl

/-- The one write-back, after the last point, writes the whole sum. -/
theorem flushed1_5_eq (c : Dev nD) (t : Fin cfg1.N) (hf : (cfg1.win 5).flush t = true) :
    (dat1 V c).flushed 5 t = ((cfg1.win 5).blk t).view.read (Elt Ideal) (G1_5 V c) := by
  have hN : cfg1.N = 20 := N_1
  have h19 : t.val = 19 := by have := (flush1_5 t).mp hf; have := t.isLt; omega
  show (cfg1.win 5).cut (grid1.coords t) ((dat1 V c).after 5 t) = _
  rw [after1_5, outsAt1_eq]
  funext y
  obtain ⟨u, j, rfl⟩ : ∃ (u : Fin 1) (j : Fin 64), y = ix2 u j := ⟨y 0, y 1, eq_ix2 y⟩
  obtain rfl : u = 0 := Subsingleton.elim _ _
  obtain ⟨-, -, -, -, -, -, -, -, -, -, e0, e1⟩ := idx_facts1 t
  show accQ1 V c t.val t.isLt (ix2 (0 : Fin 1) j) = G1_5 V c (((cfg1.win 5).blk t).view.emb (ix2 (0 : Fin 1) j))
  rw [accQ1_last V c j t.val t.isLt h19]
  rw [G1_5_apply]
  have hj : (((cfg1.win 5).blk t).view.emb (ix2 (0 : Fin 1) j)) 1 = j :=
    Fin.ext (by show win1_5.index t (1 : Fin 2) * 64 + 1 * j.val = j.val; omega)
  rw [hj]

/-- That point's block is the whole row. -/
theorem cover1_5w (i : S1x64.Idx) : ∃ t : Fin cfg1.N, (cfg1.win 5).flush t = true ∧ i ∈ ((cfg1.win 5).blk t).view.set := by
  have hN : cfg1.N = 20 := N_1
  have hi0 : (i 0).val < 1 := (i 0).isLt
  have hi1 : (i 1).val < 64 := (i 1).isLt
  have hn : 19 < cfg1.N := by omega
  obtain ⟨-, -, -, -, -, -, -, -, -, -, e0, e1⟩ := idx_facts1 ⟨19, hn⟩
  refine ⟨⟨19, hn⟩, (flush1_5 _).mpr rfl, ?_⟩
  rw [mem_blk1_5]
  intro a
  match a with
  | ⟨0, _⟩ => show win1_5.index _ (0 : Fin 2) * 1 ≤ (i 0).val ∧ (i 0).val < win1_5.index _ (0 : Fin 2) * 1 + 1; omega
  | ⟨1, _⟩ => show win1_5.index _ (1 : Fin 2) * 64 ≤ (i 1).val ∧ (i 1).val < win1_5.index _ (1 : Fin 2) * 64 + 64; omega

/-- Output 5's array after the run, at column `j`. -/
theorem final1_5 (c : Dev nD) (j : Fin 64) :
    (dat1 V c).arrAt 5 cfg1.N (ix2 (0 : Fin 1) j) = ∑ i : Fin 100000, elu1 V c i j * elu1 V c i j :=
  (congrFun ((dat1 V c).arrAt_eq_of_cover 5 (G1_5 V c) (flushed1_5_eq V c) (cover1_5w)) (ix2 (0 : Fin 1) j)).trans
    (G1_5_apply V c (ix2 (0 : Fin 1) j))

/-! ## The same three, with the region's input arrays spelled out -/

theorem final1_3_arr (c : Dev nD) (i : Fin 100000) (j : Fin 64) :
    (dat1 V c).arrAt 3 cfg1.N (ix2 i j)
      = eluI1 (AGG1 V c (ix2 i j) * NRM1 V c (ix2 i (0 : Fin 1)) + BIA1 V c (ix2 (0 : Fin 1) j)) :=
  final1_3 V c i j

theorem final1_4_arr (c : Dev nD) (j : Fin 64) :
    (dat1 V c).arrAt 4 cfg1.N (ix2 (0 : Fin 1) j)
      = ∑ i : Fin 100000, eluI1 (AGG1 V c (ix2 i j) * NRM1 V c (ix2 i (0 : Fin 1)) + BIA1 V c (ix2 (0 : Fin 1) j)) :=
  final1_4 V c j

theorem final1_5_arr (c : Dev nD) (j : Fin 64) :
    (dat1 V c).arrAt 5 cfg1.N (ix2 (0 : Fin 1) j)
      = ∑ i : Fin 100000, eluI1 (AGG1 V c (ix2 i j) * NRM1 V c (ix2 i (0 : Fin 1)) + BIA1 V c (ix2 (0 : Fin 1) j))
          * eluI1 (AGG1 V c (ix2 i j) * NRM1 V c (ix2 i (0 : Fin 1)) + BIA1 V c (ix2 (0 : Fin 1) j)) :=
  final1_5 V c j

/-- The activation, opened: the identity where the value is positive, `exp v - 1` elsewhere. -/
theorem eluI1_def (v : EReal) : eluI1 v = if 0 < v then v else Ideal.exp v - 1 := rfl

end IdealPart

end Cert.KernelIdeal.Hand

end
-- ==== Proof.ValR3.lean ====
import proofs.«157882_j13769665151543_1_alg».proof.Proof.RegR3
import Idealize.ShloMosaic.Lib.Pipeline.Value
import Idealize.ShloMosaic.Lib.ValueIdx
import Idealize.ShloMosaic.Lib.ValueLayout
import Idealize.ShloMosaic.PureOps.Ideal.Laws
import Idealize.ShloMosaic.Lib.Tactic

set_option maxRecDepth 16384

noncomputable section

namespace Cert.KernelIdeal.Hand

open Cert.KernelIdeal.Gen
open Idealize.ShloMosaic Idealize.ShloMosaic.TcCoe Idealize.SL.Sem Idealize.ShloMosaic.ValueIdx
open Idealize.ShloMosaic.Pipeline (Dat)
open scoped BigOperators

/-! Region 3 read as values, at the ideal instance: what its pipeline leaves in the three result arrays, as
    functions of the three input arrays as the region finds them — the activation of `agg · norm + bias` row by row,
    and its column sums and column sums of squares over all 100000 rows (the kernel adds them tile by tile; over the
    extended reals the regrouping to one sum is free). -/

section Generic
variable {F : FTy → Type} [FloatOps F]

theorem hz2_3 : (![0, 0] : Fin 2 → Nat) = fun _ => 0 := funext fun a => by fin_cases a <;> rfl

/-! ## What each case leaves, as the payloads of its covering stores -/

/-- At a later point the activation block is the one covering store's payload of the three input blocks. -/
theorem out3_B_3_eq (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) :
    out3_B_3 c i arg1 harg1 arg2 harg2 arg3 harg3 arg4 harg4 arg5 harg5 arg6 harg6 hc0 x0 x1 x2 xo4 xo5 = k3_pay3 x0 x1 x2 := by
  unfold out3_B_3
  rw [View.read_writes_eq_canon _ _ _ (cover3_B_3 c i arg1 harg1 arg2 harg2 arg3 harg3 arg4 harg4 arg5 harg5 arg6 harg6 hc0 x0 x1 x2 xo4 xo5)]
  unfold kernelRun3_B
  dsimp only
  rw [View.canon_unit_zero hz2_3]
  simp only [View.readAt_eq_ld, harg1.read_unread, harg2.read_unread, harg3.read_unread, harg5.read_unread, harg6.read_unread, View.ld_unit_zero (S := S5000x64) hz2_3, View.ld_unit_zero (S := S5000x1) hz2_3, View.ld_unit_zero (S := S1x64) hz2_3]

/-- At a later point the running column sum is the covering store's payload: the sum so far plus the block's. -/
theorem out3_B_4_eq (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) :
    out3_B_4 c i arg1 harg1 arg2 harg2 arg3 harg3 arg4 harg4 arg5 harg5 arg6 harg6 hc0 x0 x1 x2 xo4 xo5 = k3_pay4 x0 x1 x2 xo4 := by
  unfold out3_B_4
  rw [View.read_writes_eq_canon _ _ _ (cover3_B_4 c i arg1 harg1 arg2 harg2 arg3 harg3 arg4 harg4 arg5 harg5 arg6 harg6 hc0 x0 x1 x2 xo4 xo5)]
  unfold kernelRun3_B
  dsimp only
  rw [View.canon_unit_zero hz2_3]
  simp only [View.readAt_eq_ld, harg1.read_unread, harg2.read_unread, harg3.read_unread, harg5.read_unread, harg6.read_unread, View.ld_unit_zero (S := S5000x64) hz2_3, View.ld_unit_zero (S := S5000x1) hz2_3, View.ld_unit_zero (S := S1x64) hz2_3]

theorem out3_B_5_eq (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : ¬cond3_0 i)
    (x0 : Vec F S5000x64 .f32) (x1 : Vec F S5000x1 .f32) (x2 : Vec F S1x64 .f32) (xo4 : Vec F S1x64 .f32) (xo5 : Vec F S1x64 .f32) :
    out3_B_5 c i arg1 harg1 arg2 harg2 arg3 harg3 arg4 harg4 arg5 harg5 arg6 harg6 hc0 x0 x1 x2 xo4 xo5 = k3_pay5 x0 x1 x2 xo5 := by
  unfold out3_B_5
  rw [View.read_writes_eq_canon _ _ _ (cover3_B_5 c i arg1 harg1 arg2 harg2 arg3 harg3 arg4 harg4 arg5 harg5 arg6 harg6 hc0 x0 x1 x2 xo4 xo5)]
  unfold kernelRun3_B
  dsimp only
  rw [View.canon_unit_zero hz2_3]
  simp only [View.readAt_eq_ld, harg1.read_unread, harg2.read_unread, harg3.read_unread, harg5.read_unread, harg6.read_unread, View.ld_unit_zero (S := S5000x64) hz2_3, View.ld_unit_zero (S := S5000x1) hz2_3, View.ld_unit_zero (S := S1x64) hz2_3]

/-- At the first point the activation block is the same payload. -/
theorem out3_A_3_eq (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) :
    out3_A_3 c i arg1 harg1 arg2 harg2 arg3 harg3 arg4 harg4 arg5 harg5 arg6 harg6 hc0 x0 x1 x2 = k3_pay3 x0 x1 x2 := by
  unfold out3_A_3
  rw [View.read_writes_eq_canon _ _ _ (cover3_A_3 c i arg1 harg1 arg2 harg2 arg3 harg3 arg4 harg4 arg5 harg5 arg6 harg6 hc0 x0 x1 x2)]
  unfold kernelRun3_A
  dsimp only
  rw [View.canon_unit_zero hz2_3]
  simp only [View.readAt_eq_ld, harg1.read_unread, harg2.read_unread, harg3.read_unread, View.ld_unit_zero (S := S5000x64) hz2_3, View.ld_unit_zero (S := S5000x1) hz2_3, View.ld_unit_zero (S := S1x64) hz2_3]

/-- At the first point the running column sum is the zero row the reset stored, read back, plus the block's. -/
theorem out3_A_4_eq (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) :
    out3_A_4 c i arg1 harg1 arg2 harg2 arg3 harg3 arg4 harg4 arg5 harg5 arg6 harg6 hc0 x0 x1 x2 = k3_pay4 x0 x1 x2 (k3_pay1 (F := F)) := by
  unfold out3_A_4
  rw [View.read_writes_eq_canon _ _ _ (cover3_A_4 c i arg1 harg1 arg2 harg2 arg3 harg3 arg4 harg4 arg5 harg5 arg6 harg6 hc0 x0 x1 x2)]
  unfold kernelRun3_A
  dsimp only
  sl_unfold_words
  rw [View.canon_cons_unit_zero (S := S1x64) hz2_3, View.readCov_unit_zero (S := S1x64) _ hz2_3]
  simp only [View.readAt_eq_ld, harg1.read_unread, harg2.read_unread, harg3.read_unread, View.ld_unit_zero (S := S5000x64) hz2_3, View.ld_unit_zero (S := S5000x1) hz2_3, View.ld_unit_zero (S := S1x64) hz2_3]

theorem out3_A_5_eq (c : Dev nD) (i : grid3.Coords) (arg1 : Memref sig .tc .vmem S5000x64 .f32) (harg1 : arg1.IsWhole) (arg2 : Memref sig .tc .vmem S5000x1 .f32) (harg2 : arg2.IsWhole) (arg3 : Memref sig .tc .vmem S1x64 .f32) (harg3 : arg3.IsWhole) (arg4 : Memref sig .tc .vmem S5000x64 .f32) (harg4 : arg4.IsWhole) (arg5 : Memref sig .tc .vmem S1x64 .f32) (harg5 : arg5.IsWhole) (arg6 : Memref sig .tc .vmem S1x64 .f32) (harg6 : arg6.IsWhole) (hc0 : cond3_0 i)
    (x0 : Vec F S5000x64 .f32) (x1 : Vec F S5000x1 .f32) (x2 : Vec F S1x64 .f32) :
    out3_A_5 c i arg1 harg1 arg2 harg2 arg3 harg3 arg4 harg4 arg5 harg5 arg6 harg6 hc0 x0 x1 x2 = k3_pay5 x0 x1 x2 (k3_pay2 (F := F)) := by
  unfold out3_A_5
  rw [View.read_writes_eq_canon _ _ _ (cover3_A_5 c i arg1 harg1 arg2 harg2 arg3 harg3 arg4 harg4 arg5 harg5 arg6 harg6 hc0 x0 x1 x2)]
  unfold kernelRun3_A
  dsimp only
  sl_unfold_words
  rw [View.canon_cons_unit_zero (S := S1x64) hz2_3, View.readCov_unit_zero (S := S1x64) _ hz2_3]
  simp only [View.readAt_eq_ld, harg1.read_unread, harg2.read_unread, harg3.read_unread, View.ld_unit_zero (S := S5000x64) hz2_3, View.ld_unit_zero (S := S5000x1) hz2_3, View.ld_unit_zero (S := S1x64) hz2_3]

variable (V : (c : Dev nD) → (b : Ref sig .tc) → Buf (Elt F) ((c : Thread nD τ).loc b))

/-! ## The accumulation in closed form -/

/-- The running column sum after point `n`: the zero row plus the first block's column sums, then one block's more
    per point. -/
def accS3 (c : Dev nD) : (n : ℕ) → n < cfg3.N → Vec F S1x64 .f32
  | 0, h => k3_pay4 (iblk3 V c 0 ⟨0, h⟩) (iblk3 V c 1 ⟨0, h⟩) (iblk3 V c 2 ⟨0, h⟩) (k3_pay1 (F := F))
  | n + 1, h => k3_pay4 (iblk3 V c 0 ⟨n + 1, h⟩) (iblk3 V c 1 ⟨n + 1, h⟩) (iblk3 V c 2 ⟨n + 1, h⟩) (accS3 c n (Nat.lt_of_succ_lt h))

/-- The running column sum of squares after point `n`, likewise. -/
def accQ3 (c : Dev nD) : (n : ℕ) → n < cfg3.N → Vec F S1x64 .f32
  | 0, h => k3_pay5 (iblk3 V c 0 ⟨0, h⟩) (iblk3 V c 1 ⟨0, h⟩) (iblk3 V c 2 ⟨0, h⟩) (k3_pay2 (F := F))
  | n + 1, h => k3_pay5 (iblk3 V c 0 ⟨n + 1, h⟩) (iblk3 V c 1 ⟨n + 1, h⟩) (iblk3 V c 2 ⟨n + 1, h⟩) (accQ3 c n (Nat.lt_of_succ_lt h))

/-- What the three outputs' staging buffers hold after point `n`: the point's activation block and the two running
    sums — by induction on the point. -/
theorem outsAt3_eq (c : Dev nD) : ∀ (n : ℕ) (h : n < cfg3.N),
    outsAt3 V c n h = (k3_pay3 (iblk3 V c 0 ⟨n, h⟩) (iblk3 V c 1 ⟨n, h⟩) (iblk3 V c 2 ⟨n, h⟩), accS3 V c n h, accQ3 V c n h)
  | 0, h => by
    rw [outsAt3_A V c ⟨0, h⟩ rfl, out3_A_3_eq, out3_A_4_eq, out3_A_5_eq]
    rfl
  | n + 1, h => by
    have hN : cfg3.N = 20 := N_3
    have hB : ¬(⟨n + 1, h⟩ : Fin cfg3.N).val % 20 = 0 := by dsimp only; omega
    rw [outsAt3_B V c ⟨n + 1, h⟩ hB, out3_B_3_eq, out3_B_4_eq, out3_B_5_eq]
    show (_, k3_pay4 _ _ _ (outsAt3 V c n _).2.1, k3_pay5 _ _ _ (outsAt3 V c n _).2.2) = _
    rw [outsAt3_eq c n]
    rfl

end Generic

/-! ## The payloads read at an index, at the ideal values -/

section IdealPart

/-- The activation: the identity on the positive extended reals, `exp v - 1` elsewhere. -/
def eluI3 (v : EReal) : EReal := if 0 < v then v else Ideal.exp v - 1

theorem ofBits_one_f32_3 : Ideal.ofBits .f32 0x3F800000#32 = 1 := by
  simp [Ideal.ofBits, Ideal.ieee, -EReal.coe_mul]; norm_num

/-- A select on the comparison `a > 0` of extended reals is the `if`. -/
theorem select_ogt_zero_3 (a x y : EReal) : Scalar.select (Ideal.cmp .ogt a 0) x y = if 0 < a then x else y := by
  unfold Ideal.cmp Scalar.select
  by_cases h : 0 < a
  · simp [h]
  · simp [h]

/-- The activation block's payload at row `r`, column `j`: the activation of `agg · norm + bias` there, the
    norm column and the bias row broadcast. -/
theorem pay3_apply_3 (x0 : Vec Ideal S5000x64 .f32) (x1 : Vec Ideal S5000x1 .f32) (x2 : Vec Ideal S1x64 .f32) (r : Fin 5000) (j : Fin 64) :
    k3_pay3 (F := Ideal) x0 x1 x2 (ix2 r j) = eluI3 (x0 (ix2 r j) * x1 (ix2 r (0 : Fin 1)) + x2 (ix2 (0 : Fin 1) j)) := by
  have hb1 : broadcastTo S5000x64 x1 broadcasts_S5000x1_S5000x64 (ix2 r j) = x1 (ix2 r (0 : Fin 1)) :=
    broadcastTo_apply x1 _ (ix2 r j) (ix2 r (0 : Fin 1)) (fun a => by match a with | ⟨0, _⟩ => rfl | ⟨1, _⟩ => rfl)
  have hb2 : broadcastTo S5000x64 x2 broadcasts_S1x64_S5000x64 (ix2 r j) = x2 (ix2 (0 : Fin 1) j) :=
    broadcastTo_apply x2 _ (ix2 r j) (ix2 (0 : Fin 1) j) (fun a => by match a with | ⟨0, _⟩ => rfl | ⟨1, _⟩ => rfl)
  unfold k3_pay3
  simp only [shapeCast_self]
  show Scalar.select (Ideal.cmp .ogt (x0 (ix2 r j) * broadcastTo S5000x64 x1 broadcasts_S5000x1_S5000x64 (ix2 r j) + broadcastTo S5000x64 x2 broadcasts_S1x64_S5000x64 (ix2 r j)) (Ideal.ofBits .f32 0x00000000#32))
      (x0 (ix2 r j) * broadcastTo S5000x64 x1 broadcasts_S5000x1_S5000x64 (ix2 r j) + broadcastTo S5000x64 x2 broadcasts_S1x64_S5000x64 (ix2 r j))
      (Ideal.exp (x0 (ix2 r j) * broadcastTo S5000x64 x1 broadcasts_S5000x1_S5000x64 (ix2 r j) + broadcastTo S5000x64 x2 broadcasts_S1x64_S5000x64 (ix2 r j)) - Ideal.ofBits .f32 0x3F800000#32) = _
  rw [hb1, hb2, Ideal.ofBits_zero_f32, ofBits_one_f32_3, select_ogt_zero_3]
  rfl

/-- The source index over column `j` with row `r` inserted is `(r, j)`. -/
theorem lift_eq_3 (j : Fin 64) (r : Fin 5000) : reduces_S5000x64_S64.lift (ix1 j) r = ix2 r j := by
  funext a
  apply Fin.ext
  match a with
  | ⟨0, _⟩ => rfl
  | ⟨1, _⟩ => rfl

/-- The running sum's payload at column `j`: the sum so far plus the block's column sum. -/
theorem pay4_apply_3 (x0 : Vec Ideal S5000x64 .f32) (x1 : Vec Ideal S5000x1 .f32) (x2 : Vec Ideal S1x64 .f32) (xo : Vec Ideal S1x64 .f32) (j : Fin 64) :
    k3_pay4 (F := Ideal) x0 x1 x2 xo (ix2 (0 : Fin 1) j) = xo (ix2 (0 : Fin 1) j) + ∑ r : Fin 5000, k3_pay3 (F := Ideal) x0 x1 x2 (ix2 r j) := by
  unfold k3_pay4
  simp only [shapeCast_self]
  rw [addf_apply, shapeCast_a_1a_apply]
  congr 1
  refine (Ideal.multiReduction_add_single _ _ _ _ _ _).trans ?_
  exact Finset.sum_congr rfl fun r _ => congrArg (k3_pay3 (F := Ideal) x0 x1 x2) (lift_eq_3 j r)

/-- The running sum of squares' payload at column `j`. -/
theorem pay5_apply_3 (x0 : Vec Ideal S5000x64 .f32) (x1 : Vec Ideal S5000x1 .f32) (x2 : Vec Ideal S1x64 .f32) (xo : Vec Ideal S1x64 .f32) (j : Fin 64) :
    k3_pay5 (F := Ideal) x0 x1 x2 xo (ix2 (0 : Fin 1) j) = xo (ix2 (0 : Fin 1) j) + ∑ r : Fin 5000, k3_pay3 (F := Ideal) x0 x1 x2 (ix2 r j) * k3_pay3 (F := Ideal) x0 x1 x2 (ix2 r j) := by
  unfold k3_pay5
  simp only [shapeCast_self]
  rw [addf_apply, shapeCast_a_1a_apply]
  congr 1
  refine (Ideal.multiReduction_add_single _ _ _ _ _ _).trans ?_
  exact Finset.sum_congr rfl fun r _ => congrArg (fun y => k3_pay3 (F := Ideal) x0 x1 x2 y * k3_pay3 (F := Ideal) x0 x1 x2 y) (lift_eq_3 j r)

/-- The zero rows the reset stores are zero at every column. -/
theorem pay1_apply_3 (i : S1x64.Idx) : k3_pay1 (F := Ideal) i = 0 := Ideal.ofBits_zero_f32
theorem pay2_apply_3 (i : S1x64.Idx) : k3_pay2 (F := Ideal) i = 0 := Ideal.ofBits_zero_f32

/-! ## The blocks read at an index -/

variable (V : (c : Dev nD) → (b : Ref sig .tc) → Buf (Elt Ideal) ((c : Thread nD τ).loc b))

/-- The three input arrays as the region finds them, and the row-wise value the kernel computes of them. -/
abbrev AGG3 (c : Dev nD) : S100000x64.Idx → EReal := V c (Pipeline.arrRef spec3 0)
abbrev NRM3 (c : Dev nD) : S100000x1.Idx → EReal := V c (Pipeline.arrRef spec3 1)
abbrev BIA3 (c : Dev nD) : S1x64.Idx → EReal := V c (Pipeline.arrRef spec3 2)
def val3 (c : Dev nD) (i : Fin 100000) (j : Fin 64) : EReal :=
  AGG3 V c (ix2 i j) * NRM3 V c (ix2 i (0 : Fin 1)) + BIA3 V c (ix2 (0 : Fin 1) j)
def elu3 (c : Dev nD) (i : Fin 100000) (j : Fin 64) : EReal := eluI3 (val3 V c i j)

/-- The printed index maps, decided over the grid: the row-blocked windows are at block row `t`, column block 0;
    the three rows' windows stay at block (0, 0). -/
theorem idx_facts3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0 :=
  (by decide +kernel : ∀ t : Fin grid3.N, _)

/-- Row `r` of grid point `t`'s block is row `5000 t + r` of the array. -/
def rowOf3 (t : Fin cfg3.N) (r : Fin 5000) : Fin 100000 :=
  ⟨5000 * t.val + r.val, by have := lt_of_lt_of_eq t.isLt (show cfg3.N = 20 from N_3); have := r.isLt; omega⟩

theorem iblk3_0_apply (c : Dev nD) (t : Fin cfg3.N) (r : Fin 5000) (j : Fin 64) :
    iblk3 V c 0 t (ix2 r j) = AGG3 V c (ix2 (rowOf3 t r) j) := by
  obtain ⟨e0, e1, -⟩ := idx_facts3 t
  show V c (Pipeline.arrRef spec3 0) (((cfg3.win 0).blk t).view.emb (ix2 r j)) = _
  congr 1
  funext a; apply Fin.ext
  match a with
  | ⟨0, _⟩ => show win3_0.index t (0 : Fin 2) * 5000 + 1 * r.val = 5000 * t.val + r.val; omega
  | ⟨1, _⟩ => show win3_0.index t (1 : Fin 2) * 64 + 1 * j.val = j.val; omega

theorem iblk3_1_apply (c : Dev nD) (t : Fin cfg3.N) (r : Fin 5000) :
    iblk3 V c 1 t (ix2 r (0 : Fin 1)) = NRM3 V c (ix2 (rowOf3 t r) (0 : Fin 1)) := by
  obtain ⟨-, -, e0, e1, -⟩ := idx_facts3 t
  show V c (Pipeline.arrRef spec3 1) (((cfg3.win 1).blk t).view.emb (ix2 r (0 : Fin 1))) = _
  congr 1
  funext a; apply Fin.ext
  match a with
  | ⟨0, _⟩ => show win3_1.index t (0 : Fin 2) * 5000 + 1 * r.val = 5000 * t.val + r.val; omega
  | ⟨1, _⟩ => show win3_1.index t (1 : Fin 2) * 1 + 1 * 0 = 0; omega

theorem iblk3_2_apply (c : Dev nD) (t : Fin cfg3.N) (j : Fin 64) :
    iblk3 V c 2 t (ix2 (0 : Fin 1) j) = BIA3 V c (ix2 (0 : Fin 1) j) := by
  obtain ⟨-, -, -, -, e0, e1, -⟩ := idx_facts3 t
  show V c (Pipeline.arrRef spec3 2) (((cfg3.win 2).blk t).view.emb (ix2 (0 : Fin 1) j)) = _
  congr 1
  funext a; apply Fin.ext
  match a with
  | ⟨0, _⟩ => show win3_2.index t (0 : Fin 2) * 1 + 1 * 0 = 0; omega
  | ⟨1, _⟩ => show win3_2.index t (1 : Fin 2) * 64 + 1 * j.val = j.val; omega

/-- The activation block of point `t` at row `r`, column `j` is the activation at row `5000 t + r`. -/
theorem act3_apply (c : Dev nD) (t : Fin cfg3.N) (r : Fin 5000) (j : Fin 64) :
    k3_pay3 (F := Ideal) (iblk3 V c 0 t) (iblk3 V c 1 t) (iblk3 V c 2 t) (ix2 r j) = elu3 V c (rowOf3 t r) j := by
  rw [pay3_apply_3, iblk3_0_apply, iblk3_1_apply, iblk3_2_apply]
  rfl

/-! ## The running sums, at a column -/

/-- Twenty blocks of 5000 rows are the 100000 rows: a sum over the rows regroups block by block (addition of
    extended reals is commutative and associative, so no finiteness is asked). -/
theorem sum_blocks3 (f : Fin 100000 → EReal) :
    ∑ s : Fin 20, ∑ r : Fin 5000, f ⟨5000 * s.val + r.val, by have := s.isLt; have := r.isLt; omega⟩ = ∑ i : Fin 100000, f i := by
  rw [← Fintype.sum_prod_type']
  exact Fintype.sum_equiv (finProdFinEquiv (m := 20) (n := 5000)) _ _ (fun ⟨s, r⟩ => by
    congr 1; apply Fin.ext; simp [finProdFinEquiv]; omega)

/-- Point `s`'s addend to column `j` of the running sum (zero past the grid, never used). -/
def addS3 (c : Dev nD) (s : ℕ) (j : Fin 64) : EReal :=
  if hs : s < cfg3.N then ∑ r : Fin 5000, elu3 V c (rowOf3 ⟨s, hs⟩ r) j else 0
def addQ3 (c : Dev nD) (s : ℕ) (j : Fin 64) : EReal :=
  if hs : s < cfg3.N then ∑ r : Fin 5000, elu3 V c (rowOf3 ⟨s, hs⟩ r) j * elu3 V c (rowOf3 ⟨s, hs⟩ r) j else 0

/-- The running column sum after point `n` is the sum of the addends of points `0 … n`. -/
theorem accS3_apply (c : Dev nD) (j : Fin 64) : ∀ (n : ℕ) (h : n < cfg3.N),
    accS3 V c n h (ix2 (0 : Fin 1) j) = ∑ s ∈ Finset.range (n + 1), addS3 V c s j
  | 0, h => by
    show k3_pay4 (F := Ideal) _ _ _ _ _ = _
    rw [pay4_apply_3, pay1_apply_3, zero_add, Finset.sum_range_one]
    unfold addS3; rw [dif_pos h]
    exact Finset.sum_congr rfl fun r _ => act3_apply V c ⟨0, h⟩ r j
  | n + 1, h => by
    show k3_pay4 (F := Ideal) _ _ _ _ _ = _
    rw [pay4_apply_3, accS3_apply c j n (Nat.lt_of_succ_lt h), Finset.sum_range_succ _ (n + 1)]
    congr 1
    unfold addS3; rw [dif_pos h]
    exact Finset.sum_congr rfl fun r _ => act3_apply V c ⟨n + 1, h⟩ r j

theorem accQ3_apply (c : Dev nD) (j : Fin 64) : ∀ (n : ℕ) (h : n < cfg3.N),
    accQ3 V c n h (ix2 (0 : Fin 1) j) = ∑ s ∈ Finset.range (n + 1), addQ3 V c s j
  | 0, h => by
    show k3_pay5 (F := Ideal) _ _ _ _ _ = _
    rw [pay5_apply_3, pay2_apply_3, zero_add, Finset.sum_range_one]
    unfold addQ3; rw [dif_pos h]
    exact Finset.sum_congr rfl fun r _ => by rw [act3_apply V c ⟨0, h⟩ r j]
  | n + 1, h => by
    show k3_pay5 (F := Ideal) _ _ _ _ _ = _
    rw [pay5_apply_3, accQ3_apply c j n (Nat.lt_of_succ_lt h), Finset.sum_range_succ _ (n + 1)]
    congr 1
    unfold addQ3; rw [dif_pos h]
    exact Finset.sum_congr rfl fun r _ => by rw [act3_apply V c ⟨n + 1, h⟩ r j]

/-- After the last point the running sums are the sums over all 100000 rows. -/
theorem accS3_last (c : Dev nD) (j : Fin 64) (n : ℕ) (h : n < cfg3.N) (h19 : n = 19) :
    accS3 V c n h (ix2 (0 : Fin 1) j) = ∑ i : Fin 100000, elu3 V c i j := by
  subst h19
  rw [accS3_apply, ← sum_blocks3, Finset.sum_range]
  exact Finset.sum_congr rfl fun s _ => by
    unfold addS3; rw [dif_pos (lt_of_lt_of_eq s.isLt (show 20 = cfg3.N from N_3.symm))]; rfl

theorem accQ3_last (c : Dev nD) (j : Fin 64) (n : ℕ) (h : n < cfg3.N) (h19 : n = 19) :
    accQ3 V c n h (ix2 (0 : Fin 1) j) = ∑ i : Fin 100000, elu3 V c i j * elu3 V c i j := by
  subst h19
  rw [accQ3_apply, ← sum_blocks3 (fun i => elu3 V c i j * elu3 V c i j), Finset.sum_range]
  exact Finset.sum_congr rfl fun s _ => by
    unfold addQ3; rw [dif_pos (lt_of_lt_of_eq s.isLt (show 20 = cfg3.N from N_3.symm))]; rfl

/-! ## The three result arrays after the run -/

/-- The whole-array function output 3's array ends holding: the activation, row by row. -/
def G3_3 (c : Dev nD) : S100000x64.Idx → EReal := fun i => elu3 V c (i 0) (i 1)

theorem mem_blk3_3 (t : Fin cfg3.N) (i : S100000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v55_0).slice (win3_3.rect t)).set ↔ _
  rw [View.set_slice_whole, Rect.mem_set_unit]
  exact Iff.rfl

/-- What point `t` writes back to output 3's array is block `t` of the activation. -/
theorem flushed3_3_eq (c : Dev nD) (t : Fin cfg3.N) :
    (dat3 V c).flushed 3 t = ((cfg3.win 3).blk t).view.read (Elt Ideal) (G3_3 V c) := by
  show (cfg3.win 3).cut (grid3.coords t) ((dat3 V c).after 3 t) = _
  rw [after3_3, outsAt3_eq]
  funext y
  obtain ⟨r, j, rfl⟩ : ∃ (r : Fin 5000) (j : Fin 64), y = ix2 r j := ⟨y 0, y 1, eq_ix2 y⟩
  obtain ⟨-, -, -, -, -, -, e0, e1, -⟩ := idx_facts3 t
  show k3_pay3 (F := Ideal) (iblk3 V c 0 t) (iblk3 V c 1 t) (iblk3 V c 2 t) (ix2 r j) = G3_3 V c (((cfg3.win 3).blk t).view.emb (ix2 r j))
  rw [act3_apply]
  unfold G3_3
  have h0 : (((cfg3.win 3).blk t).view.emb (ix2 r j)) 0 = rowOf3 t r :=
    Fin.ext (by show win3_3.index t (0 : Fin 2) * 5000 + 1 * r.val = 5000 * t.val + r.val; omega)
  have h1 : (((cfg3.win 3).blk t).view.emb (ix2 r j)) 1 = j :=
    Fin.ext (by show win3_3.index t (1 : Fin 2) * 64 + 1 * j.val = j.val; omega)
  rw [h0, h1]

/-- The twenty row blocks cover the array. -/
theorem cover3_3w (i : S100000x64.Idx) : ∃ t : Fin cfg3.N, (cfg3.win 3).flush t = true ∧ i ∈ ((cfg3.win 3).blk t).view.set := by
  have hN : cfg3.N = 20 := N_3
  have hi0 : (i 0).val < 100000 := (i 0).isLt
  have hi1 : (i 1).val < 64 := (i 1).isLt
  have hq : (i 0).val / 5000 < cfg3.N := by omega
  obtain ⟨-, -, -, -, -, -, e0, e1, -⟩ := idx_facts3 ⟨(i 0).val / 5000, hq⟩
  have e0' : win3_3.index ⟨(i 0).val / 5000, hq⟩ (0 : Fin 2) = (i 0).val / 5000 := e0
  refine ⟨⟨(i 0).val / 5000, hq⟩, flush3_3 _, ?_⟩
  rw [mem_blk3_3]
  intro a
  match a with
  | ⟨0, _⟩ => show win3_3.index ⟨(i 0).val / 5000, hq⟩ (0 : Fin 2) * 5000 ≤ (i 0).val ∧ (i 0).val < win3_3.index ⟨(i 0).val / 5000, hq⟩ (0 : Fin 2) * 5000 + 5000; rw [e0']; omega
  | ⟨1, _⟩ => show win3_3.index _ (1 : Fin 2) * 64 ≤ (i 1).val ∧ (i 1).val < win3_3.index _ (1 : Fin 2) * 64 + 64; omega

/-- Output 3's array after the run: the activation at every row and column. -/
theorem final3_3 (c : Dev nD) (i : Fin 100000) (j : Fin 64) :
    (dat3 V c).arrAt 3 cfg3.N (ix2 i j) = elu3 V c i j :=
  congrFun ((dat3 V c).arrAt_eq_of_cover 3 (G3_3 V c) (fun t _ => flushed3_3_eq V c t) (cover3_3w)) (ix2 i j)

/-- The whole-array function output 4's array ends holding: at every column the sum over all rows. -/
def G3_4 (c : Dev nD) : S1x64.Idx → EReal := fun i => ∑ r : Fin 100000, elu3 V c r (i 1)
theorem G3_4_apply (c : Dev nD) (i : S1x64.Idx) : G3_4 V c i = ∑ r : Fin 100000, elu3 V c r (i 1) := rfl
attribute [local irreducible] G3_4

theorem mem_blk3_4 (t : Fin cfg3.N) (i : S1x64.Idx) :
    i ∈ ((cfg3.win 4).blk t).view.set ↔ ∀ a : Fin 2, win3_4.index t a * S1x64.size a ≤ (i a).val ∧ (i a).val < win3_4.index t a * S1x64.size a + S1x64.size a := by
  show i ∈ ((View.whole main_v55_1).slice (win3_4.rect t)).set ↔ _
  rw [View.set_slice_whole, Rect.mem_set_unit]
  exact Iff.rfl

/-- The one write-back, after the last point, writes the whole sum. -/
theorem flushed3_4_eq (c : Dev nD) (t : Fin cfg3.N) (hf : (cfg3.win 4).flush t = true) :
    (dat3 V c).flushed 4 t = ((cfg3.win 4).blk t).view.read (Elt Ideal) (G3_4 V c) := by
  have hN : cfg3.N = 20 := N_3
  have h19 : t.val = 19 := by have := (flush3_4 t).mp hf; have := t.isLt; omega
  show (cfg3.win 4).cut (grid3.coords t) ((dat3 V c).after 4 t) = _
  rw [after3_4, outsAt3_eq]
  funext y
  obtain ⟨u, j, rfl⟩ : ∃ (u : Fin 1) (j : Fin 64), y = ix2 u j := ⟨y 0, y 1, eq_ix2 y⟩
  obtain rfl : u = 0 := Subsingleton.elim _ _
  obtain ⟨-, -, -, -, -, -, -, -, e0, e1, -⟩ := idx_facts3 t
  show accS3 V c t.val t.isLt (ix2 (0 : Fin 1) j) = G3_4 V c (((cfg3.win 4).blk t).view.emb (ix2 (0 : Fin 1) j))
  rw [accS3_last V c j t.val t.isLt h19]
  rw [G3_4_apply]
  have hj : (((cfg3.win 4).blk t).view.emb (ix2 (0 : Fin 1) j)) 1 = j :=
    Fin.ext (by show win3_4.index t (1 : Fin 2) * 64 + 1 * j.val = j.val; omega)
  rw [hj]

/-- That point's block is the whole row. -/
theorem cover3_4w (i : S1x64.Idx) : ∃ t : Fin cfg3.N, (cfg3.win 4).flush t = true ∧ i ∈ ((cfg3.win 4).blk t).view.set := by
  have hN : cfg3.N = 20 := N_3
  have hi0 : (i 0).val < 1 := (i 0).isLt
  have hi1 : (i 1).val < 64 := (i 1).isLt
  have hn : 19 < cfg3.N := by omega
  obtain ⟨-, -, -, -, -, -, -, -, e0, e1, -⟩ := idx_facts3 ⟨19, hn⟩
  refine ⟨⟨19, hn⟩, (flush3_4 _).mpr rfl, ?_⟩
  rw [mem_blk3_4]
  intro a
  match a with
  | ⟨0, _⟩ => show win3_4.index _ (0 : Fin 2) * 1 ≤ (i 0).val ∧ (i 0).val < win3_4.index _ (0 : Fin 2) * 1 + 1; omega
  | ⟨1, _⟩ => show win3_4.index _ (1 : Fin 2) * 64 ≤ (i 1).val ∧ (i 1).val < win3_4.index _ (1 : Fin 2) * 64 + 64; omega

/-- Output 4's array after the run, at column `j`. -/
theorem final3_4 (c : Dev nD) (j : Fin 64) :
    (dat3 V c).arrAt 4 cfg3.N (ix2 (0 : Fin 1) j) = ∑ i : Fin 100000, elu3 V c i j :=
  (congrFun ((dat3 V c).arrAt_eq_of_cover 4 (G3_4 V c) (flushed3_4_eq V c) (cover3_4w)) (ix2 (0 : Fin 1) j)).trans
    (G3_4_apply V c (ix2 (0 : Fin 1) j))

/-- The whole-array function output 5's array ends holding: at every column the sum over all rows. -/
def G3_5 (c : Dev nD) : S1x64.Idx → EReal := fun i => ∑ r : Fin 100000, elu3 V c r (i 1) * elu3 V c r (i 1)
theorem G3_5_apply (c : Dev nD) (i : S1x64.Idx) : G3_5 V c i = ∑ r : Fin 100000, elu3 V c r (i 1) * elu3 V c r (i 1) := rfl
attribute [local irreducible] G3_5

theorem mem_blk3_5 (t : Fin cfg3.N) (i : S1x64.Idx) :
    i ∈ ((cfg3.win 5).blk t).view.set ↔ ∀ a : Fin 2, win3_5.index t a * S1x64.size a ≤ (i a).val ∧ (i a).val < win3_5.index t a * S1x64.size a + S1x64.size a := by
  show i ∈ ((View.whole main_v55_2).slice (win3_5.rect t)).set ↔ _
  rw [View.set_slice_whole, Rect.mem_set_unit]
  exact Iff.rfl

/-- The one write-back, after the last point, writes the whole sum. -/
theorem flushed3_5_eq (c : Dev nD) (t : Fin cfg3.N) (hf : (cfg3.win 5).flush t = true) :
    (dat3 V c).flushed 5 t = ((cfg3.win 5).blk t).view.read (Elt Ideal) (G3_5 V c) := by
  have hN : cfg3.N = 20 := N_3
  have h19 : t.val = 19 := by have := (flush3_5 t).mp hf; have := t.isLt; omega
  show (cfg3.win 5).cut (grid3.coords t) ((dat3 V c).after 5 t) = _
  rw [after3_5, outsAt3_eq]
  funext y
  obtain ⟨u, j, rfl⟩ : ∃ (u : Fin 1) (j : Fin 64), y = ix2 u j := ⟨y 0, y 1, eq_ix2 y⟩
  obtain rfl : u = 0 := Subsingleton.elim _ _
  obtain ⟨-, -, -, -, -, -, -, -, -, -, e0, e1⟩ := idx_facts3 t
  show accQ3 V c t.val t.isLt (ix2 (0 : Fin 1) j) = G3_5 V c (((cfg3.win 5).blk t).view.emb (ix2 (0 : Fin 1) j))
  rw [accQ3_last V c j t.val t.isLt h19]
  rw [G3_5_apply]
  have hj : (((cfg3.win 5).blk t).view.emb (ix2 (0 : Fin 1) j)) 1 = j :=
    Fin.ext (by show win3_5.index t (1 : Fin 2) * 64 + 1 * j.val = j.val; omega)
  rw [hj]

/-- That point's block is the whole row. -/
theorem cover3_5w (i : S1x64.Idx) : ∃ t : Fin cfg3.N, (cfg3.win 5).flush t = true ∧ i ∈ ((cfg3.win 5).blk t).view.set := by
  have hN : cfg3.N = 20 := N_3
  have hi0 : (i 0).val < 1 := (i 0).isLt
  have hi1 : (i 1).val < 64 := (i 1).isLt
  have hn : 19 < cfg3.N := by omega
  obtain ⟨-, -, -, -, -, -, -, -, -, -, e0, e1⟩ := idx_facts3 ⟨19, hn⟩
  refine ⟨⟨19, hn⟩, (flush3_5 _).mpr rfl, ?_⟩
  rw [mem_blk3_5]
  intro a
  match a with
  | ⟨0, _⟩ => show win3_5.index _ (0 : Fin 2) * 1 ≤ (i 0).val ∧ (i 0).val < win3_5.index _ (0 : Fin 2) * 1 + 1; omega
  | ⟨1, _⟩ => show win3_5.index _ (1 : Fin 2) * 64 ≤ (i 1).val ∧ (i 1).val < win3_5.index _ (1 : Fin 2) * 64 + 64; omega

/-- Output 5's array after the run, at column `j`. -/
theorem final3_5 (c : Dev nD) (j : Fin 64) :
    (dat3 V c).arrAt 5 cfg3.N (ix2 (0 : Fin 1) j) = ∑ i : Fin 100000, elu3 V c i j * elu3 V c i j :=
  (congrFun ((dat3 V c).arrAt_eq_of_cover 5 (G3_5 V c) (flushed3_5_eq V c) (cover3_5w)) (ix2 (0 : Fin 1) j)).trans
    (G3_5_apply V c (ix2 (0 : Fin 1) j))

/-! ## The same three, with the region's input arrays spelled out -/

theorem final3_3_arr (c : Dev nD) (i : Fin 100000) (j : Fin 64) :
    (dat3 V c).arrAt 3 cfg3.N (ix2 i j)
      = eluI3 (AGG3 V c (ix2 i j) * NRM3 V c (ix2 i (0 : Fin 1)) + BIA3 V c (ix2 (0 : Fin 1) j)) :=
  final3_3 V c i j

theorem final3_4_arr (c : Dev nD) (j : Fin 64) :
    (dat3 V c).arrAt 4 cfg3.N (ix2 (0 : Fin 1) j)
      = ∑ i : Fin 100000, eluI3 (AGG3 V c (ix2 i j) * NRM3 V c (ix2 i (0 : Fin 1)) + BIA3 V c (ix2 (0 : Fin 1) j)) :=
  final3_4 V c j

theorem final3_5_arr (c : Dev nD) (j : Fin 64) :
    (dat3 V c).arrAt 5 cfg3.N (ix2 (0 : Fin 1) j)
      = ∑ i : Fin 100000, eluI3 (AGG3 V c (ix2 i j) * NRM3 V c (ix2 i (0 : Fin 1)) + BIA3 V c (ix2 (0 : Fin 1) j))
          * eluI3 (AGG3 V c (ix2 i j) * NRM3 V c (ix2 i (0 : Fin 1)) + BIA3 V c (ix2 (0 : Fin 1) j)) :=
  final3_5 V c j

/-- The activation, opened: the identity where the value is positive, `exp v - 1` elsewhere. -/
theorem eluI3_def (v : EReal) : eluI3 v = if 0 < v then v else Ideal.exp v - 1 := rfl

end IdealPart

end Cert.KernelIdeal.Hand

end
-- ==== Proof.Spec.lean ====
/-
  Two ways of computing a two-layer graph convolution with ELU and column normalisation, written index by index on the
  extended reals, over 100000 nodes and 1600000 edges.

  The neighbourhood aggregation is abstract: `gat` copies a node row to every edge that leaves it and `sca` adds every
  edge row into the node it enters; both computations use the same two maps, and all that is asked of them is that they
  send arrays of reals to arrays of reals. `ns` and `nd` are the per-node scale factors (the reciprocal square roots of
  the clamped out- and in-degrees), `cN` the number of nodes as a float and `eps` the variance offset.

  * `tiledOut` is the computation as the tiled kernels perform it: a transform that first normalises its input with
    GIVEN column statistics (the identity statistics `0, 1, 1, 0` in the first layer), the statistics of a layer's output
    taken from the column sums of the values and of their squares, the variance as the mean of the squares minus the
    squared mean, clamped at zero.
  * `plainOut` is the textbook computation: the variance as the mean of the squared deviations, the ELU through `expm1`
    of the value clamped at zero.
-/
import Idealize.ShloMosaic.PureOps.Ideal

noncomputable section

namespace Cert.GcnSpec

open Idealize.ShloMosaic

/-- A matrix of extended reals, by row and column. -/
abbrev Mat (a b : ℕ) : Type := Fin a → Fin b → EReal

/-- The tiled transform: normalise with the given column statistics, scale each row, multiply by the weights. -/
def pre {d : ℕ} (x : Mat 100000 d) (nrm : Fin 100000 → EReal) (mean inv gam bet : Fin d → EReal) (W : Mat d 64) : Mat 100000 64 :=
  fun i j => ∑ k : Fin d, ((((x i k - mean k) * inv k) * gam k + bet k) * nrm i) * W k j

/-- ELU as the tiled kernel writes it. -/
def eluK (v : EReal) : EReal := if 0 < v then v else Ideal.exp v - 1

/-- Scale the aggregate's rows, add the bias, apply the ELU. -/
def post (agg : Mat 100000 64) (nrm : Fin 100000 → EReal) (b : Fin 64 → EReal) : Mat 100000 64 :=
  fun i j => eluK (agg i j * nrm i + b j)

def colSum (h : Mat 100000 64) : Fin 64 → EReal := fun j => ∑ i : Fin 100000, h i j
def colSumSq (h : Mat 100000 64) : Fin 64 → EReal := fun j => ∑ i : Fin 100000, h i j * h i j

/-- The column mean from the column sum. -/
def meanK (cN : EReal) (s : Fin 64 → EReal) : Fin 64 → EReal := fun j => Ideal.div (s j) cN

/-- The reciprocal standard deviation from the column sums of the values and of their squares. -/
def invK (cN eps : EReal) (s ss : Fin 64 → EReal) : Fin 64 → EReal :=
  fun j => Ideal.rsqrt (max (Ideal.div (ss j) cN - Ideal.div (s j) cN * Ideal.div (s j) cN) 0 + eps)

/-- Normalise with given statistics. -/
def bnApply (x : Mat 100000 64) (mean inv gam bet : Fin 64 → EReal) : Mat 100000 64 :=
  fun i j => ((x i j - mean j) * inv j) * gam j + bet j

section
variable (gat : Mat 100000 64 → Mat 1600000 64) (sca : Mat 1600000 64 → Mat 100000 64)
  (ns nd : Fin 100000 → EReal) (cN eps : EReal)

/-- The tiled computation, end to end. -/
def tiledOut (feat : Mat 100000 128) (W1 : Mat 128 64) (b1 g1 be1 : Fin 64 → EReal) (W2 : Mat 64 64) (b2 g2 be2 : Fin 64 → EReal) :
    Mat 100000 64 :=
  let p1 := pre feat ns (fun _ => 0) (fun _ => 1) (fun _ => 1) (fun _ => 0) W1
  let h1 := post (sca (gat p1)) nd b1
  let p2 := pre h1 ns (meanK cN (colSum h1)) (invK cN eps (colSum h1) (colSumSq h1)) g1 be1 W2
  let h2 := post (sca (gat p2)) nd b2
  bnApply h2 (meanK cN (colSum h2)) (invK cN eps (colSum h2) (colSumSq h2)) g2 be2

/-- The plain convolution before the ELU: scale the rows, multiply by the weights, aggregate, scale, add the bias. -/
def convR {d : ℕ} (x : Mat 100000 d) (W : Mat d 64) (b : Fin 64 → EReal) : Mat 100000 64 :=
  fun i j => sca (gat fun i' j' => ∑ k : Fin d, (x i' k * ns i') * W k j') i j * nd i + b j

/-- ELU as the plain computation writes it: `expm1` of the value clamped at zero, times one. -/
def eluR (v : EReal) : EReal := if 0 < v then v else 1 * (Ideal.exp (if 0 < v then 0 else v) - 1)

/-- Column normalisation, plain: mean, mean of squared deviations, reciprocal square root, scale and shift. The sums
    start from the initial value `0`. -/
def bnR (x : Mat 100000 64) (gam bet : Fin 64 → EReal) : Mat 100000 64 :=
  let mean : Fin 64 → EReal := fun j => Ideal.div (0 + ∑ i : Fin 100000, x i j) cN
  let var : Fin 64 → EReal := fun j => Ideal.div (0 + ∑ i : Fin 100000, (x i j - mean j) * (x i j - mean j)) cN
  fun i j => ((x i j - mean j) * Ideal.rsqrt (var j + eps)) * gam j + bet j

/-- The plain computation, end to end. -/
def plainOut (feat : Mat 100000 128) (W1 : Mat 128 64) (b1 g1 be1 : Fin 64 → EReal) (W2 : Mat 64 64) (b2 g2 be2 : Fin 64 → EReal) :
    Mat 100000 64 :=
  let h1 : Mat 100000 64 := fun i j => eluR (convR gat sca ns nd feat W1 b1 i j)
  let n1 := bnR cN eps h1 g1 be1
  let h2 : Mat 100000 64 := fun i j => eluR (convR gat sca ns nd n1 W2 b2 i j)
  bnR cN eps h2 g2 be2

end

/-- Every entry is a real number. -/
def AllReal {a b : ℕ} (x : Mat a b) : Prop := ∀ i j, ∃ r : ℝ, x i j = (r : EReal)
def AllRealV {a : ℕ} (x : Fin a → EReal) : Prop := ∀ i, ∃ r : ℝ, x i = (r : EReal)

end Cert.GcnSpec

end
-- ==== Proof.ReadDefs.lean ====
/-
  Reading arrays of extended reals by row and column, and the neighbourhood aggregation of a graph convolution as maps
  between matrices: `gatOf` copies node rows to edges through an index column, `scaOf` adds edge rows into node rows
  through an index column, starting from a given initial matrix.
-/
import Idealize.ShloMosaic.Lib.ValueIdx
import Idealize.ShloMosaic.PureOps.Ideal
import proofs.«157882_j13769665151543_1_alg».proof.Proof.Spec

noncomputable section

namespace Cert.GcnReads

open Idealize.ShloMosaic Idealize.ShloMosaic.ValueIdx Cert.GcnSpec

/-- A rank-2 array of extended reals read by row and column. -/
def toMat {a b : ℕ} (x : FVec Ideal ⟨2, ![a, b]⟩ .f32) : Mat a b := fun i j => x (ix2 i j)
/-- A rank-1 array read by position. -/
def toVec {a : ℕ} (x : FVec Ideal ⟨1, ![a]⟩ .f32) : Fin a → EReal := fun i => x (ix1 i)
/-- The first row of a one-row matrix. -/
def toRow {b : ℕ} (x : FVec Ideal ⟨2, ![1, b]⟩ .f32) : Fin b → EReal := fun j => x (ix2 0 j)
/-- The first column of a one-column matrix. -/
def toCol {a : ℕ} (x : FVec Ideal ⟨2, ![a, 1]⟩ .f32) : Fin a → EReal := fun i => x (ix2 i 0)
/-- A matrix given by row and column as a rank-2 array. -/
def ofMat {a b : ℕ} (x : Mat a b) : FVec Ideal ⟨2, ![a, b]⟩ .f32 := fun idx => x (idx 0) (idx 1)

theorem toMat_ofMat {a b : ℕ} (x : Mat a b) : toMat (ofMat x) = x := rfl

/-- Node rows copied to edges through the index column `idx`. -/
def gatOf (d : GatherDims ⟨2, ![100000, 64]⟩ ⟨2, ![1600000, 1]⟩ ⟨2, ![1600000, 64]⟩) (idx : IVec ⟨2, ![1600000, 1]⟩ 32) :
    Mat 100000 64 → Mat 1600000 64 :=
  fun x => toMat (Host.gather d (ofMat x) idx : FVec Ideal ⟨2, ![1600000, 64]⟩ .f32)

/-- Edge rows added into node rows through the index column `idx`, starting from `z`. -/
def scaOf (d : ScatterDims ⟨2, ![100000, 64]⟩ ⟨2, ![1600000, 1]⟩ ⟨2, ![1600000, 64]⟩) (z : FVec Ideal ⟨2, ![100000, 64]⟩ .f32)
    (idx : IVec ⟨2, ![1600000, 1]⟩ 32) : Mat 1600000 64 → Mat 100000 64 :=
  fun u => toMat (Host.scatterAdd (F := Ideal) (φ := .f32) d z idx (ofMat u))

end Cert.GcnReads

end
-- ==== Proof.Consts.lean ====
/-
  The float constants the two programs spell, as the extended reals their bit patterns denote at the ideal
  values: the node count 100000, one, zero, and the variance offset, a positive real.
-/
import Idealize.ShloMosaic.PureOps.Ideal
import Idealize.ShloMosaic.PureOps.Ideal.Laws

noncomputable section

namespace Cert.Consts

open Idealize.ShloMosaic

/-- `100000.0` denotes the real `100000`. -/
theorem ofBits_N : Ideal.ofBits .f32 0x47C35000#32 = ((100000 : ℝ) : EReal) := by
  simp [Ideal.ofBits, Ideal.ieee, -EReal.coe_mul]; norm_num

/-- `1.0` denotes `1`. -/
theorem ofBits_one : Ideal.ofBits .f32 0x3F800000#32 = 1 := by
  simp [Ideal.ofBits, Ideal.ieee, -EReal.coe_mul]; norm_num

/-- `+0.0` denotes `0`. -/
theorem ofBits_zero : Ideal.ofBits .f32 0x00000000#32 = 0 := Ideal.ofBits_zero_f32

/-- The variance offset (the float nearest `1e-5`) denotes a positive real. -/
theorem ofBits_eps : ∃ e : ℝ, 0 < e ∧ Ideal.ofBits .f32 0x3727C5AC#32 = (e : EReal) := by
  refine ⟨_, ?_, by simp [Ideal.ofBits, Ideal.ieee, -EReal.coe_mul]; rfl⟩
  positivity

end Cert.Consts

end
-- ==== Proof.LibKeepdims.lean ====
/-
  Keepdims forms read at an index, for any element type and any extents: a vector cast to a column, a column
  broadcast along rows, the host's dimension-numbered broadcasts between a scalar, a vector, a row, a column and
  a matrix, and a sum along the rows of a matrix (the kernel's lane reduction and the host's reduce) as a finite
  sum over the row's entries.
-/
import Idealize.ShloMosaic.Lib.ValueIdx
import Idealize.ShloMosaic.Lib.Pipeline.Value
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A scalar broadcast by dimension numbers to any shape reads the scalar everywhere. -/
theorem bcastInDim_scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 fun a => a.elim0

/-- A vector `[a]` placed on axis 0 of the column `[a, 1]`. -/
theorem bcastInDim_a_a1_apply {a : ℕ} (dims : Fin 1 → Fin 2) (hd : dims 0 = 0)
    (h : (⟨1, ![a]⟩ : Shape).BroadcastsInDim ⟨2, ![a, 1]⟩ dims) (x : (⟨1, ![a]⟩ : Shape).Idx → α) (p : Fin a) (u : Fin 1) :
    broadcastInDim ⟨2, ![a, 1]⟩ dims h x (ix2 p u) = x (ix1 p) := by
  refine broadcastInDim_apply dims h x (ix2 p u) (ix1 p) fun ax => ?_
  match ax with
  | ⟨0, _⟩ =>
    show p.val = if a = 1 then 0 else ((ix2 p u : (⟨2, ![a, 1]⟩ : Shape).Idx) (dims 0)).val
    rw [hd]
    split
    · have := p.isLt; omega
    · rfl

/-- A column `[a, 1]` broadcast by dimension numbers `[0, 1]` to `[a, b]`. -/
theorem bcastInDim_a1_ab_apply {a b : ℕ} (dims : Fin 2 → Fin 2) (hd0 : dims 0 = 0) (hd1 : dims 1 = 1)
    (h : (⟨2, ![a, 1]⟩ : Shape).BroadcastsInDim ⟨2, ![a, b]⟩ dims) (x : (⟨2, ![a, 1]⟩ : Shape).Idx → α) (p : Fin a) (c : Fin b) :
    broadcastInDim ⟨2, ![a, b]⟩ dims h x (ix2 p c) = x (ix2 p (0 : Fin 1)) := by
  refine broadcastInDim_apply dims h x (ix2 p c) (ix2 p (0 : Fin 1)) fun ax => ?_
  match ax with
  | ⟨0, _⟩ =>
    show p.val = if a = 1 then 0 else ((ix2 p c : (⟨2, ![a, b]⟩ : Shape).Idx) (dims 0)).val
    rw [hd0]
    split
    · have := p.isLt; omega
    · rfl
  | ⟨1, _⟩ => rfl

/-- A vector `[b]` placed on axis 1 of the row `[1, b]`. -/
theorem bcastInDim_b_1b_apply {b : ℕ} (dims : Fin 1 → Fin 2) (hd : dims 0 = 1)
    (h : (⟨1, ![b]⟩ : Shape).BroadcastsInDim ⟨2, ![1, b]⟩ dims) (x : (⟨1, ![b]⟩ : Shape).Idx → α) (u : Fin 1) (c : Fin b) :
    broadcastInDim ⟨2, ![1, b]⟩ dims h x (ix2 u c) = x (ix1 c) := by
  refine broadcastInDim_apply dims h x (ix2 u c) (ix1 c) fun ax => ?_
  match ax with
  | ⟨0, _⟩ =>
    show c.val = if b = 1 then 0 else ((ix2 u c : (⟨2, ![1, b]⟩ : Shape).Idx) (dims 0)).val
    rw [hd]
    split
    · have := c.isLt; omega
    · rfl

/-- A row `[1, b]` broadcast by dimension numbers `[0, 1]` to `[a, b]`. -/
theorem bcastInDim_1b_ab_apply {a b : ℕ} (dims : Fin 2 → Fin 2) (hd0 : dims 0 = 0) (hd1 : dims 1 = 1)
    (h : (⟨2, ![1, b]⟩ : Shape).BroadcastsInDim ⟨2, ![a, b]⟩ dims) (x : (⟨2, ![1, b]⟩ : Shape).Idx → α) (p : Fin a) (c : Fin b) :
    broadcastInDim ⟨2, ![a, b]⟩ dims h x (ix2 p c) = x (ix2 (0 : Fin 1) c) := by
  refine broadcastInDim_apply dims h x (ix2 p c) (ix2 (0 : Fin 1) c) fun ax => ?_
  match ax with
  | ⟨0, _⟩ => rfl
  | ⟨1, _⟩ =>
    show c.val = if b = 1 then 0 else ((ix2 p c : (⟨2, ![a, b]⟩ : Shape).Idx) (dims 1)).val
    rw [hd1]
    split
    · have := c.isLt; omega
    · rfl

/-- The lane reduction along the rows of a matrix, at the ideal values, is the sum of the row's entries. -/
theorem rowSum_apply {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  exact Finset.sum_congr rfl fun k _ => congrArg src (funext fun c => Fin.ext (by
    match c with
    | ⟨0, _⟩ => rfl
    | ⟨1, _⟩ => rfl))

/-- The host's sum along the rows of a matrix, at the ideal values, is the initial value plus the row's entries. -/
theorem hostRowSum_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (hu : 0 < (⟨0, ![]⟩ : Shape).numel)
    (h : (⟨2, ![a, b]⟩ : Shape).Reduces [1] ⟨1, ![a]⟩) (p : Fin a) :
    Host.reduceAdd x init h' hu (ix1 p) = init ix0 + ∑ k : Fin b, x (ix2 p k) := by
  unfold Host.reduceAdd
  rw [Ideal.hostReduceAdd_def]
  refine (Ideal.hostReduceAdd_single h' h x _ (ix1 p)).trans ?_
  have e : init (Shape.Idx.first hu) = init ix0 := congrArg init (funext fun c => c.elim0)
  rw [e]
  refine congrArg (init ix0 + ·) ?_
  exact Finset.sum_congr rfl fun k _ => congrArg x (funext fun c => Fin.ext (by
    match c with
    | ⟨0, _⟩ => rfl
    | ⟨1, _⟩ => rfl))

end Cert.Keepdims

end
-- ==== Proof.LibColumnSum.lean ====
/-
  Sums along axis 0 read at an index, for any extents, at the ideal values: the kernel's reduction along axis 0 of an
  `[a, b]` matrix is at column `q` the finite sum over the rows of the entries of that column, and the host's sum
  of a vector `[a]` into a scalar is the initial value plus the finite sum of the entries.
-/
import Idealize.ShloMosaic.Lib.ValueIdx
import Idealize.ShloMosaic.PureOps.Ideal.Laws

noncomputable section

namespace Cert.ColumnSum

open Idealize.ShloMosaic Idealize.ShloMosaic.ValueIdx

/-- The reduction along axis 0 of a matrix, at the ideal values, is the sum of the column's entries. -/
theorem colSum_apply {a b : ℕ} (src : FVec Ideal ⟨2, ![a, b]⟩ .f32) (h : (⟨2, ![a, b]⟩ : Shape).Reduces [0] ⟨1, ![b]⟩)
    (hφ : FKind.Formats .f32) (hacc : (0x00000000#32 : BitVec 32) = 0x00000000#32) (q : Fin b) :
    multiReduction .add [0] ⟨1, ![b]⟩ src 0x00000000#32 h hφ hacc (ix1 q) = ∑ k : Fin a, src (ix2 k q) := by
  refine (Ideal.multiReduction_add_single src 0x00000000#32 h hφ hacc (ix1 q)).trans ?_
  exact Finset.sum_congr rfl fun k _ => congrArg src (funext fun c => Fin.ext (by
    match c with
    | ⟨0, _⟩ => rfl
    | ⟨1, _⟩ => rfl))

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The host's sum of all the entries of a vector, at the ideal values, is the initial value plus the entries. -/
theorem hostVecSum_apply {a : ℕ} (x : FVec Ideal ⟨1, ![a]⟩ .f32) (init : (⟨0, ![]⟩ : Shape).Idx → Ideal .f32)
    (h' : (⟨1, ![a]⟩ : Shape).ReducesTo [0] ⟨0, ![]⟩) (hu : 0 < (⟨0, ![]⟩ : Shape).numel) (j : (⟨0, ![]⟩ : Shape).Idx) :
    Host.reduceAdd x init h' hu j = init ix0 + ∑ k : Fin a, x (ix1 k) := by
  unfold Host.reduceAdd
  rw [Ideal.hostReduceAdd_def]
  refine (Ideal.hostReduceAdd_total h' (fun b => b.elim0) x _ j).trans ?_
  have e : init (Shape.Idx.first hu) = init ix0 := congrArg init (funext fun c => c.elim0)
  rw [e, sum_idx1]

end Cert.ColumnSum

end
-- ==== Proof.LibBatchNorm.lean ====
/-
  Column normalisation ("batch norm") on the extended reals, for data that are finite reals.

  For a finite family of reals `x i`, `n` their number, `m = (∑ x)/n` their mean:
  * the mean of the squares minus the square of the mean is the mean of the squared deviations
    (`var_forms`):  (∑ x²)/n − m·m = (∑ (x − m)²)/n ;
  * scaling by `γ·r` and shifting by `β − m·(γ·r)` is centring, scaling by `r`, then by `γ`, then shifting by `β`
    (`affine_forms`):  x·(γ·r) + (β − m·(γ·r)) = (x − m)·r·γ + β .
  Both are identities of real numbers; they are stated on the extended reals with the quotient `Ideal.div` the
  idealised float division, because that is where two programs that compute a variance or a normalised value in the two
  ways have to be compared. They need every datum to be a real: at an infinity `∞ − ∞` is not `0`.
  Also here: a finite sum of reals, and of products of reals, is a real (`sum_coe`, `sum_mul_coe`), the idealised quotient by a nonzero real is the real
  quotient (`div_coe_coe`), and the idealised reciprocal square root of a positive real is a real (`rsqrt_coe_pos`).
-/
import Idealize.ShloMosaic.PureOps.Ideal

noncomputable section

namespace Idealize.ShloMosaic.LibBatchNorm

open Idealize.ShloMosaic

/-- A finite sum of reals, formed on the extended reals, is the real sum. -/
theorem sum_coe {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A finite sum of products of reals (a dot product), formed on the extended reals, is the real one. -/
theorem sum_mul_coe {ι : Type*} (s : Finset ι) (a b : ι → ℝ) :
    (∑ i ∈ s, ((a i : ℝ) : EReal) * ((b i : ℝ) : EReal)) = ((∑ i ∈ s, a i * b i : ℝ) : EReal) := by
  simp only [← EReal.coe_mul, sum_coe]

/-- The idealised quotient of a real by a nonzero real is the real quotient. -/
theorem div_coe_coe (a : ℝ) {n : ℝ} (hn : n ≠ 0) : Ideal.div (a : EReal) (n : EReal) = ((a / n : ℝ) : EReal) := by
  rw [Ideal.div_coe hn, ← EReal.coe_mul]; congr 1; rw [mul_one_div]

/-- The idealised reciprocal square root of a positive real is the real `(√r)⁻¹`. -/
theorem rsqrt_coe_pos {r : ℝ} (hr : 0 < r) : Ideal.rsqrt (r : EReal) = (((Real.sqrt r)⁻¹ : ℝ) : EReal) := by
  rw [Ideal.rsqrt_coe, if_neg (not_lt.mpr hr.le), if_neg hr.ne']

/-- Over the reals: the mean of the squares minus the squared mean is the mean of the squared deviations. -/
theorem var_forms_real {ι : Type*} [Fintype ι] (x : ι → ℝ) {n : ℝ} (hn : n ≠ 0) (hcard : (Fintype.card ι : ℝ) = n) :
    (∑ i, x i * x i) / n - ((∑ i, x i) / n) * ((∑ i, x i) / n)
      = (∑ i, (x i - (∑ j, x j) / n) * (x i - (∑ j, x j) / n)) / n := by
  set S := ∑ j, x j with hS
  have h1 : ∑ i, (x i - S / n) * (x i - S / n) = ∑ i, x i * x i - 2 * (S / n) * S + n * ((S / n) * (S / n)) := by
    have : ∀ i, (x i - S / n) * (x i - S / n) = x i * x i - 2 * (S / n) * x i + (S / n) * (S / n) := fun i => by ring
    simp only [this, Finset.sum_add_distrib, Finset.sum_sub_distrib, ← Finset.mul_sum, Finset.sum_const, Finset.card_univ,
      nsmul_eq_mul, hcard, ← hS]
    ring
  rw [h1]; field_simp; ring

/-- On the extended reals, with the idealised quotient, for real data (`var_forms_real` carried over). -/
theorem var_forms {ι : Type*} [Fintype ι] (x : ι → ℝ) {n : ℝ} (hn : n ≠ 0) (hcard : (Fintype.card ι : ℝ) = n) :
    Ideal.div (∑ i, ((x i : ℝ) : EReal) * ((x i : ℝ) : EReal)) (n : EReal)
        - Ideal.div (∑ i, ((x i : ℝ) : EReal)) (n : EReal) * Ideal.div (∑ i, ((x i : ℝ) : EReal)) (n : EReal)
      = Ideal.div (∑ i, (((x i : ℝ) : EReal) - Ideal.div (∑ j, ((x j : ℝ) : EReal)) (n : EReal))
          * (((x i : ℝ) : EReal) - Ideal.div (∑ j, ((x j : ℝ) : EReal)) (n : EReal))) (n : EReal) := by
  simp only [← EReal.coe_mul, sum_coe, div_coe_coe _ hn, ← EReal.coe_sub]
  exact congrArg _ (var_forms_real x hn hcard)

/-- Scale-and-shift against centre-scale-shift, for reals read as extended reals. -/
theorem affine_forms (x m r g b : ℝ) :
    (x : EReal) * ((g : EReal) * (r : EReal)) + ((b : EReal) - (m : EReal) * ((g : EReal) * (r : EReal)))
      = ((x : EReal) - (m : EReal)) * (r : EReal) * (g : EReal) + (b : EReal) := by
  simp only [← EReal.coe_mul, ← EReal.coe_sub, ← EReal.coe_add]
  exact congrArg _ (by ring)

end Idealize.ShloMosaic.LibBatchNorm

end
-- ==== Proof.Reads.lean ====
/-
  The host operations of a two-layer graph convolution read at an index, at the ideal values (floats are extended
  reals): arrays as functions of their row and column, the row gather and the row scatter-add as maps between such
  functions, the degree norms, the column sums, the keepdims broadcasts and the ELU's select form.
-/
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import proofs.«157882_j13769665151543_1_alg».proof.Proof.Spec
import proofs.«157882_j13769665151543_1_alg».proof.Proof.ReadDefs
import proofs.«157882_j13769665151543_1_alg».proof.Proof.Consts
import proofs.«157882_j13769665151543_1_alg».proof.Proof.LibKeepdims
import proofs.«157882_j13769665151543_1_alg».proof.Proof.LibColumnSum
import proofs.«157882_j13769665151543_1_alg».proof.Proof.LibBatchNorm

noncomputable section

namespace Cert.GcnReads

open Idealize.ShloMosaic Idealize.ShloMosaic.ValueIdx Cert.GcnSpec

/-! ## Arrays as functions of row and column -/

theorem toMat_apply {a b : ℕ} (x : FVec Ideal ⟨2, ![a, b]⟩ .f32) (i : Fin a) (j : Fin b) : toMat x i j = x (ix2 i j) := rfl

theorem toVec_apply {a : ℕ} (x : FVec Ideal ⟨1, ![a]⟩ .f32) (i : Fin a) : toVec x i = x (ix1 i) := rfl

theorem ofMat_apply {a b : ℕ} (x : Mat a b) (i : Fin a) (j : Fin b) : ofMat x (ix2 i j) = x i j := rfl

theorem ofMat_toMat {a b : ℕ} (x : FVec Ideal ⟨2, ![a, b]⟩ .f32) : ofMat (toMat x) = x :=
  funext fun j => (congrArg x (eq_ix2 j)).symm

/-- An array is the array of the function that reads it: the form in which an operand that is itself an array
    enters a map stated over functions. -/
theorem eq_ofMat {a b : ℕ} (x : FVec Ideal ⟨2, ![a, b]⟩ .f32) (m : Mat a b) (h : ∀ i j, x (ix2 i j) = m i j) : x = ofMat m :=
  funext fun j => by rw [eq_ix2 j]; exact h _ _

/-! ## Scalar constants broadcast to a shape -/

/-- A float constant broadcast from a scalar to any shape reads, everywhere, what its bit pattern denotes. -/
theorem bcastConst_apply {t : Shape} (dims : Fin 0 → Fin t.rank) (h : (⟨0, ![]⟩ : Shape).BroadcastsInDim t dims)
    (bits : BitVec 32) (j : t.Idx) :
    broadcastInDim t dims h (constant (F := Ideal) ⟨0, ![]⟩ .f32 bits) j = Ideal.ofBits .f32 bits :=
  (Cert.Keepdims.bcastInDim_scalar_apply dims h _ j).trans (constant_apply _ _)

/-! ## Keepdims broadcasts, composed -/

variable {α : Type}

/-- A per-row scalar `[a]` placed in a column `[a, 1]` and repeated along `d` columns reads, at `(i, j)`, the scalar of
    row `i`. -/
theorem colB_apply {a d : ℕ} (dims1 : Fin 1 → Fin 2) (hd : dims1 0 = 0) (dims2 : Fin 2 → Fin 2) (hd0 : dims2 0 = 0)
    (hd1 : dims2 1 = 1) (h1 : (⟨1, ![a]⟩ : Shape).BroadcastsInDim ⟨2, ![a, 1]⟩ dims1)
    (h2 : (⟨2, ![a, 1]⟩ : Shape).BroadcastsInDim ⟨2, ![a, d]⟩ dims2) (n : (⟨1, ![a]⟩ : Shape).Idx → α) (i : Fin a) (j : Fin d) :
    broadcastInDim ⟨2, ![a, d]⟩ dims2 h2 (broadcastInDim ⟨2, ![a, 1]⟩ dims1 h1 n) (ix2 i j) = n (ix1 i) :=
  (Cert.Keepdims.bcastInDim_a1_ab_apply dims2 hd0 hd1 h2 _ i j).trans (Cert.Keepdims.bcastInDim_a_a1_apply dims1 hd h1 n i 0)

/-- A per-column scalar `[b]` placed in a row `[1, b]` and repeated along `a` rows reads, at `(i, j)`, the scalar of
    column `j`. -/
theorem rowB_apply {a b : ℕ} (dims1 : Fin 1 → Fin 2) (hd : dims1 0 = 1) (dims2 : Fin 2 → Fin 2) (hd0 : dims2 0 = 0)
    (hd1 : dims2 1 = 1) (h1 : (⟨1, ![b]⟩ : Shape).BroadcastsInDim ⟨2, ![1, b]⟩ dims1)
    (h2 : (⟨2, ![1, b]⟩ : Shape).BroadcastsInDim ⟨2, ![a, b]⟩ dims2) (v : (⟨1, ![b]⟩ : Shape).Idx → α) (i : Fin a) (j : Fin b) :
    broadcastInDim ⟨2, ![a, b]⟩ dims2 h2 (broadcastInDim ⟨2, ![1, b]⟩ dims1 h1 v) (ix2 i j) = v (ix1 j) :=
  (Cert.Keepdims.bcastInDim_1b_ab_apply dims2 hd0 hd1 h2 _ i j).trans (Cert.Keepdims.bcastInDim_b_1b_apply dims1 hd h1 v 0 j)

/-! ## The host's column sums -/

/-- The host's sum along the columns of a matrix (over axis 0), at the ideal values, is the initial value plus the
    column's entries. -/
theorem hostColSum_apply {a b : ℕ} (x : FVec Ideal ⟨2, ![a, b]⟩ .f32) (init : (⟨0, ![]⟩ : Shape).Idx → Ideal .f32)
    (h' : (⟨2, ![a, b]⟩ : Shape).ReducesTo [0] ⟨1, ![b]⟩) (hu : 0 < (⟨0, ![]⟩ : Shape).numel) (q : Fin b) :
    Host.reduceAdd x init h' hu (ix1 q) = init ix0 + ∑ k : Fin a, x (ix2 k q) := by
  have h : (⟨2, ![a, b]⟩ : Shape).Reduces [0] ⟨1, ![b]⟩ := ⟨h'.1, Nat.one_pos, h'.2⟩
  unfold Host.reduceAdd
  rw [Ideal.hostReduceAdd_def]
  refine (Ideal.hostReduceAdd_single h' h x _ (ix1 q)).trans ?_
  have e : init (Shape.Idx.first hu) = init ix0 := congrArg init (funext fun c => c.elim0)
  rw [e]
  refine congrArg (init ix0 + ·) ?_
  exact Finset.sum_congr rfl fun k _ => congrArg x (funext fun c => Fin.ext (by
    match c with
    | ⟨0, _⟩ => rfl
    | ⟨1, _⟩ => rfl))

/-- The same with the initial value the constant zero: the plain column sum, written `0 + ∑`. -/
theorem hostColSum_zero_apply {a b : ℕ} (x : FVec Ideal ⟨2, ![a, b]⟩ .f32)
    (h' : (⟨2, ![a, b]⟩ : Shape).ReducesTo [0] ⟨1, ![b]⟩) (hu : 0 < (⟨0, ![]⟩ : Shape).numel) (q : Fin b) :
    Host.reduceAdd x (constant (F := Ideal) ⟨0, ![]⟩ .f32 0x00000000#32) h' hu (ix1 q) = 0 + ∑ k : Fin a, x (ix2 k q) := by
  rw [hostColSum_apply, constant_apply, Cert.Consts.ofBits_zero]

/-! ## Pointwise host operations -/

section
variable {s : Shape} {φ : FTy}

theorem hostDivf_apply (a b : FVec Ideal s φ) (i : s.Idx) : Host.divf a b i = Ideal.div (a i) (b i) := rfl

theorem hostRsqrt_apply (a : FVec Ideal s φ) (i : s.Idx) : Host.rsqrt a i = Ideal.rsqrt (a i) := rfl

theorem hostExpm1_apply (a : FVec Ideal s φ) (i : s.Idx) : Host.expm1 a i = Ideal.exp (a i) - 1 := rfl

theorem cmpf_ogt_apply (a b : FVec Ideal s φ) (i : s.Idx) : cmpf .ogt a b i = if b i < a i then 1#1 else 0#1 := by
  show Ideal.cmp .ogt (a i) (b i) = _
  unfold Ideal.cmp
  by_cases h : b i < a i <;> simp [h]

end

/-- The ELU in its select form — `v` where `v > 0`, else one times `expm1` of `v` with zero put where `v > 0` —
    read at an index. -/
theorem elu_apply {s : Shape} (dims : Fin 0 → Fin s.rank) (hb : (⟨0, ![]⟩ : Shape).BroadcastsInDim s dims)
    (v : FVec Ideal s .f32) (j : s.Idx) :
    select (cmpf .ogt v (broadcastInDim s dims hb (constant (F := Ideal) ⟨0, ![]⟩ .f32 0x00000000#32))) v
      (mulf (broadcastInDim s dims hb (constant (F := Ideal) ⟨0, ![]⟩ .f32 0x3F800000#32))
        (Host.expm1
          (select (cmpf .ogt v (broadcastInDim s dims hb (constant (F := Ideal) ⟨0, ![]⟩ .f32 0x00000000#32)))
            (broadcastInDim s dims hb (constant (F := Ideal) ⟨0, ![]⟩ .f32 0x00000000#32)) v))) j
      = eluR (v j) := by
  rw [select_apply, mulf_apply, hostExpm1_apply, select_apply, cmpf_ogt_apply, bcastConst_apply, bcastConst_apply,
    Cert.Consts.ofBits_zero, Cert.Consts.ofBits_one]
  unfold eluR
  by_cases h : 0 < v j
  · rw [if_pos h, if_pos h, select_one]
  · rw [if_neg h, if_neg h, if_neg h, select_zero, select_zero]

/-! ## Finite sums of reals -/

/-- A finite sum of extended reals that are reals is a real. -/
theorem sum_real {ι : Type*} (s : Finset ι) (f : ι → EReal) (h : ∀ i, ∃ r : ℝ, f i = (r : EReal)) :
    ∃ r : ℝ, ∑ i ∈ s, f i = (r : EReal) := by
  choose g hg using h
  exact ⟨∑ i ∈ s, g i, by rw [← LibBatchNorm.sum_coe]; exact Finset.sum_congr rfl fun i _ => hg i⟩

/-- Zero plus a finite sum of reals is a real. -/
theorem zero_add_sum_real {ι : Type*} (s : Finset ι) (f : ι → EReal) (z : EReal) (hz : z = 0)
    (h : ∀ i, ∃ r : ℝ, f i = (r : EReal)) : ∃ r : ℝ, z + ∑ i ∈ s, f i = (r : EReal) := by
  rw [hz, zero_add]; exact sum_real s f h

/-- Zero plus a finite sum of ones is a nonnegative real (the number of terms). -/
theorem zero_add_sum_ones {ι : Type*} (s : Finset ι) (f : ι → EReal) (z : EReal) (hz : z = 0) (h : ∀ i, f i = 1) :
    ∃ r : ℝ, 0 ≤ r ∧ z + ∑ i ∈ s, f i = (r : EReal) := by
  refine ⟨∑ _i ∈ s, (1 : ℝ), Finset.sum_nonneg fun _ _ => zero_le_one, ?_⟩
  rw [hz, zero_add, ← LibBatchNorm.sum_coe]
  exact Finset.sum_congr rfl fun i _ => (h i).trans EReal.coe_one.symm

/-! ## The aggregation maps -/

/-- A gathered entry is an entry of the operand. -/
theorem gatOf_real (d : GatherDims ⟨2, ![100000, 64]⟩ ⟨2, ![1600000, 1]⟩ ⟨2, ![1600000, 64]⟩)
    (idx : IVec ⟨2, ![1600000, 1]⟩ 32) (x : Mat 100000 64) (hx : AllReal x) : AllReal (gatOf d idx x) := fun e c => by
  show ∃ r : ℝ, ofMat x (d.operandIdx (ix2 e c) idx) = (r : EReal)
  exact hx _ _

/-- A scatter-add entry, from an initial matrix of zeros, is zero plus a finite sum of update entries. -/
theorem scaOf_real (d : ScatterDims ⟨2, ![100000, 64]⟩ ⟨2, ![1600000, 1]⟩ ⟨2, ![1600000, 64]⟩)
    (z : FVec Ideal ⟨2, ![100000, 64]⟩ .f32) (hz : ∀ j, z j = 0) (idx : IVec ⟨2, ![1600000, 1]⟩ 32)
    (u : Mat 1600000 64) (hu : AllReal u) : AllReal (scaOf d z idx u) := fun n c => by
  show ∃ r : ℝ, Ideal.hostScatterAdd d z idx (ofMat u) (ix2 n c) = (r : EReal)
  unfold Ideal.hostScatterAdd
  exact zero_add_sum_real _ _ _ (hz _) fun j => hu (j 0) (j 1)

/-- The zero constant broadcast to a shape, as the programs write the scatter-add's initial array, reads zero. -/
theorem bcastZero_apply {t : Shape} (dims : Fin 0 → Fin t.rank) (h : (⟨0, ![]⟩ : Shape).BroadcastsInDim t dims) (j : t.Idx) :
    broadcastInDim t dims h (constant (F := Ideal) ⟨0, ![]⟩ .f32 0x00000000#32) j = 0 :=
  (bcastConst_apply dims h _ j).trans Cert.Consts.ofBits_zero

/-- The one constant broadcast to a shape reads one. -/
theorem bcastOne_apply {t : Shape} (dims : Fin 0 → Fin t.rank) (h : (⟨0, ![]⟩ : Shape).BroadcastsInDim t dims) (j : t.Idx) :
    broadcastInDim t dims h (constant (F := Ideal) ⟨0, ![]⟩ .f32 0x3F800000#32) j = 1 :=
  (bcastConst_apply dims h _ j).trans Cert.Consts.ofBits_one

/-! ## The degree norms -/

/-- The reciprocal square root of the degree clamped below by one, the degree of a node being the number of edges
    whose index word is that node: a scatter-add of ones into zeros. -/
def normV {N E : ℕ} (d : ScatterDims ⟨1, ![N]⟩ ⟨2, ![E, 1]⟩ ⟨1, ![E]⟩)
    (hz : (⟨0, ![]⟩ : Shape).BroadcastsInDim ⟨1, ![N]⟩ ![]) (ho : (⟨0, ![]⟩ : Shape).BroadcastsInDim ⟨1, ![E]⟩ ![])
    (idx : IVec ⟨2, ![E, 1]⟩ 32) : FVec Ideal ⟨1, ![N]⟩ .f32 :=
  Host.rsqrt (maximumf
    (Host.scatterAdd (F := Ideal) d (broadcastInDim ⟨1, ![N]⟩ ![] hz (constant (F := Ideal) ⟨0, ![]⟩ .f32 0x00000000#32)) idx
      (broadcastInDim ⟨1, ![E]⟩ ![] ho (constant (F := Ideal) ⟨0, ![]⟩ .f32 0x3F800000#32)))
    (broadcastInDim ⟨1, ![N]⟩ ![] hz (constant (F := Ideal) ⟨0, ![]⟩ .f32 0x3F800000#32)))

/-- Every degree norm is a real: the degree is a natural number, its maximum with one a real at least one. -/
theorem normV_real {N E : ℕ} (d : ScatterDims ⟨1, ![N]⟩ ⟨2, ![E, 1]⟩ ⟨1, ![E]⟩)
    (hz : (⟨0, ![]⟩ : Shape).BroadcastsInDim ⟨1, ![N]⟩ ![]) (ho : (⟨0, ![]⟩ : Shape).BroadcastsInDim ⟨1, ![E]⟩ ![])
    (idx : IVec ⟨2, ![E, 1]⟩ 32) : AllRealV (toVec (normV d hz ho idx)) := fun i => by
  show ∃ r : ℝ, Ideal.rsqrt (max (Ideal.hostScatterAdd d _ idx _ (ix1 i)) (broadcastInDim _ _ hz _ (ix1 i))) = (r : EReal)
  unfold Ideal.hostScatterAdd
  obtain ⟨r, hr0, hr⟩ := zero_add_sum_ones (Finset.univ.filter fun j => d.resultIdx? j idx = some (ix1 i))
    (broadcastInDim ⟨1, ![E]⟩ ![] ho (constant (F := Ideal) ⟨0, ![]⟩ .f32 0x3F800000#32)) _
    ((bcastConst_apply _ hz 0x00000000#32 (ix1 i)).trans Cert.Consts.ofBits_zero)
    (fun j => (bcastConst_apply _ ho _ j).trans Cert.Consts.ofBits_one)
  have hm : max (r : EReal) ((1 : ℝ) : EReal) = ((max r 1 : ℝ) : EReal) := (EReal.coe_strictMono.monotone.map_max).symm
  rw [hr, bcastConst_apply, Cert.Consts.ofBits_one, ← EReal.coe_one, hm,
    LibBatchNorm.rsqrt_coe_pos (lt_max_of_lt_right zero_lt_one)]
  exact ⟨_, rfl⟩

end Cert.GcnReads

end
-- ==== Proof.KGlueBase.lean ====
/-
  Vocabulary for reading the kernel program's host operations: the node count and the variance offset as the program
  spells them, and a vector laid out as a one-row matrix read at an index.
-/
import Idealize.ShloMosaic.Lib.ValueIdx
import Idealize.ShloMosaic.Lib.ValueLayout
import Idealize.ShloMosaic.Lib.Pipeline.Value
import Idealize.ShloMosaic.PureOps.Ideal

noncomputable section

namespace Cert.KernelIdeal.Glue

open Idealize.ShloMosaic Idealize.ShloMosaic.ValueIdx

/-- The number of nodes, as the float the program divides by. -/
def cN : EReal := Ideal.ofBits .f32 0x47C35000#32
/-- The variance offset, as the float the program adds. -/
def eps : EReal := Ideal.ofBits .f32 0x3727C5AC#32

/-- A vector of b entries cast to the one-row matrix reads, at (u, j), the operand at j. -/
theorem shapeCast_b_1b_apply {α : Type} {b : ℕ} (x : (⟨1, ![b]⟩ : Shape).Idx → α)
    (h : (⟨1, ![b]⟩ : Shape).ShapeCasts ⟨2, ![1, b]⟩) (u : Fin 1) (j : Fin b) :
    shapeCast ⟨2, ![1, b]⟩ x h (ix2 u j) = x (ix1 j) :=
  shapeCast_apply x h _ _ (by
    have hu : u.val = 0 := by omega
    rw [Shape.rowMajor_val_two, Shape.rowMajor_val_one]
    show j.val = u.val * b + j.val
    rw [hu]; omega)

end Cert.KernelIdeal.Glue

end
-- ==== Proof.KGlue0.lean ====
/-
  The host operations before the first region of the kernel program, read at an index: the two degree norms (the
  reciprocal square root of the degree clamped below by one, the degree counted by a scatter-add of ones) laid out as
  columns, and the identity statistics (a row of zeros, a row of ones). Also the vocabulary of the later host operations:
  an index vector as a column, the source index with negative words wrapped, the zero matrix, and the gather and
  scatter-add of the program as maps between matrices.
-/
import proofs.«157882_j13769665151543_1_alg».proof.Proof.Gen.KernelIdeal.Launch
import proofs.«157882_j13769665151543_1_alg».proof.Proof.Gen.KernelIdeal.Regions
import Idealize.ShloMosaic.Lib.StableHlo.Run
import Idealize.ShloMosaic.Lib.ValueIdx
import proofs.«157882_j13769665151543_1_alg».proof.Proof.Spec
import proofs.«157882_j13769665151543_1_alg».proof.Proof.ReadDefs
import proofs.«157882_j13769665151543_1_alg».proof.Proof.Reads
import proofs.«157882_j13769665151543_1_alg».proof.Proof.KGlueBase

noncomputable section

namespace Cert.KernelIdeal.Glue

open Idealize.ShloMosaic Idealize.ShloMosaic.ValueIdx Idealize.ShloMosaic.TcCoe
open Cert.KernelIdeal Cert.KernelIdeal.Gen Cert.GcnSpec Cert.GcnReads

/-- An index vector laid out as a one-column matrix. -/
def idxCol (a : IVec S1600000 32) : IVec S1600000x1 32 := broadcastInDim S1600000x1 ![0] bcast_S1600000_S1600000x1_0 a

/-- The gather's index column: the source words, a negative word wrapped around by the node count. -/
def srcIdx (a : IVec S1600000 32) : IVec S1600000x1 32 :=
  idxCol (select (cmpi .slt a (broadcastInDim S1600000 ![] bcast_S_S1600000 (constantI S_ 32 0#32)))
    (addi a (broadcastInDim S1600000 ![] bcast_S_S1600000 (constantI S_ 32 100000#32))) a)

/-- The zero matrix the scatter-add starts from. -/
def zeros64 : FVec Ideal S100000x64 .f32 :=
  broadcastInDim S100000x64 ![] bcast_S_S100000x64 (constant (F := Ideal) S_ .f32 0x00000000#32)

theorem zeros64_apply (j : S100000x64.Idx) : zeros64 j = 0 := bcastZero_apply _ _ j

/-- Node rows copied to the edges that leave them, as the program gathers. -/
def gatK (a9 : IVec S1600000 32) : Mat 100000 64 → Mat 1600000 64 :=
  gatOf gather_S100000x64_S1600000x1_S1600000x64_1_0_n_n_0_1_164 (srcIdx a9)

/-- Edge rows added into the nodes they enter, as the program scatters. -/
def scaK (a10 : IVec S1600000 32) : Mat 1600000 64 → Mat 100000 64 :=
  scaOf scatter_S100000x64_S1600000x1_S1600000x64_1_0_0_1 zeros64 (idxCol a10)

/-- The degree norm of the nodes counted through the index vector a. -/
def normK (a : IVec S1600000 32) : Fin 100000 → EReal :=
  toVec (normV scatter_S100000_S1600000x1_S1600000_n_0_0_1 bcast_S_S100000 bcast_S_S1600000 (idxCol a))

theorem normK_real (a : IVec S1600000 32) : AllRealV (normK a) := normV_real _ _ _ _

theorem gatK_real (a9 : IVec S1600000 32) (x : Mat 100000 64) (hx : AllReal x) : AllReal (gatK a9 x) := gatOf_real _ _ x hx

theorem scaK_real (a10 : IVec S1600000 32) (u : Mat 1600000 64) (hu : AllReal u) : AllReal (scaK a10 u) :=
  scaOf_real _ _ zeros64_apply _ u hu

variable (W : Valuation τ sig (Elt Ideal))

/-- The source-side degree norm column. -/
theorem s0_ns : toCol (StableHlo.after (hostOps0 (F := Ideal)) W (Proc.devRef .tc main_v13))
    = normK (W (Proc.devRef .tc main_arg9)) := by
  funext i
  show StableHlo.after (hostOps0 (F := Ideal)) W (Proc.devRef .tc main_v13) (ix2 i 0) = _
  after_results
  exact Cert.Keepdims.shapeCast_a_a1_apply _ _ i 0

/-- The destination-side degree norm column. -/
theorem s0_nd : toCol (StableHlo.after (hostOps0 (F := Ideal)) W (Proc.devRef .tc main_v14))
    = normK (W (Proc.devRef .tc main_arg10)) := by
  funext i
  show StableHlo.after (hostOps0 (F := Ideal)) W (Proc.devRef .tc main_v14) (ix2 i 0) = _
  after_results
  exact Cert.Keepdims.shapeCast_a_a1_apply _ _ i 0

/-- The row of zeros. -/
theorem s0_zeros (u : Fin 1) (k : Fin 128) :
    StableHlo.after (hostOps0 (F := Ideal)) W (Proc.devRef .tc main_v15) (ix2 u k) = (0 : EReal) := by
  after_results
  exact bcastZero_apply _ _ _

/-- The row of ones. -/
theorem s0_ones (u : Fin 1) (k : Fin 128) :
    StableHlo.after (hostOps0 (F := Ideal)) W (Proc.devRef .tc main_v16) (ix2 u k) = (1 : EReal) := by
  after_results
  exact bcastOne_apply _ _ _

/-- What these host operations do not write. -/
theorem s0_keep (r : Ref sig .tc) (h : r ∉ hostOps0_W) :
    StableHlo.after (hostOps0 (F := Ideal)) W (Proc.devRef .tc r) = W (Proc.devRef .tc r) :=
  StableHlo.after_of_writes_sub hostOps0 W hostOps0_writes h

end Cert.KernelIdeal.Glue

end
-- ==== Proof.KGlue1.lean ====
/-
  The host operations between a transform region and the following activation region of the kernel program, read as
  maps between matrices: the transformed rows are gathered along the edges by the source index and added into the nodes
  by the destination index, from the zero matrix, and the bias vector is laid out as a row. Stated over an arbitrary
  valuation of the buffers before these operations.
-/
import proofs.«157882_j13769665151543_1_alg».proof.Proof.Gen.KernelIdeal.Launch
import proofs.«157882_j13769665151543_1_alg».proof.Proof.Gen.KernelIdeal.Regions
import Idealize.ShloMosaic.Lib.StableHlo.Run
import Idealize.ShloMosaic.Lib.ValueIdx
import proofs.«157882_j13769665151543_1_alg».proof.Proof.Spec
import proofs.«157882_j13769665151543_1_alg».proof.Proof.ReadDefs
import proofs.«157882_j13769665151543_1_alg».proof.Proof.Reads
import proofs.«157882_j13769665151543_1_alg».proof.Proof.KGlueBase
import proofs.«157882_j13769665151543_1_alg».proof.Proof.KGlue0

noncomputable section

namespace Cert.KernelIdeal.Glue

open Idealize.ShloMosaic Idealize.ShloMosaic.ValueIdx Idealize.ShloMosaic.TcCoe
open Cert.KernelIdeal Cert.KernelIdeal.Gen Cert.GcnSpec Cert.GcnReads

variable (W : Valuation τ sig (Elt Ideal))

/-- The aggregate: the transformed rows gathered along the edges and added into the nodes. -/
theorem s1_agg : toMat (StableHlo.after (hostOps1 (F := Ideal)) W (Proc.devRef .tc main_v27))
    = scaK (W (Proc.devRef .tc main_arg10)) (gatK (W (Proc.devRef .tc main_arg9)) (toMat (W (Proc.devRef .tc main_v17)))) := by
  unfold scaK gatK scaOf gatOf srcIdx idxCol zeros64
  rw [ofMat_toMat, ofMat_toMat]
  refine congrArg toMat ?_
  after_results

/-- The bias row is the bias vector. -/
theorem s1_bias : toRow (StableHlo.after (hostOps1 (F := Ideal)) W (Proc.devRef .tc main_v28))
    = toVec (W (Proc.devRef .tc main_arg2)) := by
  funext j
  show StableHlo.after (hostOps1 (F := Ideal)) W (Proc.devRef .tc main_v28) (ix2 0 j) = _
  after_results
  exact shapeCast_b_1b_apply _ _ 0 j

/-- What these host operations do not write. -/
theorem s1_keep (r : Ref sig .tc) (h : r ∉ hostOps1_W) :
    StableHlo.after (hostOps1 (F := Ideal)) W (Proc.devRef .tc r) = W (Proc.devRef .tc r) :=
  StableHlo.after_of_writes_sub hostOps1 W hostOps1_writes h

set_option maxHeartbeats 1600000 in
/-- The aggregate: the transformed rows gathered along the edges and added into the nodes. -/
theorem s3_agg : toMat (StableHlo.after (hostOps3 (F := Ideal)) W (Proc.devRef .tc main_v53))
    = scaK (W (Proc.devRef .tc main_arg10)) (gatK (W (Proc.devRef .tc main_arg9)) (toMat (W (Proc.devRef .tc main_v43)))) := by
  unfold scaK gatK scaOf gatOf srcIdx idxCol zeros64
  rw [ofMat_toMat, ofMat_toMat]
  refine congrArg toMat ?_
  after_results

/-- The bias row is the bias vector. -/
theorem s3_bias : toRow (StableHlo.after (hostOps3 (F := Ideal)) W (Proc.devRef .tc main_v54))
    = toVec (W (Proc.devRef .tc main_arg6)) := by
  funext j
  show StableHlo.after (hostOps3 (F := Ideal)) W (Proc.devRef .tc main_v54) (ix2 0 j) = _
  after_results
  exact shapeCast_b_1b_apply _ _ 0 j

/-- What these host operations do not write. -/
theorem s3_keep (r : Ref sig .tc) (h : r ∉ hostOps3_W) :
    StableHlo.after (hostOps3 (F := Ideal)) W (Proc.devRef .tc r) = W (Proc.devRef .tc r) :=
  StableHlo.after_of_writes_sub hostOps3 W hostOps3_writes h

end Cert.KernelIdeal.Glue

end
-- ==== Proof.KGlue2.lean ====
/-
  The host operations between the activation of a layer and the next region of the kernel program, read at an index: from
  the column sums of the activation and of its squares they form the column mean and the reciprocal standard deviation
  (the variance as the mean of squares minus the squared mean, clamped at zero), and they lay the scale and shift vectors
  out as rows. Stated over an arbitrary valuation of the buffers before these operations.
-/
import proofs.«157882_j13769665151543_1_alg».proof.Proof.Gen.KernelIdeal.Launch
import proofs.«157882_j13769665151543_1_alg».proof.Proof.Gen.KernelIdeal.Regions
import Idealize.ShloMosaic.Lib.StableHlo.Run
import Idealize.ShloMosaic.Lib.ValueIdx
import proofs.«157882_j13769665151543_1_alg».proof.Proof.Spec
import proofs.«157882_j13769665151543_1_alg».proof.Proof.ReadDefs
import proofs.«157882_j13769665151543_1_alg».proof.Proof.Reads
import proofs.«157882_j13769665151543_1_alg».proof.Proof.KGlueBase

noncomputable section

namespace Cert.KernelIdeal.Glue

open Idealize.ShloMosaic Idealize.ShloMosaic.ValueIdx Idealize.ShloMosaic.TcCoe
open Cert.KernelIdeal Cert.KernelIdeal.Gen Cert.GcnSpec Cert.GcnReads

variable (W : Valuation τ sig (Elt Ideal))

/-- After the host operations that follow the first layer's activation, the mean row is the column sums over the node count. -/
theorem s2_mean : toRow (StableHlo.after (hostOps2 (F := Ideal)) W (Proc.devRef .tc main_v31))
    = meanK cN (toRow (W (Proc.devRef .tc main_v29_1))) := by
  funext j
  show StableHlo.after (hostOps2 (F := Ideal)) W (Proc.devRef .tc main_v31) (ix2 0 j) = _
  after_results
  rw [hostDivf_apply, bcastConst_apply]
  rfl

/-- The reciprocal standard deviation row: from the column sums of the values and of their squares, clamped at zero. -/
theorem s2_inv : toRow (StableHlo.after (hostOps2 (F := Ideal)) W (Proc.devRef .tc main_v40))
    = invK cN eps (toRow (W (Proc.devRef .tc main_v29_1))) (toRow (W (Proc.devRef .tc main_v29_2))) := by
  funext j
  show StableHlo.after (hostOps2 (F := Ideal)) W (Proc.devRef .tc main_v40) (ix2 0 j) = _
  after_results
  rw [hostRsqrt_apply, addf_apply, maximumf_apply, subf_apply, mulf_apply, hostDivf_apply, hostDivf_apply,
    bcastConst_apply, bcastConst_apply, bcastConst_apply, Cert.Consts.ofBits_zero]
  rfl

/-- The scale row is the scale vector. -/
theorem s2_gamma : toRow (StableHlo.after (hostOps2 (F := Ideal)) W (Proc.devRef .tc main_v41))
    = toVec (W (Proc.devRef .tc main_arg3)) := by
  funext j
  show StableHlo.after (hostOps2 (F := Ideal)) W (Proc.devRef .tc main_v41) (ix2 0 j) = _
  after_results
  exact shapeCast_b_1b_apply _ _ 0 j

/-- The shift row is the shift vector. -/
theorem s2_beta : toRow (StableHlo.after (hostOps2 (F := Ideal)) W (Proc.devRef .tc main_v42))
    = toVec (W (Proc.devRef .tc main_arg4)) := by
  funext j
  show StableHlo.after (hostOps2 (F := Ideal)) W (Proc.devRef .tc main_v42) (ix2 0 j) = _
  after_results
  exact shapeCast_b_1b_apply _ _ 0 j

/-- What these host operations do not write. -/
theorem s2_keep (r : Ref sig .tc) (h : r ∉ hostOps2_W) :
    StableHlo.after (hostOps2 (F := Ideal)) W (Proc.devRef .tc r) = W (Proc.devRef .tc r) :=
  StableHlo.after_of_writes_sub hostOps2 W hostOps2_writes h

/-- After the host operations that follow the second layer's activation, the mean row is the column sums over the node count. -/
theorem s4_mean : toRow (StableHlo.after (hostOps4 (F := Ideal)) W (Proc.devRef .tc main_v57))
    = meanK cN (toRow (W (Proc.devRef .tc main_v55_1))) := by
  funext j
  show StableHlo.after (hostOps4 (F := Ideal)) W (Proc.devRef .tc main_v57) (ix2 0 j) = _
  after_results
  rw [hostDivf_apply, bcastConst_apply]
  rfl

/-- The reciprocal standard deviation row: from the column sums of the values and of their squares, clamped at zero. -/
theorem s4_inv : toRow (StableHlo.after (hostOps4 (F := Ideal)) W (Proc.devRef .tc main_v66))
    = invK cN eps (toRow (W (Proc.devRef .tc main_v55_1))) (toRow (W (Proc.devRef .tc main_v55_2))) := by
  funext j
  show StableHlo.after (hostOps4 (F := Ideal)) W (Proc.devRef .tc main_v66) (ix2 0 j) = _
  after_results
  rw [hostRsqrt_apply, addf_apply, maximumf_apply, subf_apply, mulf_apply, hostDivf_apply, hostDivf_apply,
    bcastConst_apply, bcastConst_apply, bcastConst_apply, Cert.Consts.ofBits_zero]
  rfl

/-- The scale row is the scale vector. -/
theorem s4_gamma : toRow (StableHlo.after (hostOps4 (F := Ideal)) W (Proc.devRef .tc main_v67))
    = toVec (W (Proc.devRef .tc main_arg7)) := by
  funext j
  show StableHlo.after (hostOps4 (F := Ideal)) W (Proc.devRef .tc main_v67) (ix2 0 j) = _
  after_results
  exact shapeCast_b_1b_apply _ _ 0 j

/-- The shift row is the shift vector. -/
theorem s4_beta : toRow (StableHlo.after (hostOps4 (F := Ideal)) W (Proc.devRef .tc main_v68))
    = toVec (W (Proc.devRef .tc main_arg8)) := by
  funext j
  show StableHlo.after (hostOps4 (F := Ideal)) W (Proc.devRef .tc main_v68) (ix2 0 j) = _
  after_results
  exact shapeCast_b_1b_apply _ _ 0 j

/-- What these host operations do not write. -/
theorem s4_keep (r : Ref sig .tc) (h : r ∉ hostOps4_W) :
    StableHlo.after (hostOps4 (F := Ideal)) W (Proc.devRef .tc r) = W (Proc.devRef .tc r) :=
  StableHlo.after_of_writes_sub hostOps4 W hostOps4_writes h

end Cert.KernelIdeal.Glue

end
-- ==== Proof.KGlue.lean ====
/-
  The kernel program's host side, composed: five regions among five stretches of host operations. Given, for each region,
  that its outputs are the region's formula of the buffers it is entered with (the transform, the activation with its
  column sums and column sums of squares, the final normalisation), the last region's output is the tiled computation of
  the two-layer graph convolution on the program's arguments: the degree norms, the gather along the edges and the
  scatter-add into the nodes are the program's own host operations, the column statistics the ones the host operations
  form from the column sums.

  The valuations between the items are variables tied by equations: after a stretch of host operations, or updated at a
  region's outputs. A buffer is followed from where it is written to where it is read through the items that do not write
  it.
-/
import proofs.«157882_j13769665151543_1_alg».proof.Proof.Gen.KernelIdeal.Launch
import proofs.«157882_j13769665151543_1_alg».proof.Proof.Gen.KernelIdeal.Regions
import Idealize.ShloMosaic.Lib.StableHlo.Run
import Idealize.ShloMosaic.Lib.ValueIdx
import proofs.«157882_j13769665151543_1_alg».proof.Proof.Spec
import proofs.«157882_j13769665151543_1_alg».proof.Proof.ReadDefs
import proofs.«157882_j13769665151543_1_alg».proof.Proof.Reads
import proofs.«157882_j13769665151543_1_alg».proof.Proof.KGlueBase
import proofs.«157882_j13769665151543_1_alg».proof.Proof.KGlue0
import proofs.«157882_j13769665151543_1_alg».proof.Proof.KGlue1
import proofs.«157882_j13769665151543_1_alg».proof.Proof.KGlue2

noncomputable section

namespace Cert.KernelIdeal.Glue

open Idealize.ShloMosaic Idealize.ShloMosaic.ValueIdx Idealize.ShloMosaic.TcCoe
open Cert.KernelIdeal Cert.KernelIdeal.Gen Cert.GcnSpec Cert.GcnReads

section Upd

variable {ι : Type} [DecidableEq ι] {β : ι → Type}

/-- Three updates leave the other points alone. -/
theorem upd3_ne (W : (i : ι) → β i) (y0 y1 y2 r : ι) (o0 : β y0) (o1 : β y1) (o2 : β y2)
    (h0 : r ≠ y0) (h1 : r ≠ y1) (h2 : r ≠ y2) :
    Function.update (Function.update (Function.update W y0 o0) y1 o1) y2 o2 r = W r := by
  rw [Function.update_of_ne h2, Function.update_of_ne h1, Function.update_of_ne h0]

theorem upd3_0 (W : (i : ι) → β i) (y0 y1 y2 : ι) (o0 : β y0) (o1 : β y1) (o2 : β y2) (h01 : y0 ≠ y1) (h02 : y0 ≠ y2) :
    Function.update (Function.update (Function.update W y0 o0) y1 o1) y2 o2 y0 = o0 := by
  rw [Function.update_of_ne h02, Function.update_of_ne h01, Function.update_self]

theorem upd3_1 (W : (i : ι) → β i) (y0 y1 y2 : ι) (o0 : β y0) (o1 : β y1) (o2 : β y2) (h12 : y1 ≠ y2) :
    Function.update (Function.update (Function.update W y0 o0) y1 o1) y2 o2 y1 = o1 := by
  rw [Function.update_of_ne h12, Function.update_self]

theorem upd3_2 (W : (i : ι) → β i) (y0 y1 y2 : ι) (o0 : β y0) (o1 : β y1) (o2 : β y2) :
    Function.update (Function.update (Function.update W y0 o0) y1 o1) y2 o2 y2 = o2 :=
  Function.update_self _ _ _

end Upd

theorem nm_left {α : Type} {a : α} {l₁ l₂ : List α} (h : a ∉ l₁ ++ l₂) : a ∉ l₁ := fun hm => h (List.mem_append_left _ hm)
theorem nm_right {α : Type} {a : α} {l₁ l₂ : List α} (h : a ∉ l₁ ++ l₂) : a ∉ l₂ := fun hm => h (List.mem_append_right _ hm)

/-- The references written between the first stretch of host operations and each later item. -/
abbrev M2 : List (Ref sig .tc) := [main_v17]
abbrev M3 : List (Ref sig .tc) := hostOps1_W ++ M2
abbrev M4 : List (Ref sig .tc) := [main_v29_0, main_v29_1, main_v29_2] ++ M3
abbrev M5 : List (Ref sig .tc) := hostOps2_W ++ M4
abbrev M6 : List (Ref sig .tc) := [main_v43] ++ M5
abbrev M7 : List (Ref sig .tc) := hostOps3_W ++ M6
abbrev M8 : List (Ref sig .tc) := [main_v55_0, main_v55_1, main_v55_2] ++ M7

theorem glue (W0 W1 W2 W3 W4 W5 W6 W7 W8 W9 : Valuation τ sig (Elt Ideal))
    (o17 o29_0 o43 o55_0 o69 : FVec Ideal S100000x64 .f32) (o29_1 o29_2 o55_1 o55_2 : FVec Ideal S1x64 .f32)
    (e1 : W1 = StableHlo.after (hostOps0 (F := Ideal)) W0)
    (e2 : W2 = Function.update W1 (Proc.devRef .tc main_v17) o17)
    (e3 : W3 = StableHlo.after (hostOps1 (F := Ideal)) W2)
    (e4 : W4 = Function.update (Function.update (Function.update W3 (Proc.devRef .tc main_v29_0) o29_0) (Proc.devRef .tc main_v29_1) o29_1)
      (Proc.devRef .tc main_v29_2) o29_2)
    (e5 : W5 = StableHlo.after (hostOps2 (F := Ideal)) W4)
    (e6 : W6 = Function.update W5 (Proc.devRef .tc main_v43) o43)
    (e7 : W7 = StableHlo.after (hostOps3 (F := Ideal)) W6)
    (e8 : W8 = Function.update (Function.update (Function.update W7 (Proc.devRef .tc main_v55_0) o55_0) (Proc.devRef .tc main_v55_1) o55_1)
      (Proc.devRef .tc main_v55_2) o55_2)
    (e9 : W9 = StableHlo.after (hostOps4 (F := Ideal)) W8)
    (H0 : toMat o17 = pre (toMat (W1 (Proc.devRef .tc main_arg0))) (toCol (W1 (Proc.devRef .tc main_v13))) (toRow (W1 (Proc.devRef .tc main_v15)))
      (toRow (W1 (Proc.devRef .tc main_v16))) (toRow (W1 (Proc.devRef .tc main_v16))) (toRow (W1 (Proc.devRef .tc main_v15))) (toMat (W1 (Proc.devRef .tc main_arg1))))
    (H1a : toMat o29_0 = post (toMat (W3 (Proc.devRef .tc main_v27))) (toCol (W3 (Proc.devRef .tc main_v14))) (toRow (W3 (Proc.devRef .tc main_v28))))
    (H1b : toRow o29_1 = colSum (post (toMat (W3 (Proc.devRef .tc main_v27))) (toCol (W3 (Proc.devRef .tc main_v14))) (toRow (W3 (Proc.devRef .tc main_v28)))))
    (H1c : toRow o29_2 = colSumSq (post (toMat (W3 (Proc.devRef .tc main_v27))) (toCol (W3 (Proc.devRef .tc main_v14))) (toRow (W3 (Proc.devRef .tc main_v28)))))
    (H2 : toMat o43 = pre (toMat (W5 (Proc.devRef .tc main_v29_0))) (toCol (W5 (Proc.devRef .tc main_v13))) (toRow (W5 (Proc.devRef .tc main_v31)))
      (toRow (W5 (Proc.devRef .tc main_v40))) (toRow (W5 (Proc.devRef .tc main_v41))) (toRow (W5 (Proc.devRef .tc main_v42))) (toMat (W5 (Proc.devRef .tc main_arg5))))
    (H3a : toMat o55_0 = post (toMat (W7 (Proc.devRef .tc main_v53))) (toCol (W7 (Proc.devRef .tc main_v14))) (toRow (W7 (Proc.devRef .tc main_v54))))
    (H3b : toRow o55_1 = colSum (post (toMat (W7 (Proc.devRef .tc main_v53))) (toCol (W7 (Proc.devRef .tc main_v14))) (toRow (W7 (Proc.devRef .tc main_v54)))))
    (H3c : toRow o55_2 = colSumSq (post (toMat (W7 (Proc.devRef .tc main_v53))) (toCol (W7 (Proc.devRef .tc main_v14))) (toRow (W7 (Proc.devRef .tc main_v54)))))
    (H4 : toMat o69 = bnApply (toMat (W9 (Proc.devRef .tc main_v55_0))) (toRow (W9 (Proc.devRef .tc main_v57))) (toRow (W9 (Proc.devRef .tc main_v66)))
      (toRow (W9 (Proc.devRef .tc main_v67))) (toRow (W9 (Proc.devRef .tc main_v68)))) :
    toMat o69 = tiledOut (gatK (W0 (Proc.devRef .tc main_arg9))) (scaK (W0 (Proc.devRef .tc main_arg10)))
      (normK (W0 (Proc.devRef .tc main_arg9))) (normK (W0 (Proc.devRef .tc main_arg10))) cN eps
      (toMat (W0 (Proc.devRef .tc main_arg0))) (toMat (W0 (Proc.devRef .tc main_arg1))) (toVec (W0 (Proc.devRef .tc main_arg2)))
      (toVec (W0 (Proc.devRef .tc main_arg3))) (toVec (W0 (Proc.devRef .tc main_arg4))) (toMat (W0 (Proc.devRef .tc main_arg5)))
      (toVec (W0 (Proc.devRef .tc main_arg6))) (toVec (W0 (Proc.devRef .tc main_arg7))) (toVec (W0 (Proc.devRef .tc main_arg8))) := by
  -- what each item leaves alone
  have k1 : ∀ r : Ref sig .tc, r ∉ hostOps0_W → W1 (Proc.devRef .tc r) = W0 (Proc.devRef .tc r) := fun r h => by rw [e1]; exact s0_keep W0 r h
  have k2 : ∀ r : Ref sig .tc, r ∉ M2 → W2 (Proc.devRef .tc r) = W1 (Proc.devRef .tc r) := fun r h => by
    rw [e2]; exact Function.update_of_ne (StableHlo.devRef_ne_of_ne (List.ne_of_not_mem_cons h)) _ _
  have k3 : ∀ r : Ref sig .tc, r ∉ M3 → W3 (Proc.devRef .tc r) = W1 (Proc.devRef .tc r) := fun r h => by
    rw [e3, s1_keep W2 r (nm_left h)]; exact k2 r (nm_right h)
  have k4 : ∀ r : Ref sig .tc, r ∉ M4 → W4 (Proc.devRef .tc r) = W1 (Proc.devRef .tc r) := fun r h => by
    have h' := nm_left h
    rw [e4, upd3_ne W3 (Proc.devRef .tc main_v29_0) (Proc.devRef .tc main_v29_1) (Proc.devRef .tc main_v29_2) (Proc.devRef .tc r) o29_0 o29_1 o29_2 (StableHlo.devRef_ne_of_ne (List.ne_of_not_mem_cons h'))
      (StableHlo.devRef_ne_of_ne (List.ne_of_not_mem_cons (List.not_mem_of_not_mem_cons h')))
      (StableHlo.devRef_ne_of_ne (List.ne_of_not_mem_cons (List.not_mem_of_not_mem_cons (List.not_mem_of_not_mem_cons h'))))]
    exact k3 r (nm_right h)
  have k5 : ∀ r : Ref sig .tc, r ∉ M5 → W5 (Proc.devRef .tc r) = W1 (Proc.devRef .tc r) := fun r h => by
    rw [e5, s2_keep W4 r (nm_left h)]; exact k4 r (nm_right h)
  have k6 : ∀ r : Ref sig .tc, r ∉ M6 → W6 (Proc.devRef .tc r) = W1 (Proc.devRef .tc r) := fun r h => by
    rw [e6, Function.update_of_ne (StableHlo.devRef_ne_of_ne (List.ne_of_not_mem_cons (nm_left h)))]; exact k5 r (nm_right h)
  have k7 : ∀ r : Ref sig .tc, r ∉ M7 → W7 (Proc.devRef .tc r) = W1 (Proc.devRef .tc r) := fun r h => by
    rw [e7, s3_keep W6 r (nm_left h)]; exact k6 r (nm_right h)
  have k8 : ∀ r : Ref sig .tc, r ∉ M8 → W8 (Proc.devRef .tc r) = W1 (Proc.devRef .tc r) := fun r h => by
    have h' := nm_left h
    rw [e8, upd3_ne W7 (Proc.devRef .tc main_v55_0) (Proc.devRef .tc main_v55_1) (Proc.devRef .tc main_v55_2) (Proc.devRef .tc r) o55_0 o55_1 o55_2 (StableHlo.devRef_ne_of_ne (List.ne_of_not_mem_cons h'))
      (StableHlo.devRef_ne_of_ne (List.ne_of_not_mem_cons (List.not_mem_of_not_mem_cons h')))
      (StableHlo.devRef_ne_of_ne (List.ne_of_not_mem_cons (List.not_mem_of_not_mem_cons (List.not_mem_of_not_mem_cons h'))))]
    exact k7 r (nm_right h)
  -- the first stretch: the degree norms and the identity statistics
  have hns : toCol (W1 (Proc.devRef .tc main_v13)) = normK (W0 (Proc.devRef .tc main_arg9)) := by rw [e1]; exact s0_ns W0
  have hnd : toCol (W1 (Proc.devRef .tc main_v14)) = normK (W0 (Proc.devRef .tc main_arg10)) := by rw [e1]; exact s0_nd W0
  have hz : toRow (W1 (Proc.devRef .tc main_v15)) = fun _ => (0 : EReal) := by rw [e1]; exact funext fun k => s0_zeros W0 0 k
  have ho : toRow (W1 (Proc.devRef .tc main_v16)) = fun _ => (1 : EReal) := by rw [e1]; exact funext fun k => s0_ones W0 0 k
  -- region 0: the first transform
  rw [hns, hz, ho, k1 main_arg0 (by decide), k1 main_arg1 (by decide)] at H0
  -- the aggregate and the first activation
  have a3 : toMat (W3 (Proc.devRef .tc main_v27)) = scaK (W0 (Proc.devRef .tc main_arg10)) (gatK (W0 (Proc.devRef .tc main_arg9)) (toMat o17)) := by
    rw [e3, s1_agg W2, k2 main_arg10 (by decide), k2 main_arg9 (by decide), k1 main_arg10 (by decide), k1 main_arg9 (by decide),
      e2, Function.update_self]
  have b3 : toRow (W3 (Proc.devRef .tc main_v28)) = toVec (W0 (Proc.devRef .tc main_arg2)) := by
    rw [e3, s1_bias W2, k2 main_arg2 (by decide), k1 main_arg2 (by decide)]
  rw [a3, b3, k3 main_v14 (by decide), hnd, H0] at H1a H1b H1c
  -- the statistics of the first activation and the second transform
  have m5 : toRow (W5 (Proc.devRef .tc main_v31)) = meanK cN (toRow o29_1) := by
    rw [e5, s2_mean W4, e4, upd3_1 W3 (Proc.devRef .tc main_v29_0) (Proc.devRef .tc main_v29_1) (Proc.devRef .tc main_v29_2) o29_0 o29_1 o29_2 (StableHlo.devRef_ne_of_ne (by decide))]
  have i5 : toRow (W5 (Proc.devRef .tc main_v40)) = invK cN eps (toRow o29_1) (toRow o29_2) := by
    rw [e5, s2_inv W4, e4, upd3_1 W3 (Proc.devRef .tc main_v29_0) (Proc.devRef .tc main_v29_1) (Proc.devRef .tc main_v29_2) o29_0 o29_1 o29_2 (StableHlo.devRef_ne_of_ne (by decide)), upd3_2 W3 (Proc.devRef .tc main_v29_0) (Proc.devRef .tc main_v29_1) (Proc.devRef .tc main_v29_2) o29_0 o29_1 o29_2]
  have g5 : toRow (W5 (Proc.devRef .tc main_v41)) = toVec (W0 (Proc.devRef .tc main_arg3)) := by
    rw [e5, s2_gamma W4, k4 main_arg3 (by decide), k1 main_arg3 (by decide)]
  have be5 : toRow (W5 (Proc.devRef .tc main_v42)) = toVec (W0 (Proc.devRef .tc main_arg4)) := by
    rw [e5, s2_beta W4, k4 main_arg4 (by decide), k1 main_arg4 (by decide)]
  have x5 : W5 (Proc.devRef .tc main_v29_0) = o29_0 := by
    rw [e5, s2_keep W4 main_v29_0 (by decide), e4,
      upd3_0 W3 (Proc.devRef .tc main_v29_0) (Proc.devRef .tc main_v29_1) (Proc.devRef .tc main_v29_2) o29_0 o29_1 o29_2 (StableHlo.devRef_ne_of_ne (by decide)) (StableHlo.devRef_ne_of_ne (by decide))]
  rw [x5, k5 main_v13 (by decide), hns, m5, i5, g5, be5, k5 main_arg5 (by decide), k1 main_arg5 (by decide), H1a, H1b, H1c] at H2
  -- the second aggregate and activation
  have a7 : toMat (W7 (Proc.devRef .tc main_v53)) = scaK (W0 (Proc.devRef .tc main_arg10)) (gatK (W0 (Proc.devRef .tc main_arg9)) (toMat o43)) := by
    rw [e7, s3_agg W6, k6 main_arg10 (by decide), k6 main_arg9 (by decide), k1 main_arg10 (by decide), k1 main_arg9 (by decide),
      e6, Function.update_self]
  have b7 : toRow (W7 (Proc.devRef .tc main_v54)) = toVec (W0 (Proc.devRef .tc main_arg6)) := by
    rw [e7, s3_bias W6, k6 main_arg6 (by decide), k1 main_arg6 (by decide)]
  rw [a7, b7, k7 main_v14 (by decide), hnd, H2] at H3a H3b H3c
  -- the statistics of the second activation and the final normalisation
  have m9 : toRow (W9 (Proc.devRef .tc main_v57)) = meanK cN (toRow o55_1) := by
    rw [e9, s4_mean W8, e8, upd3_1 W7 (Proc.devRef .tc main_v55_0) (Proc.devRef .tc main_v55_1) (Proc.devRef .tc main_v55_2) o55_0 o55_1 o55_2 (StableHlo.devRef_ne_of_ne (by decide))]
  have i9 : toRow (W9 (Proc.devRef .tc main_v66)) = invK cN eps (toRow o55_1) (toRow o55_2) := by
    rw [e9, s4_inv W8, e8, upd3_1 W7 (Proc.devRef .tc main_v55_0) (Proc.devRef .tc main_v55_1) (Proc.devRef .tc main_v55_2) o55_0 o55_1 o55_2 (StableHlo.devRef_ne_of_ne (by decide)), upd3_2 W7 (Proc.devRef .tc main_v55_0) (Proc.devRef .tc main_v55_1) (Proc.devRef .tc main_v55_2) o55_0 o55_1 o55_2]
  have g9 : toRow (W9 (Proc.devRef .tc main_v67)) = toVec (W0 (Proc.devRef .tc main_arg7)) := by
    rw [e9, s4_gamma W8, k8 main_arg7 (by decide), k1 main_arg7 (by decide)]
  have be9 : toRow (W9 (Proc.devRef .tc main_v68)) = toVec (W0 (Proc.devRef .tc main_arg8)) := by
    rw [e9, s4_beta W8, k8 main_arg8 (by decide), k1 main_arg8 (by decide)]
  have x9 : W9 (Proc.devRef .tc main_v55_0) = o55_0 := by
    rw [e9, s4_keep W8 main_v55_0 (by decide), e8,
      upd3_0 W7 (Proc.devRef .tc main_v55_0) (Proc.devRef .tc main_v55_1) (Proc.devRef .tc main_v55_2) o55_0 o55_1 o55_2 (StableHlo.devRef_ne_of_ne (by decide)) (StableHlo.devRef_ne_of_ne (by decide))]
  rw [x9, m9, i9, g9, be9, H3a, H3b, H3c] at H4
  exact H4

/-- The same, with each region's formula written entry by entry. -/
theorem glue_at (W0 W1 W2 W3 W4 W5 W6 W7 W8 W9 : Valuation τ sig (Elt Ideal))
    (o17 o29_0 o43 o55_0 o69 : FVec Ideal S100000x64 .f32) (o29_1 o29_2 o55_1 o55_2 : FVec Ideal S1x64 .f32)
    (e1 : W1 = StableHlo.after (hostOps0 (F := Ideal)) W0)
    (e2 : W2 = Function.update W1 (Proc.devRef .tc main_v17) o17)
    (e3 : W3 = StableHlo.after (hostOps1 (F := Ideal)) W2)
    (e4 : W4 = Function.update (Function.update (Function.update W3 (Proc.devRef .tc main_v29_0) o29_0) (Proc.devRef .tc main_v29_1) o29_1)
      (Proc.devRef .tc main_v29_2) o29_2)
    (e5 : W5 = StableHlo.after (hostOps2 (F := Ideal)) W4)
    (e6 : W6 = Function.update W5 (Proc.devRef .tc main_v43) o43)
    (e7 : W7 = StableHlo.after (hostOps3 (F := Ideal)) W6)
    (e8 : W8 = Function.update (Function.update (Function.update W7 (Proc.devRef .tc main_v55_0) o55_0) (Proc.devRef .tc main_v55_1) o55_1)
      (Proc.devRef .tc main_v55_2) o55_2)
    (e9 : W9 = StableHlo.after (hostOps4 (F := Ideal)) W8)
    (h0 : ∀ (i : Fin 100000) (j : Fin 64), o17 (ix2 i j) =
      ∑ k : Fin 128, ((((toMat (W1 (Proc.devRef .tc main_arg0)) i k - toRow (W1 (Proc.devRef .tc main_v15)) k) * toRow (W1 (Proc.devRef .tc main_v16)) k) * toRow (W1 (Proc.devRef .tc main_v16)) k + toRow (W1 (Proc.devRef .tc main_v15)) k) * toCol (W1 (Proc.devRef .tc main_v13)) i) * toMat (W1 (Proc.devRef .tc main_arg1)) k j)
    (h1a : ∀ (i : Fin 100000) (j : Fin 64), o29_0 (ix2 i j) = eluK (toMat (W3 (Proc.devRef .tc main_v27)) i j * toCol (W3 (Proc.devRef .tc main_v14)) i + toRow (W3 (Proc.devRef .tc main_v28)) j))
    (h1b : ∀ j : Fin 64, o29_1 (ix2 0 j) = ∑ i : Fin 100000, eluK (toMat (W3 (Proc.devRef .tc main_v27)) i j * toCol (W3 (Proc.devRef .tc main_v14)) i + toRow (W3 (Proc.devRef .tc main_v28)) j))
    (h1c : ∀ j : Fin 64, o29_2 (ix2 0 j) = ∑ i : Fin 100000, eluK (toMat (W3 (Proc.devRef .tc main_v27)) i j * toCol (W3 (Proc.devRef .tc main_v14)) i + toRow (W3 (Proc.devRef .tc main_v28)) j)
      * eluK (toMat (W3 (Proc.devRef .tc main_v27)) i j * toCol (W3 (Proc.devRef .tc main_v14)) i + toRow (W3 (Proc.devRef .tc main_v28)) j))
    (h2 : ∀ (i : Fin 100000) (j : Fin 64), o43 (ix2 i j) =
      ∑ k : Fin 64, ((((toMat (W5 (Proc.devRef .tc main_v29_0)) i k - toRow (W5 (Proc.devRef .tc main_v31)) k) * toRow (W5 (Proc.devRef .tc main_v40)) k) * toRow (W5 (Proc.devRef .tc main_v41)) k + toRow (W5 (Proc.devRef .tc main_v42)) k) * toCol (W5 (Proc.devRef .tc main_v13)) i) * toMat (W5 (Proc.devRef .tc main_arg5)) k j)
    (h3a : ∀ (i : Fin 100000) (j : Fin 64), o55_0 (ix2 i j) = eluK (toMat (W7 (Proc.devRef .tc main_v53)) i j * toCol (W7 (Proc.devRef .tc main_v14)) i + toRow (W7 (Proc.devRef .tc main_v54)) j))
    (h3b : ∀ j : Fin 64, o55_1 (ix2 0 j) = ∑ i : Fin 100000, eluK (toMat (W7 (Proc.devRef .tc main_v53)) i j * toCol (W7 (Proc.devRef .tc main_v14)) i + toRow (W7 (Proc.devRef .tc main_v54)) j))
    (h3c : ∀ j : Fin 64, o55_2 (ix2 0 j) = ∑ i : Fin 100000, eluK (toMat (W7 (Proc.devRef .tc main_v53)) i j * toCol (W7 (Proc.devRef .tc main_v14)) i + toRow (W7 (Proc.devRef .tc main_v54)) j)
      * eluK (toMat (W7 (Proc.devRef .tc main_v53)) i j * toCol (W7 (Proc.devRef .tc main_v14)) i + toRow (W7 (Proc.devRef .tc main_v54)) j))
    (h4 : ∀ (i : Fin 100000) (j : Fin 64), o69 (ix2 i j) =
      ((toMat (W9 (Proc.devRef .tc main_v55_0)) i j - toRow (W9 (Proc.devRef .tc main_v57)) j) * toRow (W9 (Proc.devRef .tc main_v66)) j)
        * toRow (W9 (Proc.devRef .tc main_v67)) j + toRow (W9 (Proc.devRef .tc main_v68)) j)
    (i : Fin 100000) (j : Fin 64) :
    o69 (ix2 i j) = tiledOut (gatK (W0 (Proc.devRef .tc main_arg9))) (scaK (W0 (Proc.devRef .tc main_arg10)))
      (normK (W0 (Proc.devRef .tc main_arg9))) (normK (W0 (Proc.devRef .tc main_arg10))) cN eps
      (toMat (W0 (Proc.devRef .tc main_arg0))) (toMat (W0 (Proc.devRef .tc main_arg1))) (toVec (W0 (Proc.devRef .tc main_arg2)))
      (toVec (W0 (Proc.devRef .tc main_arg3))) (toVec (W0 (Proc.devRef .tc main_arg4))) (toMat (W0 (Proc.devRef .tc main_arg5)))
      (toVec (W0 (Proc.devRef .tc main_arg6))) (toVec (W0 (Proc.devRef .tc main_arg7))) (toVec (W0 (Proc.devRef .tc main_arg8))) i j :=
  congrFun (congrFun (glue W0 W1 W2 W3 W4 W5 W6 W7 W8 W9 o17 o29_0 o43 o55_0 o69 o29_1 o29_2 o55_1 o55_2
    e1 e2 e3 e4 e5 e6 e7 e8 e9
    (funext fun i => funext fun j => h0 i j)
    (funext fun i => funext fun j => h1a i j) (funext fun j => h1b j) (funext fun j => h1c j)
    (funext fun i => funext fun j => h2 i j)
    (funext fun i => funext fun j => h3a i j) (funext fun j => h3b j) (funext fun j => h3c j)
    (funext fun i => funext fun j => h4 i j)) i) j

end Cert.KernelIdeal.Glue

end
-- ==== Proof.Math1.lean ====
/-
  Elementary facts for comparing the two computations of the graph convolution: extended reals that are real numbers are
  closed under the arithmetic used, the two writings of the ELU agree at every extended real, the transform with the
  identity statistics is the plain scaled product, and, for real data, normalising with the statistics taken from the
  column sums of the values and of their squares is the textbook column normalisation.
-/
import proofs.«157882_j13769665151543_1_alg».proof.Proof.Spec
import proofs.«157882_j13769665151543_1_alg».proof.Proof.LibBatchNorm

noncomputable section

namespace Cert.GcnSpec

open Idealize.ShloMosaic Idealize.ShloMosaic.LibBatchNorm

/-- An extended real that is a real number. -/
def IsR (x : EReal) : Prop := ∃ r : ℝ, x = (r : EReal)

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sum {ι : Type*} (s : Finset ι) (f : ι → EReal) (h : ∀ i, IsR (f i)) : IsR (∑ i ∈ s, f i) := by
  choose g hg using h
  have hf : f = fun i => ((g i : ℝ) : EReal) := funext hg
  subst hf
  exact ⟨_, sum_coe s g⟩

/-- The quotient of a real by the number of nodes is a real. -/
theorem IsR.divN {x : EReal} (hx : IsR x) : IsR (Ideal.div x ((100000 : ℝ) : EReal)) := by
  obtain ⟨a, rfl⟩ := hx; exact ⟨_, div_coe_coe a (by norm_num)⟩

/-- The two writings of the ELU agree at every extended real. -/
theorem eluK_eq_eluR (v : EReal) : eluK v = eluR v := by
  unfold eluK eluR
  by_cases h : 0 < v
  · simp only [if_pos h]
  · simp only [if_neg h, one_mul]

/-- The ELU of a real is a real. -/
theorem IsR.eluR {v : EReal} (hv : IsR v) : IsR (eluR v) := by
  obtain ⟨r, rfl⟩ := hv
  rw [← eluK_eq_eluR]; unfold eluK
  by_cases h : (0 : EReal) < (r : EReal)
  · rw [if_pos h]; exact ⟨r, rfl⟩
  · rw [if_neg h, Ideal.exp_coe]; exact ⟨Real.exp r - 1, by rw [EReal.coe_sub, EReal.coe_one]⟩

/-- With the identity statistics the tiled transform is the plain scaled product, at every extended real. -/
theorem pre_id {d : ℕ} (x : Mat 100000 d) (nrm : Fin 100000 → EReal) (W : Mat d 64) :
    pre x nrm (fun _ => 0) (fun _ => 1) (fun _ => 1) (fun _ => 0) W = fun i j => ∑ k : Fin d, (x i k * nrm i) * W k j := by
  funext i j
  simp only [pre, sub_zero, mul_one, add_zero]

/-- The tiled scale, bias and ELU, with the ELU written the plain way. -/
theorem post_eq (agg : Mat 100000 64) (nrm : Fin 100000 → EReal) (b : Fin 64 → EReal) :
    post agg nrm b = fun i j => eluR (agg i j * nrm i + b j) := by
  funext i j
  simp only [post, eluK_eq_eluR]

/-- The scaled product of real data by real weights is real. -/
theorem lin_real {d : ℕ} (x : Mat 100000 d) (nrm : Fin 100000 → EReal) (W : Mat d 64)
    (hx : AllReal x) (hn : AllRealV nrm) (hW : AllReal W) : AllReal (fun i j => ∑ k : Fin d, (x i k * nrm i) * W k j) :=
  fun i j => IsR.sum _ _ fun k => IsR.mul (IsR.mul (hx i k) (hn i)) (hW k j)

/-- Scale, bias and ELU of real data are real. -/
theorem act_real (agg : Mat 100000 64) (nrm : Fin 100000 → EReal) (b : Fin 64 → EReal)
    (ha : AllReal agg) (hn : AllRealV nrm) (hb : AllRealV b) : AllReal (fun i j => eluR (agg i j * nrm i + b j)) :=
  fun i j => IsR.eluR (IsR.add (IsR.mul (ha i j) (hn i)) (hb j))

end Cert.GcnSpec

end
-- ==== Proof.Math2.lean ====
/-
  Column normalisation of real data: the statistics taken from the column sums of the values and of their squares, with the
  variance clamped at zero, are the textbook mean and mean of squared deviations; the normalised values are real.
-/
import proofs.«157882_j13769665151543_1_alg».proof.Proof.Spec
import proofs.«157882_j13769665151543_1_alg».proof.Proof.LibBatchNorm

noncomputable section

namespace Cert.GcnSpec

open Idealize.ShloMosaic Idealize.ShloMosaic.LibBatchNorm

/-- The mean of the squared deviations of real data, formed on the extended reals, is a nonnegative real. -/
theorem var_real (f : Fin 100000 → ℝ) :
    ∃ v : ℝ, 0 ≤ v ∧
      Ideal.div (∑ i, (((f i : ℝ) : EReal) - Ideal.div (∑ i', ((f i' : ℝ) : EReal)) ((100000 : ℝ) : EReal))
          * (((f i : ℝ) : EReal) - Ideal.div (∑ i', ((f i' : ℝ) : EReal)) ((100000 : ℝ) : EReal))) ((100000 : ℝ) : EReal)
        = (v : EReal) := by
  have hn : (100000 : ℝ) ≠ 0 := by norm_num
  refine ⟨(∑ i, (f i - (∑ i', f i') / 100000) * (f i - (∑ i', f i') / 100000)) / 100000, ?_, ?_⟩
  · exact div_nonneg (Finset.sum_nonneg fun i _ => mul_self_nonneg _) (by norm_num)
  · simp only [sum_coe, div_coe_coe _ hn, ← EReal.coe_sub, ← EReal.coe_mul]

/-- For real data the clamped "mean of squares minus squared mean" is the mean of the squared deviations. -/
theorem var_clamped (f : Fin 100000 → ℝ) :
    max (Ideal.div (∑ i, ((f i : ℝ) : EReal) * ((f i : ℝ) : EReal)) ((100000 : ℝ) : EReal)
          - Ideal.div (∑ i, ((f i : ℝ) : EReal)) ((100000 : ℝ) : EReal) * Ideal.div (∑ i, ((f i : ℝ) : EReal)) ((100000 : ℝ) : EReal)) 0
      = Ideal.div (∑ i, (((f i : ℝ) : EReal) - Ideal.div (∑ i', ((f i' : ℝ) : EReal)) ((100000 : ℝ) : EReal))
          * (((f i : ℝ) : EReal) - Ideal.div (∑ i', ((f i' : ℝ) : EReal)) ((100000 : ℝ) : EReal))) ((100000 : ℝ) : EReal) := by
  have hn : (100000 : ℝ) ≠ 0 := by norm_num
  have hcard : (Fintype.card (Fin 100000) : ℝ) = 100000 := by simp
  rw [var_forms f hn hcard]
  obtain ⟨v, hv, hve⟩ := var_real f
  rw [hve]
  exact max_eq_left (EReal.coe_nonneg.mpr hv)

/-- Normalising real data with the statistics from the column sums is the textbook column normalisation. -/
theorem bn_eq (cN eps : EReal) (hcN : cN = ((100000 : ℝ) : EReal)) (h : Mat 100000 64) (hh : AllReal h)
    (g be : Fin 64 → EReal) :
    bnApply h (meanK cN (colSum h)) (invK cN eps (colSum h) (colSumSq h)) g be = bnR cN eps h g be := by
  choose f hf using hh
  have hfe : h = fun i j => ((f i j : ℝ) : EReal) := funext fun i => funext fun j => hf i j
  subst hfe
  subst hcN
  funext i j
  simp only [bnApply, bnR, meanK, invK, colSum, colSumSq, zero_add]
  rw [var_clamped (fun i => f i j)]

/-- The textbook column normalisation of real data, with real scale and shift, is real. -/
theorem bnR_real (cN eps : EReal) (hcN : cN = ((100000 : ℝ) : EReal)) (heps : ∃ e : ℝ, 0 < e ∧ eps = (e : EReal))
    (h : Mat 100000 64) (hh : AllReal h) (g be : Fin 64 → EReal) (hg : AllRealV g) (hbe : AllRealV be) :
    AllReal (bnR cN eps h g be) := by
  choose f hf using hh
  have hfe : h = fun i j => ((f i j : ℝ) : EReal) := funext fun i => funext fun j => hf i j
  subst hfe
  subst hcN
  obtain ⟨e, he, rfl⟩ := heps
  intro i j
  obtain ⟨gj, hgj⟩ := hg j
  obtain ⟨bj, hbj⟩ := hbe j
  obtain ⟨v, hv, hve⟩ := var_real (fun i => f i j)
  have hn : (100000 : ℝ) ≠ 0 := by norm_num
  have hpos : 0 < v + e := by linarith
  simp only [bnR, zero_add]
  rw [hve, ← EReal.coe_add, rsqrt_coe_pos hpos, hgj, hbj]
  simp only [sum_coe, div_coe_coe _ hn, ← EReal.coe_sub, ← EReal.coe_mul, ← EReal.coe_add]
  exact ⟨_, rfl⟩

end Cert.GcnSpec

end
-- ==== Proof.Math.lean ====
/-
  The two computations of the two-layer graph convolution agree on real data.

  Layer by layer: with the identity statistics the tiled transform is the plain scaled product, and the two writings of the
  ELU agree, so the first layer's outputs are the same array, and it is an array of reals; for an array of reals the
  statistics taken from the column sums are the textbook ones, so the second layer's transform, which normalises its input
  on the way in, is the plain scaled product of the normalised array; the second layer's outputs are therefore the same
  array of reals again, and its normalisation is the textbook one.
-/
import proofs.«157882_j13769665151543_1_alg».proof.Proof.Spec
import proofs.«157882_j13769665151543_1_alg».proof.Proof.LibBatchNorm
import proofs.«157882_j13769665151543_1_alg».proof.Proof.Math1
import proofs.«157882_j13769665151543_1_alg».proof.Proof.Math2

noncomputable section

namespace Cert.GcnSpec

open Idealize.ShloMosaic Idealize.ShloMosaic.LibBatchNorm

theorem tiled_eq_plain (gat : Mat 100000 64 → Mat 1600000 64) (sca : Mat 1600000 64 → Mat 100000 64)
    (ns nd : Fin 100000 → EReal) (cN eps : EReal)
    (hgat : ∀ x, AllReal x → AllReal (gat x)) (hsca : ∀ u, AllReal u → AllReal (sca u))
    (hns : AllRealV ns) (hnd : AllRealV nd)
    (hcN : cN = ((100000 : ℝ) : EReal)) (heps : ∃ e : ℝ, 0 < e ∧ eps = (e : EReal))
    (feat : Mat 100000 128) (W1 : Mat 128 64) (b1 g1 be1 : Fin 64 → EReal) (W2 : Mat 64 64) (b2 g2 be2 : Fin 64 → EReal)
    (hfeat : AllReal feat) (hW1 : AllReal W1) (hb1 : AllRealV b1) (hg1 : AllRealV g1) (hbe1 : AllRealV be1)
    (hW2 : AllReal W2) (hb2 : AllRealV b2) (hg2 : AllRealV g2) (hbe2 : AllRealV be2) :
    tiledOut gat sca ns nd cN eps feat W1 b1 g1 be1 W2 b2 g2 be2
      = plainOut gat sca ns nd cN eps feat W1 b1 g1 be1 W2 b2 g2 be2 := by
  -- the first layer's output, the plain way, and that it is real
  have r1 : AllReal (fun i j => eluR (convR gat sca ns nd feat W1 b1 i j)) :=
    act_real _ nd b1 (hsca _ (hgat _ (lin_real feat ns W1 hfeat hns hW1))) hnd hb1
  have e1 : post (sca (gat (pre feat ns (fun _ => 0) (fun _ => 1) (fun _ => 1) (fun _ => 0) W1))) nd b1
      = fun i j => eluR (convR gat sca ns nd feat W1 b1 i j) := by
    rw [pre_id, post_eq]; rfl
  -- its normalisation, the plain way, is real
  have rn : AllReal (bnR cN eps (fun i j => eluR (convR gat sca ns nd feat W1 b1 i j)) g1 be1) :=
    bnR_real cN eps hcN heps _ r1 g1 be1 hg1 hbe1
  -- the second layer's output, the plain way, is real
  have r2 : AllReal (fun i j => eluR (convR gat sca ns nd
      (bnR cN eps (fun i j => eluR (convR gat sca ns nd feat W1 b1 i j)) g1 be1) W2 b2 i j)) :=
    act_real _ nd b2 (hsca _ (hgat _ (lin_real _ ns W2 rn hns hW2))) hnd hb2
  unfold tiledOut plainOut
  simp only []
  rw [e1]
  -- the second layer's transform normalises its input with the column statistics: the plain product of the normalised array
  have e2 : pre (fun i j => eluR (convR gat sca ns nd feat W1 b1 i j)) ns
        (meanK cN (colSum fun i j => eluR (convR gat sca ns nd feat W1 b1 i j)))
        (invK cN eps (colSum fun i j => eluR (convR gat sca ns nd feat W1 b1 i j))
          (colSumSq fun i j => eluR (convR gat sca ns nd feat W1 b1 i j))) g1 be1 W2
      = fun i j => ∑ k : Fin 64, (bnR cN eps (fun i j => eluR (convR gat sca ns nd feat W1 b1 i j)) g1 be1 i k * ns i) * W2 k j := by
    rw [← bn_eq cN eps hcN _ r1 g1 be1]; rfl
  rw [e2, post_eq]
  exact bn_eq cN eps hcN _ r2 g2 be2

end Cert.GcnSpec

end
-- ==== Proof.RefRead.lean ====
/-
  The reference's result read at an index, at the ideal values: each stage of the reference's pure term is the
  corresponding stage of the plain index-by-index computation applied to the arrays read as functions of row and
  column, and so the whole result is the plain computation of its eleven arguments.
-/
import Idealize.ShloMosaic.Lib.ValueIdx
import Idealize.ShloMosaic.Lib.StackMember
import proofs.«157882_j13769665151543_1_alg».proof.Proof.RefTerm
import proofs.«157882_j13769665151543_1_alg».proof.Proof.Reads
import proofs.«157882_j13769665151543_1_alg».proof.Proof.Consts

noncomputable section

namespace Cert.ReferenceIdeal.RefRead

open Cert.ReferenceIdeal Cert.ReferenceIdeal.RefRun Idealize.ShloMosaic Idealize.ShloMosaic.ValueIdx
open Cert.GcnSpec Cert.GcnReads

variable [Facts]
open Facts₀ Facts

/-- The gather of the reference: node rows copied to edges through the (wrapped) source index column. -/
abbrev gatR (src : IT Ideal S1600000) : Mat 100000 64 → Mat 1600000 64 :=
  gatOf gather_S100000x64_S1600000x1_S1600000x64_1_0_n_n_0_1_164 (srcIdx (F := Ideal) src)

/-- The destination index column of the reference's scatter-add. -/
abbrev dstIdx (dst : IT Ideal S1600000) : IT Ideal S1600000x1 :=
  broadcastInDim S1600000x1 ![0] bcast_S1600000_S1600000x1_0 dst

/-- The initial array of the reference's scatter-add: zeros. -/
abbrev zeros64 : FT Ideal S100000x64 :=
  broadcastInDim S100000x64 ![] bcast_S_S100000x64 (constant (F := Ideal) S_ .f32 0x00000000#32)

/-- The scatter-add of the reference: edge rows added into node rows through the destination index column. -/
abbrev scaR (dst : IT Ideal S1600000) : Mat 1600000 64 → Mat 100000 64 :=
  scaOf scatter_S100000x64_S1600000x1_S1600000x64_1_0_0_1 zeros64 (dstIdx dst)

/-- The node count and the variance offset as the reference spells them. -/
abbrev cN : EReal := Ideal.ofBits .f32 0x47C35000#32
abbrev eps : EReal := Ideal.ofBits .f32 0x3727C5AC#32

theorem zeros64_apply (j : S100000x64.Idx) : zeros64 j = 0 := bcastZero_apply _ bcast_S_S100000x64 j

/-! ## The broadcasts -/

theorem colB128_read (n : FT Ideal S100000) (i : Fin 100000) (k : Fin 128) : colB128 (F := Ideal) n (ix2 i k) = n (ix1 i) :=
  colB_apply _ rfl _ rfl rfl bcast_S100000_S100000x1_0 bcast_S100000x1_S100000x128_0_1 n i k

theorem colB64_read (n : FT Ideal S100000) (i : Fin 100000) (k : Fin 64) : colB64 (F := Ideal) n (ix2 i k) = n (ix1 i) :=
  colB_apply _ rfl _ rfl rfl bcast_S100000_S100000x1_0 bcast_S100000x1_S100000x64_0_1 n i k

theorem rowB_read (v : FT Ideal S64) (i : Fin 100000) (j : Fin 64) : rowB (F := Ideal) v (ix2 i j) = v (ix1 j) :=
  rowB_apply _ rfl _ rfl rfl bcast_S64_S1x64_1 bcast_S1x64_S100000x64_0_1 v i j

/-! ## The aggregation -/

theorem toMat_aggT (h : FT Ideal S100000x64) (src dst : IT Ideal S1600000) :
    toMat (aggT (F := Ideal) h src dst) = scaR dst (gatR src (toMat h)) := by
  show toMat (Host.scatterAdd (F := Ideal) _ zeros64 (dstIdx dst) (Host.gather _ h (srcIdx (F := Ideal) src)))
    = toMat (Host.scatterAdd (F := Ideal) _ zeros64 (dstIdx dst) (ofMat (toMat (Host.gather _ (ofMat (toMat h)) (srcIdx (F := Ideal) src)))))
  rw [ofMat_toMat, ofMat_toMat]

theorem aggT_read (h : FT Ideal S100000x64) (src dst : IT Ideal S1600000) (i : Fin 100000) (j : Fin 64) :
    aggT (F := Ideal) h src dst (ix2 i j) = scaR dst (gatR src (toMat h)) i j :=
  congrFun (congrFun (toMat_aggT h src dst) i) j

/-! ## The convolutions -/

theorem dot128_read (l : FT Ideal S100000x128) (r : FT Ideal S128x64) (i : Fin 100000) (j : Fin 64) :
    Host.dotGeneral (F := Ideal) (φ₁ := .f32) (φ₂ := .f32) dot_S100000x128_S128x64_S100000x64_1_0_0_1_n_n none l r (ix2 i j)
      = ∑ k : Fin 128, l (ix2 i k) * r (ix2 k j) :=
  StackMember.dotGeneral_plain_apply (m := 100000) (k := 128) (n := 64) (φ₁ := .f32) (φ₂ := .f32) none l r i j

theorem dot64_read (l : FT Ideal S100000x64) (r : FT Ideal S64x64) (i : Fin 100000) (j : Fin 64) :
    Host.dotGeneral (F := Ideal) (φ₁ := .f32) (φ₂ := .f32) dot_S100000x64_S64x64_S100000x64_1_0_0_1_n_n none l r (ix2 i j)
      = ∑ k : Fin 64, l (ix2 i k) * r (ix2 k j) :=
  StackMember.dotGeneral_plain_apply (m := 100000) (k := 64) (n := 64) (φ₁ := .f32) (φ₂ := .f32) none l r i j

theorem toMat_conv128 (x : FT Ideal S100000x128) (W : FT Ideal S128x64) (b : FT Ideal S64) (nsrc ndst : FT Ideal S100000)
    (src dst : IT Ideal S1600000) :
    toMat (conv128 (F := Ideal) x W b nsrc ndst src dst)
      = convR (gatR src) (scaR dst) (toVec nsrc) (toVec ndst) (toMat x) (toMat W) (toVec b) := by
  funext i j
  have hD : toMat (Host.dotGeneral (F := Ideal) (φ₁ := .f32) (φ₂ := .f32) dot_S100000x128_S128x64_S100000x64_1_0_0_1_n_n none
      (mulf (φ := .f32) x (colB128 (F := Ideal) nsrc)) W) = fun i' j' => ∑ k : Fin 128, (toMat x i' k * toVec nsrc i') * toMat W k j' := by
    funext i' j'
    rw [toMat_apply, dot128_read]
    exact Finset.sum_congr rfl fun k _ => by rw [mulf_apply, colB128_read]; rfl
  unfold conv128 convR
  rw [toMat_apply, addf_apply, mulf_apply, colB64_read, rowB_read, aggT_read, hD]
  rfl

theorem toMat_conv64 (x : FT Ideal S100000x64) (W : FT Ideal S64x64) (b : FT Ideal S64) (nsrc ndst : FT Ideal S100000)
    (src dst : IT Ideal S1600000) :
    toMat (conv64 (F := Ideal) x W b nsrc ndst src dst)
      = convR (gatR src) (scaR dst) (toVec nsrc) (toVec ndst) (toMat x) (toMat W) (toVec b) := by
  funext i j
  have hD : toMat (Host.dotGeneral (F := Ideal) (φ₁ := .f32) (φ₂ := .f32) dot_S100000x64_S64x64_S100000x64_1_0_0_1_n_n none
      (mulf (φ := .f32) x (colB64 (F := Ideal) nsrc)) W) = fun i' j' => ∑ k : Fin 64, (toMat x i' k * toVec nsrc i') * toMat W k j' := by
    funext i' j'
    rw [toMat_apply, dot64_read]
    exact Finset.sum_congr rfl fun k _ => by rw [mulf_apply, colB64_read]; rfl
  unfold conv64 convR
  rw [toMat_apply, addf_apply, mulf_apply, colB64_read, rowB_read, aggT_read, hD]
  rfl

/-! ## The activation -/

theorem toMat_eluT (v : FT Ideal S100000x64) : toMat (eluT (F := Ideal) v) = fun i j => eluR (toMat v i j) := by
  funext i j
  exact elu_apply _ bcast_S_S100000x64 v (ix2 i j)

/-! ## The column normalisation -/

theorem meanT_read (x : FT Ideal S100000x64) (j : Fin 64) :
    meanT (F := Ideal) x (ix1 j) = Ideal.div (0 + ∑ i : Fin 100000, x (ix2 i j)) cN := by
  unfold meanT
  rw [hostDivf_apply, hostColSum_zero_apply, bcastConst_apply]

theorem centT_read (x : FT Ideal S100000x64) (i : Fin 100000) (j : Fin 64) :
    centT (F := Ideal) x (ix2 i j) = x (ix2 i j) - meanT (F := Ideal) x (ix1 j) := by
  unfold centT
  rw [subf_apply, rowB_read]

theorem varT_read (x : FT Ideal S100000x64) (j : Fin 64) :
    varT (F := Ideal) x (ix1 j)
      = Ideal.div (0 + ∑ i : Fin 100000, (x (ix2 i j) - meanT (F := Ideal) x (ix1 j)) * (x (ix2 i j) - meanT (F := Ideal) x (ix1 j))) cN := by
  unfold varT
  rw [meanT_read]
  refine congrArg (fun s => Ideal.div (0 + s) cN) (Finset.sum_congr rfl fun i _ => ?_)
  rw [mulf_apply, centT_read]

theorem toMat_bnT (x : FT Ideal S100000x64) (gamma beta : FT Ideal S64) :
    toMat (bnT (F := Ideal) x gamma beta) = bnR cN eps (toMat x) (toVec gamma) (toVec beta) := by
  funext i j
  unfold bnT
  rw [toMat_apply, addf_apply, mulf_apply, mulf_apply, rowB_read, rowB_read, rowB_read, hostRsqrt_apply, addf_apply,
    bcastConst_apply, centT_read, varT_read]
  simp only [meanT_read]
  rfl

/-! ## The whole result -/

/-- The reference's result, read by row and column, is the plain computation of its arguments read by row and column,
    over the reference's gather and scatter-add and its two degree norms. -/
theorem toMat_refOut (a0 : FT Ideal S100000x128) (a1 : FT Ideal S128x64) (a2 a3 a4 : FT Ideal S64) (a5 : FT Ideal S64x64)
    (a6 a7 a8 : FT Ideal S64) (a9 a10 : IT Ideal S1600000) :
    toMat (refOut (F := Ideal) a0 a1 a2 a3 a4 a5 a6 a7 a8 a9 a10)
      = plainOut (gatR a9) (scaR a10) (toVec (normOf (F := Ideal) a9)) (toVec (normOf (F := Ideal) a10)) cN eps
          (toMat a0) (toMat a1) (toVec a2) (toVec a3) (toVec a4) (toMat a5) (toVec a6) (toVec a7) (toVec a8) := by
  unfold refOut layer1 plainOut
  rw [toMat_bnT, toMat_eluT, toMat_conv64, toMat_bnT, toMat_eluT, toMat_conv128]

/-- The same at an index. -/
theorem refOut_read (a0 : FT Ideal S100000x128) (a1 : FT Ideal S128x64) (a2 a3 a4 : FT Ideal S64) (a5 : FT Ideal S64x64)
    (a6 a7 a8 : FT Ideal S64) (a9 a10 : IT Ideal S1600000) (i : Fin 100000) (j : Fin 64) :
    refOut (F := Ideal) a0 a1 a2 a3 a4 a5 a6 a7 a8 a9 a10 (ix2 i j)
      = plainOut (gatR a9) (scaR a10) (toVec (normOf (F := Ideal) a9)) (toVec (normOf (F := Ideal) a10)) cN eps
          (toMat a0) (toMat a1) (toVec a2) (toVec a3) (toVec a4) (toMat a5) (toVec a6) (toVec a7) (toVec a8) i j :=
  congrFun (congrFun (toMat_refOut a0 a1 a2 a3 a4 a5 a6 a7 a8 a9 a10) i) j

/-! ## The reference's aggregation maps and norms send reals to reals -/

theorem gatR_real (src : IT Ideal S1600000) (x : Mat 100000 64) (hx : AllReal x) : AllReal (gatR src x) :=
  gatOf_real _ _ x hx

theorem scaR_real (dst : IT Ideal S1600000) (u : Mat 1600000 64) (hu : AllReal u) : AllReal (scaR dst u) :=
  scaOf_real _ _ zeros64_apply _ u hu

theorem normOf_eq (idx : IT Ideal S1600000) :
    normOf (F := Ideal) idx = normV scatter_S100000_S1600000x1_S1600000_n_0_0_1 bcast_S_S100000 bcast_S_S1600000
      (broadcastInDim S1600000x1 ![0] bcast_S1600000_S1600000x1_0 idx) := by
  unfold normOf normV
  rfl

theorem normOf_real (idx : IT Ideal S1600000) : AllRealV (toVec (normOf (F := Ideal) idx)) := by
  rw [normOf_eq]
  exact normV_real _ _ _ _

end Cert.ReferenceIdeal.RefRead

end
-- ==== Proof.Finite.lean ====
/-
  From the precondition to the reals: the precondition is the conjunction, over the nine float inputs, of
  "every entry has absolute value below plus infinity", computed as one truth value. At the ideal values (floats are
  extended reals) an entry whose absolute value is below plus infinity is a real number, so the precondition being
  true makes every float input an array of reals.
-/
import Idealize.ShloMosaic.Lib.ValueIdx
import Idealize.ShloMosaic.Lib.ReduceAll
import Idealize.ShloMosaic.PureOps.Ideal
import proofs.«157882_j13769665151543_1_alg».proof.Pre_finite_inputs
import proofs.«157882_j13769665151543_1_alg».proof.Proof.Gen.Pre_finite_inputs
import proofs.«157882_j13769665151543_1_alg».proof.Proof.Spec
import proofs.«157882_j13769665151543_1_alg».proof.Proof.ReadDefs
import proofs.«157882_j13769665151543_1_alg».proof.Proof.LibKeepdims

noncomputable section

namespace Cert.Finite

open Idealize.ShloMosaic Idealize.ShloMosaic.ValueIdx Cert.GcnSpec Cert.GcnReads Cert.Pre_finite_inputs

instance : Subsingleton (⟨0, ![]⟩ : Shape).Idx := ⟨fun _ _ => funext fun d => d.elim0⟩

/-- The pattern of plus infinity denotes `⊤`. -/
theorem ofBits_inf : Ideal.ofBits .f32 0x7F800000#32 = ⊤ := by
  simp [Ideal.ofBits, Ideal.ieee]

/-- An extended real whose absolute value (the larger of it and its negation) is below `⊤` is a real. -/
theorem real_of_abs_lt_top (x : EReal) (h : max x (-x) < ⊤) : ∃ r : ℝ, x = (r : EReal) := by
  induction x using EReal.rec with
  | bot => simp at h
  | coe r => exact ⟨r, rfl⟩
  | top => simp at h

/-- The ordered "less than" comparison being true is the order's "less than". -/
theorem lt_of_cmp_olt (a b : EReal) (h : Ideal.cmp .olt a b = 1#1) : a < b := by
  unfold Ideal.cmp at h
  by_cases hlt : a < b
  · exact hlt
  · simp [hlt] at h

/-- `all (|x| < +inf)` being true, every entry of `x` is a real: for an array of any shape reduced over all its
    axes. -/
theorem all_finite {s : Shape} {axes : List (Fin s.rank)} (dims : Fin 0 → Fin s.rank)
    (hb : (⟨0, ![]⟩ : Shape).BroadcastsInDim s dims) (hr : s.ReducesTo axes ⟨0, ![]⟩) (hu : 0 < (⟨0, ![]⟩ : Shape).numel)
    (x : FVec Ideal s .f32)
    (h : Host.reduce IntOp.andi
        (cmpf .olt (Host.absf x) (broadcastInDim s dims hb (constant (F := Ideal) ⟨0, ![]⟩ .f32 0x7F800000#32)))
        (constantI ⟨0, ![]⟩ 1 1#1) hr hu ix0 = 1#1) (i : s.Idx) : ∃ r : ℝ, x i = (r : EReal) := by
  have hi := Host.reduce_andi_all _ _ hr hu ix0 h i
  have hb' : broadcastInDim s dims hb (constant (F := Ideal) ⟨0, ![]⟩ .f32 0x7F800000#32) i = Ideal.ofBits .f32 0x7F800000#32 :=
    (Cert.Keepdims.bcastInDim_scalar_apply dims hb _ i).trans (constant_apply _ _)
  have hc : Ideal.cmp .olt (max (x i) (-(x i)))
      (broadcastInDim s dims hb (constant (F := Ideal) ⟨0, ![]⟩ .f32 0x7F800000#32) i) = 1#1 := hi
  rw [hb', ofBits_inf] at hc
  exact real_of_abs_lt_top _ (lt_of_cmp_olt _ _ hc)

variable [Facts]
open Facts

/-- The precondition true, every float input is an array of reals. -/
theorem inputs_real (a0 : FVec Ideal S100000x128 .f32) (a1 : FVec Ideal S128x64 .f32) (a2 a3 a4 : FVec Ideal S64 .f32)
    (a5 : FVec Ideal S64x64 .f32) (a6 a7 a8 : FVec Ideal S64 .f32) (a9 a10 : IVec S1600000 32)
    (h : fn (F := Ideal) a0 a1 a2 a3 a4 a5 a6 a7 a8 a9 a10 = fun _ => 1#1) :
    AllReal (toMat a0) ∧ AllReal (toMat a1) ∧ AllRealV (toVec a2) ∧ AllRealV (toVec a3) ∧ AllRealV (toVec a4)
      ∧ AllReal (toMat a5) ∧ AllRealV (toVec a6) ∧ AllRealV (toVec a7) ∧ AllRealV (toVec a8) := by
  have h0 := congrFun h ix0
  dsimp only [fn, fn_part1, fn_part2] at h0
  have e : ∀ (x y : IVec S_ 1), andi x y ix0 = 1#1 ↔ x ix0 = 1#1 ∧ y ix0 = 1#1 := fun _ _ => IntOp.andi_eq_one
  simp only [e] at h0
  obtain ⟨⟨⟨⟨⟨⟨⟨⟨h0, h1⟩, h2⟩, h3⟩, h4⟩, h5⟩, h6⟩, h7⟩, h8⟩ := h0
  exact ⟨fun i j => all_finite _ bcast_S_S100000x128 reducesTo_S100000x128_S_d0_1 h_S_ a0 h0 (ix2 i j),
    fun i j => all_finite _ bcast_S_S128x64 reducesTo_S128x64_S_d0_1 h_S_ a1 h1 (ix2 i j),
    fun i => all_finite _ bcast_S_S64 reducesTo_S64_S_d0 h_S_ a2 h2 (ix1 i),
    fun i => all_finite _ bcast_S_S64 reducesTo_S64_S_d0 h_S_ a3 h3 (ix1 i),
    fun i => all_finite _ bcast_S_S64 reducesTo_S64_S_d0 h_S_ a4 h4 (ix1 i),
    fun i j => all_finite _ bcast_S_S64x64 reducesTo_S64x64_S_d0_1 h_S_ a5 h5 (ix2 i j),
    fun i => all_finite _ bcast_S_S64 reducesTo_S64_S_d0 h_S_ a6 h6 (ix1 i),
    fun i => all_finite _ bcast_S_S64 reducesTo_S64_S_d0 h_S_ a7 h7 (ix1 i),
    fun i => all_finite _ bcast_S_S64 reducesTo_S64_S_d0 h_S_ a8 h8 (ix1 i)⟩

end Cert.Finite

end
-- ==== Proof.Bridge.lean ====
/-
  The two sides joined: under the precondition every float input is an array of reals, so the tiled computation
  and the plain computation agree, and the plain computation is the reference's result read by row and column.
-/
import proofs.«157882_j13769665151543_1_alg».proof.Proof.Math
import proofs.«157882_j13769665151543_1_alg».proof.Proof.RefRead
import proofs.«157882_j13769665151543_1_alg».proof.Proof.Finite
import proofs.«157882_j13769665151543_1_alg».proof.Proof.Consts
import proofs.«157882_j13769665151543_1_alg».proof.Proof.KGlueBase
import proofs.«157882_j13769665151543_1_alg».proof.Proof.KGlue0

noncomputable section

namespace Cert.Bridge

open Cert.ReferenceIdeal Cert.ReferenceIdeal.RefRun Cert.ReferenceIdeal.RefRead Idealize.ShloMosaic Idealize.ShloMosaic.ValueIdx
open Cert.GcnSpec Cert.GcnReads

section
variable [Cert.ReferenceIdeal.Facts] [Cert.Pre_finite_inputs.Facts]

/-- Under the precondition, the tiled computation over the reference's aggregation maps, degree norms and constants is
    the reference's result read by row and column. -/
theorem tiled_eq_refOut (a0 : FT Ideal S100000x128) (a1 : FT Ideal S128x64) (a2 a3 a4 : FT Ideal S64) (a5 : FT Ideal S64x64)
    (a6 a7 a8 : FT Ideal S64) (a9 a10 : IT Ideal S1600000)
    (h : Cert.Pre_finite_inputs.fn (F := Ideal) a0 a1 a2 a3 a4 a5 a6 a7 a8 a9 a10 = fun _ => 1#1) :
    tiledOut (gatR a9) (scaR a10) (toVec (normOf (F := Ideal) a9)) (toVec (normOf (F := Ideal) a10)) cN eps
        (toMat a0) (toMat a1) (toVec a2) (toVec a3) (toVec a4) (toMat a5) (toVec a6) (toVec a7) (toVec a8)
      = toMat (refOut (F := Ideal) a0 a1 a2 a3 a4 a5 a6 a7 a8 a9 a10) := by
  obtain ⟨h0, h1, h2, h3, h4, h5, h6, h7, h8⟩ := Cert.Finite.inputs_real a0 a1 a2 a3 a4 a5 a6 a7 a8 a9 a10 h
  rw [toMat_refOut]
  exact tiled_eq_plain (gatR a9) (scaR a10) _ _ cN eps (gatR_real a9) (scaR_real a10) (normOf_real a9) (normOf_real a10)
    Cert.Consts.ofBits_N Cert.Consts.ofBits_eps _ _ _ _ _ _ _ _ _ h0 h1 h2 h3 h4 h5 h6 h7 h8

end

/-! ## The kernel program's host terms are the reference's

The two programs compute the gather's index column, the scatter-add's index column and initial zeros, and the two
degree norms by the same operations over the same shapes; their dimension records differ only in the proofs of their
side conditions. -/

section
variable [Cert.ReferenceIdeal.Facts]

theorem gatK_eq (a9 : IT Ideal S1600000) : Cert.KernelIdeal.Glue.gatK a9 = gatR a9 := by
  unfold Cert.KernelIdeal.Glue.gatK gatR
  rfl

theorem scaK_eq (a10 : IT Ideal S1600000) : Cert.KernelIdeal.Glue.scaK a10 = scaR a10 := by
  unfold Cert.KernelIdeal.Glue.scaK scaR
  rfl

theorem normK_eq (a : IT Ideal S1600000) : Cert.KernelIdeal.Glue.normK a = toVec (normOf (F := Ideal) a) := by
  rw [normOf_eq]
  unfold Cert.KernelIdeal.Glue.normK
  rfl

theorem cN_eq : Cert.KernelIdeal.Glue.cN = cN := rfl

theorem eps_eq : Cert.KernelIdeal.Glue.eps = eps := rfl

end

/-! ## The kernel program's tiled computation is the reference's result -/

section
variable [Cert.ReferenceIdeal.Facts] [Cert.Pre_finite_inputs.Facts]

/-- Under the precondition, the tiled computation over the kernel program's own aggregation maps, degree norms and
    constants is the reference's result read by row and column. -/
theorem tiledK_eq_refOut (a0 : FT Ideal S100000x128) (a1 : FT Ideal S128x64) (a2 a3 a4 : FT Ideal S64) (a5 : FT Ideal S64x64)
    (a6 a7 a8 : FT Ideal S64) (a9 a10 : IT Ideal S1600000)
    (h : Cert.Pre_finite_inputs.fn (F := Ideal) a0 a1 a2 a3 a4 a5 a6 a7 a8 a9 a10 = fun _ => 1#1) :
    tiledOut (Cert.KernelIdeal.Glue.gatK a9) (Cert.KernelIdeal.Glue.scaK a10) (Cert.KernelIdeal.Glue.normK a9)
        (Cert.KernelIdeal.Glue.normK a10) Cert.KernelIdeal.Glue.cN Cert.KernelIdeal.Glue.eps
        (toMat a0) (toMat a1) (toVec a2) (toVec a3) (toVec a4) (toMat a5) (toVec a6) (toVec a7) (toVec a8)
      = toMat (refOut (F := Ideal) a0 a1 a2 a3 a4 a5 a6 a7 a8 a9 a10) := by
  rw [gatK_eq, scaK_eq, normK_eq, normK_eq, cN_eq, eps_eq]
  exact tiled_eq_refOut a0 a1 a2 a3 a4 a5 a6 a7 a8 a9 a10 h

end

/-- Two arrays that read the same by row and column are the same array. -/
theorem eq_of_toMat_eq {a b : ℕ} (x y : FVec Ideal ⟨2, ![a, b]⟩ .f32) (h : toMat x = toMat y) : x = y := by
  rw [← ofMat_toMat x, ← ofMat_toMat y, h]

end Cert.Bridge

end
-- ==== Proof.KVal.lean ====
/-
  The kernel program's result as a value: the final contents of its result buffer, read by row and column, are the
  tiled computation of the argument buffers — each tiled region's output arrays are the region's formula of the arrays
  it finds, the host operations between the regions supply the rest — and, under the precondition, that is the
  reference's result on the same arguments.
-/
import proofs.«157882_j13769665151543_1_alg».proof.Proof.KChain
import proofs.«157882_j13769665151543_1_alg».proof.Proof.ValA0
import proofs.«157882_j13769665151543_1_alg».proof.Proof.ValA2
import proofs.«157882_j13769665151543_1_alg».proof.Proof.ValA4
import proofs.«157882_j13769665151543_1_alg».proof.Proof.ValR1
import proofs.«157882_j13769665151543_1_alg».proof.Proof.ValR3
import proofs.«157882_j13769665151543_1_alg».proof.Proof.KGlue
import proofs.«157882_j13769665151543_1_alg».proof.Proof.Bridge

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.ValueIdx
open Idealize.ShloMosaic.Pipeline (Dat)
open Cert.GcnSpec Cert.GcnReads

/-! ## The regions' formulas as the index-by-index specification's stages -/

theorem toMat_G0 (X : S100000x128.Idx → EReal) (NRM : S100000x1.Idx → EReal) (MEAN INV GAM BET : S1x128.Idx → EReal)
    (W : S128x64.Idx → EReal) :
    toMat (G0 X NRM MEAN INV GAM BET W) = pre (toMat X) (toCol NRM) (toRow MEAN) (toRow INV) (toRow GAM) (toRow BET) (toMat W) := rfl

theorem toMat_G2 (X : S100000x64.Idx → EReal) (NRM : S100000x1.Idx → EReal) (MEAN INV GAM BET : S1x64.Idx → EReal)
    (W : S64x64.Idx → EReal) :
    toMat (G2 X NRM MEAN INV GAM BET W) = pre (toMat X) (toCol NRM) (toRow MEAN) (toRow INV) (toRow GAM) (toRow BET) (toMat W) := rfl

theorem toMat_G4 (X : S100000x64.Idx → EReal) (MEAN INV GAM BET : S1x64.Idx → EReal) :
    toMat (G4 X MEAN INV GAM BET) = bnApply (toMat X) (toRow MEAN) (toRow INV) (toRow GAM) (toRow BET) := rfl

/-! ## The chain of valuations, as updates and host stretches -/

variable (m : (ℓ : Loc nD τ sig) → Buf (Elt Ideal) ℓ)

theorem U2_def (c : Dev nD) :
    U2 m c = Function.update (U1 m c) (Proc.devRef .tc main_v17) ((dat0 (VR (U1 m)) q0 c).arrAt 7 cfg0.N) := by
  unfold U2; rfl

theorem U4_def (c : Dev nD) :
    U4 m c = Function.update (Function.update (Function.update (U3 m c) (Proc.devRef .tc main_v29_0) ((dat1 (VR (U3 m)) c).arrAt 3 cfg1.N))
      (Proc.devRef .tc main_v29_1) ((dat1 (VR (U3 m)) c).arrAt 4 cfg1.N)) (Proc.devRef .tc main_v29_2) ((dat1 (VR (U3 m)) c).arrAt 5 cfg1.N) := by
  unfold U4; rfl

theorem U6_def (c : Dev nD) :
    U6 m c = Function.update (U5 m c) (Proc.devRef .tc main_v43) ((dat2 (VR (U5 m)) (qF _) c).arrAt 7 cfg2.N) := by
  unfold U6; rfl

theorem U8_def (c : Dev nD) :
    U8 m c = Function.update (Function.update (Function.update (U7 m c) (Proc.devRef .tc main_v55_0) ((dat3 (VR (U7 m)) c).arrAt 3 cfg3.N))
      (Proc.devRef .tc main_v55_1) ((dat3 (VR (U7 m)) c).arrAt 4 cfg3.N)) (Proc.devRef .tc main_v55_2) ((dat3 (VR (U7 m)) c).arrAt 5 cfg3.N) := by
  unfold U8; rfl

/-! ## The result buffer is the tiled computation of the arguments -/

/-- Given what the two reduction regions leave (the activation and its two column sums), the result buffer read by row
    and column is the tiled computation of the argument buffers. -/
theorem toMat_kernel_of (c : Dev nD)
    (R1a : toMat ((dat1 (VR (U3 m)) c).arrAt 3 cfg1.N)
      = post (toMat (U3 m c (Proc.devRef .tc main_v27))) (toCol (U3 m c (Proc.devRef .tc main_v14))) (toRow (U3 m c (Proc.devRef .tc main_v28))))
    (R1b : toRow ((dat1 (VR (U3 m)) c).arrAt 4 cfg1.N)
      = colSum (post (toMat (U3 m c (Proc.devRef .tc main_v27))) (toCol (U3 m c (Proc.devRef .tc main_v14))) (toRow (U3 m c (Proc.devRef .tc main_v28)))))
    (R1c : toRow ((dat1 (VR (U3 m)) c).arrAt 5 cfg1.N)
      = colSumSq (post (toMat (U3 m c (Proc.devRef .tc main_v27))) (toCol (U3 m c (Proc.devRef .tc main_v14))) (toRow (U3 m c (Proc.devRef .tc main_v28)))))
    (R3a : toMat ((dat3 (VR (U7 m)) c).arrAt 3 cfg3.N)
      = post (toMat (U7 m c (Proc.devRef .tc main_v53))) (toCol (U7 m c (Proc.devRef .tc main_v14))) (toRow (U7 m c (Proc.devRef .tc main_v54))))
    (R3b : toRow ((dat3 (VR (U7 m)) c).arrAt 4 cfg3.N)
      = colSum (post (toMat (U7 m c (Proc.devRef .tc main_v53))) (toCol (U7 m c (Proc.devRef .tc main_v14))) (toRow (U7 m c (Proc.devRef .tc main_v54)))))
    (R3c : toRow ((dat3 (VR (U7 m)) c).arrAt 5 cfg3.N)
      = colSumSq (post (toMat (U7 m c (Proc.devRef .tc main_v53))) (toCol (U7 m c (Proc.devRef .tc main_v14))) (toRow (U7 m c (Proc.devRef .tc main_v54))))) :
    toMat (U10 m c (Proc.devRef .tc main_v69))
      = tiledOut (Glue.gatK (V0 m c (Proc.devRef .tc main_arg9))) (Glue.scaK (V0 m c (Proc.devRef .tc main_arg10)))
          (Glue.normK (V0 m c (Proc.devRef .tc main_arg9))) (Glue.normK (V0 m c (Proc.devRef .tc main_arg10))) Glue.cN Glue.eps
          (toMat (V0 m c (Proc.devRef .tc main_arg0))) (toMat (V0 m c (Proc.devRef .tc main_arg1))) (toVec (V0 m c (Proc.devRef .tc main_arg2)))
          (toVec (V0 m c (Proc.devRef .tc main_arg3))) (toVec (V0 m c (Proc.devRef .tc main_arg4))) (toMat (V0 m c (Proc.devRef .tc main_arg5)))
          (toVec (V0 m c (Proc.devRef .tc main_arg6))) (toVec (V0 m c (Proc.devRef .tc main_arg7))) (toVec (V0 m c (Proc.devRef .tc main_arg8))) := by
  rw [U10_v69]
  refine Glue.glue (V0 m c) (U1 m c) (U2 m c) (U3 m c) (U4 m c) (U5 m c) (U6 m c) (U7 m c) (U8 m c) (U9 m c)
    _ _ _ _ _ _ _ _ _ (U1_eq m c) (U2_def m c) (U3_eq m c) (U4_def m c) (U5_eq m c) (U6_def m c) (U7_eq m c) (U8_def m c)
    (U9_eq m c) ?_ R1a R1b R1c ?_ R3a R3b R3c ?_
  · rw [final0_arr]; rfl
  · rw [final2_arr]; rfl
  · rw [final4_arr]; rfl

/-! ## Under the precondition, the result buffer is the reference's result -/

section
variable [Cert.ReferenceIdeal.Facts] [Cert.Pre_finite_inputs.Facts]

/-- The tiled computation of the argument buffers, read by row and column, is under the precondition the reference's
    result on those buffers. -/
theorem tiled_args_eq_refOut (c : Dev nD)
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      = fun _ => 1#1) :
    tiledOut (Glue.gatK (V0 m c (Proc.devRef .tc main_arg9))) (Glue.scaK (V0 m c (Proc.devRef .tc main_arg10)))
        (Glue.normK (V0 m c (Proc.devRef .tc main_arg9))) (Glue.normK (V0 m c (Proc.devRef .tc main_arg10))) Glue.cN Glue.eps
        (toMat (V0 m c (Proc.devRef .tc main_arg0))) (toMat (V0 m c (Proc.devRef .tc main_arg1))) (toVec (V0 m c (Proc.devRef .tc main_arg2)))
        (toVec (V0 m c (Proc.devRef .tc main_arg3))) (toVec (V0 m c (Proc.devRef .tc main_arg4))) (toMat (V0 m c (Proc.devRef .tc main_arg5)))
        (toVec (V0 m c (Proc.devRef .tc main_arg6))) (toVec (V0 m c (Proc.devRef .tc main_arg7))) (toVec (V0 m c (Proc.devRef .tc main_arg8)))
      = toMat (Cert.ReferenceIdeal.RefRun.refOut (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))) :=
  Cert.Bridge.tiledK_eq_refOut _ _ _ _ _ _ _ _ _ _ _ h

end

section
variable [Cert.ReferenceIdeal.Facts] [Cert.Pre_finite_inputs.Facts]

/-- Given what the two reduction regions leave, and under the precondition, the kernel program's result buffer holds
    the reference's result on the argument buffers. -/
theorem kernel_value_of (c : Dev nD)
    (R1a : toMat ((dat1 (VR (U3 m)) c).arrAt 3 cfg1.N)
      = post (toMat (U3 m c (Proc.devRef .tc main_v27))) (toCol (U3 m c (Proc.devRef .tc main_v14))) (toRow (U3 m c (Proc.devRef .tc main_v28))))
    (R1b : toRow ((dat1 (VR (U3 m)) c).arrAt 4 cfg1.N)
      = colSum (post (toMat (U3 m c (Proc.devRef .tc main_v27))) (toCol (U3 m c (Proc.devRef .tc main_v14))) (toRow (U3 m c (Proc.devRef .tc main_v28)))))
    (R1c : toRow ((dat1 (VR (U3 m)) c).arrAt 5 cfg1.N)
      = colSumSq (post (toMat (U3 m c (Proc.devRef .tc main_v27))) (toCol (U3 m c (Proc.devRef .tc main_v14))) (toRow (U3 m c (Proc.devRef .tc main_v28)))))
    (R3a : toMat ((dat3 (VR (U7 m)) c).arrAt 3 cfg3.N)
      = post (toMat (U7 m c (Proc.devRef .tc main_v53))) (toCol (U7 m c (Proc.devRef .tc main_v14))) (toRow (U7 m c (Proc.devRef .tc main_v54))))
    (R3b : toRow ((dat3 (VR (U7 m)) c).arrAt 4 cfg3.N)
      = colSum (post (toMat (U7 m c (Proc.devRef .tc main_v53))) (toCol (U7 m c (Proc.devRef .tc main_v14))) (toRow (U7 m c (Proc.devRef .tc main_v54)))))
    (R3c : toRow ((dat3 (VR (U7 m)) c).arrAt 5 cfg3.N)
      = colSumSq (post (toMat (U7 m c (Proc.devRef .tc main_v53))) (toCol (U7 m c (Proc.devRef .tc main_v14))) (toRow (U7 m c (Proc.devRef .tc main_v54)))))
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      = fun _ => 1#1) :
    U10 m c (Proc.devRef .tc main_v69)
      = Cert.ReferenceIdeal.RefRun.refOut (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) :=
  Cert.Bridge.eq_of_toMat_eq _ _ ((toMat_kernel_of m c R1a R1b R1c R3a R3b R3c).trans (tiled_args_eq_refOut m c h))

end

/-! ## What the two reduction regions leave -/

section
variable (V : (c : Dev nD) → (b : Ref sig .tc) → Buf (Elt Ideal) ((c : Thread nD τ).loc b))

/-- The first reduction region's activation output: the ELU of the scaled aggregate plus the bias. -/
theorem act1_eq (c : Dev nD) :
    toMat ((dat1 V c).arrAt 3 cfg1.N) = post (toMat (V c main_v27)) (toCol (V c main_v14)) (toRow (V c main_v28)) :=
  funext fun i => funext fun j => final1_3_arr V c i j

/-- Its column sums. -/
theorem sum1_eq (c : Dev nD) :
    toRow ((dat1 V c).arrAt 4 cfg1.N) = colSum (post (toMat (V c main_v27)) (toCol (V c main_v14)) (toRow (V c main_v28))) :=
  funext fun j => final1_4_arr V c j

/-- Its column sums of squares. -/
theorem sumsq1_eq (c : Dev nD) :
    toRow ((dat1 V c).arrAt 5 cfg1.N) = colSumSq (post (toMat (V c main_v27)) (toCol (V c main_v14)) (toRow (V c main_v28))) :=
  funext fun j => final1_5_arr V c j

/-- The second reduction region's activation output. -/
theorem act3_eq (c : Dev nD) :
    toMat ((dat3 V c).arrAt 3 cfg3.N) = post (toMat (V c main_v53)) (toCol (V c main_v14)) (toRow (V c main_v54)) :=
  funext fun i => funext fun j => final3_3_arr V c i j

/-- Its column sums. -/
theorem sum3_eq (c : Dev nD) :
    toRow ((dat3 V c).arrAt 4 cfg3.N) = colSum (post (toMat (V c main_v53)) (toCol (V c main_v14)) (toRow (V c main_v54))) :=
  funext fun j => final3_4_arr V c j

/-- Its column sums of squares. -/
theorem sumsq3_eq (c : Dev nD) :
    toRow ((dat3 V c).arrAt 5 cfg3.N) = colSumSq (post (toMat (V c main_v53)) (toCol (V c main_v14)) (toRow (V c main_v54))) :=
  funext fun j => final3_5_arr V c j

end

/-! ## The kernel program's result value -/

section
variable [Cert.ReferenceIdeal.Facts] [Cert.Pre_finite_inputs.Facts]

/-- Under the precondition, the kernel program's result buffer holds the reference's result on the argument buffers. -/
theorem kernel_value (c : Dev nD)
    (h : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      = fun _ => 1#1) :
    U10 m c (Proc.devRef .tc main_v69)
      = Cert.ReferenceIdeal.RefRun.refOut (F := Ideal) (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10)) :=
  kernel_value_of m c (act1_eq (VR (U3 m)) c) (sum1_eq (VR (U3 m)) c) (sumsq1_eq (VR (U3 m)) c)
    (act3_eq (VR (U7 m)) c) (sum3_eq (VR (U7 m)) c) (sumsq3_eq (VR (U7 m)) c) h

end

end Cert.KernelIdeal.Hand

end
-- ==== Proof.lean ====
/-
  The certificate: a two-layer graph convolution (transform, gather along the edges, scatter-add into the nodes, ELU,
  column normalisation) computed by tiled kernels, against the plain array program.

  * The three frames. The kernel program, at the word level and at the ideal level, is five kernel regions among
    stretches of host operations; each region's pipeline is run from its own proof data and the regions are chained
    through the contents of the unscoped buffers between them (`Hand.frame`). The reference is a straight line of host
    operations (`RefRun.frame`).
  * The idealization rewrote nothing, so there is nothing to preserve.
  * The value claim. The kernel program's result buffer ends at what the last region's write-backs leave. Read index by
    index, each region's output is a closed formula of the arrays it is entered at (a normalise-scale-multiply transform;
    an ELU of the scaled aggregate with its column sums and column sums of squares accumulated over the row tiles; a
    normalisation with given statistics), and the host stretches between them compute the degree scale factors, the
    neighbourhood aggregation and the column statistics. Composed, the result is the tiled computation `tiledOut`; the
    reference's term read the same way is the plain computation `plainOut`; and for finite inputs the two agree: every
    intermediate value is then a real number, the variance written as mean of squares minus squared mean is the mean of
    squared deviations (so its clamp at zero does nothing), and the two spellings of ELU are one function.
-/
import proofs.«157882_j13769665151543_1_alg».proof.Defs
import proofs.«157882_j13769665151543_1_alg».proof.Proof.Gen.Kernel
import proofs.«157882_j13769665151543_1_alg».proof.Proof.Gen.KernelIdeal
import proofs.«157882_j13769665151543_1_alg».proof.Proof.Gen.ReferenceIdeal
import proofs.«157882_j13769665151543_1_alg».proof.Proof.Gen.Pre_finite_inputs
import proofs.«157882_j13769665151543_1_alg».proof.Proof.KRun
import proofs.«157882_j13769665151543_1_alg».proof.Proof.WKRun
import proofs.«157882_j13769665151543_1_alg».proof.Proof.RefRun
import proofs.«157882_j13769665151543_1_alg».proof.Proof.KVal
import Idealize.ShloMosaic.Adequacy
import Idealize.ShloMosaic.Init

noncomputable section

namespace Cert.Proof

open Idealize.ShloMosaic Idealize.SL.Sem

theorem frame_p : Cert.frame_Kernel (hKernel := Cert.Kernel.Gen.facts) (hPre_finite_inputs := Cert.Pre_finite_inputs.Gen.facts) :=
  fun m ρ _ => Cert.Kernel.Hand.frame (F := Bits) m ρ

theorem frame_pi : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => Cert.ReferenceIdeal.RefRun.frame (F := Ideal) m ρ

/-- From memories agreeing on the arguments both programs run, and the kernel program's result buffer ends holding the
    reference's term of the arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelIdeal.Hand.U10 m c (Proc.devRef .tc Cert.KernelIdeal.main_v69), Cert.KernelIdeal.Hand.run_val (F := Ideal) m ρ, ?_⟩
  refine (θ_run (Cert.ReferenceIdeal.defs (F := Ideal)) _ _).mono (fun _ h c => ⟨(h c).1.trans ?_, (h c).2⟩)
    (Cert.ReferenceIdeal.RefRun.run (F := Ideal) m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2]
  exact (Cert.KernelIdeal.Hand.kernel_value m c (hpre c)).symm

theorem claim : Cert.Claim := ⟨Cert.Kernel.Gen.facts, Cert.KernelIdeal.Gen.facts, Cert.ReferenceIdeal.Gen.facts, Cert.Pre_finite_inputs.Gen.facts,
  frame_p, frame_pi, frame_ri, trivial, algebraic⟩

end Cert.Proof

end
